-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x3 : Shape := ⟨3, ![8, 1024, 3]⟩
abbrev S8x1024 : Shape := ⟨2, ![8, 1024]⟩
abbrev S_ : Shape := ⟨0, ![]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x1024x3 .f32) (main_v13 : IVec S_ 1) (main_v16 : IVec S8x1024x3 1) : IVec S_ 1 :=
  let main_c_5 : IVec S_ 1 := constantI S_ 1 1#1
  let main_v17 : IVec S_ 1 := (fun x v => Host.reduce IntOp.andi x v reducesTo_S8x1024x3_S_d0_1_2 h_S_) main_v16 main_c_5
  let main_v18 : IVec S_ 1 := andi main_v13 main_v17
  let main_v19 : FVec F S8x1024x3 .f32 := Host.absf main_arg5
  let main_cst_6 : FVec F S_ .f32 := constant S_ .f32 0x7F800000#32
  let main_v20 : FVec F S8x1024x3 .f32 := broadcastInDim S8x1024x3 ![] bcast_S_S8x1024x3 main_cst_6
  let main_v21 : IVec S8x1024x3 1 := cmpf .olt main_v19 main_v20
  let main_c_7 : IVec S_ 1 := constantI S_ 1 1#1
  let main_v22 : IVec S_ 1 := (fun x v => Host.reduce IntOp.andi x v reducesTo_S8x1024x3_S_d0_1_2 h_S_) main_v21 main_c_7
  let main_v23 : IVec S_ 1 := andi main_v18 main_v22
  main_v23

def fn {F : FTy → Type} [FloatOps F] (main_arg0 : FVec F S8x1024x3 .f32) (main_arg1 : IVec S8x1024 1) (main_arg2 : FVec F S8x1024 .f32) (main_arg3 : FVec F S8x1024 .f32) (main_arg4 : FVec F S8x1024x3 .f32) (main_arg5 : FVec F S8x1024x3 .f32) : IVec S_ 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024x3 .f32 := Host.absf main_arg4
  let main_cst_4 : FVec F S_ .f32 := constant S_ .f32 0x7F800000#32
  let main_v15 : FVec F S8x1024x3 .f32 := broadcastInDim S8x1024x3 ![] bcast_S_S8x1024x3 main_cst_4
  let main_v16 : IVec S8x1024x3 1 := cmpf .olt main_v14 main_v15
  fn_part1 (F := F) main_arg5 main_v13 main_v16
-- ==== Kernel.lean ====
abbrev S8x1024x3 : Shape := ⟨3, ![8, 1024, 3]⟩
abbrev S8x1024 : Shape := ⟨2, ![8, 1024]⟩
abbrev S8x128x3 : Shape := ⟨3, ![8, 128, 3]⟩
abbrev S8x128 : Shape := ⟨2, ![8, 128]⟩
abbrev S1x128x1 : Shape := ⟨3, ![1, 128, 1]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S8x128x1 : Shape := ⟨3, ![8, 128, 1]⟩

abbrev nBuf : Space → Nat
  | .hbm => 11
  | .vmem => 32
  | .smem => 0
  | _ => 0

abbrev bufTy : (tb : Table) → Fin (tcTables nBuf tb) → BufTy
  | .hbm, ⟨0, _⟩ => ⟨S8x1024x3, .f32⟩
  | .hbm, ⟨1, _⟩ => ⟨S8x1024, .i1⟩
  | .hbm, ⟨2, _⟩ => ⟨S8x1024, .f32⟩
  | .hbm, ⟨3, _⟩ => ⟨S8x1024, .f32⟩
  | .hbm, ⟨4, _⟩ => ⟨S8x1024x3, .f32⟩
  | .hbm, ⟨5, _⟩ => ⟨S8x1024x3, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024x3, .f32⟩
  | .hbm, ⟨10, _⟩ => ⟨S8x1024x3, .f32⟩
  | .local _ .vmem, ⟨0, _⟩ => ⟨S8x128x3, .f32⟩
  | .local _ .vmem, ⟨1, _⟩ => ⟨S8x128x3, .f32⟩
  | .local _ .vmem, ⟨2, _⟩ => ⟨S8x128, .f32⟩
  | .local _ .vmem, ⟨3, _⟩ => ⟨S8x128, .f32⟩
  | .local _ .vmem, ⟨4, _⟩ => ⟨S8x128x3, .f32⟩
  | .local _ .vmem, ⟨5, _⟩ => ⟨S8x128x3, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128x3, .f32⟩
  | .local _ .vmem, ⟨13, _⟩ => ⟨S8x128x3, .f32⟩
  | .local _ .vmem, ⟨14, _⟩ => ⟨S8x128x3, .f32⟩
  | .local _ .vmem, ⟨15, _⟩ => ⟨S8x128x3, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128x3, .f32⟩
  | .local _ .vmem, ⟨21, _⟩ => ⟨S8x128x3, .f32⟩
  | .local _ .vmem, ⟨22, _⟩ => ⟨S8x128x3, .f32⟩
  | .local _ .vmem, ⟨23, _⟩ => ⟨S8x128x3, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg22 : BitVec 32 := Scf.iv c0_i32_1 c1_i32 k0_t1
  let v7 : Index := Scalar.indexCast arg22
  let c0 : Index := 0#32
  let c0_4 : Index := 0#32
  ![v7.toNat, 0, 0]
def k0_off2 (k0_t1 : Fin k0_t1_loop.trips) : Fin 3 → Nat :=
  let c0_i32_1 : BitVec 32 := 0#32
  let c1_i32 : BitVec 32 := 1#32
  let arg22 : BitVec 32 := Scf.iv c0_i32_1 c1_i32 k0_t1
  let v10 : Index := Scalar.indexCast arg22
  let c0_5 : Index := 0#32
  let c1 : Index := 1#32
  ![v10.toNat, 0, 1]
def k0_off3 (k0_t1 : Fin k0_t1_loop.trips) : Fin 3 → Nat :=
  let c0_i32_1 : BitVec 32 := 0#32
  let c1_i32 : BitVec 32 := 1#32
  let arg22 : BitVec 32 := Scf.iv c0_i32_1 c1_i32 k0_t1
  let v13 : Index := Scalar.indexCast arg22
  let c0_6 : Index := 0#32
  let c2 : Index := 2#32
  ![v13.toNat, 0, 2]
def k0_off4 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let v25 : Index := Scalar.indexCast arg22
  let c0_13 : Index := 0#32
  ![v25.toNat, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x128x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x128x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x128x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  h_S1x128x1 : 0 < S1x128x1.numel
  shapeCasts_S1x128x1_S128 : S1x128x1.ShapeCasts S128
  h_S1x128 : 0 < S1x128.numel
  shapeCasts_S1x128_S128 : S1x128.ShapeCasts S128
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  natLt_1_32 : 1 < 32
  reduces_S128x128_S128 : S128x128.Reduces [1] S128
  inb_S8x128x3_S8x128x1_0_0_0 : ∀ a, (![0, 0, 0] : Fin 3 → Nat) a + S8x128x1.size a ≤ S8x128x3.size a
  h_S8x128x1 : 0 < S8x128x1.numel
  shapeCasts_S8x128x1_S8x128 : S8x128x1.ShapeCasts S8x128
  shapeCasts_S8x128_S8x128x1 : S8x128.ShapeCasts S8x128x1
  inb_S8x128x3_S8x128x1_0_0_1 : ∀ a, (![0, 0, 1] : Fin 3 → Nat) a + S8x128x1.size a ≤ S8x128x3.size a
  inb_S8x128x3_S8x128x1_0_0_2 : ∀ a, (![0, 0, 2] : Fin 3 → Nat) a + S8x128x1.size a ≤ S8x128x3.size a
  hrank0 : 0 < grid0.rank
  k0_t1_ok : k0_t1_loop.OK
  k0_off1_inb : ∀ k0_t1 : Fin k0_t1_loop.trips, ∀ a, (k0_off1 k0_t1) a + S1x128x1.size a ≤ S8x128x3.size a
  k0_off2_inb : ∀ k0_t1 : Fin k0_t1_loop.trips, ∀ a, (k0_off2 k0_t1) a + S1x128x1.size a ≤ S8x128x3.size a
  k0_off3_inb : ∀ k0_t1 : Fin k0_t1_loop.trips, ∀ a, (k0_off3 k0_t1) a + S1x128x1.size a ≤ S8x128x3.size a
  k0_off4_inb : ∀ k0_t1 : Fin k0_t1_loop.trips, ∀ a, (k0_off4 k0_t1) a + S1x128.size a ≤ S8x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3.size a ≤ S8x1024x3.size a
  hwx0_0 : ∀ i : grid0.Coords, EltTy.bits .f32 = 32 ∨ (Rect.block (s := S8x1024x3) S8x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x1024.size a
  hwx0_1 : ∀ i : grid0.Coords, EltTy.bits .f32 = 32 ∨ (Rect.block (s := S8x1024) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x3.size a ≤ S8x1024x3.size a
  hwx0_2 : ∀ i : grid0.Coords, EltTy.bits .f32 = 32 ∨ (Rect.block (s := S8x1024x3) S8x128x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x1024.size a
  hwx0_3 : ∀ i : grid0.Coords, EltTy.bits .f32 = 32 ∨ (Rect.block (s := S8x1024) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x1024.size a
  hwx0_4 : ∀ i : grid0.Coords, EltTy.bits .f32 = 32 ∨ (Rect.block (s := S8x1024) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x1024.size a
  hwx0_5 : ∀ i : grid0.Coords, EltTy.bits .f32 = 32 ∨ (Rect.block (s := S8x1024) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x3.size a ≤ S8x1024x3.size a
  hwx0_6 : ∀ i : grid0.Coords, EltTy.bits .f32 = 32 ∨ (Rect.block (s := S8x1024x3) S8x128x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x3.size a ≤ S8x1024x3.size a
  hwx0_7 : ∀ i : grid0.Coords, EltTy.bits .f32 = 32 ∨ (Rect.block (s := S8x1024x3) S8x128x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x1024.size a
  hwx0_8 : ∀ i : grid0.Coords, EltTy.bits .f32 = 32 ∨ (Rect.block (s := S8x1024) S8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S8x1024.size a
  hwx0_9 : ∀ i : grid0.Coords, EltTy.bits .f32 = 32 ∨ (Rect.block (s := S8x1024) S8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128x3.size a ≤ S8x1024x3.size a
  hwx0_10 : ∀ i : grid0.Coords, EltTy.bits .f32 = 32 ∨ (Rect.block (s := S8x1024x3) S8x128x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x128x3.size a ≤ S8x1024x3.size a
  hwx0_11 : ∀ i : grid0.Coords, EltTy.bits .f32 = 32 ∨ (Rect.block (s := S8x1024x3) S8x128x3.size (cc0_transform_11 i) (hinb0_11 i)).WholeWords (EltTy.packing .f32)

variable [Facts₀]

abbrev win0_0 : Pipeline.Window sig grid0 :=
  Pipeline.Window.ofSpec (Memref.whole main_arg0) S8x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x128x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S8x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S8x128x3.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S8x128x3.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S8x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S8x128x3.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_3) S8x128x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S8x1024x3 : Shape := ⟨3, ![8, 1024, 3]⟩
abbrev S8x1024 : Shape := ⟨2, ![8, 1024]⟩
abbrev S8x1024x1x3 : Shape := ⟨4, ![8, 1024, 1, 3]⟩
abbrev S8x1x1024x3 : Shape := ⟨4, ![8, 1, 1024, 3]⟩
abbrev S8x1024x1024x3 : Shape := ⟨4, ![8, 1024, 1024, 3]⟩
abbrev S_ : Shape := ⟨0, ![]⟩
abbrev S8x1024x1024 : Shape := ⟨3, ![8, 1024, 1024]⟩
abbrev S8x1024x1024x1 : Shape := ⟨4, ![8, 1024, 1024, 1]⟩
abbrev S8x1024x1 : Shape := ⟨3, ![8, 1024, 1]⟩
abbrev S8x1x1024 : Shape := ⟨3, ![8, 1, 1024]⟩

abbrev nBuf : Space → Nat
  | .hbm => 133
  | .vmem => 0
  | .smem => 0
  | _ => 0

abbrev hbmTy0_0 (i : Nat) : BufTy := match i % 128 with
  | 0 => ⟨S8x1024x3, .f32⟩
  | 1 => ⟨S8x1024, .i1⟩
  | 2 => ⟨S8x1024, .f32⟩
  | 3 => ⟨S8x1024, .f32⟩
  | 4 => ⟨S8x1024x3, .f32⟩
  | 5 => ⟨S8x1024x3, .f32⟩
  | 6 => ⟨S8x1024x1x3, .f32⟩
  | 7 => ⟨S8x1x1024x3, .f32⟩
  | 8 => ⟨S8x1024x1024x3, .f32⟩
  | 9 => ⟨S8x1024x1024x3, .f32⟩
  | 10 => ⟨S8x1024x1024x3, .f32⟩
  | 11 => ⟨S8x1024x1024x3, .f32⟩
  | 12 => ⟨S_, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S_, .f32⟩
  | 19 => ⟨S8x1024x1024, .f32⟩
  | 20 => ⟨S8x1024x1024, .f32⟩
  | 21 => ⟨S8x1024x1024x1, .f32⟩
  | 22 => ⟨S8x1024x1024x3, .f32⟩
  | 23 => ⟨S8x1024x1024x3, .f32⟩
  | 24 => ⟨S8x1024x1, .i1⟩
  | 25 => ⟨S8x1x1024, .i1⟩
  | 26 => ⟨S8x1024x1024, .i1⟩
  | 27 => ⟨S8x1024x1024, .i1⟩
  | 28 => ⟨S8x1024x1024, .i1⟩
  | 29 => ⟨S_, .f32⟩
  | 30 => ⟨S8x1024x1024, .f32⟩
  | 31 => ⟨S8x1024x1024, .i1⟩
  | 32 => ⟨S8x1024x1024, .i1⟩
  | 33 => ⟨S_, .f32⟩
  | 34 => ⟨S8x1024x1024, .f32⟩
  | 35 => ⟨S8x1024x1024, .i1⟩
  | 36 => ⟨S8x1024x1024, .i1⟩
  | 37 => ⟨S8x1024x1024, .f32⟩
  | 38 => ⟨S_, .f32⟩
  | 39 => ⟨S8x1024x1024, .f32⟩
  | 40 => ⟨S8x1024x1024, .f32⟩
  | 41 => ⟨S8x1024x1024, .f32⟩
  | 42 => ⟨S_, .f32⟩
  | 43 => ⟨S8x1024x1024, .f32⟩
  | 44 => ⟨S8x1024x1024, .f32⟩
  | 45 => ⟨S_, .f32⟩
  | 46 => ⟨S8x1024x1024, .f32⟩
  | 47 => ⟨S8x1024x1024, .f32⟩
  | 48 => ⟨S_, .f32⟩
  | 49 => ⟨S8x1024x1024, .f32⟩
  | 50 => ⟨S8x1024x1024, .f32⟩
  | 51 => ⟨S8x1024x1024, .f32⟩
  | 52 => ⟨S_, .f32⟩
  | 53 => ⟨S8x1024x1024, .f32⟩
  | 54 => ⟨S8x1024x1024, .f32⟩
  | 55 => ⟨S_, .f32⟩
  | 56 => ⟨S8x1024x1024, .f32⟩
  | 57 => ⟨S8x1024x1024, .f32⟩
  | 58 => ⟨S_, .f32⟩
  | 59 => ⟨S8x1024x1024, .f32⟩
  | 60 => ⟨S8x1024x1024, .i1⟩
  | 61 => ⟨S8x1024x1024, .f32⟩
  | 62 => ⟨S8x1024x1024, .f32⟩
  | 63 => ⟨S8x1024x1024, .f32⟩
  | 64 => ⟨S8x1024x1024, .f32⟩
  | 65 => ⟨S_, .f32⟩
  | 66 => ⟨S8x1024x1024, .f32⟩
  | 67 => ⟨S8x1024x1024, .f32⟩
  | 68 => ⟨S8x1024x1024, .f32⟩
  | 69 => ⟨S_, .f32⟩
  | 70 => ⟨S8x1024x1024, .f32⟩
  | 71 => ⟨S8x1024x1024, .f32⟩
  | 72 => ⟨S8x1024x1024, .f32⟩
  | 73 => ⟨S8x1024x1024, .f32⟩
  | 74 => ⟨S8x1x1024, .f32⟩
  | 75 => ⟨S8x1x1024, .f32⟩
  | 76 => ⟨S8x1024x1024, .f32⟩
  | 77 => ⟨S8x1024x1024, .f32⟩
  | 78 => ⟨S8x1024x1024, .f32⟩
  | 79 => ⟨S8x1024x1024, .f32⟩
  | 80 => ⟨S8x1024x1024, .f32⟩
  | 81 => ⟨S_, .f32⟩
  | 82 => ⟨S8x1024, .f32⟩
  | 83 => ⟨S8x1024x1024, .f32⟩
  | 84 => ⟨S8x1024x1024, .f32⟩
  | 85 => ⟨S_, .f32⟩
  | 86 => ⟨S8x1024, .f32⟩
  | 87 => ⟨S8x1024x1024, .f32⟩
  | 88 => ⟨S8x1024x1024, .f32⟩
  | 89 => ⟨S8x1024x1024x1, .f32⟩
  | 90 => ⟨S8x1024x1024x3, .f32⟩
  | 91 => ⟨S8x1024x1024x3, .f32⟩
  | 92 => ⟨S_, .f32⟩
  | 93 => ⟨S8x1024x3, .f32⟩
  | 94 => ⟨S8x1024x1024, .f32⟩
  | 95 => ⟨S8x1024x1024, .f32⟩
  | 96 => ⟨S8x1024x1024x1, .f32⟩
  | 97 => ⟨S8x1024x1024x3, .f32⟩
  | 98 => ⟨S8x1024x1024x3, .f32⟩
  | 99 => ⟨S_, .f32⟩
  | 100 => ⟨S8x1024x3, .f32⟩
  | 101 => ⟨S8x1x1024x3, .f32⟩
  | 102 => ⟨S8x1024x1024x3, .f32⟩
  | 103 => ⟨S8x1024x1024x3, .f32⟩
  | 104 => ⟨S_, .f32⟩
  | 105 => ⟨S8x1024x1024, .f32⟩
  | 106 => ⟨S8x1x1024x3, .f32⟩
  | 107 => ⟨S8x1024x1024x3, .f32⟩
  | 108 => ⟨S8x1024x1024x3, .f32⟩
  | 109 => ⟨S_, .f32⟩
  | 110 => ⟨S8x1024x1024, .f32⟩
  | 111 => ⟨S8x1024x1024, .f32⟩
  | 112 => ⟨S_, .f32⟩
  | 113 => ⟨S8x1024, .f32⟩
  | 114 => ⟨S8x1024x1024, .f32⟩
  | 115 => ⟨S_, .f32⟩
  | 116 => ⟨S8x1024, .f32⟩
  | 117 => ⟨S8x1024x1024, .f32⟩
  | 118 => ⟨S8x1024x1024x1, .f32⟩
  | 119 => ⟨S8x1024x1024x3, .f32⟩
  | 120 => ⟨S8x1024x1024x3, .f32⟩
  | 121 => ⟨S_, .f32⟩
  | 122 => ⟨S8x1024x3, .f32⟩
  | 123 => ⟨S8x1024x1024, .f32⟩
  | 124 => ⟨S8x1024x1024x1, .f32⟩
  | 125 => ⟨S8x1024x1024x3, .f32⟩
  | 126 => ⟨S8x1024x1024x3, .f32⟩
  | 127 => ⟨S_, .f32⟩
  | _ => ⟨S8x1024x3, .f32⟩

abbrev hbmTy0_1 (i : Nat) : BufTy := match i % 128 with
  | 0 => ⟨S8x1024x3, .f32⟩
  | 1 => ⟨S8x1024, .f32⟩
  | 2 => ⟨S8x1024, .f32⟩
  | 3 => ⟨S8x1024x3, .f32⟩
  | 4 => ⟨S8x1024x3, .f32⟩
  | _ => ⟨S8x1024x3, .f32⟩

abbrev hbmTy (i : Nat) : BufTy := match i / 128 with
  | 0 => hbmTy0_0 i
  | 1 => hbmTy0_1 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_18 : Ref sig .tc := ⟨.hbm, 109, rfl⟩
abbrev main_v84 : Ref sig .tc := ⟨.hbm, 110, rfl⟩
abbrev main_v85 : Ref sig .tc := ⟨.hbm, 111, rfl⟩
abbrev main_cst_19 : Ref sig .tc := ⟨.hbm, 112, rfl⟩
abbrev main_v86 : Ref sig .tc := ⟨.hbm, 113, rfl⟩
abbrev main_v87 : Ref sig .tc := ⟨.hbm, 114, rfl⟩
abbrev main_cst_20 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_21 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩

abbrev nD : Nat := 1
abbrev τ : Topo := Topo.v7x

variable {F : FTy → Type} [FloatOps F]

class Facts₀ : Prop where
  bcast_S8x1024x3_S8x1024x1x3_0_1_3 : S8x1024x3.BroadcastsInDim S8x1024x1x3 (![0, 1, 3] : Fin 3 → Fin S8x1024x1x3.rank)
  bcast_S8x1024x3_S8x1x1024x3_0_2_3 : S8x1024x3.BroadcastsInDim S8x1x1024x3 (![0, 2, 3] : Fin 3 → Fin S8x1x1024x3.rank)
  bcast_S8x1024x1x3_S8x1024x1024x3_0_1_2_3 : S8x1024x1x3.BroadcastsInDim S8x1024x1024x3 (![0, 1, 2, 3] : Fin 4 → Fin S8x1024x1024x3.rank)
  bcast_S8x1x1024x3_S8x1024x1024x3_0_1_2_3 : S8x1x1024x3.BroadcastsInDim S8x1024x1024x3 (![0, 1, 2, 3] : Fin 4 → Fin S8x1024x1024x3.rank)
  reducesTo_S8x1024x1024x3_S8x1024x1024_d3 : S8x1024x1024x3.ReducesTo [3] S8x1024x1024
  h_S_ : 0 < S_.numel
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  bcast_S8x1024x1024x1_S8x1024x1024x3_0_1_2_3 : S8x1024x1024x1.BroadcastsInDim S8x1024x1024x3 (![0, 1, 2, 3] : Fin 4 → Fin S8x1024x1024x3.rank)
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  reducesTo_S8x1024x1024_S8x1024_d2 : S8x1024x1024.ReducesTo [2] S8x1024
  reducesTo_S8x1024x1024x3_S8x1024x3_d2 : S8x1024x1024x3.ReducesTo [2] S8x1024x3

variable [Facts₀]

class Facts : Prop extends Facts₀ where

variable [Facts]
-- ==== Proof.TripIdeal.lean ====
/-
  One trip of the kernel's batch loop as a triple.  Trip k reads row k of the two position blocks, the two mask
  blocks, the two charge blocks and the two dipole blocks, forms the 128 x 128 table of pair weights of batch k,
  and adds the eight lane sums of that table to row k of the eight accumulators.  Stated here: run from the
  sixteen buffers held whole — the eight it reads at their contents, the eight accumulators at any contents —
  the trip terminates and leaves the read buffers as they were and each accumulator at its contents overwritten
  by the pieces the trip stored, the pieces being functions of what the trip found in the accumulators.
-/
import proofs.«146129_j80805514707451_2_alg».proof.Proof.Gen.KernelIdeal.Loops

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip holds: the eight blocks it reads at their contents, the eight accumulators at given contents. -/
abbrev Trip (c : Dev nD) (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32) (arg7 : Memref sig .tc .vmem S8x128 .f32) (arg8 : Memref sig .tc .vmem S8x128x3 .f32) (arg9 : Memref sig .tc .vmem S8x128x3 .f32) (arg14 : Memref sig .tc .vmem S8x128 .f32) (arg15 : Memref sig .tc .vmem S8x128 .f32) (arg16 : Memref sig .tc .vmem S8x128 .f32) (arg17 : Memref sig .tc .vmem S8x128 .f32) (arg18 : Memref sig .tc .vmem S8x128 .f32) (arg19 : Memref sig .tc .vmem S8x128 .f32) (arg20 : Memref sig .tc .vmem S8x128 .f32) (arg21 : Memref sig .tc .vmem S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21))

/-- One trip at a symbolic trip number: the pieces it stores into each accumulator are found by the run. -/
@[irreducible] def trip (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) :
    Σ' (L14 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L15 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L16 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L17 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L18 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L19 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L20 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))), { L21 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32)) // ∀ (E : Set ℕ) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty),
      Trip (F := F) c arg2 arg3 arg4 arg5 arg6 arg7 arg8 arg9 arg14 arg15 arg16 arg17 arg18 arg19 arg20 arg21 X_arg2 X_arg3 X_arg4 X_arg5 X_arg6 X_arg7 X_arg8 X_arg9 f_arg14 f_arg15 f_arg16 f_arg17 f_arg18 f_arg19 f_arg20 f_arg21
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k ())
          (fun _ => Trip (F := F) c arg2 arg3 arg4 arg5 arg6 arg7 arg8 arg9 arg14 arg15 arg16 arg17 arg18 arg19 arg20 arg21 X_arg2 X_arg3 X_arg4 X_arg5 X_arg6 X_arg7 X_arg8 X_arg9 (arg14.view.writes (Elt F) f_arg14 (L14 f_arg14 f_arg15 f_arg16 f_arg17 f_arg18 f_arg19 f_arg20 f_arg21)) (arg15.view.writes (Elt F) f_arg15 (L15 f_arg14 f_arg15 f_arg16 f_arg17 f_arg18 f_arg19 f_arg20 f_arg21)) (arg16.view.writes (Elt F) f_arg16 (L16 f_arg14 f_arg15 f_arg16 f_arg17 f_arg18 f_arg19 f_arg20 f_arg21)) (arg17.view.writes (Elt F) f_arg17 (L17 f_arg14 f_arg15 f_arg16 f_arg17 f_arg18 f_arg19 f_arg20 f_arg21)) (arg18.view.writes (Elt F) f_arg18 (L18 f_arg14 f_arg15 f_arg16 f_arg17 f_arg18 f_arg19 f_arg20 f_arg21)) (arg19.view.writes (Elt F) f_arg19 (L19 f_arg14 f_arg15 f_arg16 f_arg17 f_arg18 f_arg19 f_arg20 f_arg21)) (arg20.view.writes (Elt F) f_arg20 (L20 f_arg14 f_arg15 f_arg16 f_arg17 f_arg18 f_arg19 f_arg20 f_arg21)) (arg21.view.writes (Elt F) f_arg21 (L21 f_arg14 f_arg15 f_arg16 f_arg17 f_arg18 f_arg19 f_arg20 f_arg21))) } := by
  have hk : k.val < 8 := Nat.lt_of_lt_of_le k.isLt k0_t1_abs.2.1
  refine ⟨?_, ?_, ?_, ?_, ?_, ?_, ?_, ?_, fun E f_arg14 f_arg15 f_arg16 f_arg17 f_arg18 f_arg19 f_arg20 f_arg21 => ?run⟩
  case run =>
    unfold k0_t1_body
    iintro ⟨HR_arg2, HR_arg3, HR_arg4, HR_arg5, HR_arg6, HR_arg7, HR_arg8, HR_arg9, HW_arg14, HW_arg15, HW_arg16, HW_arg17, HW_arg18, HW_arg19, HW_arg20, HW_arg21⟩
    sl_exec
    sl_step
    sl_close

end Cert.KernelIdeal.Hand

end
-- ==== Proof.LoopIdeal.lean ====
/-
  The batch loop by its invariant.  Before trip k each accumulator holds its contents at loop entry overwritten
  by the pieces of the trips before k (trip j stores one piece, row j, into each accumulator; the piece is that
  row as the trip found it plus the trip's lane sums), and the eight blocks the loop only reads hold what they
  held.  The pieces of the trips before k are defined by recursion on k, each trip's pieces taken at the contents
  the earlier trips left; one trip carries the invariant from k to k + 1 because writing a list of pieces over
  contents already overwritten by an earlier list is writing the two lists appended.
-/
import proofs.«146129_j80805514707451_2_alg».proof.Proof.TripIdeal

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A list of pieces of an accumulator, and one list per accumulator. -/
abbrev PL (F : FTy → Type) [FloatOps F] : Type := List (View.Piece (Elt F) S8x128 .f32)
abbrev PL8 (F : FTy → Type) [FloatOps F] : Type := PL F × PL F × PL F × PL F × PL F × PL F × PL F × PL F

/-- Trip k's pieces in front of the pieces before it, per accumulator; past the last trip nothing is added. -/
@[irreducible] def pbStep (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (k : ℕ) (prev : PL8 F) : PL8 F :=
  if h : k < k0_t1_loop.trips then
    (((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.2.2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.2.2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.2.2.2.2)
  else prev

/-- The pieces of the trips before k, newest first, per accumulator. -/
def pb (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) : ℕ → PL8 F
  | 0 => ([], [], [], [], [], [], [], [])
  | k + 1 => pbStep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k)

theorem pb_succ (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (k : Fin k0_t1_loop.trips) :
    pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 (k.val + 1)
      = (((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2) := by
  rw [pb.eq_2]; unfold pbStep; exact dif_pos k.isLt

/-- The invariant before trip k. -/
abbrev inv (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (k : ℕ) (_u : Unit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9)
    ∗ (∃ f, (arg14.view.loc (c : Thread nD τ) ↦[arg14.view.set]{fullShare} f) ∗ ⌜f = arg14.view.writes (Elt F) G_arg14 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).1)⌝)
    ∗ (∃ f, (arg15.view.loc (c : Thread nD τ) ↦[arg15.view.set]{fullShare} f) ∗ ⌜f = arg15.view.writes (Elt F) G_arg15 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.1)⌝)
    ∗ (∃ f, (arg16.view.loc (c : Thread nD τ) ↦[arg16.view.set]{fullShare} f) ∗ ⌜f = arg16.view.writes (Elt F) G_arg16 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.1)⌝)
    ∗ (∃ f, (arg17.view.loc (c : Thread nD τ) ↦[arg17.view.set]{fullShare} f) ∗ ⌜f = arg17.view.writes (Elt F) G_arg17 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.1)⌝)
    ∗ (∃ f, (arg18.view.loc (c : Thread nD τ) ↦[arg18.view.set]{fullShare} f) ∗ ⌜f = arg18.view.writes (Elt F) G_arg18 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.2.1)⌝)
    ∗ (∃ f, (arg19.view.loc (c : Thread nD τ) ↦[arg19.view.set]{fullShare} f) ∗ ⌜f = arg19.view.writes (Elt F) G_arg19 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.2.2.1)⌝)
    ∗ (∃ f, (arg20.view.loc (c : Thread nD τ) ↦[arg20.view.set]{fullShare} f) ∗ ⌜f = arg20.view.writes (Elt F) G_arg20 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.2.2.2.1)⌝)
    ∗ (∃ f, (arg21.view.loc (c : Thread nD τ) ↦[arg21.view.set]{fullShare} f) ∗ ⌜f = arg21.view.writes (Elt F) G_arg21 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.2.2.2.2)⌝))

set_option warn.classDefReducibility false in
/-- The loop by its invariant. -/
@[sl_loop] def loopInv (𝒱 : Variants) (c : Dev nD) (bd : Option 𝒱.V) (E : Set ℕ) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21
  step k acc := by
    iintro ⟨HR_arg2, HR_arg3, HR_arg4, HR_arg5, HR_arg6, HR_arg7, HR_arg8, HR_arg9, ⟨%f_arg14, HW_arg14, %h_arg14⟩, ⟨%f_arg15, HW_arg15, %h_arg15⟩, ⟨%f_arg16, HW_arg16, %h_arg16⟩, ⟨%f_arg17, HW_arg17, %h_arg17⟩, ⟨%f_arg18, HW_arg18, %h_arg18⟩, ⟨%f_arg19, HW_arg19, %h_arg19⟩, ⟨%f_arg20, HW_arg20, %h_arg20⟩, ⟨%f_arg21, HW_arg21, %h_arg21⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HW_arg14 HW_arg15 HW_arg16 HW_arg17 HW_arg18 HW_arg19 HW_arg20 HW_arg21]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.2.2 E f_arg14 f_arg15 f_arg16 f_arg17 f_arg18 f_arg19 f_arg20 f_arg21)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HW_arg14]; · iexact HW_arg14
      isplitl [HW_arg15]; · iexact HW_arg15
      isplitl [HW_arg16]; · iexact HW_arg16
      isplitl [HW_arg17]; · iexact HW_arg17
      isplitl [HW_arg18]; · iexact HW_arg18
      isplitl [HW_arg19]; · iexact HW_arg19
      isplitl [HW_arg20]; · iexact HW_arg20
      iexact HW_arg21
    · iintro %_ ⟨HR_arg2, HR_arg3, HR_arg4, HR_arg5, HR_arg6, HR_arg7, HR_arg8, HR_arg9, HW_arg14, HW_arg15, HW_arg16, HW_arg17, HW_arg18, HW_arg19, HW_arg20, HW_arg21⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      rw [pb_succ]
      isplitl [HW_arg14]
      · iexists _; isplitl [HW_arg14]; · iexact HW_arg14
        ipureintro; subst h_arg14 h_arg15 h_arg16 h_arg17 h_arg18 h_arg19 h_arg20 h_arg21; dsimp only; rw [← View.writes_append]
      isplitl [HW_arg15]
      · iexists _; isplitl [HW_arg15]; · iexact HW_arg15
        ipureintro; subst h_arg14 h_arg15 h_arg16 h_arg17 h_arg18 h_arg19 h_arg20 h_arg21; dsimp only; rw [← View.writes_append]
      isplitl [HW_arg16]
      · iexists _; isplitl [HW_arg16]; · iexact HW_arg16
        ipureintro; subst h_arg14 h_arg15 h_arg16 h_arg17 h_arg18 h_arg19 h_arg20 h_arg21; dsimp only; rw [← View.writes_append]
      isplitl [HW_arg17]
      · iexists _; isplitl [HW_arg17]; · iexact HW_arg17
        ipureintro; subst h_arg14 h_arg15 h_arg16 h_arg17 h_arg18 h_arg19 h_arg20 h_arg21; dsimp only; rw [← View.writes_append]
      isplitl [HW_arg18]
      · iexists _; isplitl [HW_arg18]; · iexact HW_arg18
        ipureintro; subst h_arg14 h_arg15 h_arg16 h_arg17 h_arg18 h_arg19 h_arg20 h_arg21; dsimp only; rw [← View.writes_append]
      isplitl [HW_arg19]
      · iexists _; isplitl [HW_arg19]; · iexact HW_arg19
        ipureintro; subst h_arg14 h_arg15 h_arg16 h_arg17 h_arg18 h_arg19 h_arg20 h_arg21; dsimp only; rw [← View.writes_append]
      isplitl [HW_arg20]
      · iexists _; isplitl [HW_arg20]; · iexact HW_arg20
        ipureintro; subst h_arg14 h_arg15 h_arg16 h_arg17 h_arg18 h_arg19 h_arg20 h_arg21; dsimp only; rw [← View.writes_append]
      · iexists _; isplitl [HW_arg21]; · iexact HW_arg21
        ipureintro; subst h_arg14 h_arg15 h_arg16 h_arg17 h_arg18 h_arg19 h_arg20 h_arg21; dsimp only; rw [← View.writes_append]

end Cert.KernelIdeal.Hand

end
-- ==== Proof.RunFreeIdeal.lean ====
/-
  The kernel body as a triple that names nothing it writes.  At any grid point the body may clear the eight
  accumulators (first column of the grid), runs the batch loop, and may copy the accumulators into the four output
  blocks (last column).  Held whole: the eight input blocks at their contents, the four output blocks and the
  eight accumulators at any contents.  The body terminates, faults nowhere, and hands every buffer back, the
  inputs as they were.  This is all the frame claims need of it.
-/
import proofs.«146129_j80805514707451_2_alg».proof.Proof.LoopIdeal
import Idealize.ShloMosaic.Lib.Pipeline.Frame
import Idealize.ShloMosaic.Lib.Pipeline.FrameBody

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is in the grid's first column: the accumulators are cleared there. -/
abbrev condFirst (i : grid0.Coords) : Prop := (Scalar.cmpi .ne (Scalar.extui (Scalar.cmpi .eq (BitVec.ofNat 32 (i 1).val) 0#32)) 0#32) = 1#1
/-- The point is in the grid's last column: the accumulators are copied out there. -/
abbrev condLast (i : grid0.Coords) : Prop := k0_cond2 i = 1#1

theorem kernelRunFree (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  intro E K
  simp only [cc0__mp_kernel_eq_skeleton]; unfold cc0__mp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  by_cases hc0 : condFirst i <;> by_cases hc1 : condLast i
  all_goals
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.KernelIdeal.Hand

end
-- ==== Proof.CasesIdeal.lean ====
/-
  Which grid points do what.  The grid is 8 x 8, point t at row t / 8 and column t % 8.  The accumulators are
  cleared in column 0 and copied out in column 7; the four output windows are idle (not stored, not written back)
  in every other column, and the eight input windows are never idle.
-/
import proofs.«146129_j80805514707451_2_alg».proof.Proof.RunFreeIdeal
import proofs.«146129_j80805514707451_2_alg».proof.Proof.Gen.KernelIdeal.Launch
import proofs.«146129_j80805514707451_2_alg».proof.Proof.Gen.KernelIdeal.Points

noncomputable section

namespace Cert.KernelIdeal.Hand

open Cert.KernelIdeal Cert.KernelIdeal.Gen
open Idealize.ShloMosaic Idealize.ShloMosaic.TcCoe
open Idealize.SL Idealize.SL.Sem

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem idleAt_8 : ∀ t : Fin cfg0.N, ¬condLast (grid0.coords t) → cfg0.idle 8 (grid0.coords t) = true := by decide +kernel
theorem noFlush_8 : ∀ t : Fin cfg0.N, ¬condLast (grid0.coords t) → (cfg0.win 8).flush t = false := by decide +kernel
theorem liveAt_8 : ∀ t : Fin cfg0.N, condLast (grid0.coords t) → cfg0.idle 8 (grid0.coords t) = false := by decide +kernel
theorem idleAt_9 : ∀ t : Fin cfg0.N, ¬condLast (grid0.coords t) → cfg0.idle 9 (grid0.coords t) = true := by decide +kernel
theorem noFlush_9 : ∀ t : Fin cfg0.N, ¬condLast (grid0.coords t) → (cfg0.win 9).flush t = false := by decide +kernel
theorem liveAt_9 : ∀ t : Fin cfg0.N, condLast (grid0.coords t) → cfg0.idle 9 (grid0.coords t) = false := by decide +kernel
theorem idleAt_10 : ∀ t : Fin cfg0.N, ¬condLast (grid0.coords t) → cfg0.idle 10 (grid0.coords t) = true := by decide +kernel
theorem noFlush_10 : ∀ t : Fin cfg0.N, ¬condLast (grid0.coords t) → (cfg0.win 10).flush t = false := by decide +kernel
theorem liveAt_10 : ∀ t : Fin cfg0.N, condLast (grid0.coords t) → cfg0.idle 10 (grid0.coords t) = false := by decide +kernel
theorem idleAt_11 : ∀ t : Fin cfg0.N, ¬condLast (grid0.coords t) → cfg0.idle 11 (grid0.coords t) = true := by decide +kernel
theorem noFlush_11 : ∀ t : Fin cfg0.N, ¬condLast (grid0.coords t) → (cfg0.win 11).flush t = false := by decide +kernel
theorem liveAt_11 : ∀ t : Fin cfg0.N, condLast (grid0.coords t) → cfg0.idle 11 (grid0.coords t) = false := by decide +kernel

end Cert.KernelIdeal.Hand

end
-- ==== Proof.RunAIdeal.lean ====
/-
  The kernel body at a point in the grid's first column (not its last): the accumulators are cleared, then the batch loop adds this column's tile sums; the output blocks are not touched.
  Held whole: the eight input blocks, the four output blocks and the eight accumulators, each at given contents.
  The body terminates and faults nowhere; it hands back the inputs as they were and each accumulator at contents
  the run finds (a function of the input blocks and of what the accumulators held), the output blocks as they were.
-/
import proofs.«146129_j80805514707451_2_alg».proof.Proof.CasesIdeal

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRunA (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) :
    Σ' (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty), { G21 : BufTy.Contents (Elt F) arg21.view.ty //
      ∀ (xi10 : Vec F S8x128 .f32) (xi11 : Vec F S8x128 .f32) (xi12 : Vec F S8x128x3 .f32) (xi13 : Vec F S8x128x3 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ owns (c : Thread nD τ) arg14 fullShare xs14 ∗ owns (c : Thread nD τ) arg15 fullShare xs15 ∗ owns (c : Thread nD τ) arg16 fullShare xs16 ∗ owns (c : Thread nD τ) arg17 fullShare xs17 ∗ owns (c : Thread nD τ) arg18 fullShare xs18 ∗ owns (c : Thread nD τ) arg19 fullShare xs19 ∗ owns (c : Thread nD τ) arg20 fullShare xs20 ∗ owns (c : Thread nD τ) arg21 fullShare xs21
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun xi10 xi11 xi12 xi13 E K => ?run⟩
  case run =>
    simp only [cc0__mp_kernel_eq_skeleton]; unfold cc0__mp_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.KernelIdeal.Hand

end
-- ==== Proof.RunBIdeal.lean ====
/-
  The kernel body at a point in a middle column: the batch loop adds this column's tile sums to the accumulators; the output blocks are not touched.
  Held whole: the eight input blocks, the four output blocks and the eight accumulators, each at given contents.
  The body terminates and faults nowhere; it hands back the inputs as they were and each accumulator at contents
  the run finds (a function of the input blocks and of what the accumulators held), the output blocks as they were.
-/
import proofs.«146129_j80805514707451_2_alg».proof.Proof.CasesIdeal

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRunB (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) :
    Σ' (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty), { G21 : BufTy.Contents (Elt F) arg21.view.ty //
      ∀ (xi10 : Vec F S8x128 .f32) (xi11 : Vec F S8x128 .f32) (xi12 : Vec F S8x128x3 .f32) (xi13 : Vec F S8x128x3 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ owns (c : Thread nD τ) arg14 fullShare xs14 ∗ owns (c : Thread nD τ) arg15 fullShare xs15 ∗ owns (c : Thread nD τ) arg16 fullShare xs16 ∗ owns (c : Thread nD τ) arg17 fullShare xs17 ∗ owns (c : Thread nD τ) arg18 fullShare xs18 ∗ owns (c : Thread nD τ) arg19 fullShare xs19 ∗ owns (c : Thread nD τ) arg20 fullShare xs20 ∗ owns (c : Thread nD τ) arg21 fullShare xs21
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun xi10 xi11 xi12 xi13 E K => ?run⟩
  case run =>
    simp only [cc0__mp_kernel_eq_skeleton]; unfold cc0__mp_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.KernelIdeal.Hand

end
-- ==== Proof.RunCIdeal.lean ====
/-
  The kernel body at a point in the grid's last column (not its first): the batch loop adds this column's tile sums, then the accumulators are copied into the four output blocks.
  Held whole: the eight input blocks, the four output blocks and the eight accumulators, each at given contents.
  The body terminates and faults nowhere; it hands back the inputs as they were and each accumulator at contents
  the run finds (a function of the input blocks and of what the accumulators held), and each output block overwritten by the pieces the run finds.
-/
import proofs.«146129_j80805514707451_2_alg».proof.Proof.CasesIdeal

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRunC (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) :
    Σ' (L10 : List (View.Piece (Elt F) S8x128 .f32)) (L11 : List (View.Piece (Elt F) S8x128 .f32)) (L12 : List (View.Piece (Elt F) S8x128x3 .f32)) (L13 : List (View.Piece (Elt F) S8x128x3 .f32)) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty), { G21 : BufTy.Contents (Elt F) arg21.view.ty //
      ∀ (xi10 : Vec F S8x128 .f32) (xi11 : Vec F S8x128 .f32) (xi12 : Vec F S8x128x3 .f32) (xi13 : Vec F S8x128x3 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ owns (c : Thread nD τ) arg14 fullShare xs14 ∗ owns (c : Thread nD τ) arg15 fullShare xs15 ∗ owns (c : Thread nD τ) arg16 fullShare xs16 ∗ owns (c : Thread nD τ) arg17 fullShare xs17 ∗ owns (c : Thread nD τ) arg18 fullShare xs18 ∗ owns (c : Thread nD τ) arg19 fullShare xs19 ∗ owns (c : Thread nD τ) arg20 fullShare xs20 ∗ owns (c : Thread nD τ) arg21 fullShare xs21
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, ?_, ?_, fun xi10 xi11 xi12 xi13 E K => ?run⟩
  case run =>
    simp only [cc0__mp_kernel_eq_skeleton]; unfold cc0__mp_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.KernelIdeal.Hand

end
-- ==== Proof.DataIdeal.lean ====
/-
  What the kernel leaves, point by point.  After the body at grid point t the eight accumulators hold, for the
  point's row of 128 targets, the sums over the source columns visited so far in that grid row (column 0 starts
  them from zero); the four output blocks hold the accumulators' final values once column 7 has run, and are not
  touched before.  Stated here as a recursion on the point over the three runs of the body, together with the
  proof data of the launch: each input window's buffer holds its block of its array at every point, the position
  array and the converted mask array are each read through two windows and so are held at half shares, and the
  invariant carried from point to point is the eight accumulators at what the point before left.
-/
import proofs.«146129_j80805514707451_2_alg».proof.Proof.RunAIdeal
import proofs.«146129_j80805514707451_2_alg».proof.Proof.RunBIdeal
import proofs.«146129_j80805514707451_2_alg».proof.Proof.RunCIdeal
import Idealize.ShloMosaic.Lib.Pipeline.Frame
import Idealize.ShloMosaic.Lib.Pipeline.FrameBody

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffers when the region is entered: after the one host operation before it (the mask converted to floats). -/
abbrev V (c : Dev nD) (b : Ref sig .tc) : Buf (Elt F) ((c.tc : Thread nD τ).loc b) :=
  StableHlo.after (hostOps0 (F := F)) (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh (fun c => main_chain c)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms_0 (t : Fin cfg0.N) : Memref sig .tc .vmem S8x128x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x128x3 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S8x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S8x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S8x128x3 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S8x128x3 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S8x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S8x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S8x128x3 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S8x128x3 .f32 := win0_11.stage (cfg0.slots t 11)
abbrev hs_11 (t : Fin cfg0.N) : (ms_11 t).IsWhole := hstage0_11 ((cfg0.slots t 11).cast nbuf0_11)
abbrev scM_14 : Memref sig .tc .vmem S8x128 .f32 := Memref.whole cc0_scratch0
abbrev scM_15 : Memref sig .tc .vmem S8x128 .f32 := Memref.whole cc0_scratch1
abbrev scM_16 : Memref sig .tc .vmem S8x128 .f32 := Memref.whole cc0_scratch2
abbrev scM_17 : Memref sig .tc .vmem S8x128 .f32 := Memref.whole cc0_scratch3
abbrev scM_18 : Memref sig .tc .vmem S8x128 .f32 := Memref.whole cc0_scratch4
abbrev scM_19 : Memref sig .tc .vmem S8x128 .f32 := Memref.whole cc0_scratch5
abbrev scM_20 : Memref sig .tc .vmem S8x128 .f32 := Memref.whole cc0_scratch6
abbrev scM_21 : Memref sig .tc .vmem S8x128 .f32 := Memref.whole cc0_scratch7
abbrev VO_8 : View sig .tc .vmem S8x128 .f32 := (Memref.whole cc0_stg8_0 : Memref sig .tc .vmem S8x128 .f32).view
abbrev VO_9 : View sig .tc .vmem S8x128 .f32 := (Memref.whole cc0_stg9_0 : Memref sig .tc .vmem S8x128 .f32).view
abbrev VO_10 : View sig .tc .vmem S8x128x3 .f32 := (Memref.whole cc0_stg10_0 : Memref sig .tc .vmem S8x128x3 .f32).view
abbrev VO_11 : View sig .tc .vmem S8x128x3 .f32 := (Memref.whole cc0_stg11_0 : Memref sig .tc .vmem S8x128x3 .f32).view

/-! ## What the outputs and the accumulators hold after each point -/

/-- The four output blocks and the eight accumulators after a point. -/
structure Outs (F : FTy → Type) [FloatOps F] where
  o8 : Vec F S8x128 .f32
  o9 : Vec F S8x128 .f32
  o10 : Vec F S8x128x3 .f32
  o11 : Vec F S8x128x3 .f32
  s14 : Vec F S8x128 .f32
  s15 : Vec F S8x128 .f32
  s16 : Vec F S8x128 .f32
  s17 : Vec F S8x128 .f32
  s18 : Vec F S8x128 .f32
  s19 : Vec F S8x128 .f32
  s20 : Vec F S8x128 .f32
  s21 : Vec F S8x128 .f32

/-- A point of the first column: the accumulators start from zero (what they held before does not matter), the outputs are not touched. -/
def outA (c : Dev nD) (t : Fin cfg0.N) (hc0 : condFirst (grid0.coords t)) (hc1 : ¬condLast (grid0.coords t)) : Outs F :=
  { o8 := VO_8.read (Elt F) VO_8.junk, o9 := VO_9.read (Elt F) VO_9.junk, o10 := VO_10.read (Elt F) VO_10.junk, o11 := VO_11.read (Elt F) VO_11.junk,
    s14 := scM_14.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).1,
    s15 := scM_15.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.1,
    s16 := scM_16.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.1,
    s17 := scM_17.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.1,
    s18 := scM_18.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.2.1,
    s19 := scM_19.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.2.2.1,
    s20 := scM_20.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.2.2.2.1,
    s21 := scM_21.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.2.2.2.2.1 }

/-- A point of a middle column: the accumulators continue from what the point before left, the outputs are not touched. -/
def outB (c : Dev nD) (t : Fin cfg0.N) (hc0 : ¬condFirst (grid0.coords t)) (hc1 : ¬condLast (grid0.coords t)) (prev : Outs F) : Outs F :=
  { o8 := VO_8.read (Elt F) VO_8.junk, o9 := VO_9.read (Elt F) VO_9.junk, o10 := VO_10.read (Elt F) VO_10.junk, o11 := VO_11.read (Elt F) VO_11.junk,
    s14 := scM_14.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).1,
    s15 := scM_15.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.1,
    s16 := scM_16.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.1,
    s17 := scM_17.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.1,
    s18 := scM_18.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.1,
    s19 := scM_19.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.1,
    s20 := scM_20.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.1,
    s21 := scM_21.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.1 }

/-- A point of the last column: the accumulators continue, and the outputs are written from them. -/
def outC (c : Dev nD) (t : Fin cfg0.N) (hc0 : ¬condFirst (grid0.coords t)) (hc1 : condLast (grid0.coords t)) (prev : Outs F) : Outs F :=
  { o8 := VO_8.read (Elt F) (VO_8.writes (Elt F) VO_8.junk (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).1),
    o9 := VO_9.read (Elt F) (VO_9.writes (Elt F) VO_9.junk (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.1),
    o10 := VO_10.read (Elt F) (VO_10.writes (Elt F) VO_10.junk (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.1),
    o11 := VO_11.read (Elt F) (VO_11.writes (Elt F) VO_11.junk (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.1),
    s14 := scM_14.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.1,
    s15 := scM_15.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.1,
    s16 := scM_16.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.1,
    s17 := scM_17.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.1,
    s18 := scM_18.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.2.1,
    s19 := scM_19.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.2.2.1,
    s20 := scM_20.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.2.2.2.1,
    s21 := scM_21.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.2.2.2.2.1 }

def outsAt (c : Dev nD) : (n : ℕ) → n < cfg0.N → Outs F
  | 0, hn => outA m c ⟨0, hn⟩ ((hcondFirst ⟨0, hn⟩).mpr (Nat.zero_mod _)) (fun h => (fun h => by (try dsimp only at h); omega) ((hcondLast ⟨0, hn⟩).mp h))
  | n + 1, hn =>
    if h0 : (n + 1) % 8 = 0 then
      outA m c ⟨n + 1, hn⟩ ((hcondFirst ⟨n + 1, hn⟩).mpr h0) (fun h => (fun h => by (try dsimp only at h); omega) ((hcondLast ⟨n + 1, hn⟩).mp h))
    else if h1 : (n + 1) % 8 = 7 then
      outC m c ⟨n + 1, hn⟩ (fun h => h0 ((hcondFirst ⟨n + 1, hn⟩).mp h)) ((hcondLast ⟨n + 1, hn⟩).mpr h1) (outsAt c n (Nat.lt_of_succ_lt hn))
    else
      outB m c ⟨n + 1, hn⟩ (fun h => h0 ((hcondFirst ⟨n + 1, hn⟩).mp h)) (fun h => h1 ((hcondLast ⟨n + 1, hn⟩).mp h)) (outsAt c n (Nat.lt_of_succ_lt hn))

theorem outsAt_A (c : Dev nD) (t : Fin cfg0.N) (h0 : t.val % 8 = 0) :
    outsAt m c t.val t.isLt = outA m c t ((hcondFirst t).mpr h0) (fun h => (fun h => by omega) ((hcondLast t).mp h)) := by
  obtain ⟨n, hn⟩ := t
  cases n with
  | zero => exact rfl
  | succ n => exact (dif_pos h0).trans rfl

theorem outsAt_B (c : Dev nD) (t : Fin cfg0.N) (h0 : ¬t.val % 8 = 0) (h1 : ¬t.val % 8 = 7) :
    outsAt m c t.val t.isLt = outB m c t (fun h => h0 ((hcondFirst t).mp h)) (fun h => h1 ((hcondLast t).mp h)) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = outC m c t (fun h => h0 ((hcondFirst t).mp h)) ((hcondLast t).mpr h1) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg0.N → sProp 𝕄
  | 0, _ => Pipeline.scopedRest spec0 c
  | n + 1, hn => iprop(owns (c : Thread nD τ) scM_14 fullShare ((outsAt m c n hn).s14) ∗ owns (c : Thread nD τ) scM_15 fullShare ((outsAt m c n hn).s15) ∗ owns (c : Thread nD τ) scM_16 fullShare ((outsAt m c n hn).s16) ∗ owns (c : Thread nD τ) scM_17 fullShare ((outsAt m c n hn).s17) ∗ owns (c : Thread nD τ) scM_18 fullShare ((outsAt m c n hn).s18) ∗ owns (c : Thread nD τ) scM_19 fullShare ((outsAt m c n hn).s19) ∗ owns (c : Thread nD τ) scM_20 fullShare ((outsAt m c n hn).s20) ∗ owns (c : Thread nD τ) scM_21 fullShare ((outsAt m c n hn).s21))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM_14 fullShare ((outsAt m c n hn).s14) ∗ owns (c : Thread nD τ) scM_15 fullShare ((outsAt m c n hn).s15) ∗ owns (c : Thread nD τ) scM_16 fullShare ((outsAt m c n hn).s16) ∗ owns (c : Thread nD τ) scM_17 fullShare ((outsAt m c n hn).s17) ∗ owns (c : Thread nD τ) scM_18 fullShare ((outsAt m c n hn).s18) ∗ owns (c : Thread nD τ) scM_19 fullShare ((outsAt m c n hn).s19) ∗ owns (c : Thread nD τ) scM_20 fullShare ((outsAt m c n hn).s20) ∗ owns (c : Thread nD τ) scM_21 fullShare ((outsAt m c n hn).s21)) := rfl

theorem PhiS_pos (c : Dev nD) (n : ℕ) (h : n ≤ cfg0.N) (hz : n ≠ 0) :
    PhiS m c n h = iprop(owns (c : Thread nD τ) scM_14 fullShare ((outsAt m c (n - 1) (by omega)).s14) ∗ owns (c : Thread nD τ) scM_15 fullShare ((outsAt m c (n - 1) (by omega)).s15) ∗ owns (c : Thread nD τ) scM_16 fullShare ((outsAt m c (n - 1) (by omega)).s16) ∗ owns (c : Thread nD τ) scM_17 fullShare ((outsAt m c (n - 1) (by omega)).s17) ∗ owns (c : Thread nD τ) scM_18 fullShare ((outsAt m c (n - 1) (by omega)).s18) ∗ owns (c : Thread nD τ) scM_19 fullShare ((outsAt m c (n - 1) (by omega)).s19) ∗ owns (c : Thread nD τ) scM_20 fullShare ((outsAt m c (n - 1) (by omega)).s20) ∗ owns (c : Thread nD τ) scM_21 fullShare ((outsAt m c (n - 1) (by omega)).s21)) := by
  cases n with
  | zero => exact absurd rfl hz
  | succ n => rfl

/-- The scratch the launch hands the region: the eight accumulators, each whole at some contents. -/
theorem scoped_eq (c : Dev nD) :
    (Pipeline.scopedRest spec0 c : sProp 𝕄) = iprop((∃ d, owns (c : Thread nD τ) scM_14 fullShare d) ∗ (∃ d, owns (c : Thread nD τ) scM_15 fullShare d) ∗ (∃ d, owns (c : Thread nD τ) scM_16 fullShare d) ∗ (∃ d, owns (c : Thread nD τ) scM_17 fullShare d) ∗ (∃ d, owns (c : Thread nD τ) scM_18 fullShare d) ∗ (∃ d, owns (c : Thread nD τ) scM_19 fullShare d) ∗ (∃ d, owns (c : Thread nD τ) scM_20 fullShare d) ∗ (∃ d, owns (c : Thread nD τ) scM_21 fullShare d)) := by
  rw [scopedRest0_eq]; simp only [scM_14, scM_15, scM_16, scM_17, scM_18, scM_19, scM_20, scM_21, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).o8
    | ⟨9, _⟩ => (outsAt m c t.val t.isLt).o9
    | ⟨10, _⟩ => (outsAt m c t.val t.isLt).o10
    | ⟨11, _⟩ => (outsAt m c t.val t.isLt).o11
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (outsAt m c t.val t.isLt).o8 := by dsimp only [dats]
theorem after_9 (c : Dev nD) (t : Fin cfg0.N) : (dats m 0 c).after 9 t = (outsAt m c t.val t.isLt).o9 := by dsimp only [dats]
theorem after_10 (c : Dev nD) (t : Fin cfg0.N) : (dats m 0 c).after 10 t = (outsAt m c t.val t.isLt).o10 := by dsimp only [dats]
theorem after_11 (c : Dev nD) (t : Fin cfg0.N) : (dats m 0 c).after 11 t = (outsAt m c t.val t.isLt).o11 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

end Cert.KernelIdeal.Hand

end
-- ==== Proof.BodyIdeal.lean ====
/-
  The body obligation of the launch.  At a grid point the body is handed the invariant (the eight accumulators at
  what the point before left; at the very first point, at anything) and the twelve windows' current buffers (each
  input's at its block, each output's at whatever it holds).  Which run of the body applies is decided by the
  point's column.  In the first column the accumulators restart from zero, so what they held does not matter;
  elsewhere they continue.  The outputs are stored only in the last column, where the three column stores of a
  three-component block tile it; in the other columns their buffers come back untouched.
-/
import proofs.«146129_j80805514707451_2_alg».proof.Proof.DataIdeal
import Idealize.ShloMosaic.Lib.Ring

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the first column what the accumulators held before does not enter what they hold after. -/
theorem runA_indep (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 xs'14 : Vec F S8x128 .f32) (xs15 xs'15 : Vec F S8x128 .f32) (xs16 xs'16 : Vec F S8x128 .f32) (xs17 xs'17 : Vec F S8x128 .f32) (xs18 xs'18 : Vec F S8x128 .f32) (xs19 xs'19 : Vec F S8x128 .f32) (xs20 xs'20 : Vec F S8x128 .f32) (xs21 xs'21 : Vec F S8x128 .f32) :
    (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.2.2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.2.2.2.2.1 := by
  unfold kernelRunA
  exact ⟨rfl, rfl, rfl, rfl, rfl, rfl, rfl, rfl⟩

theorem coverC_8 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (y : S8x128.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1 S8x128.size (by sl_kernel_rfl) y

theorem coverC_9 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (y : S8x128.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1 S8x128.size (by sl_kernel_rfl) y

theorem coverC_10 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (y : S8x128x3.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1 (![8, 128, 1] : Fin 3 → ℕ) (by sl_kernel_rfl) y

theorem coverC_11 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (y : S8x128x3.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1 (![8, 128, 1] : Fin 3 → ℕ) (by sl_kernel_rfl) y

/-- The invariant before the very first point: each accumulator at some contents. -/
theorem Phi_first (c : Dev nD) (t : Fin cfg0.N) (hz : t.val = 0) :
    (dats m 0 c).Φ t.castSucc ⊢ iprop((∃ d, owns (c : Thread nD τ) scM_14 fullShare d) ∗ (∃ d, owns (c : Thread nD τ) scM_15 fullShare d) ∗ (∃ d, owns (c : Thread nD τ) scM_16 fullShare d) ∗ (∃ d, owns (c : Thread nD τ) scM_17 fullShare d) ∗ (∃ d, owns (c : Thread nD τ) scM_18 fullShare d) ∗ (∃ d, owns (c : Thread nD τ) scM_19 fullShare d) ∗ (∃ d, owns (c : Thread nD τ) scM_20 fullShare d) ∗ (∃ d, owns (c : Thread nD τ) scM_21 fullShare d)) := by
  rw [PhiS_castSucc m c t, PhiS_zero m c _ _ hz, scoped_eq c]

/-- The invariant before any later point: each accumulator at what the point before left. -/
theorem Phi_later (c : Dev nD) (t : Fin cfg0.N) (hz : t.val ≠ 0) :
    (dats m 0 c).Φ t.castSucc ⊢ iprop(owns (c : Thread nD τ) scM_14 fullShare ((outsAt m c (t.val - 1) (Nat.lt_of_le_of_lt (Nat.sub_le _ _) t.isLt)).s14) ∗ owns (c : Thread nD τ) scM_15 fullShare ((outsAt m c (t.val - 1) (Nat.lt_of_le_of_lt (Nat.sub_le _ _) t.isLt)).s15) ∗ owns (c : Thread nD τ) scM_16 fullShare ((outsAt m c (t.val - 1) (Nat.lt_of_le_of_lt (Nat.sub_le _ _) t.isLt)).s16) ∗ owns (c : Thread nD τ) scM_17 fullShare ((outsAt m c (t.val - 1) (Nat.lt_of_le_of_lt (Nat.sub_le _ _) t.isLt)).s17) ∗ owns (c : Thread nD τ) scM_18 fullShare ((outsAt m c (t.val - 1) (Nat.lt_of_le_of_lt (Nat.sub_le _ _) t.isLt)).s18) ∗ owns (c : Thread nD τ) scM_19 fullShare ((outsAt m c (t.val - 1) (Nat.lt_of_le_of_lt (Nat.sub_le _ _) t.isLt)).s19) ∗ owns (c : Thread nD τ) scM_20 fullShare ((outsAt m c (t.val - 1) (Nat.lt_of_le_of_lt (Nat.sub_le _ _) t.isLt)).s20) ∗ owns (c : Thread nD τ) scM_21 fullShare ((outsAt m c (t.val - 1) (Nat.lt_of_le_of_lt (Nat.sub_le _ _) t.isLt)).s21)) := by
  rw [PhiS_castSucc m c t, PhiS_pos m c _ _ hz]

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t], after_4]
  rw [show (dats m 0 c).leavesExact 5 t = owns (c : Thread nD τ) (ms_5 t) fullShare ((dats m 0 c).after 5 t) from by
    unfold Dat.leavesExact; rw [liveAt_5 t], after_5]
  rw [show (dats m 0 c).leavesExact 6 t = owns (c : Thread nD τ) (ms_6 t) fullShare ((dats m 0 c).after 6 t) from by
    unfold Dat.leavesExact; rw [liveAt_6 t], after_6]
  rw [show (dats m 0 c).leavesExact 7 t = owns (c : Thread nD τ) (ms_7 t) fullShare ((dats m 0 c).after 7 t) from by
    unfold Dat.leavesExact; rw [liveAt_7 t], after_7]
  by_cases h0 : t.val % 8 = 0
  · have hc0 : condFirst (grid0.coords t) := (hcondFirst t).mpr h0
    have hc1 : ¬condLast (grid0.coords t) := fun h => (fun h => by omega) ((hcondLast t).mp h)
    rw [Dat.leavesExact_idle (dats m 0 c) 8 t (idleAt_8 t hc1) (noFlush_8 t hc1)]
    rw [Dat.leavesExact_idle (dats m 0 c) 9 t (idleAt_9 t hc1) (noFlush_9 t hc1)]
    rw [Dat.leavesExact_idle (dats m 0 c) 10 t (idleAt_10 t hc1) (noFlush_10 t hc1)]
    rw [Dat.leavesExact_idle (dats m 0 c) 11 t (idleAt_11 t hc1) (noFlush_11 t hc1)]
    rw [outsAt_A m c t h0]
    unfold outA; (try dsimp only)
    by_cases hz : t.val = 0
    · iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      ihave HΦ' := (Phi_first m c t hz) $$ HΦ
      icases HΦ' with ⟨⟨%d14, HS14⟩, ⟨%d15, HS15⟩, ⟨%d16, HS16⟩, ⟨%d17, HS17⟩, ⟨%d18, HS18⟩, ⟨%d19, HS19⟩, ⟨%d20, HS20⟩, ⟨%d21, HS21⟩⟩
      iapply ((kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) d14 d15 d16 d17 d18 d19 d20 d21).2.2.2.2.2.2.2.2 ((dats m 0 c).before 8 t e8) ((dats m 0 c).before 9 t e9) ((dats m 0 c).before 10 t e10) ((dats m 0 c).before 11 t e11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      iintro ⟨H0, H1, H2, H3, H4, H5, H6, H7, H8, H9, H10, H11, HS14, HS15, HS16, HS17, HS18, HS19, HS20, HS21⟩
      isplitl [HS14 HS15 HS16 HS17 HS18 HS19 HS20 HS21]
      · isplitl [HS14]
        · unfold owns; iexists _; isplitr
          swap; · iexact HS14
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).1
        isplitl [HS15]
        · unfold owns; iexists _; isplitr
          swap; · iexact HS15
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.1
        isplitl [HS16]
        · unfold owns; iexists _; isplitr
          swap; · iexact HS16
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.1
        isplitl [HS17]
        · unfold owns; iexists _; isplitr
          swap; · iexact HS17
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.1
        isplitl [HS18]
        · unfold owns; iexists _; isplitr
          swap; · iexact HS18
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.1
        isplitl [HS19]
        · unfold owns; iexists _; isplitr
          swap; · iexact HS19
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.1
        isplitl [HS20]
        · unfold owns; iexists _; isplitr
          swap; · iexact HS20
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.2.1
        · unfold owns; iexists _; isplitr
          swap; · iexact HS21
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.2.2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11
    · iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      ihave HΦ' := (Phi_later m c t hz) $$ HΦ
      icases HΦ' with ⟨HS14, HS15, HS16, HS17, HS18, HS19, HS20, HS21⟩
      iapply ((kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21)).2.2.2.2.2.2.2.2 ((dats m 0 c).before 8 t e8) ((dats m 0 c).before 9 t e9) ((dats m 0 c).before 10 t e10) ((dats m 0 c).before 11 t e11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      iintro ⟨H0, H1, H2, H3, H4, H5, H6, H7, H8, H9, H10, H11, HS14, HS15, HS16, HS17, HS18, HS19, HS20, HS21⟩
      isplitl [HS14 HS15 HS16 HS17 HS18 HS19 HS20 HS21]
      · isplitl [HS14]
        · unfold owns; iexists _; isplitr
          swap; · iexact HS14
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).1
        isplitl [HS15]
        · unfold owns; iexists _; isplitr
          swap; · iexact HS15
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.1
        isplitl [HS16]
        · unfold owns; iexists _; isplitr
          swap; · iexact HS16
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.1
        isplitl [HS17]
        · unfold owns; iexists _; isplitr
          swap; · iexact HS17
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.1
        isplitl [HS18]
        · unfold owns; iexists _; isplitr
          swap; · iexact HS18
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.1
        isplitl [HS19]
        · unfold owns; iexists _; isplitr
          swap; · iexact HS19
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.1
        isplitl [HS20]
        · unfold owns; iexists _; isplitr
          swap; · iexact HS20
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.2.1
        · unfold owns; iexists _; isplitr
          swap; · iexact HS21
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.2.2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11
  · have hz : t.val ≠ 0 := fun e => h0 (by rw [e])
    have hc0 : ¬condFirst (grid0.coords t) := fun h => h0 ((hcondFirst t).mp h)
    by_cases h1 : t.val % 8 = 7
    · have hc1 : condLast (grid0.coords t) := (hcondLast t).mpr h1
      rw [show (dats m 0 c).leavesExact 8 t = owns (c : Thread nD τ) (ms_8 t) fullShare ((dats m 0 c).after 8 t) from by
        unfold Dat.leavesExact; rw [liveAt_8 t hc1], after_8]
      rw [show (dats m 0 c).leavesExact 9 t = owns (c : Thread nD τ) (ms_9 t) fullShare ((dats m 0 c).after 9 t) from by
        unfold Dat.leavesExact; rw [liveAt_9 t hc1], after_9]
      rw [show (dats m 0 c).leavesExact 10 t = owns (c : Thread nD τ) (ms_10 t) fullShare ((dats m 0 c).after 10 t) from by
        unfold Dat.leavesExact; rw [liveAt_10 t hc1], after_10]
      rw [show (dats m 0 c).leavesExact 11 t = owns (c : Thread nD τ) (ms_11 t) fullShare ((dats m 0 c).after 11 t) from by
        unfold Dat.leavesExact; rw [liveAt_11 t hc1], after_11]
      rw [outsAt_C m c t h0 h1]
      unfold outC; (try dsimp only)
      iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      ihave HΦ' := (Phi_later m c t hz) $$ HΦ
      icases HΦ' with ⟨HS14, HS15, HS16, HS17, HS18, HS19, HS20, HS21⟩
      iapply ((kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21)).2.2.2.2.2.2.2.2.2.2.2.2 ((dats m 0 c).before 8 t e8) ((dats m 0 c).before 9 t e9) ((dats m 0 c).before 10 t e10) ((dats m 0 c).before 11 t e11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      iintro ⟨H0, H1, H2, H3, H4, H5, H6, H7, H8, H9, H10, H11, HS14, HS15, HS16, HS17, HS18, HS19, HS20, HS21⟩
      isplitl [HS14 HS15 HS16 HS17 HS18 HS19 HS20 HS21]
      · isplitl [HS14]
        · unfold owns; iexists _; isplitr
          swap; · iexact HS14
          ipureintro; rfl
        isplitl [HS15]
        · unfold owns; iexists _; isplitr
          swap; · iexact HS15
          ipureintro; rfl
        isplitl [HS16]
        · unfold owns; iexists _; isplitr
          swap; · iexact HS16
          ipureintro; rfl
        isplitl [HS17]
        · unfold owns; iexists _; isplitr
          swap; · iexact HS17
          ipureintro; rfl
        isplitl [HS18]
        · unfold owns; iexists _; isplitr
          swap; · iexact HS18
          ipureintro; rfl
        isplitl [HS19]
        · unfold owns; iexists _; isplitr
          swap; · iexact HS19
          ipureintro; rfl
        isplitl [HS20]
        · unfold owns; iexists _; isplitr
          swap; · iexact HS20
          ipureintro; rfl
        · unfold owns; iexists _; isplitr
          swap; · iexact HS21
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · icases H8 with ⟨%g8, H8⟩
        unfold owns; iexists _; isplitr
        swap; · iexact H8
        ipureintro; exact View.read_writes_of_cover _ _ _ _ _ (coverC_8 c _ _ _ _ _ _ _ _ _ _ _ _ _ _ _ _ _ _ _ _ _ _ _ _ _ _ _ _ _ _ _ _ _ _ _ _ _ _ _ _ _ hc0 hc1 _ _ _ _ _ _ _ _ _ _ _ _ _ _ _ _)
      isplitl [H9]
      · icases H9 with ⟨%g9, H9⟩
        unfold owns; iexists _; isplitr
        swap; · iexact H9
        ipureintro; exact View.read_writes_of_cover _ _ _ _ _ (coverC_9 c _ _ _ _ _ _ _ _ _ _ _ _ _ _ _ _ _ _ _ _ _ _ _ _ _ _ _ _ _ _ _ _ _ _ _ _ _ _ _ _ _ hc0 hc1 _ _ _ _ _ _ _ _ _ _ _ _ _ _ _ _)
      isplitl [H10]
      · icases H10 with ⟨%g10, H10⟩
        unfold owns; iexists _; isplitr
        swap; · iexact H10
        ipureintro; exact View.read_writes_of_cover _ _ _ _ _ (coverC_10 c _ _ _ _ _ _ _ _ _ _ _ _ _ _ _ _ _ _ _ _ _ _ _ _ _ _ _ _ _ _ _ _ _ _ _ _ _ _ _ _ _ hc0 hc1 _ _ _ _ _ _ _ _ _ _ _ _ _ _ _ _)
      · icases H11 with ⟨%g11, H11⟩
        unfold owns; iexists _; isplitr
        swap; · iexact H11
        ipureintro; exact View.read_writes_of_cover _ _ _ _ _ (coverC_11 c _ _ _ _ _ _ _ _ _ _ _ _ _ _ _ _ _ _ _ _ _ _ _ _ _ _ _ _ _ _ _ _ _ _ _ _ _ _ _ _ _ hc0 hc1 _ _ _ _ _ _ _ _ _ _ _ _ _ _ _ _)
    · have hc1 : ¬condLast (grid0.coords t) := fun h => h1 ((hcondLast t).mp h)
      rw [Dat.leavesExact_idle (dats m 0 c) 8 t (idleAt_8 t hc1) (noFlush_8 t hc1)]
      rw [Dat.leavesExact_idle (dats m 0 c) 9 t (idleAt_9 t hc1) (noFlush_9 t hc1)]
      rw [Dat.leavesExact_idle (dats m 0 c) 10 t (idleAt_10 t hc1) (noFlush_10 t hc1)]
      rw [Dat.leavesExact_idle (dats m 0 c) 11 t (idleAt_11 t hc1) (noFlush_11 t hc1)]
      rw [outsAt_B m c t h0 h1]
      unfold outB; (try dsimp only)
      iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      ihave HΦ' := (Phi_later m c t hz) $$ HΦ
      icases HΦ' with ⟨HS14, HS15, HS16, HS17, HS18, HS19, HS20, HS21⟩
      iapply ((kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21)).2.2.2.2.2.2.2.2 ((dats m 0 c).before 8 t e8) ((dats m 0 c).before 9 t e9) ((dats m 0 c).before 10 t e10) ((dats m 0 c).before 11 t e11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      iintro ⟨H0, H1, H2, H3, H4, H5, H6, H7, H8, H9, H10, H11, HS14, HS15, HS16, HS17, HS18, HS19, HS20, HS21⟩
      isplitl [HS14 HS15 HS16 HS17 HS18 HS19 HS20 HS21]
      · isplitl [HS14]
        · unfold owns; iexists _; isplitr
          swap; · iexact HS14
          ipureintro; rfl
        isplitl [HS15]
        · unfold owns; iexists _; isplitr
          swap; · iexact HS15
          ipureintro; rfl
        isplitl [HS16]
        · unfold owns; iexists _; isplitr
          swap; · iexact HS16
          ipureintro; rfl
        isplitl [HS17]
        · unfold owns; iexists _; isplitr
          swap; · iexact HS17
          ipureintro; rfl
        isplitl [HS18]
        · unfold owns; iexists _; isplitr
          swap; · iexact HS18
          ipureintro; rfl
        isplitl [HS19]
        · unfold owns; iexists _; isplitr
          swap; · iexact HS19
          ipureintro; rfl
        isplitl [HS20]
        · unfold owns; iexists _; isplitr
          swap; · iexact HS20
          ipureintro; rfl
        · unfold owns; iexists _; isplitr
          swap; · iexact HS21
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.MainIdeal.lean ====
/-
  The launch.  @main converts the mask to floats and calls the kernel on an 8 x 8 grid.  The position array is
  handed to the kernel through two windows (the targets' block and the sources' block), and so is the converted
  mask: each of the two arrays is held whole at the region's entry and shared between its two windows, half each.
  The mask argument itself is read by no window and passes around the region untouched.  The run: from any
  memory, every weakly fair execution of @main terminates without a fault, and at the end every windowed array
  holds what the write-backs made of it and the mask argument what it held.
-/
import proofs.«146129_j80805514707451_2_alg».proof.Proof.BodyIdeal
import Idealize.ShloMosaic.Lib.Pipeline.Launch
import Idealize.ShloMosaic.Lib.Pipeline.Kit

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner at round 0 and a token for every transfer the pipeline issues. -/
def u₀ : UR sig nD τ := initOf (Pipeline.cells cfgs cellOf_inj) (Pipeline.launchToks cfgs cellOf_inj)

theorem hin (c : Dev nD) : iprop(emp ∗ Pipeline.scopedRest spec0 c) ⊢ (dats m 0 c).Φ 0 := by
  rw [show (dats m 0 c).Φ 0 = Pipeline.scopedRest spec0 c from rfl]
  iintro ⟨-, H⟩; iexact H

theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq c]
  iintro ⟨HS14, HS15, HS16, HS17, HS18, HS19, HS20, HS21⟩
  isplitr; · iempintro
  isplitl [HS14]; · iexists _; iexact HS14
  isplitl [HS15]; · iexists _; iexact HS15
  isplitl [HS16]; · iexists _; iexact HS16
  isplitl [HS17]; · iexists _; iexact HS17
  isplitl [HS18]; · iexists _; iexact HS18
  isplitl [HS19]; · iexists _; iexact HS19
  isplitl [HS20]; · iexists _; iexact HS20
  iexists _; iexact HS21

/-- The arrays at the region's entry, shared among the windows. -/
theorem hsplit (c : Dev nD) : Pipeline.arrBufs spec0 c (V m c) ⊢ (dats m 0 c).arrays ((dats m 0 c).arrAt · 0) := by
  unfold Pipeline.arrBufs Dat.arrays
  rw [bigSep_eq_bigSepL_of_eq [main_arg0, main_call0_v0, main_arg2, main_arg3, main_arg4, main_arg5, main_v0_0, main_v0_1, main_v0_2, main_v0_3] (by decide) (by decide), bigSep_W0]
  rw [show (bigSepL [main_arg0, main_call0_v0, main_arg2, main_arg3, main_arg4, main_arg5, main_v0_0, main_v0_1, main_v0_2, main_v0_3] (fun b : Ref sig .tc => (((c.tc : Thread nD τ).loc b) ↦{fullShare} V m c b : sProp 𝕄)))
      = iprop((((c.tc : Thread nD τ).loc main_arg0) ↦{fullShare} V m c main_arg0) ∗ (((c.tc : Thread nD τ).loc main_call0_v0) ↦{fullShare} V m c main_call0_v0) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_v0_0) ↦{fullShare} V m c main_v0_0) ∗ (((c.tc : Thread nD τ).loc main_v0_1) ↦{fullShare} V m c main_v0_1) ∗ (((c.tc : Thread nD τ).loc main_v0_2) ↦{fullShare} V m c main_v0_2) ∗ (((c.tc : Thread nD τ).loc main_v0_3) ↦{fullShare} V m c main_v0_3)) from rfl]
  iintro ⟨Hpos, Hmk, Hq, Hm, Hmuq, Hmum, Ho0, Ho1, Ho2, Ho3⟩
  ihave Hpos' := (pointsTo_share (PosShare.mem_left_op_right fullShare)).1 $$ Hpos
  icases Hpos' with ⟨HposL, HposR⟩
  ihave Hmk' := (pointsTo_share (PosShare.mem_left_op_right fullShare)).1 $$ Hmk
  icases Hmk' with ⟨HmkL, HmkR⟩
  isplitl [HposL]
  · rw [(arr_whole0 0).set_eq_univ]; iexact HposL
  isplitl [HmkL]
  · rw [(arr_whole0 1).set_eq_univ]; iexact HmkL
  isplitl [HposR]
  · rw [(arr_whole0 2).set_eq_univ]; iexact HposR
  isplitl [HmkR]
  · rw [(arr_whole0 3).set_eq_univ]; iexact HmkR
  isplitl [Hq]
  · rw [(arr_whole0 4).set_eq_univ]; iexact Hq
  isplitl [Hm]
  · rw [(arr_whole0 5).set_eq_univ]; iexact Hm
  isplitl [Hmuq]
  · rw [(arr_whole0 6).set_eq_univ]; iexact Hmuq
  isplitl [Hmum]
  · rw [(arr_whole0 7).set_eq_univ]; iexact Hmum
  isplitl [Ho0]
  · rw [(arr_whole0 8).set_eq_univ]; iexact Ho0
  isplitl [Ho1]
  · rw [(arr_whole0 9).set_eq_univ]; iexact Ho1
  isplitl [Ho2]
  · rw [(arr_whole0 10).set_eq_univ]; iexact Ho2
  rw [(arr_whole0 11).set_eq_univ]; iexact Ho3

/-- What the run ends in: every windowed array at what the write-backs made of it, the mask argument untouched. -/
def Post : PUnit × MemSt nD τ sig (Elt F) → Prop := fun r => ∀ c : Dev nD,
  (∀ w : Fin cfg0.W, r.2.mem ((cfg0.win w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) ⟨m, fun _ => 0, ρ⟩ (Post m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m)
    (hsplit := hsplit m)
    (X := fun _ => iprop(emp)) (Y := fun _ => iprop(emp)) (Z := fun c => Pipeline.unscopedRest spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Hand

end
-- ==== Proof.FrameIdeal.lean ====
/-
  The frame: @main runs to the end without a fault and leaves its six argument arrays as it found them.  Five of
  them are read by input windows, which the pipeline only copies from; the mask is read by the one host operation
  before the kernel, which writes only its own result.
-/
import proofs.«146129_j80805514707451_2_alg».proof.Proof.MainIdeal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

theorem V_arg0 (c : Dev nD) : V m c main_arg0 = m ((c.tc : Thread nD τ).loc main_arg0) := by
  show StableHlo.after (hostOps0 (F := F)) (fun b => m (c, b)) (Proc.devRef .tc main_arg0) = _
  dsimp only [hostOps0]; after_results
theorem V_arg1 (c : Dev nD) : V m c main_arg1 = m ((c.tc : Thread nD τ).loc main_arg1) := by
  show StableHlo.after (hostOps0 (F := F)) (fun b => m (c, b)) (Proc.devRef .tc main_arg1) = _
  dsimp only [hostOps0]; after_results
theorem V_arg2 (c : Dev nD) : V m c main_arg2 = m ((c.tc : Thread nD τ).loc main_arg2) := by
  show StableHlo.after (hostOps0 (F := F)) (fun b => m (c, b)) (Proc.devRef .tc main_arg2) = _
  dsimp only [hostOps0]; after_results
theorem V_arg3 (c : Dev nD) : V m c main_arg3 = m ((c.tc : Thread nD τ).loc main_arg3) := by
  show StableHlo.after (hostOps0 (F := F)) (fun b => m (c, b)) (Proc.devRef .tc main_arg3) = _
  dsimp only [hostOps0]; after_results
theorem V_arg4 (c : Dev nD) : V m c main_arg4 = m ((c.tc : Thread nD τ).loc main_arg4) := by
  show StableHlo.after (hostOps0 (F := F)) (fun b => m (c, b)) (Proc.devRef .tc main_arg4) = _
  dsimp only [hostOps0]; after_results
theorem V_arg5 (c : Dev nD) : V m c main_arg5 = m ((c.tc : Thread nD τ).loc main_arg5) := by
  show StableHlo.after (hostOps0 (F := F)) (fun b => m (c, b)) (Proc.devRef .tc main_arg5) = _
  dsimp only [hostOps0]; after_results

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 0).trans (((dats m 0 c).arrAt_in 0 rfl _).trans ((A_eq m c 0).trans (V_arg0 m c))),
    ((h c).2 main_arg1 (by decide)).trans (V_arg1 m c),
    ((h c).1 4).trans (((dats m 0 c).arrAt_in 4 rfl _).trans ((A_eq m c 4).trans (V_arg2 m c))),
    ((h c).1 5).trans (((dats m 0 c).arrAt_in 5 rfl _).trans ((A_eq m c 5).trans (V_arg3 m c))),
    ((h c).1 6).trans (((dats m 0 c).arrAt_in 6 rfl _).trans ((A_eq m c 6).trans (V_arg4 m c))),
    ((h c).1 7).trans (((dats m 0 c).arrAt_in 7 rfl _).trans ((A_eq m c 7).trans (V_arg5 m c)))⟩) (run_main m ρ)

end Cert.KernelIdeal.Hand

end
-- ==== Proof.TripBits.lean ====
/-
  One trip of the kernel's batch loop as a triple.  Trip k reads row k of the two position blocks, the two mask
  blocks, the two charge blocks and the two dipole blocks, forms the 128 x 128 table of pair weights of batch k,
  and adds the eight lane sums of that table to row k of the eight accumulators.  Stated here: run from the
  sixteen buffers held whole — the eight it reads at their contents, the eight accumulators at any contents —
  the trip terminates and leaves the read buffers as they were and each accumulator at its contents overwritten
  by the pieces the trip stored, the pieces being functions of what the trip found in the accumulators.
-/
import proofs.«146129_j80805514707451_2_alg».proof.Proof.Gen.Kernel.Loops

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip holds: the eight blocks it reads at their contents, the eight accumulators at given contents. -/
abbrev Trip (c : Dev nD) (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32) (arg7 : Memref sig .tc .vmem S8x128 .f32) (arg8 : Memref sig .tc .vmem S8x128x3 .f32) (arg9 : Memref sig .tc .vmem S8x128x3 .f32) (arg14 : Memref sig .tc .vmem S8x128 .f32) (arg15 : Memref sig .tc .vmem S8x128 .f32) (arg16 : Memref sig .tc .vmem S8x128 .f32) (arg17 : Memref sig .tc .vmem S8x128 .f32) (arg18 : Memref sig .tc .vmem S8x128 .f32) (arg19 : Memref sig .tc .vmem S8x128 .f32) (arg20 : Memref sig .tc .vmem S8x128 .f32) (arg21 : Memref sig .tc .vmem S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21))

/-- One trip at a symbolic trip number: the pieces it stores into each accumulator are found by the run. -/
@[irreducible] def trip (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) :
    Σ' (L14 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L15 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L16 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L17 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L18 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L19 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))) (L20 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32))), { L21 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → List (View.Piece (Elt F) S8x128 .f32)) // ∀ (E : Set ℕ) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty),
      Trip (F := F) c arg2 arg3 arg4 arg5 arg6 arg7 arg8 arg9 arg14 arg15 arg16 arg17 arg18 arg19 arg20 arg21 X_arg2 X_arg3 X_arg4 X_arg5 X_arg6 X_arg7 X_arg8 X_arg9 f_arg14 f_arg15 f_arg16 f_arg17 f_arg18 f_arg19 f_arg20 f_arg21
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k ())
          (fun _ => Trip (F := F) c arg2 arg3 arg4 arg5 arg6 arg7 arg8 arg9 arg14 arg15 arg16 arg17 arg18 arg19 arg20 arg21 X_arg2 X_arg3 X_arg4 X_arg5 X_arg6 X_arg7 X_arg8 X_arg9 (arg14.view.writes (Elt F) f_arg14 (L14 f_arg14 f_arg15 f_arg16 f_arg17 f_arg18 f_arg19 f_arg20 f_arg21)) (arg15.view.writes (Elt F) f_arg15 (L15 f_arg14 f_arg15 f_arg16 f_arg17 f_arg18 f_arg19 f_arg20 f_arg21)) (arg16.view.writes (Elt F) f_arg16 (L16 f_arg14 f_arg15 f_arg16 f_arg17 f_arg18 f_arg19 f_arg20 f_arg21)) (arg17.view.writes (Elt F) f_arg17 (L17 f_arg14 f_arg15 f_arg16 f_arg17 f_arg18 f_arg19 f_arg20 f_arg21)) (arg18.view.writes (Elt F) f_arg18 (L18 f_arg14 f_arg15 f_arg16 f_arg17 f_arg18 f_arg19 f_arg20 f_arg21)) (arg19.view.writes (Elt F) f_arg19 (L19 f_arg14 f_arg15 f_arg16 f_arg17 f_arg18 f_arg19 f_arg20 f_arg21)) (arg20.view.writes (Elt F) f_arg20 (L20 f_arg14 f_arg15 f_arg16 f_arg17 f_arg18 f_arg19 f_arg20 f_arg21)) (arg21.view.writes (Elt F) f_arg21 (L21 f_arg14 f_arg15 f_arg16 f_arg17 f_arg18 f_arg19 f_arg20 f_arg21))) } := by
  have hk : k.val < 8 := Nat.lt_of_lt_of_le k.isLt k0_t1_abs.2.1
  refine ⟨?_, ?_, ?_, ?_, ?_, ?_, ?_, ?_, fun E f_arg14 f_arg15 f_arg16 f_arg17 f_arg18 f_arg19 f_arg20 f_arg21 => ?run⟩
  case run =>
    unfold k0_t1_body
    iintro ⟨HR_arg2, HR_arg3, HR_arg4, HR_arg5, HR_arg6, HR_arg7, HR_arg8, HR_arg9, HW_arg14, HW_arg15, HW_arg16, HW_arg17, HW_arg18, HW_arg19, HW_arg20, HW_arg21⟩
    sl_exec
    sl_step
    sl_close

end Cert.Kernel.Hand

end
-- ==== Proof.LoopBits.lean ====
/-
  The batch loop by its invariant.  Before trip k each accumulator holds its contents at loop entry overwritten
  by the pieces of the trips before k (trip j stores one piece, row j, into each accumulator; the piece is that
  row as the trip found it plus the trip's lane sums), and the eight blocks the loop only reads hold what they
  held.  The pieces of the trips before k are defined by recursion on k, each trip's pieces taken at the contents
  the earlier trips left; one trip carries the invariant from k to k + 1 because writing a list of pieces over
  contents already overwritten by an earlier list is writing the two lists appended.
-/
import proofs.«146129_j80805514707451_2_alg».proof.Proof.TripBits

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A list of pieces of an accumulator, and one list per accumulator. -/
abbrev PL (F : FTy → Type) [FloatOps F] : Type := List (View.Piece (Elt F) S8x128 .f32)
abbrev PL8 (F : FTy → Type) [FloatOps F] : Type := PL F × PL F × PL F × PL F × PL F × PL F × PL F × PL F

/-- Trip k's pieces in front of the pieces before it, per accumulator; past the last trip nothing is added. -/
@[irreducible] def pbStep (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (k : ℕ) (prev : PL8 F) : PL8 F :=
  if h : k < k0_t1_loop.trips then
    (((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.2.2.2.1,
     ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 ⟨k, h⟩).2.2.2.2.2.2.2.1 (arg14.view.writes (Elt F) G_arg14 (prev).1) (arg15.view.writes (Elt F) G_arg15 (prev).2.1) (arg16.view.writes (Elt F) G_arg16 (prev).2.2.1) (arg17.view.writes (Elt F) G_arg17 (prev).2.2.2.1) (arg18.view.writes (Elt F) G_arg18 (prev).2.2.2.2.1) (arg19.view.writes (Elt F) G_arg19 (prev).2.2.2.2.2.1) (arg20.view.writes (Elt F) G_arg20 (prev).2.2.2.2.2.2.1) (arg21.view.writes (Elt F) G_arg21 (prev).2.2.2.2.2.2.2)) ++ (prev).2.2.2.2.2.2.2)
  else prev

/-- The pieces of the trips before k, newest first, per accumulator. -/
def pb (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) : ℕ → PL8 F
  | 0 => ([], [], [], [], [], [], [], [])
  | k + 1 => pbStep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k (pb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k)

theorem pb_succ (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (k : Fin k0_t1_loop.trips) :
    pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 (k.val + 1)
      = (((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1,
         ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.2.1 (arg14.view.writes (Elt F) G_arg14 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).1) (arg15.view.writes (Elt F) G_arg15 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.1) (arg16.view.writes (Elt F) G_arg16 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.1) (arg17.view.writes (Elt F) G_arg17 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.1) (arg18.view.writes (Elt F) G_arg18 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.1) (arg19.view.writes (Elt F) G_arg19 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.1) (arg20.view.writes (Elt F) G_arg20 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.1) (arg21.view.writes (Elt F) G_arg21 (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2)) ++ (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k.val).2.2.2.2.2.2.2) := by
  rw [pb.eq_2]; unfold pbStep; exact dif_pos k.isLt

/-- The invariant before trip k. -/
abbrev inv (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (k : ℕ) (_u : Unit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9)
    ∗ (∃ f, (arg14.view.loc (c : Thread nD τ) ↦[arg14.view.set]{fullShare} f) ∗ ⌜f = arg14.view.writes (Elt F) G_arg14 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).1)⌝)
    ∗ (∃ f, (arg15.view.loc (c : Thread nD τ) ↦[arg15.view.set]{fullShare} f) ∗ ⌜f = arg15.view.writes (Elt F) G_arg15 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.1)⌝)
    ∗ (∃ f, (arg16.view.loc (c : Thread nD τ) ↦[arg16.view.set]{fullShare} f) ∗ ⌜f = arg16.view.writes (Elt F) G_arg16 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.1)⌝)
    ∗ (∃ f, (arg17.view.loc (c : Thread nD τ) ↦[arg17.view.set]{fullShare} f) ∗ ⌜f = arg17.view.writes (Elt F) G_arg17 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.1)⌝)
    ∗ (∃ f, (arg18.view.loc (c : Thread nD τ) ↦[arg18.view.set]{fullShare} f) ∗ ⌜f = arg18.view.writes (Elt F) G_arg18 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.2.1)⌝)
    ∗ (∃ f, (arg19.view.loc (c : Thread nD τ) ↦[arg19.view.set]{fullShare} f) ∗ ⌜f = arg19.view.writes (Elt F) G_arg19 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.2.2.1)⌝)
    ∗ (∃ f, (arg20.view.loc (c : Thread nD τ) ↦[arg20.view.set]{fullShare} f) ∗ ⌜f = arg20.view.writes (Elt F) G_arg20 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.2.2.2.1)⌝)
    ∗ (∃ f, (arg21.view.loc (c : Thread nD τ) ↦[arg21.view.set]{fullShare} f) ∗ ⌜f = arg21.view.writes (Elt F) G_arg21 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k).2.2.2.2.2.2.2)⌝))

set_option warn.classDefReducibility false in
/-- The loop by its invariant. -/
@[sl_loop] def loopInv (𝒱 : Variants) (c : Dev nD) (bd : Option 𝒱.V) (E : Set ℕ) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21
  step k acc := by
    iintro ⟨HR_arg2, HR_arg3, HR_arg4, HR_arg5, HR_arg6, HR_arg7, HR_arg8, HR_arg9, ⟨%f_arg14, HW_arg14, %h_arg14⟩, ⟨%f_arg15, HW_arg15, %h_arg15⟩, ⟨%f_arg16, HW_arg16, %h_arg16⟩, ⟨%f_arg17, HW_arg17, %h_arg17⟩, ⟨%f_arg18, HW_arg18, %h_arg18⟩, ⟨%f_arg19, HW_arg19, %h_arg19⟩, ⟨%f_arg20, HW_arg20, %h_arg20⟩, ⟨%f_arg21, HW_arg21, %h_arg21⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HW_arg14 HW_arg15 HW_arg16 HW_arg17 HW_arg18 HW_arg19 HW_arg20 HW_arg21]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.2.2 E f_arg14 f_arg15 f_arg16 f_arg17 f_arg18 f_arg19 f_arg20 f_arg21)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HW_arg14]; · iexact HW_arg14
      isplitl [HW_arg15]; · iexact HW_arg15
      isplitl [HW_arg16]; · iexact HW_arg16
      isplitl [HW_arg17]; · iexact HW_arg17
      isplitl [HW_arg18]; · iexact HW_arg18
      isplitl [HW_arg19]; · iexact HW_arg19
      isplitl [HW_arg20]; · iexact HW_arg20
      iexact HW_arg21
    · iintro %_ ⟨HR_arg2, HR_arg3, HR_arg4, HR_arg5, HR_arg6, HR_arg7, HR_arg8, HR_arg9, HW_arg14, HW_arg15, HW_arg16, HW_arg17, HW_arg18, HW_arg19, HW_arg20, HW_arg21⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      rw [pb_succ]
      isplitl [HW_arg14]
      · iexists _; isplitl [HW_arg14]; · iexact HW_arg14
        ipureintro; subst h_arg14 h_arg15 h_arg16 h_arg17 h_arg18 h_arg19 h_arg20 h_arg21; dsimp only; rw [← View.writes_append]
      isplitl [HW_arg15]
      · iexists _; isplitl [HW_arg15]; · iexact HW_arg15
        ipureintro; subst h_arg14 h_arg15 h_arg16 h_arg17 h_arg18 h_arg19 h_arg20 h_arg21; dsimp only; rw [← View.writes_append]
      isplitl [HW_arg16]
      · iexists _; isplitl [HW_arg16]; · iexact HW_arg16
        ipureintro; subst h_arg14 h_arg15 h_arg16 h_arg17 h_arg18 h_arg19 h_arg20 h_arg21; dsimp only; rw [← View.writes_append]
      isplitl [HW_arg17]
      · iexists _; isplitl [HW_arg17]; · iexact HW_arg17
        ipureintro; subst h_arg14 h_arg15 h_arg16 h_arg17 h_arg18 h_arg19 h_arg20 h_arg21; dsimp only; rw [← View.writes_append]
      isplitl [HW_arg18]
      · iexists _; isplitl [HW_arg18]; · iexact HW_arg18
        ipureintro; subst h_arg14 h_arg15 h_arg16 h_arg17 h_arg18 h_arg19 h_arg20 h_arg21; dsimp only; rw [← View.writes_append]
      isplitl [HW_arg19]
      · iexists _; isplitl [HW_arg19]; · iexact HW_arg19
        ipureintro; subst h_arg14 h_arg15 h_arg16 h_arg17 h_arg18 h_arg19 h_arg20 h_arg21; dsimp only; rw [← View.writes_append]
      isplitl [HW_arg20]
      · iexists _; isplitl [HW_arg20]; · iexact HW_arg20
        ipureintro; subst h_arg14 h_arg15 h_arg16 h_arg17 h_arg18 h_arg19 h_arg20 h_arg21; dsimp only; rw [← View.writes_append]
      · iexists _; isplitl [HW_arg21]; · iexact HW_arg21
        ipureintro; subst h_arg14 h_arg15 h_arg16 h_arg17 h_arg18 h_arg19 h_arg20 h_arg21; dsimp only; rw [← View.writes_append]

end Cert.Kernel.Hand

end
-- ==== Proof.RunFreeBits.lean ====
/-
  The kernel body as a triple that names nothing it writes.  At any grid point the body may clear the eight
  accumulators (first column of the grid), runs the batch loop, and may copy the accumulators into the four output
  blocks (last column).  Held whole: the eight input blocks at their contents, the four output blocks and the
  eight accumulators at any contents.  The body terminates, faults nowhere, and hands every buffer back, the
  inputs as they were.  This is all the frame claims need of it.
-/
import proofs.«146129_j80805514707451_2_alg».proof.Proof.LoopBits
import Idealize.ShloMosaic.Lib.Pipeline.Frame
import Idealize.ShloMosaic.Lib.Pipeline.FrameBody

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is in the grid's first column: the accumulators are cleared there. -/
abbrev condFirst (i : grid0.Coords) : Prop := (Scalar.cmpi .ne (Scalar.extui (Scalar.cmpi .eq (BitVec.ofNat 32 (i 1).val) 0#32)) 0#32) = 1#1
/-- The point is in the grid's last column: the accumulators are copied out there. -/
abbrev condLast (i : grid0.Coords) : Prop := k0_cond2 i = 1#1

theorem kernelRunFree (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  intro E K
  simp only [cc0__mp_kernel_eq_skeleton]; unfold cc0__mp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  by_cases hc0 : condFirst i <;> by_cases hc1 : condLast i
  all_goals
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Kernel.Hand

end
-- ==== Proof.CasesBits.lean ====
/-
  Which grid points do what.  The grid is 8 x 8, point t at row t / 8 and column t % 8.  The accumulators are
  cleared in column 0 and copied out in column 7; the four output windows are idle (not stored, not written back)
  in every other column, and the eight input windows are never idle.
-/
import proofs.«146129_j80805514707451_2_alg».proof.Proof.RunFreeBits
import proofs.«146129_j80805514707451_2_alg».proof.Proof.Gen.Kernel.Launch
import proofs.«146129_j80805514707451_2_alg».proof.Proof.Gen.Kernel.Points

noncomputable section

namespace Cert.Kernel.Hand

open Cert.Kernel Cert.Kernel.Gen
open Idealize.ShloMosaic Idealize.ShloMosaic.TcCoe
open Idealize.SL Idealize.SL.Sem

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem idleAt_8 : ∀ t : Fin cfg0.N, ¬condLast (grid0.coords t) → cfg0.idle 8 (grid0.coords t) = true := by decide +kernel
theorem noFlush_8 : ∀ t : Fin cfg0.N, ¬condLast (grid0.coords t) → (cfg0.win 8).flush t = false := by decide +kernel
theorem liveAt_8 : ∀ t : Fin cfg0.N, condLast (grid0.coords t) → cfg0.idle 8 (grid0.coords t) = false := by decide +kernel
theorem idleAt_9 : ∀ t : Fin cfg0.N, ¬condLast (grid0.coords t) → cfg0.idle 9 (grid0.coords t) = true := by decide +kernel
theorem noFlush_9 : ∀ t : Fin cfg0.N, ¬condLast (grid0.coords t) → (cfg0.win 9).flush t = false := by decide +kernel
theorem liveAt_9 : ∀ t : Fin cfg0.N, condLast (grid0.coords t) → cfg0.idle 9 (grid0.coords t) = false := by decide +kernel
theorem idleAt_10 : ∀ t : Fin cfg0.N, ¬condLast (grid0.coords t) → cfg0.idle 10 (grid0.coords t) = true := by decide +kernel
theorem noFlush_10 : ∀ t : Fin cfg0.N, ¬condLast (grid0.coords t) → (cfg0.win 10).flush t = false := by decide +kernel
theorem liveAt_10 : ∀ t : Fin cfg0.N, condLast (grid0.coords t) → cfg0.idle 10 (grid0.coords t) = false := by decide +kernel
theorem idleAt_11 : ∀ t : Fin cfg0.N, ¬condLast (grid0.coords t) → cfg0.idle 11 (grid0.coords t) = true := by decide +kernel
theorem noFlush_11 : ∀ t : Fin cfg0.N, ¬condLast (grid0.coords t) → (cfg0.win 11).flush t = false := by decide +kernel
theorem liveAt_11 : ∀ t : Fin cfg0.N, condLast (grid0.coords t) → cfg0.idle 11 (grid0.coords t) = false := by decide +kernel

end Cert.Kernel.Hand

end
-- ==== Proof.RunABits.lean ====
/-
  The kernel body at a point in the grid's first column (not its last): the accumulators are cleared, then the batch loop adds this column's tile sums; the output blocks are not touched.
  Held whole: the eight input blocks, the four output blocks and the eight accumulators, each at given contents.
  The body terminates and faults nowhere; it hands back the inputs as they were and each accumulator at contents
  the run finds (a function of the input blocks and of what the accumulators held), the output blocks as they were.
-/
import proofs.«146129_j80805514707451_2_alg».proof.Proof.CasesBits

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRunA (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) :
    Σ' (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty), { G21 : BufTy.Contents (Elt F) arg21.view.ty //
      ∀ (xi10 : Vec F S8x128 .f32) (xi11 : Vec F S8x128 .f32) (xi12 : Vec F S8x128x3 .f32) (xi13 : Vec F S8x128x3 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ owns (c : Thread nD τ) arg14 fullShare xs14 ∗ owns (c : Thread nD τ) arg15 fullShare xs15 ∗ owns (c : Thread nD τ) arg16 fullShare xs16 ∗ owns (c : Thread nD τ) arg17 fullShare xs17 ∗ owns (c : Thread nD τ) arg18 fullShare xs18 ∗ owns (c : Thread nD τ) arg19 fullShare xs19 ∗ owns (c : Thread nD τ) arg20 fullShare xs20 ∗ owns (c : Thread nD τ) arg21 fullShare xs21
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun xi10 xi11 xi12 xi13 E K => ?run⟩
  case run =>
    simp only [cc0__mp_kernel_eq_skeleton]; unfold cc0__mp_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.Kernel.Hand

end
-- ==== Proof.RunBBits.lean ====
/-
  The kernel body at a point in a middle column: the batch loop adds this column's tile sums to the accumulators; the output blocks are not touched.
  Held whole: the eight input blocks, the four output blocks and the eight accumulators, each at given contents.
  The body terminates and faults nowhere; it hands back the inputs as they were and each accumulator at contents
  the run finds (a function of the input blocks and of what the accumulators held), the output blocks as they were.
-/
import proofs.«146129_j80805514707451_2_alg».proof.Proof.CasesBits

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRunB (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) :
    Σ' (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty), { G21 : BufTy.Contents (Elt F) arg21.view.ty //
      ∀ (xi10 : Vec F S8x128 .f32) (xi11 : Vec F S8x128 .f32) (xi12 : Vec F S8x128x3 .f32) (xi13 : Vec F S8x128x3 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ owns (c : Thread nD τ) arg14 fullShare xs14 ∗ owns (c : Thread nD τ) arg15 fullShare xs15 ∗ owns (c : Thread nD τ) arg16 fullShare xs16 ∗ owns (c : Thread nD τ) arg17 fullShare xs17 ∗ owns (c : Thread nD τ) arg18 fullShare xs18 ∗ owns (c : Thread nD τ) arg19 fullShare xs19 ∗ owns (c : Thread nD τ) arg20 fullShare xs20 ∗ owns (c : Thread nD τ) arg21 fullShare xs21
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun xi10 xi11 xi12 xi13 E K => ?run⟩
  case run =>
    simp only [cc0__mp_kernel_eq_skeleton]; unfold cc0__mp_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.Kernel.Hand

end
-- ==== Proof.RunCBits.lean ====
/-
  The kernel body at a point in the grid's last column (not its first): the batch loop adds this column's tile sums, then the accumulators are copied into the four output blocks.
  Held whole: the eight input blocks, the four output blocks and the eight accumulators, each at given contents.
  The body terminates and faults nowhere; it hands back the inputs as they were and each accumulator at contents
  the run finds (a function of the input blocks and of what the accumulators held), and each output block overwritten by the pieces the run finds.
-/
import proofs.«146129_j80805514707451_2_alg».proof.Proof.CasesBits

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRunC (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) :
    Σ' (L10 : List (View.Piece (Elt F) S8x128 .f32)) (L11 : List (View.Piece (Elt F) S8x128 .f32)) (L12 : List (View.Piece (Elt F) S8x128x3 .f32)) (L13 : List (View.Piece (Elt F) S8x128x3 .f32)) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty), { G21 : BufTy.Contents (Elt F) arg21.view.ty //
      ∀ (xi10 : Vec F S8x128 .f32) (xi11 : Vec F S8x128 .f32) (xi12 : Vec F S8x128x3 .f32) (xi13 : Vec F S8x128x3 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xi12 ∗ owns (c : Thread nD τ) arg13 fullShare xi13 ∗ owns (c : Thread nD τ) arg14 fullShare xs14 ∗ owns (c : Thread nD τ) arg15 fullShare xs15 ∗ owns (c : Thread nD τ) arg16 fullShare xs16 ∗ owns (c : Thread nD τ) arg17 fullShare xs17 ∗ owns (c : Thread nD τ) arg18 fullShare xs18 ∗ owns (c : Thread nD τ) arg19 fullShare xs19 ∗ owns (c : Thread nD τ) arg20 fullShare xs20 ∗ owns (c : Thread nD τ) arg21 fullShare xs21
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, ?_, ?_, fun xi10 xi11 xi12 xi13 E K => ?run⟩
  case run =>
    simp only [cc0__mp_kernel_eq_skeleton]; unfold cc0__mp_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.Kernel.Hand

end
-- ==== Proof.DataBits.lean ====
/-
  What the kernel leaves, point by point.  After the body at grid point t the eight accumulators hold, for the
  point's row of 128 targets, the sums over the source columns visited so far in that grid row (column 0 starts
  them from zero); the four output blocks hold the accumulators' final values once column 7 has run, and are not
  touched before.  Stated here as a recursion on the point over the three runs of the body, together with the
  proof data of the launch: each input window's buffer holds its block of its array at every point, the position
  array and the converted mask array are each read through two windows and so are held at half shares, and the
  invariant carried from point to point is the eight accumulators at what the point before left.
-/
import proofs.«146129_j80805514707451_2_alg».proof.Proof.RunABits
import proofs.«146129_j80805514707451_2_alg».proof.Proof.RunBBits
import proofs.«146129_j80805514707451_2_alg».proof.Proof.RunCBits
import Idealize.ShloMosaic.Lib.Pipeline.Frame
import Idealize.ShloMosaic.Lib.Pipeline.FrameBody

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffers when the region is entered: after the one host operation before it (the mask converted to floats). -/
abbrev V (c : Dev nD) (b : Ref sig .tc) : Buf (Elt F) ((c.tc : Thread nD τ).loc b) :=
  StableHlo.after (hostOps0 (F := F)) (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh (fun c => main_chain c)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms_0 (t : Fin cfg0.N) : Memref sig .tc .vmem S8x128x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x128x3 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S8x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S8x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S8x128x3 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S8x128x3 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S8x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S8x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S8x128x3 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S8x128x3 .f32 := win0_11.stage (cfg0.slots t 11)
abbrev hs_11 (t : Fin cfg0.N) : (ms_11 t).IsWhole := hstage0_11 ((cfg0.slots t 11).cast nbuf0_11)
abbrev scM_14 : Memref sig .tc .vmem S8x128 .f32 := Memref.whole cc0_scratch0
abbrev scM_15 : Memref sig .tc .vmem S8x128 .f32 := Memref.whole cc0_scratch1
abbrev scM_16 : Memref sig .tc .vmem S8x128 .f32 := Memref.whole cc0_scratch2
abbrev scM_17 : Memref sig .tc .vmem S8x128 .f32 := Memref.whole cc0_scratch3
abbrev scM_18 : Memref sig .tc .vmem S8x128 .f32 := Memref.whole cc0_scratch4
abbrev scM_19 : Memref sig .tc .vmem S8x128 .f32 := Memref.whole cc0_scratch5
abbrev scM_20 : Memref sig .tc .vmem S8x128 .f32 := Memref.whole cc0_scratch6
abbrev scM_21 : Memref sig .tc .vmem S8x128 .f32 := Memref.whole cc0_scratch7
abbrev VO_8 : View sig .tc .vmem S8x128 .f32 := (Memref.whole cc0_stg8_0 : Memref sig .tc .vmem S8x128 .f32).view
abbrev VO_9 : View sig .tc .vmem S8x128 .f32 := (Memref.whole cc0_stg9_0 : Memref sig .tc .vmem S8x128 .f32).view
abbrev VO_10 : View sig .tc .vmem S8x128x3 .f32 := (Memref.whole cc0_stg10_0 : Memref sig .tc .vmem S8x128x3 .f32).view
abbrev VO_11 : View sig .tc .vmem S8x128x3 .f32 := (Memref.whole cc0_stg11_0 : Memref sig .tc .vmem S8x128x3 .f32).view

/-! ## What the outputs and the accumulators hold after each point -/

/-- The four output blocks and the eight accumulators after a point. -/
structure Outs (F : FTy → Type) [FloatOps F] where
  o8 : Vec F S8x128 .f32
  o9 : Vec F S8x128 .f32
  o10 : Vec F S8x128x3 .f32
  o11 : Vec F S8x128x3 .f32
  s14 : Vec F S8x128 .f32
  s15 : Vec F S8x128 .f32
  s16 : Vec F S8x128 .f32
  s17 : Vec F S8x128 .f32
  s18 : Vec F S8x128 .f32
  s19 : Vec F S8x128 .f32
  s20 : Vec F S8x128 .f32
  s21 : Vec F S8x128 .f32

/-- A point of the first column: the accumulators start from zero (what they held before does not matter), the outputs are not touched. -/
def outA (c : Dev nD) (t : Fin cfg0.N) (hc0 : condFirst (grid0.coords t)) (hc1 : ¬condLast (grid0.coords t)) : Outs F :=
  { o8 := VO_8.read (Elt F) VO_8.junk, o9 := VO_9.read (Elt F) VO_9.junk, o10 := VO_10.read (Elt F) VO_10.junk, o11 := VO_11.read (Elt F) VO_11.junk,
    s14 := scM_14.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).1,
    s15 := scM_15.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.1,
    s16 := scM_16.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.1,
    s17 := scM_17.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.1,
    s18 := scM_18.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.2.1,
    s19 := scM_19.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.2.2.1,
    s20 := scM_20.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.2.2.2.1,
    s21 := scM_21.view.read (Elt F) (kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk)).2.2.2.2.2.2.2.1 }

/-- A point of a middle column: the accumulators continue from what the point before left, the outputs are not touched. -/
def outB (c : Dev nD) (t : Fin cfg0.N) (hc0 : ¬condFirst (grid0.coords t)) (hc1 : ¬condLast (grid0.coords t)) (prev : Outs F) : Outs F :=
  { o8 := VO_8.read (Elt F) VO_8.junk, o9 := VO_9.read (Elt F) VO_9.junk, o10 := VO_10.read (Elt F) VO_10.junk, o11 := VO_11.read (Elt F) VO_11.junk,
    s14 := scM_14.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).1,
    s15 := scM_15.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.1,
    s16 := scM_16.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.1,
    s17 := scM_17.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.1,
    s18 := scM_18.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.1,
    s19 := scM_19.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.1,
    s20 := scM_20.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.1,
    s21 := scM_21.view.read (Elt F) (kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.1 }

/-- A point of the last column: the accumulators continue, and the outputs are written from them. -/
def outC (c : Dev nD) (t : Fin cfg0.N) (hc0 : ¬condFirst (grid0.coords t)) (hc1 : condLast (grid0.coords t)) (prev : Outs F) : Outs F :=
  { o8 := VO_8.read (Elt F) (VO_8.writes (Elt F) VO_8.junk (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).1),
    o9 := VO_9.read (Elt F) (VO_9.writes (Elt F) VO_9.junk (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.1),
    o10 := VO_10.read (Elt F) (VO_10.writes (Elt F) VO_10.junk (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.1),
    o11 := VO_11.read (Elt F) (VO_11.writes (Elt F) VO_11.junk (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.1),
    s14 := scM_14.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.1,
    s15 := scM_15.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.1,
    s16 := scM_16.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.1,
    s17 := scM_17.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.1,
    s18 := scM_18.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.2.1,
    s19 := scM_19.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.2.2.1,
    s20 := scM_20.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.2.2.2.1,
    s21 := scM_21.view.read (Elt F) (kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) prev.s14 prev.s15 prev.s16 prev.s17 prev.s18 prev.s19 prev.s20 prev.s21).2.2.2.2.2.2.2.2.2.2.2.1 }

def outsAt (c : Dev nD) : (n : ℕ) → n < cfg0.N → Outs F
  | 0, hn => outA m c ⟨0, hn⟩ ((hcondFirst ⟨0, hn⟩).mpr (Nat.zero_mod _)) (fun h => (fun h => by (try dsimp only at h); omega) ((hcondLast ⟨0, hn⟩).mp h))
  | n + 1, hn =>
    if h0 : (n + 1) % 8 = 0 then
      outA m c ⟨n + 1, hn⟩ ((hcondFirst ⟨n + 1, hn⟩).mpr h0) (fun h => (fun h => by (try dsimp only at h); omega) ((hcondLast ⟨n + 1, hn⟩).mp h))
    else if h1 : (n + 1) % 8 = 7 then
      outC m c ⟨n + 1, hn⟩ (fun h => h0 ((hcondFirst ⟨n + 1, hn⟩).mp h)) ((hcondLast ⟨n + 1, hn⟩).mpr h1) (outsAt c n (Nat.lt_of_succ_lt hn))
    else
      outB m c ⟨n + 1, hn⟩ (fun h => h0 ((hcondFirst ⟨n + 1, hn⟩).mp h)) (fun h => h1 ((hcondLast ⟨n + 1, hn⟩).mp h)) (outsAt c n (Nat.lt_of_succ_lt hn))

theorem outsAt_A (c : Dev nD) (t : Fin cfg0.N) (h0 : t.val % 8 = 0) :
    outsAt m c t.val t.isLt = outA m c t ((hcondFirst t).mpr h0) (fun h => (fun h => by omega) ((hcondLast t).mp h)) := by
  obtain ⟨n, hn⟩ := t
  cases n with
  | zero => exact rfl
  | succ n => exact (dif_pos h0).trans rfl

theorem outsAt_B (c : Dev nD) (t : Fin cfg0.N) (h0 : ¬t.val % 8 = 0) (h1 : ¬t.val % 8 = 7) :
    outsAt m c t.val t.isLt = outB m c t (fun h => h0 ((hcondFirst t).mp h)) (fun h => h1 ((hcondLast t).mp h)) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = outC m c t (fun h => h0 ((hcondFirst t).mp h)) ((hcondLast t).mpr h1) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg0.N → sProp 𝕄
  | 0, _ => Pipeline.scopedRest spec0 c
  | n + 1, hn => iprop(owns (c : Thread nD τ) scM_14 fullShare ((outsAt m c n hn).s14) ∗ owns (c : Thread nD τ) scM_15 fullShare ((outsAt m c n hn).s15) ∗ owns (c : Thread nD τ) scM_16 fullShare ((outsAt m c n hn).s16) ∗ owns (c : Thread nD τ) scM_17 fullShare ((outsAt m c n hn).s17) ∗ owns (c : Thread nD τ) scM_18 fullShare ((outsAt m c n hn).s18) ∗ owns (c : Thread nD τ) scM_19 fullShare ((outsAt m c n hn).s19) ∗ owns (c : Thread nD τ) scM_20 fullShare ((outsAt m c n hn).s20) ∗ owns (c : Thread nD τ) scM_21 fullShare ((outsAt m c n hn).s21))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM_14 fullShare ((outsAt m c n hn).s14) ∗ owns (c : Thread nD τ) scM_15 fullShare ((outsAt m c n hn).s15) ∗ owns (c : Thread nD τ) scM_16 fullShare ((outsAt m c n hn).s16) ∗ owns (c : Thread nD τ) scM_17 fullShare ((outsAt m c n hn).s17) ∗ owns (c : Thread nD τ) scM_18 fullShare ((outsAt m c n hn).s18) ∗ owns (c : Thread nD τ) scM_19 fullShare ((outsAt m c n hn).s19) ∗ owns (c : Thread nD τ) scM_20 fullShare ((outsAt m c n hn).s20) ∗ owns (c : Thread nD τ) scM_21 fullShare ((outsAt m c n hn).s21)) := rfl

theorem PhiS_pos (c : Dev nD) (n : ℕ) (h : n ≤ cfg0.N) (hz : n ≠ 0) :
    PhiS m c n h = iprop(owns (c : Thread nD τ) scM_14 fullShare ((outsAt m c (n - 1) (by omega)).s14) ∗ owns (c : Thread nD τ) scM_15 fullShare ((outsAt m c (n - 1) (by omega)).s15) ∗ owns (c : Thread nD τ) scM_16 fullShare ((outsAt m c (n - 1) (by omega)).s16) ∗ owns (c : Thread nD τ) scM_17 fullShare ((outsAt m c (n - 1) (by omega)).s17) ∗ owns (c : Thread nD τ) scM_18 fullShare ((outsAt m c (n - 1) (by omega)).s18) ∗ owns (c : Thread nD τ) scM_19 fullShare ((outsAt m c (n - 1) (by omega)).s19) ∗ owns (c : Thread nD τ) scM_20 fullShare ((outsAt m c (n - 1) (by omega)).s20) ∗ owns (c : Thread nD τ) scM_21 fullShare ((outsAt m c (n - 1) (by omega)).s21)) := by
  cases n with
  | zero => exact absurd rfl hz
  | succ n => rfl

/-- The scratch the launch hands the region: the eight accumulators, each whole at some contents. -/
theorem scoped_eq (c : Dev nD) :
    (Pipeline.scopedRest spec0 c : sProp 𝕄) = iprop((∃ d, owns (c : Thread nD τ) scM_14 fullShare d) ∗ (∃ d, owns (c : Thread nD τ) scM_15 fullShare d) ∗ (∃ d, owns (c : Thread nD τ) scM_16 fullShare d) ∗ (∃ d, owns (c : Thread nD τ) scM_17 fullShare d) ∗ (∃ d, owns (c : Thread nD τ) scM_18 fullShare d) ∗ (∃ d, owns (c : Thread nD τ) scM_19 fullShare d) ∗ (∃ d, owns (c : Thread nD τ) scM_20 fullShare d) ∗ (∃ d, owns (c : Thread nD τ) scM_21 fullShare d)) := by
  rw [scopedRest0_eq]; simp only [scM_14, scM_15, scM_16, scM_17, scM_18, scM_19, scM_20, scM_21, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).o8
    | ⟨9, _⟩ => (outsAt m c t.val t.isLt).o9
    | ⟨10, _⟩ => (outsAt m c t.val t.isLt).o10
    | ⟨11, _⟩ => (outsAt m c t.val t.isLt).o11
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (outsAt m c t.val t.isLt).o8 := by dsimp only [dats]
theorem after_9 (c : Dev nD) (t : Fin cfg0.N) : (dats m 0 c).after 9 t = (outsAt m c t.val t.isLt).o9 := by dsimp only [dats]
theorem after_10 (c : Dev nD) (t : Fin cfg0.N) : (dats m 0 c).after 10 t = (outsAt m c t.val t.isLt).o10 := by dsimp only [dats]
theorem after_11 (c : Dev nD) (t : Fin cfg0.N) : (dats m 0 c).after 11 t = (outsAt m c t.val t.isLt).o11 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

end Cert.Kernel.Hand

end
-- ==== Proof.BodyBits.lean ====
/-
  The body obligation of the launch.  At a grid point the body is handed the invariant (the eight accumulators at
  what the point before left; at the very first point, at anything) and the twelve windows' current buffers (each
  input's at its block, each output's at whatever it holds).  Which run of the body applies is decided by the
  point's column.  In the first column the accumulators restart from zero, so what they held does not matter;
  elsewhere they continue.  The outputs are stored only in the last column, where the three column stores of a
  three-component block tile it; in the other columns their buffers come back untouched.
-/
import proofs.«146129_j80805514707451_2_alg».proof.Proof.DataBits
import Idealize.ShloMosaic.Lib.Ring

set_option maxRecDepth 16384
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the first column what the accumulators held before does not enter what they hold after. -/
theorem runA_indep (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 xs'14 : Vec F S8x128 .f32) (xs15 xs'15 : Vec F S8x128 .f32) (xs16 xs'16 : Vec F S8x128 .f32) (xs17 xs'17 : Vec F S8x128 .f32) (xs18 xs'18 : Vec F S8x128 .f32) (xs19 xs'19 : Vec F S8x128 .f32) (xs20 xs'20 : Vec F S8x128 .f32) (xs21 xs'21 : Vec F S8x128 .f32) :
    (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.2.2.2.1
    ∧ (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.1 = (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs'14 xs'15 xs'16 xs'17 xs'18 xs'19 xs'20 xs'21).2.2.2.2.2.2.2.1 := by
  unfold kernelRunA
  exact ⟨rfl, rfl, rfl, rfl, rfl, rfl, rfl, rfl⟩

theorem coverC_8 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (y : S8x128.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1 S8x128.size (by sl_kernel_rfl) y

theorem coverC_9 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (y : S8x128.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1 S8x128.size (by sl_kernel_rfl) y

theorem coverC_10 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (y : S8x128x3.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1 (![8, 128, 1] : Fin 3 → ℕ) (by sl_kernel_rfl) y

theorem coverC_11 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i)
    (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (y : S8x128x3.Idx) :
    ∃ pc ∈ (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1, y ∈ pc.1.set :=
  View.cover_of_tiledL (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1 (![8, 128, 1] : Fin 3 → ℕ) (by sl_kernel_rfl) y

/-- The invariant before the very first point: each accumulator at some contents. -/
theorem Phi_first (c : Dev nD) (t : Fin cfg0.N) (hz : t.val = 0) :
    (dats m 0 c).Φ t.castSucc ⊢ iprop((∃ d, owns (c : Thread nD τ) scM_14 fullShare d) ∗ (∃ d, owns (c : Thread nD τ) scM_15 fullShare d) ∗ (∃ d, owns (c : Thread nD τ) scM_16 fullShare d) ∗ (∃ d, owns (c : Thread nD τ) scM_17 fullShare d) ∗ (∃ d, owns (c : Thread nD τ) scM_18 fullShare d) ∗ (∃ d, owns (c : Thread nD τ) scM_19 fullShare d) ∗ (∃ d, owns (c : Thread nD τ) scM_20 fullShare d) ∗ (∃ d, owns (c : Thread nD τ) scM_21 fullShare d)) := by
  rw [PhiS_castSucc m c t, PhiS_zero m c _ _ hz, scoped_eq c]

/-- The invariant before any later point: each accumulator at what the point before left. -/
theorem Phi_later (c : Dev nD) (t : Fin cfg0.N) (hz : t.val ≠ 0) :
    (dats m 0 c).Φ t.castSucc ⊢ iprop(owns (c : Thread nD τ) scM_14 fullShare ((outsAt m c (t.val - 1) (Nat.lt_of_le_of_lt (Nat.sub_le _ _) t.isLt)).s14) ∗ owns (c : Thread nD τ) scM_15 fullShare ((outsAt m c (t.val - 1) (Nat.lt_of_le_of_lt (Nat.sub_le _ _) t.isLt)).s15) ∗ owns (c : Thread nD τ) scM_16 fullShare ((outsAt m c (t.val - 1) (Nat.lt_of_le_of_lt (Nat.sub_le _ _) t.isLt)).s16) ∗ owns (c : Thread nD τ) scM_17 fullShare ((outsAt m c (t.val - 1) (Nat.lt_of_le_of_lt (Nat.sub_le _ _) t.isLt)).s17) ∗ owns (c : Thread nD τ) scM_18 fullShare ((outsAt m c (t.val - 1) (Nat.lt_of_le_of_lt (Nat.sub_le _ _) t.isLt)).s18) ∗ owns (c : Thread nD τ) scM_19 fullShare ((outsAt m c (t.val - 1) (Nat.lt_of_le_of_lt (Nat.sub_le _ _) t.isLt)).s19) ∗ owns (c : Thread nD τ) scM_20 fullShare ((outsAt m c (t.val - 1) (Nat.lt_of_le_of_lt (Nat.sub_le _ _) t.isLt)).s20) ∗ owns (c : Thread nD τ) scM_21 fullShare ((outsAt m c (t.val - 1) (Nat.lt_of_le_of_lt (Nat.sub_le _ _) t.isLt)).s21)) := by
  rw [PhiS_castSucc m c t, PhiS_pos m c _ _ hz]

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t], after_4]
  rw [show (dats m 0 c).leavesExact 5 t = owns (c : Thread nD τ) (ms_5 t) fullShare ((dats m 0 c).after 5 t) from by
    unfold Dat.leavesExact; rw [liveAt_5 t], after_5]
  rw [show (dats m 0 c).leavesExact 6 t = owns (c : Thread nD τ) (ms_6 t) fullShare ((dats m 0 c).after 6 t) from by
    unfold Dat.leavesExact; rw [liveAt_6 t], after_6]
  rw [show (dats m 0 c).leavesExact 7 t = owns (c : Thread nD τ) (ms_7 t) fullShare ((dats m 0 c).after 7 t) from by
    unfold Dat.leavesExact; rw [liveAt_7 t], after_7]
  by_cases h0 : t.val % 8 = 0
  · have hc0 : condFirst (grid0.coords t) := (hcondFirst t).mpr h0
    have hc1 : ¬condLast (grid0.coords t) := fun h => (fun h => by omega) ((hcondLast t).mp h)
    rw [Dat.leavesExact_idle (dats m 0 c) 8 t (idleAt_8 t hc1) (noFlush_8 t hc1)]
    rw [Dat.leavesExact_idle (dats m 0 c) 9 t (idleAt_9 t hc1) (noFlush_9 t hc1)]
    rw [Dat.leavesExact_idle (dats m 0 c) 10 t (idleAt_10 t hc1) (noFlush_10 t hc1)]
    rw [Dat.leavesExact_idle (dats m 0 c) 11 t (idleAt_11 t hc1) (noFlush_11 t hc1)]
    rw [outsAt_A m c t h0]
    unfold outA; (try dsimp only)
    by_cases hz : t.val = 0
    · iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      ihave HΦ' := (Phi_first m c t hz) $$ HΦ
      icases HΦ' with ⟨⟨%d14, HS14⟩, ⟨%d15, HS15⟩, ⟨%d16, HS16⟩, ⟨%d17, HS17⟩, ⟨%d18, HS18⟩, ⟨%d19, HS19⟩, ⟨%d20, HS20⟩, ⟨%d21, HS21⟩⟩
      iapply ((kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) d14 d15 d16 d17 d18 d19 d20 d21).2.2.2.2.2.2.2.2 ((dats m 0 c).before 8 t e8) ((dats m 0 c).before 9 t e9) ((dats m 0 c).before 10 t e10) ((dats m 0 c).before 11 t e11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      iintro ⟨H0, H1, H2, H3, H4, H5, H6, H7, H8, H9, H10, H11, HS14, HS15, HS16, HS17, HS18, HS19, HS20, HS21⟩
      isplitl [HS14 HS15 HS16 HS17 HS18 HS19 HS20 HS21]
      · isplitl [HS14]
        · unfold owns; iexists _; isplitr
          swap; · iexact HS14
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).1
        isplitl [HS15]
        · unfold owns; iexists _; isplitr
          swap; · iexact HS15
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.1
        isplitl [HS16]
        · unfold owns; iexists _; isplitr
          swap; · iexact HS16
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.1
        isplitl [HS17]
        · unfold owns; iexists _; isplitr
          swap; · iexact HS17
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.1
        isplitl [HS18]
        · unfold owns; iexists _; isplitr
          swap; · iexact HS18
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.1
        isplitl [HS19]
        · unfold owns; iexists _; isplitr
          swap; · iexact HS19
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.1
        isplitl [HS20]
        · unfold owns; iexists _; isplitr
          swap; · iexact HS20
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.2.1
        · unfold owns; iexists _; isplitr
          swap; · iexact HS21
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.2.2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11
    · iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      ihave HΦ' := (Phi_later m c t hz) $$ HΦ
      icases HΦ' with ⟨HS14, HS15, HS16, HS17, HS18, HS19, HS20, HS21⟩
      iapply ((kernelRunA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21)).2.2.2.2.2.2.2.2 ((dats m 0 c).before 8 t e8) ((dats m 0 c).before 9 t e9) ((dats m 0 c).before 10 t e10) ((dats m 0 c).before 11 t e11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      iintro ⟨H0, H1, H2, H3, H4, H5, H6, H7, H8, H9, H10, H11, HS14, HS15, HS16, HS17, HS18, HS19, HS20, HS21⟩
      isplitl [HS14 HS15 HS16 HS17 HS18 HS19 HS20 HS21]
      · isplitl [HS14]
        · unfold owns; iexists _; isplitr
          swap; · iexact HS14
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).1
        isplitl [HS15]
        · unfold owns; iexists _; isplitr
          swap; · iexact HS15
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.1
        isplitl [HS16]
        · unfold owns; iexists _; isplitr
          swap; · iexact HS16
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.1
        isplitl [HS17]
        · unfold owns; iexists _; isplitr
          swap; · iexact HS17
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.1
        isplitl [HS18]
        · unfold owns; iexists _; isplitr
          swap; · iexact HS18
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.1
        isplitl [HS19]
        · unfold owns; iexists _; isplitr
          swap; · iexact HS19
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.1
        isplitl [HS20]
        · unfold owns; iexists _; isplitr
          swap; · iexact HS20
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.2.1
        · unfold owns; iexists _; isplitr
          swap; · iexact HS21
          ipureintro; exact congrArg _ (runA_indep c _ _ _ _ _ _ _ _ _ _ _ _ _ _ _ _ _ _ _ _ _ _ _ _ _ _ _ _ _ _ _ _ _ _ _ _ _ _ _ _ _ hc0 hc1 _ _ _ _ _ _ _ _ _ _ _ _ _ _ _ _ _ _ _ _ _ _ _ _).2.2.2.2.2.2.2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11
  · have hz : t.val ≠ 0 := fun e => h0 (by rw [e])
    have hc0 : ¬condFirst (grid0.coords t) := fun h => h0 ((hcondFirst t).mp h)
    by_cases h1 : t.val % 8 = 7
    · have hc1 : condLast (grid0.coords t) := (hcondLast t).mpr h1
      rw [show (dats m 0 c).leavesExact 8 t = owns (c : Thread nD τ) (ms_8 t) fullShare ((dats m 0 c).after 8 t) from by
        unfold Dat.leavesExact; rw [liveAt_8 t hc1], after_8]
      rw [show (dats m 0 c).leavesExact 9 t = owns (c : Thread nD τ) (ms_9 t) fullShare ((dats m 0 c).after 9 t) from by
        unfold Dat.leavesExact; rw [liveAt_9 t hc1], after_9]
      rw [show (dats m 0 c).leavesExact 10 t = owns (c : Thread nD τ) (ms_10 t) fullShare ((dats m 0 c).after 10 t) from by
        unfold Dat.leavesExact; rw [liveAt_10 t hc1], after_10]
      rw [show (dats m 0 c).leavesExact 11 t = owns (c : Thread nD τ) (ms_11 t) fullShare ((dats m 0 c).after 11 t) from by
        unfold Dat.leavesExact; rw [liveAt_11 t hc1], after_11]
      rw [outsAt_C m c t h0 h1]
      unfold outC; (try dsimp only)
      iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      ihave HΦ' := (Phi_later m c t hz) $$ HΦ
      icases HΦ' with ⟨HS14, HS15, HS16, HS17, HS18, HS19, HS20, HS21⟩
      iapply ((kernelRunC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21)).2.2.2.2.2.2.2.2.2.2.2.2 ((dats m 0 c).before 8 t e8) ((dats m 0 c).before 9 t e9) ((dats m 0 c).before 10 t e10) ((dats m 0 c).before 11 t e11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      iintro ⟨H0, H1, H2, H3, H4, H5, H6, H7, H8, H9, H10, H11, HS14, HS15, HS16, HS17, HS18, HS19, HS20, HS21⟩
      isplitl [HS14 HS15 HS16 HS17 HS18 HS19 HS20 HS21]
      · isplitl [HS14]
        · unfold owns; iexists _; isplitr
          swap; · iexact HS14
          ipureintro; rfl
        isplitl [HS15]
        · unfold owns; iexists _; isplitr
          swap; · iexact HS15
          ipureintro; rfl
        isplitl [HS16]
        · unfold owns; iexists _; isplitr
          swap; · iexact HS16
          ipureintro; rfl
        isplitl [HS17]
        · unfold owns; iexists _; isplitr
          swap; · iexact HS17
          ipureintro; rfl
        isplitl [HS18]
        · unfold owns; iexists _; isplitr
          swap; · iexact HS18
          ipureintro; rfl
        isplitl [HS19]
        · unfold owns; iexists _; isplitr
          swap; · iexact HS19
          ipureintro; rfl
        isplitl [HS20]
        · unfold owns; iexists _; isplitr
          swap; · iexact HS20
          ipureintro; rfl
        · unfold owns; iexists _; isplitr
          swap; · iexact HS21
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · icases H8 with ⟨%g8, H8⟩
        unfold owns; iexists _; isplitr
        swap; · iexact H8
        ipureintro; exact View.read_writes_of_cover _ _ _ _ _ (coverC_8 c _ _ _ _ _ _ _ _ _ _ _ _ _ _ _ _ _ _ _ _ _ _ _ _ _ _ _ _ _ _ _ _ _ _ _ _ _ _ _ _ _ hc0 hc1 _ _ _ _ _ _ _ _ _ _ _ _ _ _ _ _)
      isplitl [H9]
      · icases H9 with ⟨%g9, H9⟩
        unfold owns; iexists _; isplitr
        swap; · iexact H9
        ipureintro; exact View.read_writes_of_cover _ _ _ _ _ (coverC_9 c _ _ _ _ _ _ _ _ _ _ _ _ _ _ _ _ _ _ _ _ _ _ _ _ _ _ _ _ _ _ _ _ _ _ _ _ _ _ _ _ _ hc0 hc1 _ _ _ _ _ _ _ _ _ _ _ _ _ _ _ _)
      isplitl [H10]
      · icases H10 with ⟨%g10, H10⟩
        unfold owns; iexists _; isplitr
        swap; · iexact H10
        ipureintro; exact View.read_writes_of_cover _ _ _ _ _ (coverC_10 c _ _ _ _ _ _ _ _ _ _ _ _ _ _ _ _ _ _ _ _ _ _ _ _ _ _ _ _ _ _ _ _ _ _ _ _ _ _ _ _ _ hc0 hc1 _ _ _ _ _ _ _ _ _ _ _ _ _ _ _ _)
      · icases H11 with ⟨%g11, H11⟩
        unfold owns; iexists _; isplitr
        swap; · iexact H11
        ipureintro; exact View.read_writes_of_cover _ _ _ _ _ (coverC_11 c _ _ _ _ _ _ _ _ _ _ _ _ _ _ _ _ _ _ _ _ _ _ _ _ _ _ _ _ _ _ _ _ _ _ _ _ _ _ _ _ _ hc0 hc1 _ _ _ _ _ _ _ _ _ _ _ _ _ _ _ _)
    · have hc1 : ¬condLast (grid0.coords t) := fun h => h1 ((hcondLast t).mp h)
      rw [Dat.leavesExact_idle (dats m 0 c) 8 t (idleAt_8 t hc1) (noFlush_8 t hc1)]
      rw [Dat.leavesExact_idle (dats m 0 c) 9 t (idleAt_9 t hc1) (noFlush_9 t hc1)]
      rw [Dat.leavesExact_idle (dats m 0 c) 10 t (idleAt_10 t hc1) (noFlush_10 t hc1)]
      rw [Dat.leavesExact_idle (dats m 0 c) 11 t (idleAt_11 t hc1) (noFlush_11 t hc1)]
      rw [outsAt_B m c t h0 h1]
      unfold outB; (try dsimp only)
      iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
      ihave HΦ' := (Phi_later m c t hz) $$ HΦ
      icases HΦ' with ⟨HS14, HS15, HS16, HS17, HS18, HS19, HS20, HS21⟩
      iapply ((kernelRunB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) hc0 hc1 (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21)).2.2.2.2.2.2.2.2 ((dats m 0 c).before 8 t e8) ((dats m 0 c).before 9 t e9) ((dats m 0 c).before 10 t e10) ((dats m 0 c).before 11 t e11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      iintro ⟨H0, H1, H2, H3, H4, H5, H6, H7, H8, H9, H10, H11, HS14, HS15, HS16, HS17, HS18, HS19, HS20, HS21⟩
      isplitl [HS14 HS15 HS16 HS17 HS18 HS19 HS20 HS21]
      · isplitl [HS14]
        · unfold owns; iexists _; isplitr
          swap; · iexact HS14
          ipureintro; rfl
        isplitl [HS15]
        · unfold owns; iexists _; isplitr
          swap; · iexact HS15
          ipureintro; rfl
        isplitl [HS16]
        · unfold owns; iexists _; isplitr
          swap; · iexact HS16
          ipureintro; rfl
        isplitl [HS17]
        · unfold owns; iexists _; isplitr
          swap; · iexact HS17
          ipureintro; rfl
        isplitl [HS18]
        · unfold owns; iexists _; isplitr
          swap; · iexact HS18
          ipureintro; rfl
        isplitl [HS19]
        · unfold owns; iexists _; isplitr
          swap; · iexact HS19
          ipureintro; rfl
        isplitl [HS20]
        · unfold owns; iexists _; isplitr
          swap; · iexact HS20
          ipureintro; rfl
        · unfold owns; iexists _; isplitr
          swap; · iexact HS21
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iexists _; iexact H11

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.MainBits.lean ====
/-
  The launch.  @main converts the mask to floats and calls the kernel on an 8 x 8 grid.  The position array is
  handed to the kernel through two windows (the targets' block and the sources' block), and so is the converted
  mask: each of the two arrays is held whole at the region's entry and shared between its two windows, half each.
  The mask argument itself is read by no window and passes around the region untouched.  The run: from any
  memory, every weakly fair execution of @main terminates without a fault, and at the end every windowed array
  holds what the write-backs made of it and the mask argument what it held.
-/
import proofs.«146129_j80805514707451_2_alg».proof.Proof.BodyBits
import Idealize.ShloMosaic.Lib.Pipeline.Launch
import Idealize.ShloMosaic.Lib.Pipeline.Kit

set_option maxRecDepth 16384
set_option maxHeartbeats 4000000

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner at round 0 and a token for every transfer the pipeline issues. -/
def u₀ : UR sig nD τ := initOf (Pipeline.cells cfgs cellOf_inj) (Pipeline.launchToks cfgs cellOf_inj)

theorem hin (c : Dev nD) : iprop(emp ∗ Pipeline.scopedRest spec0 c) ⊢ (dats m 0 c).Φ 0 := by
  rw [show (dats m 0 c).Φ 0 = Pipeline.scopedRest spec0 c from rfl]
  iintro ⟨-, H⟩; iexact H

theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq c]
  iintro ⟨HS14, HS15, HS16, HS17, HS18, HS19, HS20, HS21⟩
  isplitr; · iempintro
  isplitl [HS14]; · iexists _; iexact HS14
  isplitl [HS15]; · iexists _; iexact HS15
  isplitl [HS16]; · iexists _; iexact HS16
  isplitl [HS17]; · iexists _; iexact HS17
  isplitl [HS18]; · iexists _; iexact HS18
  isplitl [HS19]; · iexists _; iexact HS19
  isplitl [HS20]; · iexists _; iexact HS20
  iexists _; iexact HS21

/-- The arrays at the region's entry, shared among the windows. -/
theorem hsplit (c : Dev nD) : Pipeline.arrBufs spec0 c (V m c) ⊢ (dats m 0 c).arrays ((dats m 0 c).arrAt · 0) := by
  unfold Pipeline.arrBufs Dat.arrays
  rw [bigSep_eq_bigSepL_of_eq [main_arg0, main_call0_v0, main_arg2, main_arg3, main_arg4, main_arg5, main_v0_0, main_v0_1, main_v0_2, main_v0_3] (by decide) (by decide), bigSep_W0]
  rw [show (bigSepL [main_arg0, main_call0_v0, main_arg2, main_arg3, main_arg4, main_arg5, main_v0_0, main_v0_1, main_v0_2, main_v0_3] (fun b : Ref sig .tc => (((c.tc : Thread nD τ).loc b) ↦{fullShare} V m c b : sProp 𝕄)))
      = iprop((((c.tc : Thread nD τ).loc main_arg0) ↦{fullShare} V m c main_arg0) ∗ (((c.tc : Thread nD τ).loc main_call0_v0) ↦{fullShare} V m c main_call0_v0) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_v0_0) ↦{fullShare} V m c main_v0_0) ∗ (((c.tc : Thread nD τ).loc main_v0_1) ↦{fullShare} V m c main_v0_1) ∗ (((c.tc : Thread nD τ).loc main_v0_2) ↦{fullShare} V m c main_v0_2) ∗ (((c.tc : Thread nD τ).loc main_v0_3) ↦{fullShare} V m c main_v0_3)) from rfl]
  iintro ⟨Hpos, Hmk, Hq, Hm, Hmuq, Hmum, Ho0, Ho1, Ho2, Ho3⟩
  ihave Hpos' := (pointsTo_share (PosShare.mem_left_op_right fullShare)).1 $$ Hpos
  icases Hpos' with ⟨HposL, HposR⟩
  ihave Hmk' := (pointsTo_share (PosShare.mem_left_op_right fullShare)).1 $$ Hmk
  icases Hmk' with ⟨HmkL, HmkR⟩
  isplitl [HposL]
  · rw [(arr_whole0 0).set_eq_univ]; iexact HposL
  isplitl [HmkL]
  · rw [(arr_whole0 1).set_eq_univ]; iexact HmkL
  isplitl [HposR]
  · rw [(arr_whole0 2).set_eq_univ]; iexact HposR
  isplitl [HmkR]
  · rw [(arr_whole0 3).set_eq_univ]; iexact HmkR
  isplitl [Hq]
  · rw [(arr_whole0 4).set_eq_univ]; iexact Hq
  isplitl [Hm]
  · rw [(arr_whole0 5).set_eq_univ]; iexact Hm
  isplitl [Hmuq]
  · rw [(arr_whole0 6).set_eq_univ]; iexact Hmuq
  isplitl [Hmum]
  · rw [(arr_whole0 7).set_eq_univ]; iexact Hmum
  isplitl [Ho0]
  · rw [(arr_whole0 8).set_eq_univ]; iexact Ho0
  isplitl [Ho1]
  · rw [(arr_whole0 9).set_eq_univ]; iexact Ho1
  isplitl [Ho2]
  · rw [(arr_whole0 10).set_eq_univ]; iexact Ho2
  rw [(arr_whole0 11).set_eq_univ]; iexact Ho3

/-- What the run ends in: every windowed array at what the write-backs made of it, the mask argument untouched. -/
def Post : PUnit × MemSt nD τ sig (Elt F) → Prop := fun r => ∀ c : Dev nD,
  (∀ w : Fin cfg0.W, r.2.mem ((cfg0.win w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) ⟨m, fun _ => 0, ρ⟩ (Post m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m)
    (hsplit := hsplit m)
    (X := fun _ => iprop(emp)) (Y := fun _ => iprop(emp)) (Z := fun c => Pipeline.unscopedRest spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Hand

end
-- ==== Proof.FrameBits.lean ====
/-
  The frame: @main runs to the end without a fault and leaves its six argument arrays as it found them.  Five of
  them are read by input windows, which the pipeline only copies from; the mask is read by the one host operation
  before the kernel, which writes only its own result.
-/
import proofs.«146129_j80805514707451_2_alg».proof.Proof.MainBits
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

theorem V_arg0 (c : Dev nD) : V m c main_arg0 = m ((c.tc : Thread nD τ).loc main_arg0) := by
  show StableHlo.after (hostOps0 (F := F)) (fun b => m (c, b)) (Proc.devRef .tc main_arg0) = _
  dsimp only [hostOps0]; after_results
theorem V_arg1 (c : Dev nD) : V m c main_arg1 = m ((c.tc : Thread nD τ).loc main_arg1) := by
  show StableHlo.after (hostOps0 (F := F)) (fun b => m (c, b)) (Proc.devRef .tc main_arg1) = _
  dsimp only [hostOps0]; after_results
theorem V_arg2 (c : Dev nD) : V m c main_arg2 = m ((c.tc : Thread nD τ).loc main_arg2) := by
  show StableHlo.after (hostOps0 (F := F)) (fun b => m (c, b)) (Proc.devRef .tc main_arg2) = _
  dsimp only [hostOps0]; after_results
theorem V_arg3 (c : Dev nD) : V m c main_arg3 = m ((c.tc : Thread nD τ).loc main_arg3) := by
  show StableHlo.after (hostOps0 (F := F)) (fun b => m (c, b)) (Proc.devRef .tc main_arg3) = _
  dsimp only [hostOps0]; after_results
theorem V_arg4 (c : Dev nD) : V m c main_arg4 = m ((c.tc : Thread nD τ).loc main_arg4) := by
  show StableHlo.after (hostOps0 (F := F)) (fun b => m (c, b)) (Proc.devRef .tc main_arg4) = _
  dsimp only [hostOps0]; after_results
theorem V_arg5 (c : Dev nD) : V m c main_arg5 = m ((c.tc : Thread nD τ).loc main_arg5) := by
  show StableHlo.after (hostOps0 (F := F)) (fun b => m (c, b)) (Proc.devRef .tc main_arg5) = _
  dsimp only [hostOps0]; after_results

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 0).trans (((dats m 0 c).arrAt_in 0 rfl _).trans ((A_eq m c 0).trans (V_arg0 m c))),
    ((h c).2 main_arg1 (by decide)).trans (V_arg1 m c),
    ((h c).1 4).trans (((dats m 0 c).arrAt_in 4 rfl _).trans ((A_eq m c 4).trans (V_arg2 m c))),
    ((h c).1 5).trans (((dats m 0 c).arrAt_in 5 rfl _).trans ((A_eq m c 5).trans (V_arg3 m c))),
    ((h c).1 6).trans (((dats m 0 c).arrAt_in 6 rfl _).trans ((A_eq m c 6).trans (V_arg4 m c))),
    ((h c).1 7).trans (((dats m 0 c).arrAt_in 7 rfl _).trans ((A_eq m c 7).trans (V_arg5 m c)))⟩) (run_main m ρ)

end Cert.Kernel.Hand

end
-- ==== Proof.TripValIdeal.lean ====
/-
  What one trip of the batch loop stores.  Trip k stores exactly one piece into each accumulator: row k, holding
  that row as the trip found it plus the two lane sums (the monopole part and the dipole part) of batch k's
  128 x 128 pair table.  The trip's definition is opened here, once; everything later cites these equations.
-/
import proofs.«146129_j80805514707451_2_alg».proof.Proof.TripIdeal

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem trip_piece_14 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).1 f_arg14 f_arg15 f_arg16 f_arg17 f_arg18 f_arg19 f_arg20 f_arg21
      = [⟨(Rect.unit (s := S8x128) (k0_off4 k) ![1, 128] (k0_off4_inb k)), k0_pay72 (trip.sl.r_12 arg2 arg3 arg4 arg5 arg6 X_arg2 X_arg3 X_arg4 X_arg5 X_arg6 k) (trip.sl.r_23 arg2 arg3 arg4 arg5 arg8 X_arg2 X_arg3 X_arg4 X_arg5 X_arg8 k) (View.readAt (Elt F) arg14.view (Rect.unit (s := S8x128) (k0_off4 k) ![1, 128] (k0_off4_inb k)).toLoadRect f_arg14)⟩] := by
  unfold trip
  rfl

theorem trip_piece_15 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.1 f_arg14 f_arg15 f_arg16 f_arg17 f_arg18 f_arg19 f_arg20 f_arg21
      = [⟨(Rect.unit (s := S8x128) (k0_off4 k) ![1, 128] (k0_off4_inb k)), k0_pay73 (trip.sl.r_13 arg2 arg3 arg4 arg5 arg7 X_arg2 X_arg3 X_arg4 X_arg5 X_arg7 k) (trip.sl.r_24 arg2 arg3 arg4 arg5 arg9 X_arg2 X_arg3 X_arg4 X_arg5 X_arg9 k) (View.readAt (Elt F) arg15.view (Rect.unit (s := S8x128) (k0_off4 k) ![1, 128] (k0_off4_inb k)).toLoadRect f_arg15)⟩] := by
  unfold trip
  rfl

theorem trip_piece_16 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.1 f_arg14 f_arg15 f_arg16 f_arg17 f_arg18 f_arg19 f_arg20 f_arg21
      = [⟨(Rect.unit (s := S8x128) (k0_off4 k) ![1, 128] (k0_off4_inb k)), k0_pay74 (trip.sl.r_16 arg2 arg3 arg4 arg5 arg6 X_arg2 X_arg3 X_arg4 X_arg5 X_arg6 k) (trip.sl.r_25 arg2 arg3 arg4 arg5 arg8 X_arg2 X_arg3 X_arg4 X_arg5 X_arg8 k) (View.readAt (Elt F) arg16.view (Rect.unit (s := S8x128) (k0_off4 k) ![1, 128] (k0_off4_inb k)).toLoadRect f_arg16)⟩] := by
  unfold trip
  rfl

theorem trip_piece_17 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.1 f_arg14 f_arg15 f_arg16 f_arg17 f_arg18 f_arg19 f_arg20 f_arg21
      = [⟨(Rect.unit (s := S8x128) (k0_off4 k) ![1, 128] (k0_off4_inb k)), k0_pay75 (trip.sl.r_18 arg2 arg3 arg4 arg5 arg6 X_arg2 X_arg3 X_arg4 X_arg5 X_arg6 k) (trip.sl.r_26 arg2 arg3 arg4 arg5 arg8 X_arg2 X_arg3 X_arg4 X_arg5 X_arg8 k) (View.readAt (Elt F) arg17.view (Rect.unit (s := S8x128) (k0_off4 k) ![1, 128] (k0_off4_inb k)).toLoadRect f_arg17)⟩] := by
  unfold trip
  rfl

theorem trip_piece_18 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.1 f_arg14 f_arg15 f_arg16 f_arg17 f_arg18 f_arg19 f_arg20 f_arg21
      = [⟨(Rect.unit (s := S8x128) (k0_off4 k) ![1, 128] (k0_off4_inb k)), k0_pay2 (trip.sl.r_32 arg2 arg3 arg4 arg5 arg6 arg8 arg18 X_arg2 X_arg3 X_arg4 X_arg5 X_arg6 X_arg8 k f_arg18)⟩] := by
  unfold trip
  rfl

theorem trip_piece_19 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.1 f_arg14 f_arg15 f_arg16 f_arg17 f_arg18 f_arg19 f_arg20 f_arg21
      = [⟨(Rect.unit (s := S8x128) (k0_off4 k) ![1, 128] (k0_off4_inb k)), k0_pay3 (trip.sl.r_20 arg2 arg3 arg4 arg5 arg7 X_arg2 X_arg3 X_arg4 X_arg5 X_arg7 k) (trip.sl.r_28 arg2 arg3 arg4 arg5 arg9 X_arg2 X_arg3 X_arg4 X_arg5 X_arg9 k) (View.readAt (Elt F) arg19.view (Rect.unit (s := S8x128) (k0_off4 k) ![1, 128] (k0_off4_inb k)).toLoadRect f_arg19)⟩] := by
  unfold trip
  rfl

theorem trip_piece_20 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.1 f_arg14 f_arg15 f_arg16 f_arg17 f_arg18 f_arg19 f_arg20 f_arg21
      = [⟨(Rect.unit (s := S8x128) (k0_off4 k) ![1, 128] (k0_off4_inb k)), k0_pay4 (trip.sl.r_21 arg2 arg3 arg4 arg5 arg7 X_arg2 X_arg3 X_arg4 X_arg5 X_arg7 k) (trip.sl.r_29 arg2 arg3 arg4 arg5 arg9 X_arg2 X_arg3 X_arg4 X_arg5 X_arg9 k) (View.readAt (Elt F) arg20.view (Rect.unit (s := S8x128) (k0_off4 k) ![1, 128] (k0_off4_inb k)).toLoadRect f_arg20)⟩] := by
  unfold trip
  rfl

theorem trip_piece_21 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.2.1 f_arg14 f_arg15 f_arg16 f_arg17 f_arg18 f_arg19 f_arg20 f_arg21
      = [⟨(Rect.unit (s := S8x128) (k0_off4 k) ![1, 128] (k0_off4_inb k)), k0_pay5 (trip.sl.r_22 arg2 arg3 arg4 arg5 arg7 X_arg2 X_arg3 X_arg4 X_arg5 X_arg7 k) (trip.sl.r_31 arg2 arg3 arg4 arg5 arg9 X_arg2 X_arg3 X_arg4 X_arg5 X_arg9 k) (View.readAt (Elt F) arg21.view (Rect.unit (s := S8x128) (k0_off4 k) ![1, 128] (k0_off4_inb k)).toLoadRect f_arg21)⟩] := by
  unfold trip
  rfl

end Cert.KernelIdeal.Hand

end
-- ==== Proof.LoopValIdeal.lean ====
/-
  What the batch loop leaves in an accumulator.  Trip k overwrites row k with that row as found plus the trip's
  two lane sums; rows are visited once each, in order, so after all eight trips row b holds what it held at loop
  entry plus batch b's lane sums, for every b.
-/
import proofs.«146129_j80805514707451_2_alg».proof.Proof.LoopIdeal
import proofs.«146129_j80805514707451_2_alg».proof.Proof.TripValIdeal
import Idealize.ShloMosaic.Lib.WritesUnit
import Idealize.ShloMosaic.Lib.ValueLayout
import Idealize.ShloMosaic.Lib.ValueIdx
import Idealize.ShloMosaic.Lib.Pipeline.Value
import Idealize.ShloMosaic.Lib.Pipeline.FrameBody

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- Row k of an accumulator, as a rectangle. -/
abbrev rowRect (k : Fin k0_t1_loop.trips) : Rect S8x128 := Rect.unit (s := S8x128) (k0_off4 k) ![1, 128] (k0_off4_inb k)

theorem trips_lt (k : Fin k0_t1_loop.trips) : k.val < 8 := Nat.lt_of_lt_of_le k.isLt k0_t1_abs.2.1

/-- The piece a trip stores: the row as found plus the trip's lane vector. -/
abbrev rowPiece (arg : Memref sig .tc .vmem S8x128 .f32) (g : BufTy.Contents (Elt F) arg.view.ty) (k : Fin k0_t1_loop.trips) (T : FVec F S128 .f32) :
    View.Piece (Elt F) S8x128 .f32 :=
  ⟨rowRect k, shapeCast S1x128 (addf (shapeCast S128 (View.readAt (Elt F) arg.view (rowRect k).toLoadRect g) shapeCasts_S1x128_S128) T) shapeCasts_S128_S1x128⟩

/-- Reading after one such piece: row k gives the found row plus the lane vector, the other rows are untouched. -/
theorem read_rowPiece (arg : Memref sig .tc .vmem S8x128 .f32) (f g : BufTy.Contents (Elt F) arg.view.ty) (k : Fin k0_t1_loop.trips)
    (T : FVec F S128 .f32) (L : List (View.Piece (Elt F) S8x128 .f32)) (b : Fin 8) (p : Fin 128) :
    arg.view.read (Elt F) (arg.view.writes (Elt F) f (rowPiece arg g k T :: L)) (ix2 b p)
      = if b.val = k.val then FloatOps.addf (arg.view.read (Elt F) g (ix2 b p)) (T (ix1 p))
        else arg.view.read (Elt F) (arg.view.writes (Elt F) f L) (ix2 b p) := by
  by_cases h : b.val = k.val
  · rw [if_pos h]
    refine (View.read_writes_cons_rows_of_mem arg.view f (k0_off4_inb k) _ L (ix2 b p) (ix2 (0 : Fin 1) p) (k0_off4_eq k)
      (by show b.val = k.val + 0; omega) rfl).trans ?_
    rw [shapeCast_a_1a_apply]
    show FloatOps.addf (shapeCast S128 (View.readAt (Elt F) arg.view (rowRect k).toLoadRect g) shapeCasts_S1x128_S128 (ix1 p)) (T (ix1 p)) = _
    rw [shapeCast_1a_a_apply]
    refine congrArg (fun z => FloatOps.addf z (T (ix1 p))) ?_
    show arg.view.read (Elt F) g ((rowRect k).toLoadRect.idx (ix2 (0 : Fin 1) p)) = _
    refine congrArg (arg.view.read (Elt F) g) (funext fun a => Fin.ext ?_)
    have e := k0_off4_eq k
    match a with
    | ⟨0, _⟩ => show (k0_off4 k) 0 + 1 * 0 = b.val; rw [e]; show k.val + 1 * 0 = b.val; omega
    | ⟨1, _⟩ => show (k0_off4 k) 1 + 1 * p.val = p.val; rw [e]; show 0 + 1 * p.val = p.val; omega
  · rw [if_neg h]
    exact View.read_writes_cons_rows_of_not_mem arg.view f (k0_off4_inb k) _ L (ix2 b p) (k0_off4_eq k) rfl
      (by show b.val < k.val ∨ k.val + 1 ≤ b.val; omega)

theorem trips_eq : k0_t1_loop.trips = 8 := by decide

/-- The fold: a list of pieces that gains, at step k, row k as left by the earlier steps plus T k, read at (b, p)
    after kk steps. -/
theorem rows_fold (arg : Memref sig .tc .vmem S8x128 .f32) (G : BufTy.Contents (Elt F) arg.view.ty)
    (T : Fin k0_t1_loop.trips → FVec F S128 .f32) (P : ℕ → List (View.Piece (Elt F) S8x128 .f32)) (h0 : P 0 = [])
    (hs : ∀ k : Fin k0_t1_loop.trips, P (k.val + 1) = rowPiece arg (arg.view.writes (Elt F) G (P k.val)) k (T k) :: P k.val) :
    ∀ (kk : ℕ) (hkk : kk ≤ k0_t1_loop.trips) (b : Fin 8) (p : Fin 128),
      arg.view.read (Elt F) (arg.view.writes (Elt F) G (P kk)) (ix2 b p)
        = if h : b.val < kk then FloatOps.addf (arg.view.read (Elt F) G (ix2 b p)) (T ⟨b.val, Nat.lt_of_lt_of_le h hkk⟩ (ix1 p))
          else arg.view.read (Elt F) G (ix2 b p) := by
  intro kk
  induction kk with
  | zero =>
    intro hkk b p
    rw [h0, dif_neg (Nat.not_lt_zero _)]
    rfl
  | succ kk ih =>
    intro hkk b p
    have hk : kk < k0_t1_loop.trips := hkk
    rw [hs ⟨kk, hk⟩, read_rowPiece]
    by_cases hb : b.val = kk
    · rw [if_pos hb, ih (Nat.le_of_lt hk) b p, dif_neg (by omega), dif_pos (by omega)]
      have : (⟨kk, hk⟩ : Fin k0_t1_loop.trips) = ⟨b.val, Nat.lt_of_lt_of_le (by omega : b.val < kk + 1) hkk⟩ := Fin.ext hb.symm
      rw [this]
    · rw [if_neg hb, ih (Nat.le_of_lt hk) b p]
      by_cases hlt : b.val < kk
      · rw [dif_pos hlt, dif_pos (by omega)]
      · rw [dif_neg hlt, dif_neg (by omega)]

/-- Batch k's lane vector for accumulator 1: its monopole and dipole lane sums added. -/
abbrev T_14 (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32) (arg8 : Memref sig .tc .vmem S8x128x3 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (k : Fin k0_t1_loop.trips) : FVec F S128 .f32 :=
  addf (trip.sl.r_12 arg2 arg3 arg4 arg5 arg6 X_arg2 X_arg3 X_arg4 X_arg5 X_arg6 k) (trip.sl.r_23 arg2 arg3 arg4 arg5 arg8 X_arg2 X_arg3 X_arg4 X_arg5 X_arg8 k)

theorem pieces_14 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).1 f_arg14 f_arg15 f_arg16 f_arg17 f_arg18 f_arg19 f_arg20 f_arg21
      = [rowPiece arg14 f_arg14 k (T_14 (F := F) arg2 arg3 arg4 arg5 arg6 arg8 X_arg2 X_arg3 X_arg4 X_arg5 X_arg6 X_arg8 k)] := by
  rw [trip_piece_14]
  rfl

theorem loop_rows_14 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (b : Fin 8) (p : Fin 128) :
    arg14.view.read (Elt F) (arg14.view.writes (Elt F) G_arg14 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k0_t1_loop.trips).1)) (ix2 b p)
      = FloatOps.addf (arg14.view.read (Elt F) G_arg14 (ix2 b p)) (T_14 (F := F) arg2 arg3 arg4 arg5 arg6 arg8 X_arg2 X_arg3 X_arg4 X_arg5 X_arg6 X_arg8 ⟨b.val, by rw [trips_eq]; exact b.isLt⟩ (ix1 p)) := by
  have h := rows_fold (F := F) arg14 G_arg14 (fun k => T_14 (F := F) arg2 arg3 arg4 arg5 arg6 arg8 X_arg2 X_arg3 X_arg4 X_arg5 X_arg6 X_arg8 k) (fun kk => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 kk).1) rfl
    (fun k => by rw [pb_succ]; dsimp only; rw [pieces_14]; rfl) k0_t1_loop.trips (Nat.le_refl _) b p
  rw [dif_pos (by rw [trips_eq]; exact b.isLt)] at h
  exact h

/-- Batch k's lane vector for accumulator 2: its monopole and dipole lane sums added. -/
abbrev T_15 (arg2 : Memref sig .tc .vmem S8x128x3 .f32) (arg3 : Memref sig .tc .vmem S8x128 .f32) (arg4 : Memref sig .tc .vmem S8x128x3 .f32) (arg5 : Memref sig .tc .vmem S8x128 .f32) (arg7 : Memref sig .tc .vmem S8x128 .f32) (arg9 : Memref sig .tc .vmem S8x128x3 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg9 : BufTy.Contents (Elt F) arg9.view.ty) (k : Fin k0_t1_loop.trips) : FVec F S128 .f32 :=
  addf (trip.sl.r_13 arg2 arg3 arg4 arg5 arg7 X_arg2 X_arg3 X_arg4 X_arg5 X_arg7 k) (trip.sl.r_24 arg2 arg3 arg4 arg5 arg9 X_arg2 X_arg3 X_arg4 X_arg5 X_arg9 k)

theorem pieces_15 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.1 f_arg14 f_arg15 f_arg16 f_arg17 f_arg18 f_arg19 f_arg20 f_arg21
      = [rowPiece arg15 f_arg15 k (T_15 (F := F) arg2 arg3 arg4 arg5 arg7 arg9 X_arg2 X_arg3 X_arg4 X_arg5 X_arg7 X_arg9 k)] := by
  rw [trip_piece_15]
  rfl

theorem loop_rows_15 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (b : Fin 8) (p : Fin 128) :
    arg15.view.read (Elt F) (arg15.view.writes (Elt F) G_arg15 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k0_t1_loop.trips).2.1)) (ix2 b p)
      = FloatOps.addf (arg15.view.read (Elt F) G_arg15 (ix2 b p)) (T_15 (F := F) arg2 arg3 arg4 arg5 arg7 arg9 X_arg2 X_arg3 X_arg4 X_arg5 X_arg7 X_arg9 ⟨b.val, by rw [trips_eq]; exact b.isLt⟩ (ix1 p)) := by
  have h := rows_fold (F := F) arg15 G_arg15 (fun k => T_15 (F := F) arg2 arg3 arg4 arg5 arg7 arg9 X_arg2 X_arg3 X_arg4 X_arg5 X_arg7 X_arg9 k) (fun kk => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 kk).2.1) rfl
    (fun k => by rw [pb_succ]; dsimp only; rw [pieces_15]; rfl) k0_t1_loop.trips (Nat.le_refl _) b p
  rw [dif_pos (by rw [trips_eq]; exact b.isLt)] at h
  exact h

/-- Batch k's lane vector for accumulator 3: its monopole and dipole lane sums added. -/
abbrev T_16 (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32) (arg8 : Memref sig .tc .vmem S8x128x3 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (k : Fin k0_t1_loop.trips) : FVec F S128 .f32 :=
  addf (trip.sl.r_16 arg2 arg3 arg4 arg5 arg6 X_arg2 X_arg3 X_arg4 X_arg5 X_arg6 k) (trip.sl.r_25 arg2 arg3 arg4 arg5 arg8 X_arg2 X_arg3 X_arg4 X_arg5 X_arg8 k)

theorem pieces_16 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.1 f_arg14 f_arg15 f_arg16 f_arg17 f_arg18 f_arg19 f_arg20 f_arg21
      = [rowPiece arg16 f_arg16 k (T_16 (F := F) arg2 arg3 arg4 arg5 arg6 arg8 X_arg2 X_arg3 X_arg4 X_arg5 X_arg6 X_arg8 k)] := by
  rw [trip_piece_16]
  rfl

theorem loop_rows_16 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (b : Fin 8) (p : Fin 128) :
    arg16.view.read (Elt F) (arg16.view.writes (Elt F) G_arg16 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k0_t1_loop.trips).2.2.1)) (ix2 b p)
      = FloatOps.addf (arg16.view.read (Elt F) G_arg16 (ix2 b p)) (T_16 (F := F) arg2 arg3 arg4 arg5 arg6 arg8 X_arg2 X_arg3 X_arg4 X_arg5 X_arg6 X_arg8 ⟨b.val, by rw [trips_eq]; exact b.isLt⟩ (ix1 p)) := by
  have h := rows_fold (F := F) arg16 G_arg16 (fun k => T_16 (F := F) arg2 arg3 arg4 arg5 arg6 arg8 X_arg2 X_arg3 X_arg4 X_arg5 X_arg6 X_arg8 k) (fun kk => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 kk).2.2.1) rfl
    (fun k => by rw [pb_succ]; dsimp only; rw [pieces_16]; rfl) k0_t1_loop.trips (Nat.le_refl _) b p
  rw [dif_pos (by rw [trips_eq]; exact b.isLt)] at h
  exact h

/-- Batch k's lane vector for accumulator 4: its monopole and dipole lane sums added. -/
abbrev T_17 (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32) (arg8 : Memref sig .tc .vmem S8x128x3 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (k : Fin k0_t1_loop.trips) : FVec F S128 .f32 :=
  addf (trip.sl.r_18 arg2 arg3 arg4 arg5 arg6 X_arg2 X_arg3 X_arg4 X_arg5 X_arg6 k) (trip.sl.r_26 arg2 arg3 arg4 arg5 arg8 X_arg2 X_arg3 X_arg4 X_arg5 X_arg8 k)

theorem pieces_17 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.1 f_arg14 f_arg15 f_arg16 f_arg17 f_arg18 f_arg19 f_arg20 f_arg21
      = [rowPiece arg17 f_arg17 k (T_17 (F := F) arg2 arg3 arg4 arg5 arg6 arg8 X_arg2 X_arg3 X_arg4 X_arg5 X_arg6 X_arg8 k)] := by
  rw [trip_piece_17]
  rfl

theorem loop_rows_17 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (b : Fin 8) (p : Fin 128) :
    arg17.view.read (Elt F) (arg17.view.writes (Elt F) G_arg17 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k0_t1_loop.trips).2.2.2.1)) (ix2 b p)
      = FloatOps.addf (arg17.view.read (Elt F) G_arg17 (ix2 b p)) (T_17 (F := F) arg2 arg3 arg4 arg5 arg6 arg8 X_arg2 X_arg3 X_arg4 X_arg5 X_arg6 X_arg8 ⟨b.val, by rw [trips_eq]; exact b.isLt⟩ (ix1 p)) := by
  have h := rows_fold (F := F) arg17 G_arg17 (fun k => T_17 (F := F) arg2 arg3 arg4 arg5 arg6 arg8 X_arg2 X_arg3 X_arg4 X_arg5 X_arg6 X_arg8 k) (fun kk => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 kk).2.2.2.1) rfl
    (fun k => by rw [pb_succ]; dsimp only; rw [pieces_17]; rfl) k0_t1_loop.trips (Nat.le_refl _) b p
  rw [dif_pos (by rw [trips_eq]; exact b.isLt)] at h
  exact h

/-- Batch k's lane vector for accumulator 5: its monopole and dipole lane sums added. -/
abbrev T_18 (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32) (arg8 : Memref sig .tc .vmem S8x128x3 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (k : Fin k0_t1_loop.trips) : FVec F S128 .f32 :=
  addf (trip.sl.r_19 arg2 arg3 arg4 arg5 arg6 X_arg2 X_arg3 X_arg4 X_arg5 X_arg6 k) (trip.sl.r_27 arg2 arg3 arg4 arg5 arg8 X_arg2 X_arg3 X_arg4 X_arg5 X_arg8 k)

theorem pieces_18 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.1 f_arg14 f_arg15 f_arg16 f_arg17 f_arg18 f_arg19 f_arg20 f_arg21
      = [rowPiece arg18 f_arg18 k (T_18 (F := F) arg2 arg3 arg4 arg5 arg6 arg8 X_arg2 X_arg3 X_arg4 X_arg5 X_arg6 X_arg8 k)] := by
  rw [trip_piece_18]
  unfold trip.sl.r_32
  rfl

theorem loop_rows_18 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (b : Fin 8) (p : Fin 128) :
    arg18.view.read (Elt F) (arg18.view.writes (Elt F) G_arg18 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k0_t1_loop.trips).2.2.2.2.1)) (ix2 b p)
      = FloatOps.addf (arg18.view.read (Elt F) G_arg18 (ix2 b p)) (T_18 (F := F) arg2 arg3 arg4 arg5 arg6 arg8 X_arg2 X_arg3 X_arg4 X_arg5 X_arg6 X_arg8 ⟨b.val, by rw [trips_eq]; exact b.isLt⟩ (ix1 p)) := by
  have h := rows_fold (F := F) arg18 G_arg18 (fun k => T_18 (F := F) arg2 arg3 arg4 arg5 arg6 arg8 X_arg2 X_arg3 X_arg4 X_arg5 X_arg6 X_arg8 k) (fun kk => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 kk).2.2.2.2.1) rfl
    (fun k => by rw [pb_succ]; dsimp only; rw [pieces_18]; rfl) k0_t1_loop.trips (Nat.le_refl _) b p
  rw [dif_pos (by rw [trips_eq]; exact b.isLt)] at h
  exact h

/-- Batch k's lane vector for accumulator 6: its monopole and dipole lane sums added. -/
abbrev T_19 (arg2 : Memref sig .tc .vmem S8x128x3 .f32) (arg3 : Memref sig .tc .vmem S8x128 .f32) (arg4 : Memref sig .tc .vmem S8x128x3 .f32) (arg5 : Memref sig .tc .vmem S8x128 .f32) (arg7 : Memref sig .tc .vmem S8x128 .f32) (arg9 : Memref sig .tc .vmem S8x128x3 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg9 : BufTy.Contents (Elt F) arg9.view.ty) (k : Fin k0_t1_loop.trips) : FVec F S128 .f32 :=
  addf (trip.sl.r_20 arg2 arg3 arg4 arg5 arg7 X_arg2 X_arg3 X_arg4 X_arg5 X_arg7 k) (trip.sl.r_28 arg2 arg3 arg4 arg5 arg9 X_arg2 X_arg3 X_arg4 X_arg5 X_arg9 k)

theorem pieces_19 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.1 f_arg14 f_arg15 f_arg16 f_arg17 f_arg18 f_arg19 f_arg20 f_arg21
      = [rowPiece arg19 f_arg19 k (T_19 (F := F) arg2 arg3 arg4 arg5 arg7 arg9 X_arg2 X_arg3 X_arg4 X_arg5 X_arg7 X_arg9 k)] := by
  rw [trip_piece_19]
  rfl

theorem loop_rows_19 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (b : Fin 8) (p : Fin 128) :
    arg19.view.read (Elt F) (arg19.view.writes (Elt F) G_arg19 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k0_t1_loop.trips).2.2.2.2.2.1)) (ix2 b p)
      = FloatOps.addf (arg19.view.read (Elt F) G_arg19 (ix2 b p)) (T_19 (F := F) arg2 arg3 arg4 arg5 arg7 arg9 X_arg2 X_arg3 X_arg4 X_arg5 X_arg7 X_arg9 ⟨b.val, by rw [trips_eq]; exact b.isLt⟩ (ix1 p)) := by
  have h := rows_fold (F := F) arg19 G_arg19 (fun k => T_19 (F := F) arg2 arg3 arg4 arg5 arg7 arg9 X_arg2 X_arg3 X_arg4 X_arg5 X_arg7 X_arg9 k) (fun kk => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 kk).2.2.2.2.2.1) rfl
    (fun k => by rw [pb_succ]; dsimp only; rw [pieces_19]; rfl) k0_t1_loop.trips (Nat.le_refl _) b p
  rw [dif_pos (by rw [trips_eq]; exact b.isLt)] at h
  exact h

/-- Batch k's lane vector for accumulator 7: its monopole and dipole lane sums added. -/
abbrev T_20 (arg2 : Memref sig .tc .vmem S8x128x3 .f32) (arg3 : Memref sig .tc .vmem S8x128 .f32) (arg4 : Memref sig .tc .vmem S8x128x3 .f32) (arg5 : Memref sig .tc .vmem S8x128 .f32) (arg7 : Memref sig .tc .vmem S8x128 .f32) (arg9 : Memref sig .tc .vmem S8x128x3 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg9 : BufTy.Contents (Elt F) arg9.view.ty) (k : Fin k0_t1_loop.trips) : FVec F S128 .f32 :=
  addf (trip.sl.r_21 arg2 arg3 arg4 arg5 arg7 X_arg2 X_arg3 X_arg4 X_arg5 X_arg7 k) (trip.sl.r_29 arg2 arg3 arg4 arg5 arg9 X_arg2 X_arg3 X_arg4 X_arg5 X_arg9 k)

theorem pieces_20 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.1 f_arg14 f_arg15 f_arg16 f_arg17 f_arg18 f_arg19 f_arg20 f_arg21
      = [rowPiece arg20 f_arg20 k (T_20 (F := F) arg2 arg3 arg4 arg5 arg7 arg9 X_arg2 X_arg3 X_arg4 X_arg5 X_arg7 X_arg9 k)] := by
  rw [trip_piece_20]
  rfl

theorem loop_rows_20 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (b : Fin 8) (p : Fin 128) :
    arg20.view.read (Elt F) (arg20.view.writes (Elt F) G_arg20 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k0_t1_loop.trips).2.2.2.2.2.2.1)) (ix2 b p)
      = FloatOps.addf (arg20.view.read (Elt F) G_arg20 (ix2 b p)) (T_20 (F := F) arg2 arg3 arg4 arg5 arg7 arg9 X_arg2 X_arg3 X_arg4 X_arg5 X_arg7 X_arg9 ⟨b.val, by rw [trips_eq]; exact b.isLt⟩ (ix1 p)) := by
  have h := rows_fold (F := F) arg20 G_arg20 (fun k => T_20 (F := F) arg2 arg3 arg4 arg5 arg7 arg9 X_arg2 X_arg3 X_arg4 X_arg5 X_arg7 X_arg9 k) (fun kk => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 kk).2.2.2.2.2.2.1) rfl
    (fun k => by rw [pb_succ]; dsimp only; rw [pieces_20]; rfl) k0_t1_loop.trips (Nat.le_refl _) b p
  rw [dif_pos (by rw [trips_eq]; exact b.isLt)] at h
  exact h

/-- Batch k's lane vector for accumulator 8: its monopole and dipole lane sums added. -/
abbrev T_21 (arg2 : Memref sig .tc .vmem S8x128x3 .f32) (arg3 : Memref sig .tc .vmem S8x128 .f32) (arg4 : Memref sig .tc .vmem S8x128x3 .f32) (arg5 : Memref sig .tc .vmem S8x128 .f32) (arg7 : Memref sig .tc .vmem S8x128 .f32) (arg9 : Memref sig .tc .vmem S8x128x3 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg9 : BufTy.Contents (Elt F) arg9.view.ty) (k : Fin k0_t1_loop.trips) : FVec F S128 .f32 :=
  addf (trip.sl.r_22 arg2 arg3 arg4 arg5 arg7 X_arg2 X_arg3 X_arg4 X_arg5 X_arg7 k) (trip.sl.r_31 arg2 arg3 arg4 arg5 arg9 X_arg2 X_arg3 X_arg4 X_arg5 X_arg9 k)

theorem pieces_21 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 k).2.2.2.2.2.2.2.1 f_arg14 f_arg15 f_arg16 f_arg17 f_arg18 f_arg19 f_arg20 f_arg21
      = [rowPiece arg21 f_arg21 k (T_21 (F := F) arg2 arg3 arg4 arg5 arg7 arg9 X_arg2 X_arg3 X_arg4 X_arg5 X_arg7 X_arg9 k)] := by
  rw [trip_piece_21]
  rfl

theorem loop_rows_21 (𝒱 : Variants) (c : Dev nD) (bd : Option 𝒱.V) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (b : Fin 8) (p : Fin 128) :
    arg21.view.read (Elt F) (arg21.view.writes (Elt F) G_arg21 ((pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 k0_t1_loop.trips).2.2.2.2.2.2.2)) (ix2 b p)
      = FloatOps.addf (arg21.view.read (Elt F) G_arg21 (ix2 b p)) (T_21 (F := F) arg2 arg3 arg4 arg5 arg7 arg9 X_arg2 X_arg3 X_arg4 X_arg5 X_arg7 X_arg9 ⟨b.val, by rw [trips_eq]; exact b.isLt⟩ (ix1 p)) := by
  have h := rows_fold (F := F) arg21 G_arg21 (fun k => T_21 (F := F) arg2 arg3 arg4 arg5 arg7 arg9 X_arg2 X_arg3 X_arg4 X_arg5 X_arg7 X_arg9 k) (fun kk => (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 X_arg4 X_arg5 X_arg6 X_arg7 X_arg8 X_arg9 G_arg14 G_arg15 G_arg16 G_arg17 G_arg18 G_arg19 G_arg20 G_arg21 kk).2.2.2.2.2.2.2) rfl
    (fun k => by rw [pb_succ]; dsimp only; rw [pieces_21]; rfl) k0_t1_loop.trips (Nat.le_refl _) b p
  rw [dif_pos (by rw [trips_eq]; exact b.isLt)] at h
  exact h

end Cert.KernelIdeal.Hand

end
-- ==== Proof.CaseValIdeal.lean ====
/-
  What an accumulator holds after a grid point, entry by entry.  In a middle or last column: what it held plus
  the point's lane vector for that batch row.  In the first column: zero plus the lane vector, whatever it held.
-/
import proofs.«146129_j80805514707451_2_alg».proof.Proof.LoopValIdeal
import proofs.«146129_j80805514707451_2_alg».proof.Proof.RunAIdeal
import proofs.«146129_j80805514707451_2_alg».proof.Proof.RunBIdeal
import proofs.«146129_j80805514707451_2_alg».proof.Proof.RunCIdeal

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The float zero the accumulators are cleared to. -/
abbrev zeroF : F .f32 := Scalar.ofBits .f32 0x00000000#32

theorem runB_s_14 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg14.view.read (Elt F) (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1 (ix2 b p)
      = FloatOps.addf (xs14 (ix2 b p)) (T_14 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunB; dsimp only
  refine (loop_rows_14 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg14.read_unread]

theorem runC_s_14 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg14.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.1 (ix2 b p)
      = FloatOps.addf (xs14 (ix2 b p)) (T_14 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunC; dsimp only
  refine (loop_rows_14 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg14.read_unread]

theorem runB_s_15 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg15.view.read (Elt F) (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1 (ix2 b p)
      = FloatOps.addf (xs15 (ix2 b p)) (T_15 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunB; dsimp only
  refine (loop_rows_15 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg15.read_unread]

theorem runC_s_15 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg15.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.1 (ix2 b p)
      = FloatOps.addf (xs15 (ix2 b p)) (T_15 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunC; dsimp only
  refine (loop_rows_15 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg15.read_unread]

theorem runB_s_16 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg16.view.read (Elt F) (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1 (ix2 b p)
      = FloatOps.addf (xs16 (ix2 b p)) (T_16 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunB; dsimp only
  refine (loop_rows_16 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg16.read_unread]

theorem runC_s_16 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg16.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.1 (ix2 b p)
      = FloatOps.addf (xs16 (ix2 b p)) (T_16 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunC; dsimp only
  refine (loop_rows_16 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg16.read_unread]

theorem runB_s_17 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg17.view.read (Elt F) (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1 (ix2 b p)
      = FloatOps.addf (xs17 (ix2 b p)) (T_17 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunB; dsimp only
  refine (loop_rows_17 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg17.read_unread]

theorem runC_s_17 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg17.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.1 (ix2 b p)
      = FloatOps.addf (xs17 (ix2 b p)) (T_17 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunC; dsimp only
  refine (loop_rows_17 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg17.read_unread]

theorem runB_s_18 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg18.view.read (Elt F) (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.1 (ix2 b p)
      = FloatOps.addf (xs18 (ix2 b p)) (T_18 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunB; dsimp only
  refine (loop_rows_18 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg18.read_unread]

theorem runC_s_18 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg18.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.2.1 (ix2 b p)
      = FloatOps.addf (xs18 (ix2 b p)) (T_18 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunC; dsimp only
  refine (loop_rows_18 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg18.read_unread]

theorem runB_s_19 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg19.view.read (Elt F) (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.1 (ix2 b p)
      = FloatOps.addf (xs19 (ix2 b p)) (T_19 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunB; dsimp only
  refine (loop_rows_19 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg19.read_unread]

theorem runC_s_19 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg19.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.2.2.1 (ix2 b p)
      = FloatOps.addf (xs19 (ix2 b p)) (T_19 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunC; dsimp only
  refine (loop_rows_19 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg19.read_unread]

theorem runB_s_20 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg20.view.read (Elt F) (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.1 (ix2 b p)
      = FloatOps.addf (xs20 (ix2 b p)) (T_20 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunB; dsimp only
  refine (loop_rows_20 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg20.read_unread]

theorem runC_s_20 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg20.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.2.2.2.1 (ix2 b p)
      = FloatOps.addf (xs20 (ix2 b p)) (T_20 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunC; dsimp only
  refine (loop_rows_20 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg20.read_unread]

theorem runB_s_21 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg21.view.read (Elt F) (kernelRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.1 (ix2 b p)
      = FloatOps.addf (xs21 (ix2 b p)) (T_21 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunB; dsimp only
  refine (loop_rows_21 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg21.read_unread]

theorem runC_s_21 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg21.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.2.2.2.2.1 (ix2 b p)
      = FloatOps.addf (xs21 (ix2 b p)) (T_21 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunC; dsimp only
  refine (loop_rows_21 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (harg14.unread xs14) (harg15.unread xs15) (harg16.unread xs16) (harg17.unread xs17) (harg18.unread xs18) (harg19.unread xs19) (harg20.unread xs20) (harg21.unread xs21) b p).trans ?_
  rw [harg21.read_unread]

theorem runA_s_14 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg14.view.read (Elt F) (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1 (ix2 b p)
      = FloatOps.addf (zeroF (F := F)) (T_14 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunA; dsimp only
  rw [View.writes_append]
  refine (loop_rows_14 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (arg14.view.writes (Elt F) arg14.view.junk kernelRunA.sl.H14_1) (arg15.view.writes (Elt F) arg15.view.junk kernelRunA.sl.H15_1) (arg16.view.writes (Elt F) arg16.view.junk kernelRunA.sl.H16_1) (arg17.view.writes (Elt F) arg17.view.junk kernelRunA.sl.H17_1) (arg18.view.writes (Elt F) arg18.view.junk kernelRunA.sl.H18_1) (arg19.view.writes (Elt F) arg19.view.junk kernelRunA.sl.H19_1) (arg20.view.writes (Elt F) arg20.view.junk kernelRunA.sl.H20_1) (arg21.view.writes (Elt F) arg21.view.junk kernelRunA.sl.H21_1) b p).trans ?_
  refine congrArg (fun z => FloatOps.addf z _) ?_
  unfold kernelRunA.sl.H14_1
  refine (View.read_writes_cons_rows_of_mem arg14.view arg14.view.junk inb_S8x128_S8x128_0_0 _ [] (ix2 b p) (ix2 b p) (o := 0) rfl
    (by show b.val = 0 + b.val; omega) rfl).trans ?_
  first
    | rfl
    | (simp only [k0_pay1, k0_pay8, k0_pay9, k0_pay10, k0_pay11, k0_pay12, k0_pay13, k0_pay14, k0_pay15, shapeCast_self]; rfl)

theorem runA_s_15 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg15.view.read (Elt F) (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1 (ix2 b p)
      = FloatOps.addf (zeroF (F := F)) (T_15 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunA; dsimp only
  rw [View.writes_append]
  refine (loop_rows_15 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (arg14.view.writes (Elt F) arg14.view.junk kernelRunA.sl.H14_1) (arg15.view.writes (Elt F) arg15.view.junk kernelRunA.sl.H15_1) (arg16.view.writes (Elt F) arg16.view.junk kernelRunA.sl.H16_1) (arg17.view.writes (Elt F) arg17.view.junk kernelRunA.sl.H17_1) (arg18.view.writes (Elt F) arg18.view.junk kernelRunA.sl.H18_1) (arg19.view.writes (Elt F) arg19.view.junk kernelRunA.sl.H19_1) (arg20.view.writes (Elt F) arg20.view.junk kernelRunA.sl.H20_1) (arg21.view.writes (Elt F) arg21.view.junk kernelRunA.sl.H21_1) b p).trans ?_
  refine congrArg (fun z => FloatOps.addf z _) ?_
  unfold kernelRunA.sl.H15_1
  refine (View.read_writes_cons_rows_of_mem arg15.view arg15.view.junk inb_S8x128_S8x128_0_0 _ [] (ix2 b p) (ix2 b p) (o := 0) rfl
    (by show b.val = 0 + b.val; omega) rfl).trans ?_
  first
    | rfl
    | (simp only [k0_pay1, k0_pay8, k0_pay9, k0_pay10, k0_pay11, k0_pay12, k0_pay13, k0_pay14, k0_pay15, shapeCast_self]; rfl)

theorem runA_s_16 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg16.view.read (Elt F) (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1 (ix2 b p)
      = FloatOps.addf (zeroF (F := F)) (T_16 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunA; dsimp only
  rw [View.writes_append]
  refine (loop_rows_16 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (arg14.view.writes (Elt F) arg14.view.junk kernelRunA.sl.H14_1) (arg15.view.writes (Elt F) arg15.view.junk kernelRunA.sl.H15_1) (arg16.view.writes (Elt F) arg16.view.junk kernelRunA.sl.H16_1) (arg17.view.writes (Elt F) arg17.view.junk kernelRunA.sl.H17_1) (arg18.view.writes (Elt F) arg18.view.junk kernelRunA.sl.H18_1) (arg19.view.writes (Elt F) arg19.view.junk kernelRunA.sl.H19_1) (arg20.view.writes (Elt F) arg20.view.junk kernelRunA.sl.H20_1) (arg21.view.writes (Elt F) arg21.view.junk kernelRunA.sl.H21_1) b p).trans ?_
  refine congrArg (fun z => FloatOps.addf z _) ?_
  unfold kernelRunA.sl.H16_1
  refine (View.read_writes_cons_rows_of_mem arg16.view arg16.view.junk inb_S8x128_S8x128_0_0 _ [] (ix2 b p) (ix2 b p) (o := 0) rfl
    (by show b.val = 0 + b.val; omega) rfl).trans ?_
  first
    | rfl
    | (simp only [k0_pay1, k0_pay8, k0_pay9, k0_pay10, k0_pay11, k0_pay12, k0_pay13, k0_pay14, k0_pay15, shapeCast_self]; rfl)

theorem runA_s_17 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg17.view.read (Elt F) (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1 (ix2 b p)
      = FloatOps.addf (zeroF (F := F)) (T_17 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunA; dsimp only
  rw [View.writes_append]
  refine (loop_rows_17 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (arg14.view.writes (Elt F) arg14.view.junk kernelRunA.sl.H14_1) (arg15.view.writes (Elt F) arg15.view.junk kernelRunA.sl.H15_1) (arg16.view.writes (Elt F) arg16.view.junk kernelRunA.sl.H16_1) (arg17.view.writes (Elt F) arg17.view.junk kernelRunA.sl.H17_1) (arg18.view.writes (Elt F) arg18.view.junk kernelRunA.sl.H18_1) (arg19.view.writes (Elt F) arg19.view.junk kernelRunA.sl.H19_1) (arg20.view.writes (Elt F) arg20.view.junk kernelRunA.sl.H20_1) (arg21.view.writes (Elt F) arg21.view.junk kernelRunA.sl.H21_1) b p).trans ?_
  refine congrArg (fun z => FloatOps.addf z _) ?_
  unfold kernelRunA.sl.H17_1
  refine (View.read_writes_cons_rows_of_mem arg17.view arg17.view.junk inb_S8x128_S8x128_0_0 _ [] (ix2 b p) (ix2 b p) (o := 0) rfl
    (by show b.val = 0 + b.val; omega) rfl).trans ?_
  first
    | rfl
    | (simp only [k0_pay1, k0_pay8, k0_pay9, k0_pay10, k0_pay11, k0_pay12, k0_pay13, k0_pay14, k0_pay15, shapeCast_self]; rfl)

theorem runA_s_18 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg18.view.read (Elt F) (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.1 (ix2 b p)
      = FloatOps.addf (zeroF (F := F)) (T_18 (F := F) arg2 arg3 arg4 arg5 arg6 arg8 (harg2.unread x2) (harg3.unread x3) (harg4.unread x4) (harg5.unread x5) (harg6.unread x6) (harg8.unread x8) ⟨b.val, by rw [trips_eq]; exact b.isLt⟩ (ix1 p)) := by
  unfold kernelRunA; dsimp only
  rw [View.writes_append]
  refine (loop_rows_18 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (arg14.view.writes (Elt F) arg14.view.junk kernelRunA.sl.H14_1) (arg15.view.writes (Elt F) arg15.view.junk kernelRunA.sl.H15_1) (arg16.view.writes (Elt F) arg16.view.junk kernelRunA.sl.H16_1) (arg17.view.writes (Elt F) arg17.view.junk kernelRunA.sl.H17_1) (arg18.view.writes (Elt F) arg18.view.junk kernelRunA.sl.H18_1) (arg19.view.writes (Elt F) arg19.view.junk kernelRunA.sl.H19_1) (arg20.view.writes (Elt F) arg20.view.junk kernelRunA.sl.H20_1) (arg21.view.writes (Elt F) arg21.view.junk kernelRunA.sl.H21_1) b p).trans ?_
  refine congrArg (fun z => FloatOps.addf z _) ?_
  unfold kernelRunA.sl.H18_1
  refine (View.read_writes_cons_rows_of_mem arg18.view arg18.view.junk inb_S8x128_S8x128_0_0 _ [] (ix2 b p) (ix2 b p) (o := 0) rfl
    (by show b.val = 0 + b.val; omega) rfl).trans ?_
  first
    | rfl
    | (simp only [k0_pay1, k0_pay8, k0_pay9, k0_pay10, k0_pay11, k0_pay12, k0_pay13, k0_pay14, k0_pay15, shapeCast_self]; rfl)

theorem runA_s_19 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg19.view.read (Elt F) (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.1 (ix2 b p)
      = FloatOps.addf (zeroF (F := F)) (T_19 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunA; dsimp only
  rw [View.writes_append]
  refine (loop_rows_19 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (arg14.view.writes (Elt F) arg14.view.junk kernelRunA.sl.H14_1) (arg15.view.writes (Elt F) arg15.view.junk kernelRunA.sl.H15_1) (arg16.view.writes (Elt F) arg16.view.junk kernelRunA.sl.H16_1) (arg17.view.writes (Elt F) arg17.view.junk kernelRunA.sl.H17_1) (arg18.view.writes (Elt F) arg18.view.junk kernelRunA.sl.H18_1) (arg19.view.writes (Elt F) arg19.view.junk kernelRunA.sl.H19_1) (arg20.view.writes (Elt F) arg20.view.junk kernelRunA.sl.H20_1) (arg21.view.writes (Elt F) arg21.view.junk kernelRunA.sl.H21_1) b p).trans ?_
  refine congrArg (fun z => FloatOps.addf z _) ?_
  unfold kernelRunA.sl.H19_1
  refine (View.read_writes_cons_rows_of_mem arg19.view arg19.view.junk inb_S8x128_S8x128_0_0 _ [] (ix2 b p) (ix2 b p) (o := 0) rfl
    (by show b.val = 0 + b.val; omega) rfl).trans ?_
  first
    | rfl
    | (simp only [k0_pay1, k0_pay8, k0_pay9, k0_pay10, k0_pay11, k0_pay12, k0_pay13, k0_pay14, k0_pay15, shapeCast_self]; rfl)

theorem runA_s_20 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg20.view.read (Elt F) (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.1 (ix2 b p)
      = FloatOps.addf (zeroF (F := F)) (T_20 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunA; dsimp only
  rw [View.writes_append]
  refine (loop_rows_20 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (arg14.view.writes (Elt F) arg14.view.junk kernelRunA.sl.H14_1) (arg15.view.writes (Elt F) arg15.view.junk kernelRunA.sl.H15_1) (arg16.view.writes (Elt F) arg16.view.junk kernelRunA.sl.H16_1) (arg17.view.writes (Elt F) arg17.view.junk kernelRunA.sl.H17_1) (arg18.view.writes (Elt F) arg18.view.junk kernelRunA.sl.H18_1) (arg19.view.writes (Elt F) arg19.view.junk kernelRunA.sl.H19_1) (arg20.view.writes (Elt F) arg20.view.junk kernelRunA.sl.H20_1) (arg21.view.writes (Elt F) arg21.view.junk kernelRunA.sl.H21_1) b p).trans ?_
  refine congrArg (fun z => FloatOps.addf z _) ?_
  unfold kernelRunA.sl.H20_1
  refine (View.read_writes_cons_rows_of_mem arg20.view arg20.view.junk inb_S8x128_S8x128_0_0 _ [] (ix2 b p) (ix2 b p) (o := 0) rfl
    (by show b.val = 0 + b.val; omega) rfl).trans ?_
  first
    | rfl
    | (simp only [k0_pay1, k0_pay8, k0_pay9, k0_pay10, k0_pay11, k0_pay12, k0_pay13, k0_pay14, k0_pay15, shapeCast_self]; rfl)

theorem runA_s_21 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : condFirst i) (hc1 : ¬condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32) (b : Fin 8) (p : Fin 128) :
    arg21.view.read (Elt F) (kernelRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.1 (ix2 b p)
      = FloatOps.addf (zeroF (F := F)) (T_21 (F := F) arg2 arg3 arg4 arg5 arg7 arg9 (harg2.unread x2) (harg3.unread x3) (harg4.unread x4) (harg5.unread x5) (harg7.unread x7) (harg9.unread x9) ⟨b.val, by rw [trips_eq]; exact b.isLt⟩ (ix1 p)) := by
  unfold kernelRunA; dsimp only
  rw [View.writes_append]
  refine (loop_rows_21 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x2) (harg3.unread x3) (harg4.unread x4) (harg5.unread x5) (harg6.unread x6) (harg7.unread x7) (harg8.unread x8) (harg9.unread x9) (arg14.view.writes (Elt F) arg14.view.junk kernelRunA.sl.H14_1) (arg15.view.writes (Elt F) arg15.view.junk kernelRunA.sl.H15_1) (arg16.view.writes (Elt F) arg16.view.junk kernelRunA.sl.H16_1) (arg17.view.writes (Elt F) arg17.view.junk kernelRunA.sl.H17_1) (arg18.view.writes (Elt F) arg18.view.junk kernelRunA.sl.H18_1) (arg19.view.writes (Elt F) arg19.view.junk kernelRunA.sl.H19_1) (arg20.view.writes (Elt F) arg20.view.junk kernelRunA.sl.H20_1) (arg21.view.writes (Elt F) arg21.view.junk kernelRunA.sl.H21_1) b p).trans ?_
  refine congrArg (fun z => FloatOps.addf z _) ?_
  unfold kernelRunA.sl.H21_1
  refine (View.read_writes_cons_rows_of_mem arg21.view arg21.view.junk inb_S8x128_S8x128_0_0 _ [] (ix2 b p) (ix2 b p) (o := 0) rfl
    (by show b.val = 0 + b.val; omega) rfl).trans ?_
  first
    | rfl
    | (simp only [k0_pay1, k0_pay8, k0_pay9, k0_pay10, k0_pay11, k0_pay12, k0_pay13, k0_pay14, k0_pay15, shapeCast_self]; rfl)

/-- An `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu]; omega)

/-- In the last column output 1 is the accumulator it is copied from. -/
theorem runC_o_8 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32)
    (v : View sig .tc .vmem S8x128 .f32) (f : v.ty.Contents (Elt F)) (b : Fin 8) (p : Fin 128) :
    v.read (Elt F) (v.writes (Elt F) f (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).1) (ix2 b p)
      = arg14.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.1 (ix2 b p) := by
  unfold kernelRunC; dsimp only; sl_unfold_run_names
  refine (View.read_writes_cons_rows_of_mem v f _ _ [] (ix2 b p) (ix2 b p) (o := 0) rfl (by show b.val = 0 + b.val; omega) rfl).trans ?_
  exact congrArg (arg14.view.read (Elt F) _) (funext fun a => Fin.ext (by
    match a with
    | ⟨0, _⟩ => show 0 + 1 * b.val = b.val; omega
    | ⟨1, _⟩ => show 0 + 1 * p.val = p.val; omega))

/-- In the last column output 2 is the accumulator it is copied from. -/
theorem runC_o_9 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32)
    (v : View sig .tc .vmem S8x128 .f32) (f : v.ty.Contents (Elt F)) (b : Fin 8) (p : Fin 128) :
    v.read (Elt F) (v.writes (Elt F) f (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.1) (ix2 b p)
      = arg15.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.1 (ix2 b p) := by
  unfold kernelRunC; dsimp only; sl_unfold_run_names
  refine (View.read_writes_cons_rows_of_mem v f _ _ [] (ix2 b p) (ix2 b p) (o := 0) rfl (by show b.val = 0 + b.val; omega) rfl).trans ?_
  exact congrArg (arg15.view.read (Elt F) _) (funext fun a => Fin.ext (by
    match a with
    | ⟨0, _⟩ => show 0 + 1 * b.val = b.val; omega
    | ⟨1, _⟩ => show 0 + 1 * p.val = p.val; omega))

/-- In the last column component 0 of output 3 is the accumulator it is copied from. -/
theorem runC_o_10_0 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32)
    (v : View sig .tc .vmem S8x128x3 .f32) (f : v.ty.Contents (Elt F)) (b : Fin 8) (p : Fin 128) :
    v.read (Elt F) (v.writes (Elt F) f (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1) (ix3 b p (0 : Fin 3))
      = arg16.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.1 (ix2 b p) := by
  unfold kernelRunC; dsimp only; sl_unfold_run_names
  refine (View.read_writes_cons_unit_of_not_mem v f _ _ _ (ix3 b p (0 : Fin 3)) rfl (2 : Fin 3) (Or.inl (by show 0 < 2; omega))).trans ?_
  refine (View.read_writes_cons_unit_of_not_mem v f _ _ _ (ix3 b p (0 : Fin 3)) rfl (2 : Fin 3) (Or.inl (by show 0 < 1; omega))).trans ?_
  refine (View.read_writes_cons_unit_of_mem v f _ _ _ (ix3 b p (0 : Fin 3)) (ix3 b p (0 : Fin 1)) rfl (fun a => by
    match a with
    | ⟨0, _⟩ => show b.val = 0 + b.val; omega
    | ⟨1, _⟩ => show p.val = 0 + p.val; omega
    | ⟨2, _⟩ => show 0 = 0 + 0; rfl)).trans ?_
  (try unfold k0_pay6); (try unfold k0_pay7)
  refine (shapeCast_ab_ab1_apply _ _ b p (0 : Fin 1)).trans ?_
  exact congrArg (arg16.view.read (Elt F) _) (funext fun a => Fin.ext (by
    match a with
    | ⟨0, _⟩ => show 0 + 1 * b.val = b.val; omega
    | ⟨1, _⟩ => show 0 + 1 * p.val = p.val; omega))

/-- In the last column component 1 of output 3 is the accumulator it is copied from. -/
theorem runC_o_10_1 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32)
    (v : View sig .tc .vmem S8x128x3 .f32) (f : v.ty.Contents (Elt F)) (b : Fin 8) (p : Fin 128) :
    v.read (Elt F) (v.writes (Elt F) f (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1) (ix3 b p (1 : Fin 3))
      = arg17.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.1 (ix2 b p) := by
  unfold kernelRunC; dsimp only; sl_unfold_run_names
  refine (View.read_writes_cons_unit_of_not_mem v f _ _ _ (ix3 b p (1 : Fin 3)) rfl (2 : Fin 3) (Or.inl (by show 1 < 2; omega))).trans ?_
  refine (View.read_writes_cons_unit_of_mem v f _ _ _ (ix3 b p (1 : Fin 3)) (ix3 b p (0 : Fin 1)) rfl (fun a => by
    match a with
    | ⟨0, _⟩ => show b.val = 0 + b.val; omega
    | ⟨1, _⟩ => show p.val = 0 + p.val; omega
    | ⟨2, _⟩ => show 1 = 1 + 0; rfl)).trans ?_
  (try unfold k0_pay6); (try unfold k0_pay7)
  refine (shapeCast_ab_ab1_apply _ _ b p (0 : Fin 1)).trans ?_
  exact congrArg (arg17.view.read (Elt F) _) (funext fun a => Fin.ext (by
    match a with
    | ⟨0, _⟩ => show 0 + 1 * b.val = b.val; omega
    | ⟨1, _⟩ => show 0 + 1 * p.val = p.val; omega))

/-- In the last column component 2 of output 3 is the accumulator it is copied from. -/
theorem runC_o_10_2 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32)
    (v : View sig .tc .vmem S8x128x3 .f32) (f : v.ty.Contents (Elt F)) (b : Fin 8) (p : Fin 128) :
    v.read (Elt F) (v.writes (Elt F) f (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.1) (ix3 b p (2 : Fin 3))
      = arg18.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.2.1 (ix2 b p) := by
  unfold kernelRunC; dsimp only; sl_unfold_run_names
  refine (View.read_writes_cons_unit_of_mem v f _ _ _ (ix3 b p (2 : Fin 3)) (ix3 b p (0 : Fin 1)) rfl (fun a => by
    match a with
    | ⟨0, _⟩ => show b.val = 0 + b.val; omega
    | ⟨1, _⟩ => show p.val = 0 + p.val; omega
    | ⟨2, _⟩ => show 2 = 2 + 0; rfl)).trans ?_
  (try unfold k0_pay6); (try unfold k0_pay7)
  refine (shapeCast_ab_ab1_apply _ _ b p (0 : Fin 1)).trans ?_
  exact congrArg (arg18.view.read (Elt F) _) (funext fun a => Fin.ext (by
    match a with
    | ⟨0, _⟩ => show 0 + 1 * b.val = b.val; omega
    | ⟨1, _⟩ => show 0 + 1 * p.val = p.val; omega))

/-- In the last column component 0 of output 4 is the accumulator it is copied from. -/
theorem runC_o_11_0 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32)
    (v : View sig .tc .vmem S8x128x3 .f32) (f : v.ty.Contents (Elt F)) (b : Fin 8) (p : Fin 128) :
    v.read (Elt F) (v.writes (Elt F) f (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1) (ix3 b p (0 : Fin 3))
      = arg19.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.2.2.1 (ix2 b p) := by
  unfold kernelRunC; dsimp only; sl_unfold_run_names
  refine (View.read_writes_cons_unit_of_not_mem v f _ _ _ (ix3 b p (0 : Fin 3)) rfl (2 : Fin 3) (Or.inl (by show 0 < 2; omega))).trans ?_
  refine (View.read_writes_cons_unit_of_not_mem v f _ _ _ (ix3 b p (0 : Fin 3)) rfl (2 : Fin 3) (Or.inl (by show 0 < 1; omega))).trans ?_
  refine (View.read_writes_cons_unit_of_mem v f _ _ _ (ix3 b p (0 : Fin 3)) (ix3 b p (0 : Fin 1)) rfl (fun a => by
    match a with
    | ⟨0, _⟩ => show b.val = 0 + b.val; omega
    | ⟨1, _⟩ => show p.val = 0 + p.val; omega
    | ⟨2, _⟩ => show 0 = 0 + 0; rfl)).trans ?_
  (try unfold k0_pay6); (try unfold k0_pay7)
  refine (shapeCast_ab_ab1_apply _ _ b p (0 : Fin 1)).trans ?_
  exact congrArg (arg19.view.read (Elt F) _) (funext fun a => Fin.ext (by
    match a with
    | ⟨0, _⟩ => show 0 + 1 * b.val = b.val; omega
    | ⟨1, _⟩ => show 0 + 1 * p.val = p.val; omega))

/-- In the last column component 1 of output 4 is the accumulator it is copied from. -/
theorem runC_o_11_1 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32)
    (v : View sig .tc .vmem S8x128x3 .f32) (f : v.ty.Contents (Elt F)) (b : Fin 8) (p : Fin 128) :
    v.read (Elt F) (v.writes (Elt F) f (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1) (ix3 b p (1 : Fin 3))
      = arg20.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.2.2.2.1 (ix2 b p) := by
  unfold kernelRunC; dsimp only; sl_unfold_run_names
  refine (View.read_writes_cons_unit_of_not_mem v f _ _ _ (ix3 b p (1 : Fin 3)) rfl (2 : Fin 3) (Or.inl (by show 1 < 2; omega))).trans ?_
  refine (View.read_writes_cons_unit_of_mem v f _ _ _ (ix3 b p (1 : Fin 3)) (ix3 b p (0 : Fin 1)) rfl (fun a => by
    match a with
    | ⟨0, _⟩ => show b.val = 0 + b.val; omega
    | ⟨1, _⟩ => show p.val = 0 + p.val; omega
    | ⟨2, _⟩ => show 1 = 1 + 0; rfl)).trans ?_
  (try unfold k0_pay6); (try unfold k0_pay7)
  refine (shapeCast_ab_ab1_apply _ _ b p (0 : Fin 1)).trans ?_
  exact congrArg (arg20.view.read (Elt F) _) (funext fun a => Fin.ext (by
    match a with
    | ⟨0, _⟩ => show 0 + 1 * b.val = b.val; omega
    | ⟨1, _⟩ => show 0 + 1 * p.val = p.val; omega))

/-- In the last column component 2 of output 4 is the accumulator it is copied from. -/
theorem runC_o_11_2 (c : Dev nD) (i : grid0.Coords) (arg2 : Memref sig .tc .vmem S8x128x3 .f32) (harg2 : arg2.IsWhole) (arg3 : Memref sig .tc .vmem S8x128 .f32) (harg3 : arg3.IsWhole) (arg4 : Memref sig .tc .vmem S8x128x3 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128x3 .f32) (harg8 : arg8.IsWhole) (arg9 : Memref sig .tc .vmem S8x128x3 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128x3 .f32) (harg12 : arg12.IsWhole) (arg13 : Memref sig .tc .vmem S8x128x3 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (hc0 : ¬condFirst i) (hc1 : condLast i) (x2 : Vec F S8x128x3 .f32) (x3 : Vec F S8x128 .f32) (x4 : Vec F S8x128x3 .f32) (x5 : Vec F S8x128 .f32) (x6 : Vec F S8x128 .f32) (x7 : Vec F S8x128 .f32) (x8 : Vec F S8x128x3 .f32) (x9 : Vec F S8x128x3 .f32) (xs14 : Vec F S8x128 .f32) (xs15 : Vec F S8x128 .f32) (xs16 : Vec F S8x128 .f32) (xs17 : Vec F S8x128 .f32) (xs18 : Vec F S8x128 .f32) (xs19 : Vec F S8x128 .f32) (xs20 : Vec F S8x128 .f32) (xs21 : Vec F S8x128 .f32)
    (v : View sig .tc .vmem S8x128x3 .f32) (f : v.ty.Contents (Elt F)) (b : Fin 8) (p : Fin 128) :
    v.read (Elt F) (v.writes (Elt F) f (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.1) (ix3 b p (2 : Fin 3))
      = arg21.view.read (Elt F) (kernelRunC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x2 x3 x4 x5 x6 x7 x8 x9 xs14 xs15 xs16 xs17 xs18 xs19 xs20 xs21).2.2.2.2.2.2.2.2.2.2.2.1 (ix2 b p) := by
  unfold kernelRunC; dsimp only; sl_unfold_run_names
  refine (View.read_writes_cons_unit_of_mem v f _ _ _ (ix3 b p (2 : Fin 3)) (ix3 b p (0 : Fin 1)) rfl (fun a => by
    match a with
    | ⟨0, _⟩ => show b.val = 0 + b.val; omega
    | ⟨1, _⟩ => show p.val = 0 + p.val; omega
    | ⟨2, _⟩ => show 2 = 2 + 0; rfl)).trans ?_
  (try unfold k0_pay6); (try unfold k0_pay7)
  refine (shapeCast_ab_ab1_apply _ _ b p (0 : Fin 1)).trans ?_
  exact congrArg (arg21.view.read (Elt F) _) (funext fun a => Fin.ext (by
    match a with
    | ⟨0, _⟩ => show 0 + 1 * b.val = b.val; omega
    | ⟨1, _⟩ => show 0 + 1 * p.val = p.val; omega))

end Cert.KernelIdeal.Hand

end
-- ==== Proof.PointValIdeal.lean ====
/-
  The accumulators along a grid row.  At grid point t the body adds, to batch row b of each accumulator, that
  point's lane vector for batch b (the lane sums of the 128 x 128 pair table of the point's target tile and source
  tile); the first column starts from zero.  In the last column each output block is the accumulators it is copied
  from.
-/
import proofs.«146129_j80805514707451_2_alg».proof.Proof.DataIdeal
import proofs.«146129_j80805514707451_2_alg».proof.Proof.CaseValIdeal

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

/-- Grid point t's lane vector for batch b, accumulator 1. -/
abbrev Tt_14 (c : Dev nD) (t : Fin cfg0.N) (b : Fin 8) : FVec F S128 .f32 :=
  T_14 (F := F) (ms_0 t) (ms_1 t) (ms_2 t) (ms_3 t) (ms_4 t) (ms_6 t) ((hs_0 t).unread (iblk m c 0 t)) ((hs_1 t).unread (iblk m c 1 t)) ((hs_2 t).unread (iblk m c 2 t)) ((hs_3 t).unread (iblk m c 3 t)) ((hs_4 t).unread (iblk m c 4 t)) ((hs_6 t).unread (iblk m c 6 t)) ⟨b.val, by rw [trips_eq]; exact b.isLt⟩

theorem sAt_first_14 (c : Dev nD) (t : Fin cfg0.N) (h0 : t.val % 8 = 0) (b : Fin 8) (p : Fin 128) :
    (outsAt m c t.val t.isLt).s14 (ix2 b p) = FloatOps.addf (zeroF (F := F)) (Tt_14 m c t b (ix1 p)) := by
  rw [outsAt_A m c t h0]
  unfold outA; dsimp only
  exact runA_s_14 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk) b p

theorem sAt_next_14 (c : Dev nD) (t : Fin cfg0.N) (h0 : ¬t.val % 8 = 0) (b : Fin 8) (p : Fin 128) :
    (outsAt m c t.val t.isLt).s14 (ix2 b p)
      = FloatOps.addf ((outsAt m c (t.val - 1) (Nat.lt_of_le_of_lt (Nat.sub_le _ _) t.isLt)).s14 (ix2 b p)) (Tt_14 m c t b (ix1 p)) := by
  by_cases h1 : t.val % 8 = 7
  · rw [outsAt_C m c t h0 h1]
    unfold outC; dsimp only
    exact runC_s_14 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p
  · rw [outsAt_B m c t h0 h1]
    unfold outB; dsimp only
    exact runB_s_14 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p

/-- Grid point t's lane vector for batch b, accumulator 2. -/
abbrev Tt_15 (c : Dev nD) (t : Fin cfg0.N) (b : Fin 8) : FVec F S128 .f32 :=
  T_15 (F := F) (ms_0 t) (ms_1 t) (ms_2 t) (ms_3 t) (ms_5 t) (ms_7 t) ((hs_0 t).unread (iblk m c 0 t)) ((hs_1 t).unread (iblk m c 1 t)) ((hs_2 t).unread (iblk m c 2 t)) ((hs_3 t).unread (iblk m c 3 t)) ((hs_5 t).unread (iblk m c 5 t)) ((hs_7 t).unread (iblk m c 7 t)) ⟨b.val, by rw [trips_eq]; exact b.isLt⟩

theorem sAt_first_15 (c : Dev nD) (t : Fin cfg0.N) (h0 : t.val % 8 = 0) (b : Fin 8) (p : Fin 128) :
    (outsAt m c t.val t.isLt).s15 (ix2 b p) = FloatOps.addf (zeroF (F := F)) (Tt_15 m c t b (ix1 p)) := by
  rw [outsAt_A m c t h0]
  unfold outA; dsimp only
  exact runA_s_15 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk) b p

theorem sAt_next_15 (c : Dev nD) (t : Fin cfg0.N) (h0 : ¬t.val % 8 = 0) (b : Fin 8) (p : Fin 128) :
    (outsAt m c t.val t.isLt).s15 (ix2 b p)
      = FloatOps.addf ((outsAt m c (t.val - 1) (Nat.lt_of_le_of_lt (Nat.sub_le _ _) t.isLt)).s15 (ix2 b p)) (Tt_15 m c t b (ix1 p)) := by
  by_cases h1 : t.val % 8 = 7
  · rw [outsAt_C m c t h0 h1]
    unfold outC; dsimp only
    exact runC_s_15 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p
  · rw [outsAt_B m c t h0 h1]
    unfold outB; dsimp only
    exact runB_s_15 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p

/-- Grid point t's lane vector for batch b, accumulator 3. -/
abbrev Tt_16 (c : Dev nD) (t : Fin cfg0.N) (b : Fin 8) : FVec F S128 .f32 :=
  T_16 (F := F) (ms_0 t) (ms_1 t) (ms_2 t) (ms_3 t) (ms_4 t) (ms_6 t) ((hs_0 t).unread (iblk m c 0 t)) ((hs_1 t).unread (iblk m c 1 t)) ((hs_2 t).unread (iblk m c 2 t)) ((hs_3 t).unread (iblk m c 3 t)) ((hs_4 t).unread (iblk m c 4 t)) ((hs_6 t).unread (iblk m c 6 t)) ⟨b.val, by rw [trips_eq]; exact b.isLt⟩

theorem sAt_first_16 (c : Dev nD) (t : Fin cfg0.N) (h0 : t.val % 8 = 0) (b : Fin 8) (p : Fin 128) :
    (outsAt m c t.val t.isLt).s16 (ix2 b p) = FloatOps.addf (zeroF (F := F)) (Tt_16 m c t b (ix1 p)) := by
  rw [outsAt_A m c t h0]
  unfold outA; dsimp only
  exact runA_s_16 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk) b p

theorem sAt_next_16 (c : Dev nD) (t : Fin cfg0.N) (h0 : ¬t.val % 8 = 0) (b : Fin 8) (p : Fin 128) :
    (outsAt m c t.val t.isLt).s16 (ix2 b p)
      = FloatOps.addf ((outsAt m c (t.val - 1) (Nat.lt_of_le_of_lt (Nat.sub_le _ _) t.isLt)).s16 (ix2 b p)) (Tt_16 m c t b (ix1 p)) := by
  by_cases h1 : t.val % 8 = 7
  · rw [outsAt_C m c t h0 h1]
    unfold outC; dsimp only
    exact runC_s_16 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p
  · rw [outsAt_B m c t h0 h1]
    unfold outB; dsimp only
    exact runB_s_16 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p

/-- Grid point t's lane vector for batch b, accumulator 4. -/
abbrev Tt_17 (c : Dev nD) (t : Fin cfg0.N) (b : Fin 8) : FVec F S128 .f32 :=
  T_17 (F := F) (ms_0 t) (ms_1 t) (ms_2 t) (ms_3 t) (ms_4 t) (ms_6 t) ((hs_0 t).unread (iblk m c 0 t)) ((hs_1 t).unread (iblk m c 1 t)) ((hs_2 t).unread (iblk m c 2 t)) ((hs_3 t).unread (iblk m c 3 t)) ((hs_4 t).unread (iblk m c 4 t)) ((hs_6 t).unread (iblk m c 6 t)) ⟨b.val, by rw [trips_eq]; exact b.isLt⟩

theorem sAt_first_17 (c : Dev nD) (t : Fin cfg0.N) (h0 : t.val % 8 = 0) (b : Fin 8) (p : Fin 128) :
    (outsAt m c t.val t.isLt).s17 (ix2 b p) = FloatOps.addf (zeroF (F := F)) (Tt_17 m c t b (ix1 p)) := by
  rw [outsAt_A m c t h0]
  unfold outA; dsimp only
  exact runA_s_17 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk) b p

theorem sAt_next_17 (c : Dev nD) (t : Fin cfg0.N) (h0 : ¬t.val % 8 = 0) (b : Fin 8) (p : Fin 128) :
    (outsAt m c t.val t.isLt).s17 (ix2 b p)
      = FloatOps.addf ((outsAt m c (t.val - 1) (Nat.lt_of_le_of_lt (Nat.sub_le _ _) t.isLt)).s17 (ix2 b p)) (Tt_17 m c t b (ix1 p)) := by
  by_cases h1 : t.val % 8 = 7
  · rw [outsAt_C m c t h0 h1]
    unfold outC; dsimp only
    exact runC_s_17 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p
  · rw [outsAt_B m c t h0 h1]
    unfold outB; dsimp only
    exact runB_s_17 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p

/-- Grid point t's lane vector for batch b, accumulator 5. -/
abbrev Tt_18 (c : Dev nD) (t : Fin cfg0.N) (b : Fin 8) : FVec F S128 .f32 :=
  T_18 (F := F) (ms_0 t) (ms_1 t) (ms_2 t) (ms_3 t) (ms_4 t) (ms_6 t) ((hs_0 t).unread (iblk m c 0 t)) ((hs_1 t).unread (iblk m c 1 t)) ((hs_2 t).unread (iblk m c 2 t)) ((hs_3 t).unread (iblk m c 3 t)) ((hs_4 t).unread (iblk m c 4 t)) ((hs_6 t).unread (iblk m c 6 t)) ⟨b.val, by rw [trips_eq]; exact b.isLt⟩

theorem sAt_first_18 (c : Dev nD) (t : Fin cfg0.N) (h0 : t.val % 8 = 0) (b : Fin 8) (p : Fin 128) :
    (outsAt m c t.val t.isLt).s18 (ix2 b p) = FloatOps.addf (zeroF (F := F)) (Tt_18 m c t b (ix1 p)) := by
  rw [outsAt_A m c t h0]
  unfold outA; dsimp only
  exact runA_s_18 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk) b p

theorem sAt_next_18 (c : Dev nD) (t : Fin cfg0.N) (h0 : ¬t.val % 8 = 0) (b : Fin 8) (p : Fin 128) :
    (outsAt m c t.val t.isLt).s18 (ix2 b p)
      = FloatOps.addf ((outsAt m c (t.val - 1) (Nat.lt_of_le_of_lt (Nat.sub_le _ _) t.isLt)).s18 (ix2 b p)) (Tt_18 m c t b (ix1 p)) := by
  by_cases h1 : t.val % 8 = 7
  · rw [outsAt_C m c t h0 h1]
    unfold outC; dsimp only
    exact runC_s_18 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p
  · rw [outsAt_B m c t h0 h1]
    unfold outB; dsimp only
    exact runB_s_18 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p

/-- Grid point t's lane vector for batch b, accumulator 6. -/
abbrev Tt_19 (c : Dev nD) (t : Fin cfg0.N) (b : Fin 8) : FVec F S128 .f32 :=
  T_19 (F := F) (ms_0 t) (ms_1 t) (ms_2 t) (ms_3 t) (ms_5 t) (ms_7 t) ((hs_0 t).unread (iblk m c 0 t)) ((hs_1 t).unread (iblk m c 1 t)) ((hs_2 t).unread (iblk m c 2 t)) ((hs_3 t).unread (iblk m c 3 t)) ((hs_5 t).unread (iblk m c 5 t)) ((hs_7 t).unread (iblk m c 7 t)) ⟨b.val, by rw [trips_eq]; exact b.isLt⟩

theorem sAt_first_19 (c : Dev nD) (t : Fin cfg0.N) (h0 : t.val % 8 = 0) (b : Fin 8) (p : Fin 128) :
    (outsAt m c t.val t.isLt).s19 (ix2 b p) = FloatOps.addf (zeroF (F := F)) (Tt_19 m c t b (ix1 p)) := by
  rw [outsAt_A m c t h0]
  unfold outA; dsimp only
  exact runA_s_19 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk) b p

theorem sAt_next_19 (c : Dev nD) (t : Fin cfg0.N) (h0 : ¬t.val % 8 = 0) (b : Fin 8) (p : Fin 128) :
    (outsAt m c t.val t.isLt).s19 (ix2 b p)
      = FloatOps.addf ((outsAt m c (t.val - 1) (Nat.lt_of_le_of_lt (Nat.sub_le _ _) t.isLt)).s19 (ix2 b p)) (Tt_19 m c t b (ix1 p)) := by
  by_cases h1 : t.val % 8 = 7
  · rw [outsAt_C m c t h0 h1]
    unfold outC; dsimp only
    exact runC_s_19 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p
  · rw [outsAt_B m c t h0 h1]
    unfold outB; dsimp only
    exact runB_s_19 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p

/-- Grid point t's lane vector for batch b, accumulator 7. -/
abbrev Tt_20 (c : Dev nD) (t : Fin cfg0.N) (b : Fin 8) : FVec F S128 .f32 :=
  T_20 (F := F) (ms_0 t) (ms_1 t) (ms_2 t) (ms_3 t) (ms_5 t) (ms_7 t) ((hs_0 t).unread (iblk m c 0 t)) ((hs_1 t).unread (iblk m c 1 t)) ((hs_2 t).unread (iblk m c 2 t)) ((hs_3 t).unread (iblk m c 3 t)) ((hs_5 t).unread (iblk m c 5 t)) ((hs_7 t).unread (iblk m c 7 t)) ⟨b.val, by rw [trips_eq]; exact b.isLt⟩

theorem sAt_first_20 (c : Dev nD) (t : Fin cfg0.N) (h0 : t.val % 8 = 0) (b : Fin 8) (p : Fin 128) :
    (outsAt m c t.val t.isLt).s20 (ix2 b p) = FloatOps.addf (zeroF (F := F)) (Tt_20 m c t b (ix1 p)) := by
  rw [outsAt_A m c t h0]
  unfold outA; dsimp only
  exact runA_s_20 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk) b p

theorem sAt_next_20 (c : Dev nD) (t : Fin cfg0.N) (h0 : ¬t.val % 8 = 0) (b : Fin 8) (p : Fin 128) :
    (outsAt m c t.val t.isLt).s20 (ix2 b p)
      = FloatOps.addf ((outsAt m c (t.val - 1) (Nat.lt_of_le_of_lt (Nat.sub_le _ _) t.isLt)).s20 (ix2 b p)) (Tt_20 m c t b (ix1 p)) := by
  by_cases h1 : t.val % 8 = 7
  · rw [outsAt_C m c t h0 h1]
    unfold outC; dsimp only
    exact runC_s_20 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p
  · rw [outsAt_B m c t h0 h1]
    unfold outB; dsimp only
    exact runB_s_20 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p

/-- Grid point t's lane vector for batch b, accumulator 8. -/
abbrev Tt_21 (c : Dev nD) (t : Fin cfg0.N) (b : Fin 8) : FVec F S128 .f32 :=
  T_21 (F := F) (ms_0 t) (ms_1 t) (ms_2 t) (ms_3 t) (ms_5 t) (ms_7 t) ((hs_0 t).unread (iblk m c 0 t)) ((hs_1 t).unread (iblk m c 1 t)) ((hs_2 t).unread (iblk m c 2 t)) ((hs_3 t).unread (iblk m c 3 t)) ((hs_5 t).unread (iblk m c 5 t)) ((hs_7 t).unread (iblk m c 7 t)) ⟨b.val, by rw [trips_eq]; exact b.isLt⟩

theorem sAt_first_21 (c : Dev nD) (t : Fin cfg0.N) (h0 : t.val % 8 = 0) (b : Fin 8) (p : Fin 128) :
    (outsAt m c t.val t.isLt).s21 (ix2 b p) = FloatOps.addf (zeroF (F := F)) (Tt_21 m c t b (ix1 p)) := by
  rw [outsAt_A m c t h0]
  unfold outA; dsimp only
  exact runA_s_21 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) (scM_14.view.read (Elt F) scM_14.view.junk) (scM_15.view.read (Elt F) scM_15.view.junk) (scM_16.view.read (Elt F) scM_16.view.junk) (scM_17.view.read (Elt F) scM_17.view.junk) (scM_18.view.read (Elt F) scM_18.view.junk) (scM_19.view.read (Elt F) scM_19.view.junk) (scM_20.view.read (Elt F) scM_20.view.junk) (scM_21.view.read (Elt F) scM_21.view.junk) b p

theorem sAt_next_21 (c : Dev nD) (t : Fin cfg0.N) (h0 : ¬t.val % 8 = 0) (b : Fin 8) (p : Fin 128) :
    (outsAt m c t.val t.isLt).s21 (ix2 b p)
      = FloatOps.addf ((outsAt m c (t.val - 1) (Nat.lt_of_le_of_lt (Nat.sub_le _ _) t.isLt)).s21 (ix2 b p)) (Tt_21 m c t b (ix1 p)) := by
  by_cases h1 : t.val % 8 = 7
  · rw [outsAt_C m c t h0 h1]
    unfold outC; dsimp only
    exact runC_s_21 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p
  · rw [outsAt_B m c t h0 h1]
    unfold outB; dsimp only
    exact runB_s_21 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) b p

theorem oAt_8 (c : Dev nD) (t : Fin cfg0.N) (h1 : t.val % 8 = 7) (b : Fin 8) (p : Fin 128) :
    (outsAt m c t.val t.isLt).o8 (ix2 b p) = (outsAt m c t.val t.isLt).s14 (ix2 b p) := by
  have h0 : ¬t.val % 8 = 0 := by omega
  rw [outsAt_C m c t h0 h1]
  unfold outC; dsimp only
  exact runC_o_8 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) VO_8 VO_8.junk b p

theorem oAt_9 (c : Dev nD) (t : Fin cfg0.N) (h1 : t.val % 8 = 7) (b : Fin 8) (p : Fin 128) :
    (outsAt m c t.val t.isLt).o9 (ix2 b p) = (outsAt m c t.val t.isLt).s15 (ix2 b p) := by
  have h0 : ¬t.val % 8 = 0 := by omega
  rw [outsAt_C m c t h0 h1]
  unfold outC; dsimp only
  exact runC_o_9 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) VO_9 VO_9.junk b p

theorem oAt_10_0 (c : Dev nD) (t : Fin cfg0.N) (h1 : t.val % 8 = 7) (b : Fin 8) (p : Fin 128) :
    (outsAt m c t.val t.isLt).o10 (ix3 b p (0 : Fin 3)) = (outsAt m c t.val t.isLt).s16 (ix2 b p) := by
  have h0 : ¬t.val % 8 = 0 := by omega
  rw [outsAt_C m c t h0 h1]
  unfold outC; dsimp only
  exact runC_o_10_0 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) VO_10 VO_10.junk b p

theorem oAt_10_1 (c : Dev nD) (t : Fin cfg0.N) (h1 : t.val % 8 = 7) (b : Fin 8) (p : Fin 128) :
    (outsAt m c t.val t.isLt).o10 (ix3 b p (1 : Fin 3)) = (outsAt m c t.val t.isLt).s17 (ix2 b p) := by
  have h0 : ¬t.val % 8 = 0 := by omega
  rw [outsAt_C m c t h0 h1]
  unfold outC; dsimp only
  exact runC_o_10_1 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) VO_10 VO_10.junk b p

theorem oAt_10_2 (c : Dev nD) (t : Fin cfg0.N) (h1 : t.val % 8 = 7) (b : Fin 8) (p : Fin 128) :
    (outsAt m c t.val t.isLt).o10 (ix3 b p (2 : Fin 3)) = (outsAt m c t.val t.isLt).s18 (ix2 b p) := by
  have h0 : ¬t.val % 8 = 0 := by omega
  rw [outsAt_C m c t h0 h1]
  unfold outC; dsimp only
  exact runC_o_10_2 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) VO_10 VO_10.junk b p

theorem oAt_11_0 (c : Dev nD) (t : Fin cfg0.N) (h1 : t.val % 8 = 7) (b : Fin 8) (p : Fin 128) :
    (outsAt m c t.val t.isLt).o11 (ix3 b p (0 : Fin 3)) = (outsAt m c t.val t.isLt).s19 (ix2 b p) := by
  have h0 : ¬t.val % 8 = 0 := by omega
  rw [outsAt_C m c t h0 h1]
  unfold outC; dsimp only
  exact runC_o_11_0 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) VO_11 VO_11.junk b p

theorem oAt_11_1 (c : Dev nD) (t : Fin cfg0.N) (h1 : t.val % 8 = 7) (b : Fin 8) (p : Fin 128) :
    (outsAt m c t.val t.isLt).o11 (ix3 b p (1 : Fin 3)) = (outsAt m c t.val t.isLt).s20 (ix2 b p) := by
  have h0 : ¬t.val % 8 = 0 := by omega
  rw [outsAt_C m c t h0 h1]
  unfold outC; dsimp only
  exact runC_o_11_1 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) VO_11 VO_11.junk b p

theorem oAt_11_2 (c : Dev nD) (t : Fin cfg0.N) (h1 : t.val % 8 = 7) (b : Fin 8) (p : Fin 128) :
    (outsAt m c t.val t.isLt).o11 (ix3 b p (2 : Fin 3)) = (outsAt m c t.val t.isLt).s21 (ix2 b p) := by
  have h0 : ¬t.val % 8 = 0 := by omega
  rw [outsAt_C m c t h0 h1]
  unfold outC; dsimp only
  exact runC_o_11_2 (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM_14 (Memref.isWhole_whole _) scM_15 (Memref.isWhole_whole _) scM_16 (Memref.isWhole_whole _) scM_17 (Memref.isWhole_whole _) scM_18 (Memref.isWhole_whole _) scM_19 (Memref.isWhole_whole _) scM_20 (Memref.isWhole_whole _) scM_21 (Memref.isWhole_whole _) _ _ (iblk m c 0 t) (iblk m c 1 t) (iblk m c 2 t) (iblk m c 3 t) (iblk m c 4 t) (iblk m c 5 t) (iblk m c 6 t) (iblk m c 7 t) ((outsAt m c (t.val - 1) (Nat.lt_of_le_of_lt (Nat.sub_le _ _) t.isLt)).s14) ((outsAt m c (t.val - 1) (Nat.lt_of_le_of_lt (Nat.sub_le _ _) t.isLt)).s15) ((outsAt m c (t.val - 1) (Nat.lt_of_le_of_lt (Nat.sub_le _ _) t.isLt)).s16) ((outsAt m c (t.val - 1) (Nat.lt_of_le_of_lt (Nat.sub_le _ _) t.isLt)).s17) ((outsAt m c (t.val - 1) (Nat.lt_of_le_of_lt (Nat.sub_le _ _) t.isLt)).s18) ((outsAt m c (t.val - 1) (Nat.lt_of_le_of_lt (Nat.sub_le _ _) t.isLt)).s19) ((outsAt m c (t.val - 1) (Nat.lt_of_le_of_lt (Nat.sub_le _ _) t.isLt)).s20) ((outsAt m c (t.val - 1) (Nat.lt_of_le_of_lt (Nat.sub_le _ _) t.isLt)).s21) VO_11 VO_11.junk b p

end Cert.KernelIdeal.Hand

end
-- ==== Proof.FinalIdeal.lean ====
/-
  The output arrays after the run.  Output window w is written back only in the grid's last column, block (0, i)
  at the last point of grid row i; the eight blocks tile the array, so the array ends as the function whose entry
  (b, r) is what the last column of r's row tile left in the window's buffer at (b, r mod 128).
-/
import proofs.«146129_j80805514707451_2_alg».proof.Proof.DataIdeal
import Idealize.ShloMosaic.Lib.Pipeline.Value
import Idealize.ShloMosaic.Lib.ValueIdx

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ)

/-! ## Output window 8 -/

theorem idx_facts_8 : ∀ t : Fin cfg0.N, win0_8.index t (0 : Fin 2) = 0 ∧ win0_8.index t (1 : Fin 2) = t.val / 8 :=
  (by decide +kernel : ∀ t : Fin grid0.N, win0_8.index t (0 : Fin 2) = 0 ∧ win0_8.index t (1 : Fin 2) = t.val / 8)

/-- The array output 1 ends as: entry (b, r) is what the last column of r's row tile left at (b, r mod 128). -/
def finalG_8 (c : Dev nD) : S8x1024.Idx → Elt F .f32 := fun i =>
  (outsAt m c (8 * ((i 1).val / 128) + 7) (by have := (i 1).isLt; rw [show cfg0.N = 64 from N_0]; show 8 * ((i 1).val / 128) + 7 < 64; have h : (i 1).val < 1024 := (i 1).isLt; omega)).o8
    (ix2 (⟨(i 0).val, (i 0).isLt⟩ : Fin 8) (⟨(i 1).val % 128, Nat.mod_lt _ (by decide)⟩ : Fin 128))

theorem o8_congr (c : Dev nD) (n n' : ℕ) (h : n < cfg0.N) (h' : n' < cfg0.N) (e : n = n') (y y' : S8x128.Idx) (ey : y = y') :
    (outsAt m c n h).o8 y = (outsAt m c n' h').o8 y' := by subst e; subst ey; rfl

theorem flushed_eq_8 (c : Dev nD) (t : Fin cfg0.N) (hf : (cfg0.win 8).flush t = true) :
    (dats m 0 c).flushed 8 t = ((cfg0.win 8).blk t).view.read (Elt F) (finalG_8 m c) := by
  show (cfg0.win 8).cut (grid0.coords t) ((dats m 0 c).after 8 t) = _
  rw [after_8]
  have h7 : t.val % 8 = 7 := (flush0_8 t).mp hf
  have hN : t.val < 64 := lt_of_lt_of_eq t.isLt (show cfg0.N = 64 from N_0)
  obtain ⟨e0, e1⟩ := idx_facts_8 t
  funext j
  obtain ⟨b, p, rfl⟩ : ∃ (b : Fin 8) (p : Fin 128), j = ix2 b p := ⟨j 0, j 1, eq_ix2 j⟩
  show (outsAt m c t.val t.isLt).o8 (ix2 b p) = finalG_8 m c (((cfg0.win 8).blk t).view.emb (ix2 b p))
  have hb : ((((cfg0.win 8).blk t).view.emb (ix2 b p)) 0).val = b.val := by
    show win0_8.index t (0 : Fin 2) * 8 + 1 * b.val = b.val; rw [e0]; omega
  have hp : ((((cfg0.win 8).blk t).view.emb (ix2 b p)) 1).val = (t.val / 8) * 128 + p.val := by
    show win0_8.index t (1 : Fin 2) * 128 + 1 * p.val = _; rw [e1]; omega
  unfold finalG_8
  refine o8_congr m c _ _ _ _ (by rw [hp]; have := p.isLt; omega) _ _ (funext fun a => Fin.ext ?_)
  match a with
  | ⟨0, _⟩ => exact hb.symm
  | ⟨1, _⟩ => show p.val = ((((cfg0.win 8).blk t).view.emb (ix2 b p)) 1).val % 128; rw [hp]; have := p.isLt; omega

theorem mem_blk_8 (t : Fin cfg0.N) (i : S8x1024.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v0_0).slice (win0_8.rect t)).set ↔ _
  rw [View.set_slice_whole, Rect.mem_set_unit]
  exact Iff.rfl

theorem cover_8 (i : S8x1024.Idx) : ∃ t : Fin cfg0.N, (cfg0.win 8).flush t = true ∧ i ∈ ((cfg0.win 8).blk t).view.set := by
  have hi0 : (i 0).val < 8 := (i 0).isLt
  have hi1 : (i 1).val < 1024 := (i 1).isLt
  refine ⟨⟨8 * ((i 1).val / 128) + 7, by rw [show cfg0.N = 64 from N_0]; omega⟩, ?_, ?_⟩
  · exact (flush0_8 _).mpr (by show (8 * ((i 1).val / 128) + 7) % 8 = 7; omega)
  · rw [mem_blk_8]
    obtain ⟨e0, e1⟩ := idx_facts_8 ⟨8 * ((i 1).val / 128) + 7, by rw [show cfg0.N = 64 from N_0]; omega⟩
    intro a
    match a with
    | ⟨0, _⟩ => show win0_8.index _ (0 : Fin 2) * 8 ≤ (i 0).val ∧ (i 0).val < win0_8.index _ (0 : Fin 2) * 8 + 8; rw [e0]; omega
    | ⟨1, _⟩ => show win0_8.index _ (1 : Fin 2) * 128 ≤ (i 1).val ∧ (i 1).val < win0_8.index _ (1 : Fin 2) * 128 + 128; rw [e1]; show (8 * ((i 1).val / 128) + 7) / 8 * 128 ≤ (i 1).val ∧ (i 1).val < (8 * ((i 1).val / 128) + 7) / 8 * 128 + 128; omega

theorem final_8 (c : Dev nD) : (dats m 0 c).arrAt 8 cfg0.N = finalG_8 m c :=
  (dats m 0 c).arrAt_eq_of_cover 8 (finalG_8 m c) (fun t hf => flushed_eq_8 m c t hf) (cover_8)

/-! ## Output window 9 -/

theorem idx_facts_9 : ∀ t : Fin cfg0.N, win0_9.index t (0 : Fin 2) = 0 ∧ win0_9.index t (1 : Fin 2) = t.val / 8 :=
  (by decide +kernel : ∀ t : Fin grid0.N, win0_9.index t (0 : Fin 2) = 0 ∧ win0_9.index t (1 : Fin 2) = t.val / 8)

/-- The array output 2 ends as: entry (b, r) is what the last column of r's row tile left at (b, r mod 128). -/
def finalG_9 (c : Dev nD) : S8x1024.Idx → Elt F .f32 := fun i =>
  (outsAt m c (8 * ((i 1).val / 128) + 7) (by have := (i 1).isLt; rw [show cfg0.N = 64 from N_0]; show 8 * ((i 1).val / 128) + 7 < 64; have h : (i 1).val < 1024 := (i 1).isLt; omega)).o9
    (ix2 (⟨(i 0).val, (i 0).isLt⟩ : Fin 8) (⟨(i 1).val % 128, Nat.mod_lt _ (by decide)⟩ : Fin 128))

theorem o9_congr (c : Dev nD) (n n' : ℕ) (h : n < cfg0.N) (h' : n' < cfg0.N) (e : n = n') (y y' : S8x128.Idx) (ey : y = y') :
    (outsAt m c n h).o9 y = (outsAt m c n' h').o9 y' := by subst e; subst ey; rfl

theorem flushed_eq_9 (c : Dev nD) (t : Fin cfg0.N) (hf : (cfg0.win 9).flush t = true) :
    (dats m 0 c).flushed 9 t = ((cfg0.win 9).blk t).view.read (Elt F) (finalG_9 m c) := by
  show (cfg0.win 9).cut (grid0.coords t) ((dats m 0 c).after 9 t) = _
  rw [after_9]
  have h7 : t.val % 8 = 7 := (flush0_9 t).mp hf
  have hN : t.val < 64 := lt_of_lt_of_eq t.isLt (show cfg0.N = 64 from N_0)
  obtain ⟨e0, e1⟩ := idx_facts_9 t
  funext j
  obtain ⟨b, p, rfl⟩ : ∃ (b : Fin 8) (p : Fin 128), j = ix2 b p := ⟨j 0, j 1, eq_ix2 j⟩
  show (outsAt m c t.val t.isLt).o9 (ix2 b p) = finalG_9 m c (((cfg0.win 9).blk t).view.emb (ix2 b p))
  have hb : ((((cfg0.win 9).blk t).view.emb (ix2 b p)) 0).val = b.val := by
    show win0_9.index t (0 : Fin 2) * 8 + 1 * b.val = b.val; rw [e0]; omega
  have hp : ((((cfg0.win 9).blk t).view.emb (ix2 b p)) 1).val = (t.val / 8) * 128 + p.val := by
    show win0_9.index t (1 : Fin 2) * 128 + 1 * p.val = _; rw [e1]; omega
  unfold finalG_9
  refine o9_congr m c _ _ _ _ (by rw [hp]; have := p.isLt; omega) _ _ (funext fun a => Fin.ext ?_)
  match a with
  | ⟨0, _⟩ => exact hb.symm
  | ⟨1, _⟩ => show p.val = ((((cfg0.win 9).blk t).view.emb (ix2 b p)) 1).val % 128; rw [hp]; have := p.isLt; omega

theorem mem_blk_9 (t : Fin cfg0.N) (i : S8x1024.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v0_1).slice (win0_9.rect t)).set ↔ _
  rw [View.set_slice_whole, Rect.mem_set_unit]
  exact Iff.rfl

theorem cover_9 (i : S8x1024.Idx) : ∃ t : Fin cfg0.N, (cfg0.win 9).flush t = true ∧ i ∈ ((cfg0.win 9).blk t).view.set := by
  have hi0 : (i 0).val < 8 := (i 0).isLt
  have hi1 : (i 1).val < 1024 := (i 1).isLt
  refine ⟨⟨8 * ((i 1).val / 128) + 7, by rw [show cfg0.N = 64 from N_0]; omega⟩, ?_, ?_⟩
  · exact (flush0_9 _).mpr (by show (8 * ((i 1).val / 128) + 7) % 8 = 7; omega)
  · rw [mem_blk_9]
    obtain ⟨e0, e1⟩ := idx_facts_9 ⟨8 * ((i 1).val / 128) + 7, by rw [show cfg0.N = 64 from N_0]; omega⟩
    intro a
    match a with
    | ⟨0, _⟩ => show win0_9.index _ (0 : Fin 2) * 8 ≤ (i 0).val ∧ (i 0).val < win0_9.index _ (0 : Fin 2) * 8 + 8; rw [e0]; omega
    | ⟨1, _⟩ => show win0_9.index _ (1 : Fin 2) * 128 ≤ (i 1).val ∧ (i 1).val < win0_9.index _ (1 : Fin 2) * 128 + 128; rw [e1]; show (8 * ((i 1).val / 128) + 7) / 8 * 128 ≤ (i 1).val ∧ (i 1).val < (8 * ((i 1).val / 128) + 7) / 8 * 128 + 128; omega

theorem final_9 (c : Dev nD) : (dats m 0 c).arrAt 9 cfg0.N = finalG_9 m c :=
  (dats m 0 c).arrAt_eq_of_cover 9 (finalG_9 m c) (fun t hf => flushed_eq_9 m c t hf) (cover_9)

/-! ## Output window 10 -/

theorem idx_facts_10 : ∀ t : Fin cfg0.N, win0_10.index t (0 : Fin 3) = 0 ∧ win0_10.index t (1 : Fin 3) = t.val / 8 ∧ win0_10.index t (2 : Fin 3) = 0 :=
  (by decide +kernel : ∀ t : Fin grid0.N, win0_10.index t (0 : Fin 3) = 0 ∧ win0_10.index t (1 : Fin 3) = t.val / 8 ∧ win0_10.index t (2 : Fin 3) = 0)

/-- The array output 3 ends as: entry (b, r, c) is what the last column of r's row tile left at (b, r mod 128, c). -/
def finalG_10 (c : Dev nD) : S8x1024x3.Idx → Elt F .f32 := fun i =>
  (outsAt m c (8 * ((i 1).val / 128) + 7) (by rw [show cfg0.N = 64 from N_0]; show 8 * ((i 1).val / 128) + 7 < 64; have h : (i 1).val < 1024 := (i 1).isLt; omega)).o10
    (ix3 (⟨(i 0).val, (i 0).isLt⟩ : Fin 8) (⟨(i 1).val % 128, Nat.mod_lt _ (by decide)⟩ : Fin 128) (⟨(i 2).val, (i 2).isLt⟩ : Fin 3))

theorem o10_congr (c : Dev nD) (n n' : ℕ) (h : n < cfg0.N) (h' : n' < cfg0.N) (e : n = n') (y y' : S8x128x3.Idx) (ey : y = y') :
    (outsAt m c n h).o10 y = (outsAt m c n' h').o10 y' := by subst e; subst ey; rfl

theorem flushed_eq_10 (c : Dev nD) (t : Fin cfg0.N) (hf : (cfg0.win 10).flush t = true) :
    (dats m 0 c).flushed 10 t = ((cfg0.win 10).blk t).view.read (Elt F) (finalG_10 m c) := by
  show (cfg0.win 10).cut (grid0.coords t) ((dats m 0 c).after 10 t) = _
  rw [after_10]
  have h7 : t.val % 8 = 7 := (flush0_10 t).mp hf
  have hN : t.val < 64 := lt_of_lt_of_eq t.isLt (show cfg0.N = 64 from N_0)
  obtain ⟨e0, e1, e2⟩ := idx_facts_10 t
  funext j
  obtain ⟨b, p, cc, rfl⟩ : ∃ (b : Fin 8) (p : Fin 128) (cc : Fin 3), j = ix3 b p cc := ⟨j 0, j 1, j 2, eq_ix3 j⟩
  show (outsAt m c t.val t.isLt).o10 (ix3 b p cc) = finalG_10 m c (((cfg0.win 10).blk t).view.emb (ix3 b p cc))
  have hb : ((((cfg0.win 10).blk t).view.emb (ix3 b p cc)) 0).val = b.val := by
    show win0_10.index t (0 : Fin 3) * 8 + 1 * b.val = b.val; rw [e0]; omega
  have hp : ((((cfg0.win 10).blk t).view.emb (ix3 b p cc)) 1).val = (t.val / 8) * 128 + p.val := by
    show win0_10.index t (1 : Fin 3) * 128 + 1 * p.val = _; rw [e1]; omega
  have hc : ((((cfg0.win 10).blk t).view.emb (ix3 b p cc)) 2).val = cc.val := by
    show win0_10.index t (2 : Fin 3) * 3 + 1 * cc.val = cc.val; rw [e2]; omega
  unfold finalG_10
  refine o10_congr m c _ _ _ _ (by rw [hp]; have := p.isLt; omega) _ _ (funext fun a => Fin.ext ?_)
  match a with
  | ⟨0, _⟩ => exact hb.symm
  | ⟨1, _⟩ => show p.val = ((((cfg0.win 10).blk t).view.emb (ix3 b p cc)) 1).val % 128; rw [hp]; have := p.isLt; omega
  | ⟨2, _⟩ => exact hc.symm

theorem mem_blk_10 (t : Fin cfg0.N) (i : S8x1024x3.Idx) :
    i ∈ ((cfg0.win 10).blk t).view.set ↔ ∀ a : Fin 3, win0_10.index t a * S8x128x3.size a ≤ (i a).val ∧ (i a).val < win0_10.index t a * S8x128x3.size a + S8x128x3.size a := by
  show i ∈ ((View.whole main_v0_2).slice (win0_10.rect t)).set ↔ _
  rw [View.set_slice_whole, Rect.mem_set_unit]
  exact Iff.rfl

theorem cover_10 (i : S8x1024x3.Idx) : ∃ t : Fin cfg0.N, (cfg0.win 10).flush t = true ∧ i ∈ ((cfg0.win 10).blk t).view.set := by
  have hi0 : (i 0).val < 8 := (i 0).isLt
  have hi1 : (i 1).val < 1024 := (i 1).isLt
  have hi2 : (i 2).val < 3 := (i 2).isLt
  refine ⟨⟨8 * ((i 1).val / 128) + 7, by rw [show cfg0.N = 64 from N_0]; omega⟩, ?_, ?_⟩
  · exact (flush0_10 _).mpr (by show (8 * ((i 1).val / 128) + 7) % 8 = 7; omega)
  · rw [mem_blk_10]
    obtain ⟨e0, e1, e2⟩ := idx_facts_10 ⟨8 * ((i 1).val / 128) + 7, by rw [show cfg0.N = 64 from N_0]; omega⟩
    intro a
    match a with
    | ⟨0, _⟩ => show win0_10.index _ (0 : Fin 3) * 8 ≤ (i 0).val ∧ (i 0).val < win0_10.index _ (0 : Fin 3) * 8 + 8; rw [e0]; omega
    | ⟨1, _⟩ => show win0_10.index _ (1 : Fin 3) * 128 ≤ (i 1).val ∧ (i 1).val < win0_10.index _ (1 : Fin 3) * 128 + 128; rw [e1]; show (8 * ((i 1).val / 128) + 7) / 8 * 128 ≤ (i 1).val ∧ (i 1).val < (8 * ((i 1).val / 128) + 7) / 8 * 128 + 128; omega
    | ⟨2, _⟩ => show win0_10.index _ (2 : Fin 3) * 3 ≤ (i 2).val ∧ (i 2).val < win0_10.index _ (2 : Fin 3) * 3 + 3; rw [e2]; omega

theorem final_10 (c : Dev nD) : (dats m 0 c).arrAt 10 cfg0.N = finalG_10 m c :=
  (dats m 0 c).arrAt_eq_of_cover 10 (finalG_10 m c) (fun t hf => flushed_eq_10 m c t hf) (cover_10)

/-! ## Output window 11 -/

theorem idx_facts_11 : ∀ t : Fin cfg0.N, win0_11.index t (0 : Fin 3) = 0 ∧ win0_11.index t (1 : Fin 3) = t.val / 8 ∧ win0_11.index t (2 : Fin 3) = 0 :=
  (by decide +kernel : ∀ t : Fin grid0.N, win0_11.index t (0 : Fin 3) = 0 ∧ win0_11.index t (1 : Fin 3) = t.val / 8 ∧ win0_11.index t (2 : Fin 3) = 0)

/-- The array output 4 ends as: entry (b, r, c) is what the last column of r's row tile left at (b, r mod 128, c). -/
def finalG_11 (c : Dev nD) : S8x1024x3.Idx → Elt F .f32 := fun i =>
  (outsAt m c (8 * ((i 1).val / 128) + 7) (by rw [show cfg0.N = 64 from N_0]; show 8 * ((i 1).val / 128) + 7 < 64; have h : (i 1).val < 1024 := (i 1).isLt; omega)).o11
    (ix3 (⟨(i 0).val, (i 0).isLt⟩ : Fin 8) (⟨(i 1).val % 128, Nat.mod_lt _ (by decide)⟩ : Fin 128) (⟨(i 2).val, (i 2).isLt⟩ : Fin 3))

theorem o11_congr (c : Dev nD) (n n' : ℕ) (h : n < cfg0.N) (h' : n' < cfg0.N) (e : n = n') (y y' : S8x128x3.Idx) (ey : y = y') :
    (outsAt m c n h).o11 y = (outsAt m c n' h').o11 y' := by subst e; subst ey; rfl

theorem flushed_eq_11 (c : Dev nD) (t : Fin cfg0.N) (hf : (cfg0.win 11).flush t = true) :
    (dats m 0 c).flushed 11 t = ((cfg0.win 11).blk t).view.read (Elt F) (finalG_11 m c) := by
  show (cfg0.win 11).cut (grid0.coords t) ((dats m 0 c).after 11 t) = _
  rw [after_11]
  have h7 : t.val % 8 = 7 := (flush0_11 t).mp hf
  have hN : t.val < 64 := lt_of_lt_of_eq t.isLt (show cfg0.N = 64 from N_0)
  obtain ⟨e0, e1, e2⟩ := idx_facts_11 t
  funext j
  obtain ⟨b, p, cc, rfl⟩ : ∃ (b : Fin 8) (p : Fin 128) (cc : Fin 3), j = ix3 b p cc := ⟨j 0, j 1, j 2, eq_ix3 j⟩
  show (outsAt m c t.val t.isLt).o11 (ix3 b p cc) = finalG_11 m c (((cfg0.win 11).blk t).view.emb (ix3 b p cc))
  have hb : ((((cfg0.win 11).blk t).view.emb (ix3 b p cc)) 0).val = b.val := by
    show win0_11.index t (0 : Fin 3) * 8 + 1 * b.val = b.val; rw [e0]; omega
  have hp : ((((cfg0.win 11).blk t).view.emb (ix3 b p cc)) 1).val = (t.val / 8) * 128 + p.val := by
    show win0_11.index t (1 : Fin 3) * 128 + 1 * p.val = _; rw [e1]; omega
  have hc : ((((cfg0.win 11).blk t).view.emb (ix3 b p cc)) 2).val = cc.val := by
    show win0_11.index t (2 : Fin 3) * 3 + 1 * cc.val = cc.val; rw [e2]; omega
  unfold finalG_11
  refine o11_congr m c _ _ _ _ (by rw [hp]; have := p.isLt; omega) _ _ (funext fun a => Fin.ext ?_)
  match a with
  | ⟨0, _⟩ => exact hb.symm
  | ⟨1, _⟩ => show p.val = ((((cfg0.win 11).blk t).view.emb (ix3 b p cc)) 1).val % 128; rw [hp]; have := p.isLt; omega
  | ⟨2, _⟩ => exact hc.symm

theorem mem_blk_11 (t : Fin cfg0.N) (i : S8x1024x3.Idx) :
    i ∈ ((cfg0.win 11).blk t).view.set ↔ ∀ a : Fin 3, win0_11.index t a * S8x128x3.size a ≤ (i a).val ∧ (i a).val < win0_11.index t a * S8x128x3.size a + S8x128x3.size a := by
  show i ∈ ((View.whole main_v0_3).slice (win0_11.rect t)).set ↔ _
  rw [View.set_slice_whole, Rect.mem_set_unit]
  exact Iff.rfl

theorem cover_11 (i : S8x1024x3.Idx) : ∃ t : Fin cfg0.N, (cfg0.win 11).flush t = true ∧ i ∈ ((cfg0.win 11).blk t).view.set := by
  have hi0 : (i 0).val < 8 := (i 0).isLt
  have hi1 : (i 1).val < 1024 := (i 1).isLt
  have hi2 : (i 2).val < 3 := (i 2).isLt
  refine ⟨⟨8 * ((i 1).val / 128) + 7, by rw [show cfg0.N = 64 from N_0]; omega⟩, ?_, ?_⟩
  · exact (flush0_11 _).mpr (by show (8 * ((i 1).val / 128) + 7) % 8 = 7; omega)
  · rw [mem_blk_11]
    obtain ⟨e0, e1, e2⟩ := idx_facts_11 ⟨8 * ((i 1).val / 128) + 7, by rw [show cfg0.N = 64 from N_0]; omega⟩
    intro a
    match a with
    | ⟨0, _⟩ => show win0_11.index _ (0 : Fin 3) * 8 ≤ (i 0).val ∧ (i 0).val < win0_11.index _ (0 : Fin 3) * 8 + 8; rw [e0]; omega
    | ⟨1, _⟩ => show win0_11.index _ (1 : Fin 3) * 128 ≤ (i 1).val ∧ (i 1).val < win0_11.index _ (1 : Fin 3) * 128 + 128; rw [e1]; show (8 * ((i 1).val / 128) + 7) / 8 * 128 ≤ (i 1).val ∧ (i 1).val < (8 * ((i 1).val / 128) + 7) / 8 * 128 + 128; omega
    | ⟨2, _⟩ => show win0_11.index _ (2 : Fin 3) * 3 ≤ (i 2).val ∧ (i 2).val < win0_11.index _ (2 : Fin 3) * 3 + 3; rw [e2]; omega

theorem final_11 (c : Dev nD) : (dats m 0 c).arrAt 11 cfg0.N = finalG_11 m c :=
  (dats m 0 c).arrAt_eq_of_cover 11 (finalG_11 m c) (fun t hf => flushed_eq_11 m c t hf) (cover_11)

end Cert.KernelIdeal.Hand

end
-- ==== Proof.RowAccIdeal.lean ====
/-
  The kernel's results as eight-step sums.  Fix a row tile i, a batch b and a lane p.  Each accumulator starts the
  grid row at zero and gains, in column j, the lane-p entry of that point's lane vector for batch b; the result
  array's entry (b, 128 i + p) is the accumulator after the eighth column.
-/
import proofs.«146129_j80805514707451_2_alg».proof.Proof.PointValIdeal
import proofs.«146129_j80805514707451_2_alg».proof.Proof.FinalIdeal

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ)

/-- Point j of grid row i. -/
abbrev ptOf (i8 : Fin 8) (j : ℕ) (hj : j < 8) : Fin cfg0.N := ⟨8 * i8.val + j, by rw [show cfg0.N = 64 from N_0]; have := i8.isLt; omega⟩

theorem s14_congr (c : Dev nD) (n n' : ℕ) (h : n < cfg0.N) (h' : n' < cfg0.N) (e : n = n') (y : S8x128.Idx) :
    (outsAt m c n h).s14 y = (outsAt m c n' h').s14 y := by subst e; rfl

/-- Accumulator 1 at (b, p) after j columns of grid row i. -/
def accRow_14 (c : Dev nD) (i8 b : Fin 8) (p : Fin 128) : ℕ → F .f32
  | 0 => zeroF
  | j + 1 => if h : j < 8 then (outsAt m c (ptOf i8 j h).val (ptOf i8 j h).isLt).s14 (ix2 b p) else zeroF

theorem accRow_14_step (c : Dev nD) (i8 b : Fin 8) (p : Fin 128) (j : ℕ) (hj : j < 8) :
    accRow_14 m c i8 b p (j + 1) = FloatOps.addf (accRow_14 m c i8 b p j) (Tt_14 m c (ptOf i8 j hj) b (ix1 p)) := by
  rw [accRow_14, dif_pos hj]
  cases j with
  | zero =>
    exact sAt_first_14 m c (ptOf i8 0 hj) (by show (8 * i8.val + 0) % 8 = 0; omega) b p
  | succ j' =>
    rw [accRow_14, dif_pos (by omega : j' < 8)]
    refine (sAt_next_14 m c (ptOf i8 (j' + 1) hj) (by show ¬(8 * i8.val + (j' + 1)) % 8 = 0; omega) b p).trans ?_
    refine congrArg (fun z => FloatOps.addf z _) ?_
    exact s14_congr m c _ _ _ _ (by show 8 * i8.val + (j' + 1) - 1 = 8 * i8.val + j'; omega) _

theorem s15_congr (c : Dev nD) (n n' : ℕ) (h : n < cfg0.N) (h' : n' < cfg0.N) (e : n = n') (y : S8x128.Idx) :
    (outsAt m c n h).s15 y = (outsAt m c n' h').s15 y := by subst e; rfl

/-- Accumulator 2 at (b, p) after j columns of grid row i. -/
def accRow_15 (c : Dev nD) (i8 b : Fin 8) (p : Fin 128) : ℕ → F .f32
  | 0 => zeroF
  | j + 1 => if h : j < 8 then (outsAt m c (ptOf i8 j h).val (ptOf i8 j h).isLt).s15 (ix2 b p) else zeroF

theorem accRow_15_step (c : Dev nD) (i8 b : Fin 8) (p : Fin 128) (j : ℕ) (hj : j < 8) :
    accRow_15 m c i8 b p (j + 1) = FloatOps.addf (accRow_15 m c i8 b p j) (Tt_15 m c (ptOf i8 j hj) b (ix1 p)) := by
  rw [accRow_15, dif_pos hj]
  cases j with
  | zero =>
    exact sAt_first_15 m c (ptOf i8 0 hj) (by show (8 * i8.val + 0) % 8 = 0; omega) b p
  | succ j' =>
    rw [accRow_15, dif_pos (by omega : j' < 8)]
    refine (sAt_next_15 m c (ptOf i8 (j' + 1) hj) (by show ¬(8 * i8.val + (j' + 1)) % 8 = 0; omega) b p).trans ?_
    refine congrArg (fun z => FloatOps.addf z _) ?_
    exact s15_congr m c _ _ _ _ (by show 8 * i8.val + (j' + 1) - 1 = 8 * i8.val + j'; omega) _

theorem s16_congr (c : Dev nD) (n n' : ℕ) (h : n < cfg0.N) (h' : n' < cfg0.N) (e : n = n') (y : S8x128.Idx) :
    (outsAt m c n h).s16 y = (outsAt m c n' h').s16 y := by subst e; rfl

/-- Accumulator 3 at (b, p) after j columns of grid row i. -/
def accRow_16 (c : Dev nD) (i8 b : Fin 8) (p : Fin 128) : ℕ → F .f32
  | 0 => zeroF
  | j + 1 => if h : j < 8 then (outsAt m c (ptOf i8 j h).val (ptOf i8 j h).isLt).s16 (ix2 b p) else zeroF

theorem accRow_16_step (c : Dev nD) (i8 b : Fin 8) (p : Fin 128) (j : ℕ) (hj : j < 8) :
    accRow_16 m c i8 b p (j + 1) = FloatOps.addf (accRow_16 m c i8 b p j) (Tt_16 m c (ptOf i8 j hj) b (ix1 p)) := by
  rw [accRow_16, dif_pos hj]
  cases j with
  | zero =>
    exact sAt_first_16 m c (ptOf i8 0 hj) (by show (8 * i8.val + 0) % 8 = 0; omega) b p
  | succ j' =>
    rw [accRow_16, dif_pos (by omega : j' < 8)]
    refine (sAt_next_16 m c (ptOf i8 (j' + 1) hj) (by show ¬(8 * i8.val + (j' + 1)) % 8 = 0; omega) b p).trans ?_
    refine congrArg (fun z => FloatOps.addf z _) ?_
    exact s16_congr m c _ _ _ _ (by show 8 * i8.val + (j' + 1) - 1 = 8 * i8.val + j'; omega) _

theorem s17_congr (c : Dev nD) (n n' : ℕ) (h : n < cfg0.N) (h' : n' < cfg0.N) (e : n = n') (y : S8x128.Idx) :
    (outsAt m c n h).s17 y = (outsAt m c n' h').s17 y := by subst e; rfl

/-- Accumulator 4 at (b, p) after j columns of grid row i. -/
def accRow_17 (c : Dev nD) (i8 b : Fin 8) (p : Fin 128) : ℕ → F .f32
  | 0 => zeroF
  | j + 1 => if h : j < 8 then (outsAt m c (ptOf i8 j h).val (ptOf i8 j h).isLt).s17 (ix2 b p) else zeroF

theorem accRow_17_step (c : Dev nD) (i8 b : Fin 8) (p : Fin 128) (j : ℕ) (hj : j < 8) :
    accRow_17 m c i8 b p (j + 1) = FloatOps.addf (accRow_17 m c i8 b p j) (Tt_17 m c (ptOf i8 j hj) b (ix1 p)) := by
  rw [accRow_17, dif_pos hj]
  cases j with
  | zero =>
    exact sAt_first_17 m c (ptOf i8 0 hj) (by show (8 * i8.val + 0) % 8 = 0; omega) b p
  | succ j' =>
    rw [accRow_17, dif_pos (by omega : j' < 8)]
    refine (sAt_next_17 m c (ptOf i8 (j' + 1) hj) (by show ¬(8 * i8.val + (j' + 1)) % 8 = 0; omega) b p).trans ?_
    refine congrArg (fun z => FloatOps.addf z _) ?_
    exact s17_congr m c _ _ _ _ (by show 8 * i8.val + (j' + 1) - 1 = 8 * i8.val + j'; omega) _

theorem s18_congr (c : Dev nD) (n n' : ℕ) (h : n < cfg0.N) (h' : n' < cfg0.N) (e : n = n') (y : S8x128.Idx) :
    (outsAt m c n h).s18 y = (outsAt m c n' h').s18 y := by subst e; rfl

/-- Accumulator 5 at (b, p) after j columns of grid row i. -/
def accRow_18 (c : Dev nD) (i8 b : Fin 8) (p : Fin 128) : ℕ → F .f32
  | 0 => zeroF
  | j + 1 => if h : j < 8 then (outsAt m c (ptOf i8 j h).val (ptOf i8 j h).isLt).s18 (ix2 b p) else zeroF

theorem accRow_18_step (c : Dev nD) (i8 b : Fin 8) (p : Fin 128) (j : ℕ) (hj : j < 8) :
    accRow_18 m c i8 b p (j + 1) = FloatOps.addf (accRow_18 m c i8 b p j) (Tt_18 m c (ptOf i8 j hj) b (ix1 p)) := by
  rw [accRow_18, dif_pos hj]
  cases j with
  | zero =>
    exact sAt_first_18 m c (ptOf i8 0 hj) (by show (8 * i8.val + 0) % 8 = 0; omega) b p
  | succ j' =>
    rw [accRow_18, dif_pos (by omega : j' < 8)]
    refine (sAt_next_18 m c (ptOf i8 (j' + 1) hj) (by show ¬(8 * i8.val + (j' + 1)) % 8 = 0; omega) b p).trans ?_
    refine congrArg (fun z => FloatOps.addf z _) ?_
    exact s18_congr m c _ _ _ _ (by show 8 * i8.val + (j' + 1) - 1 = 8 * i8.val + j'; omega) _

theorem s19_congr (c : Dev nD) (n n' : ℕ) (h : n < cfg0.N) (h' : n' < cfg0.N) (e : n = n') (y : S8x128.Idx) :
    (outsAt m c n h).s19 y = (outsAt m c n' h').s19 y := by subst e; rfl

/-- Accumulator 6 at (b, p) after j columns of grid row i. -/
def accRow_19 (c : Dev nD) (i8 b : Fin 8) (p : Fin 128) : ℕ → F .f32
  | 0 => zeroF
  | j + 1 => if h : j < 8 then (outsAt m c (ptOf i8 j h).val (ptOf i8 j h).isLt).s19 (ix2 b p) else zeroF

theorem accRow_19_step (c : Dev nD) (i8 b : Fin 8) (p : Fin 128) (j : ℕ) (hj : j < 8) :
    accRow_19 m c i8 b p (j + 1) = FloatOps.addf (accRow_19 m c i8 b p j) (Tt_19 m c (ptOf i8 j hj) b (ix1 p)) := by
  rw [accRow_19, dif_pos hj]
  cases j with
  | zero =>
    exact sAt_first_19 m c (ptOf i8 0 hj) (by show (8 * i8.val + 0) % 8 = 0; omega) b p
  | succ j' =>
    rw [accRow_19, dif_pos (by omega : j' < 8)]
    refine (sAt_next_19 m c (ptOf i8 (j' + 1) hj) (by show ¬(8 * i8.val + (j' + 1)) % 8 = 0; omega) b p).trans ?_
    refine congrArg (fun z => FloatOps.addf z _) ?_
    exact s19_congr m c _ _ _ _ (by show 8 * i8.val + (j' + 1) - 1 = 8 * i8.val + j'; omega) _

theorem s20_congr (c : Dev nD) (n n' : ℕ) (h : n < cfg0.N) (h' : n' < cfg0.N) (e : n = n') (y : S8x128.Idx) :
    (outsAt m c n h).s20 y = (outsAt m c n' h').s20 y := by subst e; rfl

/-- Accumulator 7 at (b, p) after j columns of grid row i. -/
def accRow_20 (c : Dev nD) (i8 b : Fin 8) (p : Fin 128) : ℕ → F .f32
  | 0 => zeroF
  | j + 1 => if h : j < 8 then (outsAt m c (ptOf i8 j h).val (ptOf i8 j h).isLt).s20 (ix2 b p) else zeroF

theorem accRow_20_step (c : Dev nD) (i8 b : Fin 8) (p : Fin 128) (j : ℕ) (hj : j < 8) :
    accRow_20 m c i8 b p (j + 1) = FloatOps.addf (accRow_20 m c i8 b p j) (Tt_20 m c (ptOf i8 j hj) b (ix1 p)) := by
  rw [accRow_20, dif_pos hj]
  cases j with
  | zero =>
    exact sAt_first_20 m c (ptOf i8 0 hj) (by show (8 * i8.val + 0) % 8 = 0; omega) b p
  | succ j' =>
    rw [accRow_20, dif_pos (by omega : j' < 8)]
    refine (sAt_next_20 m c (ptOf i8 (j' + 1) hj) (by show ¬(8 * i8.val + (j' + 1)) % 8 = 0; omega) b p).trans ?_
    refine congrArg (fun z => FloatOps.addf z _) ?_
    exact s20_congr m c _ _ _ _ (by show 8 * i8.val + (j' + 1) - 1 = 8 * i8.val + j'; omega) _

theorem s21_congr (c : Dev nD) (n n' : ℕ) (h : n < cfg0.N) (h' : n' < cfg0.N) (e : n = n') (y : S8x128.Idx) :
    (outsAt m c n h).s21 y = (outsAt m c n' h').s21 y := by subst e; rfl

/-- Accumulator 8 at (b, p) after j columns of grid row i. -/
def accRow_21 (c : Dev nD) (i8 b : Fin 8) (p : Fin 128) : ℕ → F .f32
  | 0 => zeroF
  | j + 1 => if h : j < 8 then (outsAt m c (ptOf i8 j h).val (ptOf i8 j h).isLt).s21 (ix2 b p) else zeroF

theorem accRow_21_step (c : Dev nD) (i8 b : Fin 8) (p : Fin 128) (j : ℕ) (hj : j < 8) :
    accRow_21 m c i8 b p (j + 1) = FloatOps.addf (accRow_21 m c i8 b p j) (Tt_21 m c (ptOf i8 j hj) b (ix1 p)) := by
  rw [accRow_21, dif_pos hj]
  cases j with
  | zero =>
    exact sAt_first_21 m c (ptOf i8 0 hj) (by show (8 * i8.val + 0) % 8 = 0; omega) b p
  | succ j' =>
    rw [accRow_21, dif_pos (by omega : j' < 8)]
    refine (sAt_next_21 m c (ptOf i8 (j' + 1) hj) (by show ¬(8 * i8.val + (j' + 1)) % 8 = 0; omega) b p).trans ?_
    refine congrArg (fun z => FloatOps.addf z _) ?_
    exact s21_congr m c _ _ _ _ (by show 8 * i8.val + (j' + 1) - 1 = 8 * i8.val + j'; omega) _

theorem kernel_final_8 (c : Dev nD) (b i8 : Fin 8) (p : Fin 128) :
    (dats m 0 c).arrAt 8 cfg0.N (ix2 b (⟨128 * i8.val + p.val, by have := i8.isLt; have := p.isLt; omega⟩ : Fin 1024)) = accRow_14 m c i8 b p 8 := by
  rw [final_8]
  unfold finalG_8
  rw [accRow_14, dif_pos (by omega : 7 < 8)]
  have hp := p.isLt; have hi := i8.isLt
  refine (o8_congr m c _ (8 * i8.val + 7) _ (by rw [show cfg0.N = 64 from N_0]; have := i8.isLt; omega) (by show 8 * ((128 * i8.val + p.val) / 128) + 7 = 8 * i8.val + 7; omega) _ (ix2 b p)
    (funext fun a => Fin.ext (by
      match a with
      | ⟨0, _⟩ => rfl
      | ⟨1, _⟩ => show (128 * i8.val + p.val) % 128 = p.val; omega))).trans ?_
  exact oAt_8 m c ⟨8 * i8.val + 7, (by rw [show cfg0.N = 64 from N_0]; have := i8.isLt; omega)⟩ (by show (8 * i8.val + 7) % 8 = 7; omega) b p

theorem kernel_final_9 (c : Dev nD) (b i8 : Fin 8) (p : Fin 128) :
    (dats m 0 c).arrAt 9 cfg0.N (ix2 b (⟨128 * i8.val + p.val, by have := i8.isLt; have := p.isLt; omega⟩ : Fin 1024)) = accRow_15 m c i8 b p 8 := by
  rw [final_9]
  unfold finalG_9
  rw [accRow_15, dif_pos (by omega : 7 < 8)]
  have hp := p.isLt; have hi := i8.isLt
  refine (o9_congr m c _ (8 * i8.val + 7) _ (by rw [show cfg0.N = 64 from N_0]; have := i8.isLt; omega) (by show 8 * ((128 * i8.val + p.val) / 128) + 7 = 8 * i8.val + 7; omega) _ (ix2 b p)
    (funext fun a => Fin.ext (by
      match a with
      | ⟨0, _⟩ => rfl
      | ⟨1, _⟩ => show (128 * i8.val + p.val) % 128 = p.val; omega))).trans ?_
  exact oAt_9 m c ⟨8 * i8.val + 7, (by rw [show cfg0.N = 64 from N_0]; have := i8.isLt; omega)⟩ (by show (8 * i8.val + 7) % 8 = 7; omega) b p

theorem kernel_final_10_0 (c : Dev nD) (b i8 : Fin 8) (p : Fin 128) :
    (dats m 0 c).arrAt 10 cfg0.N (ix3 b (⟨128 * i8.val + p.val, by have := i8.isLt; have := p.isLt; omega⟩ : Fin 1024) (0 : Fin 3)) = accRow_16 m c i8 b p 8 := by
  rw [final_10]
  unfold finalG_10
  rw [accRow_16, dif_pos (by omega : 7 < 8)]
  have hp := p.isLt; have hi := i8.isLt
  refine (o10_congr m c _ (8 * i8.val + 7) _ (by rw [show cfg0.N = 64 from N_0]; have := i8.isLt; omega) (by show 8 * ((128 * i8.val + p.val) / 128) + 7 = 8 * i8.val + 7; omega) _ (ix3 b p (0 : Fin 3))
    (funext fun a => Fin.ext (by
      match a with
      | ⟨0, _⟩ => rfl
      | ⟨1, _⟩ => show (128 * i8.val + p.val) % 128 = p.val; omega
      | ⟨2, _⟩ => rfl))).trans ?_
  exact oAt_10_0 m c ⟨8 * i8.val + 7, (by rw [show cfg0.N = 64 from N_0]; have := i8.isLt; omega)⟩ (by show (8 * i8.val + 7) % 8 = 7; omega) b p

theorem kernel_final_10_1 (c : Dev nD) (b i8 : Fin 8) (p : Fin 128) :
    (dats m 0 c).arrAt 10 cfg0.N (ix3 b (⟨128 * i8.val + p.val, by have := i8.isLt; have := p.isLt; omega⟩ : Fin 1024) (1 : Fin 3)) = accRow_17 m c i8 b p 8 := by
  rw [final_10]
  unfold finalG_10
  rw [accRow_17, dif_pos (by omega : 7 < 8)]
  have hp := p.isLt; have hi := i8.isLt
  refine (o10_congr m c _ (8 * i8.val + 7) _ (by rw [show cfg0.N = 64 from N_0]; have := i8.isLt; omega) (by show 8 * ((128 * i8.val + p.val) / 128) + 7 = 8 * i8.val + 7; omega) _ (ix3 b p (1 : Fin 3))
    (funext fun a => Fin.ext (by
      match a with
      | ⟨0, _⟩ => rfl
      | ⟨1, _⟩ => show (128 * i8.val + p.val) % 128 = p.val; omega
      | ⟨2, _⟩ => rfl))).trans ?_
  exact oAt_10_1 m c ⟨8 * i8.val + 7, (by rw [show cfg0.N = 64 from N_0]; have := i8.isLt; omega)⟩ (by show (8 * i8.val + 7) % 8 = 7; omega) b p

theorem kernel_final_10_2 (c : Dev nD) (b i8 : Fin 8) (p : Fin 128) :
    (dats m 0 c).arrAt 10 cfg0.N (ix3 b (⟨128 * i8.val + p.val, by have := i8.isLt; have := p.isLt; omega⟩ : Fin 1024) (2 : Fin 3)) = accRow_18 m c i8 b p 8 := by
  rw [final_10]
  unfold finalG_10
  rw [accRow_18, dif_pos (by omega : 7 < 8)]
  have hp := p.isLt; have hi := i8.isLt
  refine (o10_congr m c _ (8 * i8.val + 7) _ (by rw [show cfg0.N = 64 from N_0]; have := i8.isLt; omega) (by show 8 * ((128 * i8.val + p.val) / 128) + 7 = 8 * i8.val + 7; omega) _ (ix3 b p (2 : Fin 3))
    (funext fun a => Fin.ext (by
      match a with
      | ⟨0, _⟩ => rfl
      | ⟨1, _⟩ => show (128 * i8.val + p.val) % 128 = p.val; omega
      | ⟨2, _⟩ => rfl))).trans ?_
  exact oAt_10_2 m c ⟨8 * i8.val + 7, (by rw [show cfg0.N = 64 from N_0]; have := i8.isLt; omega)⟩ (by show (8 * i8.val + 7) % 8 = 7; omega) b p

theorem kernel_final_11_0 (c : Dev nD) (b i8 : Fin 8) (p : Fin 128) :
    (dats m 0 c).arrAt 11 cfg0.N (ix3 b (⟨128 * i8.val + p.val, by have := i8.isLt; have := p.isLt; omega⟩ : Fin 1024) (0 : Fin 3)) = accRow_19 m c i8 b p 8 := by
  rw [final_11]
  unfold finalG_11
  rw [accRow_19, dif_pos (by omega : 7 < 8)]
  have hp := p.isLt; have hi := i8.isLt
  refine (o11_congr m c _ (8 * i8.val + 7) _ (by rw [show cfg0.N = 64 from N_0]; have := i8.isLt; omega) (by show 8 * ((128 * i8.val + p.val) / 128) + 7 = 8 * i8.val + 7; omega) _ (ix3 b p (0 : Fin 3))
    (funext fun a => Fin.ext (by
      match a with
      | ⟨0, _⟩ => rfl
      | ⟨1, _⟩ => show (128 * i8.val + p.val) % 128 = p.val; omega
      | ⟨2, _⟩ => rfl))).trans ?_
  exact oAt_11_0 m c ⟨8 * i8.val + 7, (by rw [show cfg0.N = 64 from N_0]; have := i8.isLt; omega)⟩ (by show (8 * i8.val + 7) % 8 = 7; omega) b p

theorem kernel_final_11_1 (c : Dev nD) (b i8 : Fin 8) (p : Fin 128) :
    (dats m 0 c).arrAt 11 cfg0.N (ix3 b (⟨128 * i8.val + p.val, by have := i8.isLt; have := p.isLt; omega⟩ : Fin 1024) (1 : Fin 3)) = accRow_20 m c i8 b p 8 := by
  rw [final_11]
  unfold finalG_11
  rw [accRow_20, dif_pos (by omega : 7 < 8)]
  have hp := p.isLt; have hi := i8.isLt
  refine (o11_congr m c _ (8 * i8.val + 7) _ (by rw [show cfg0.N = 64 from N_0]; have := i8.isLt; omega) (by show 8 * ((128 * i8.val + p.val) / 128) + 7 = 8 * i8.val + 7; omega) _ (ix3 b p (1 : Fin 3))
    (funext fun a => Fin.ext (by
      match a with
      | ⟨0, _⟩ => rfl
      | ⟨1, _⟩ => show (128 * i8.val + p.val) % 128 = p.val; omega
      | ⟨2, _⟩ => rfl))).trans ?_
  exact oAt_11_1 m c ⟨8 * i8.val + 7, (by rw [show cfg0.N = 64 from N_0]; have := i8.isLt; omega)⟩ (by show (8 * i8.val + 7) % 8 = 7; omega) b p

theorem kernel_final_11_2 (c : Dev nD) (b i8 : Fin 8) (p : Fin 128) :
    (dats m 0 c).arrAt 11 cfg0.N (ix3 b (⟨128 * i8.val + p.val, by have := i8.isLt; have := p.isLt; omega⟩ : Fin 1024) (2 : Fin 3)) = accRow_21 m c i8 b p 8 := by
  rw [final_11]
  unfold finalG_11
  rw [accRow_21, dif_pos (by omega : 7 < 8)]
  have hp := p.isLt; have hi := i8.isLt
  refine (o11_congr m c _ (8 * i8.val + 7) _ (by rw [show cfg0.N = 64 from N_0]; have := i8.isLt; omega) (by show 8 * ((128 * i8.val + p.val) / 128) + 7 = 8 * i8.val + 7; omega) _ (ix3 b p (2 : Fin 3))
    (funext fun a => Fin.ext (by
      match a with
      | ⟨0, _⟩ => rfl
      | ⟨1, _⟩ => show (128 * i8.val + p.val) % 128 = p.val; omega
      | ⟨2, _⟩ => rfl))).trans ?_
  exact oAt_11_2 m c ⟨8 * i8.val + 7, (by rw [show cfg0.N = 64 from N_0]; have := i8.isLt; omega)⟩ (by show (8 * i8.val + 7) % 8 = 7; omega) b p

end Cert.KernelIdeal.Hand

end
-- ==== Proof.TileAtIdeal.lean ====
/-
  The pair table of one batch, at a lane.  Trip k of the batch loop forms, for the 128 targets and the 128 sources
  of the tile, the table of pair weights of batch k and sums sixteen products of it along the sources.  Here the
  pair quantities are written over scalars of the extended reals, in the kernel's own association and operand
  order; the lane vectors the trip loads are read at a lane as entries of the blocks' contents; and each of the
  sixteen lane sums, read at target p, is the sum over the sources q of its summand at the entries of p and q.
-/
import proofs.«146129_j80805514707451_2_alg».proof.Proof.TripValIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 65536

noncomputable section

namespace Cert.KernelIdeal.Tile

open Cert.KernelIdeal Cert.KernelIdeal.Gen Cert.KernelIdeal.Hand
open Idealize.ShloMosaic Idealize.ShloMosaic.TcCoe Idealize.ShloMosaic.Tactic
open Idealize.SL Idealize.SL.Sem
open scoped BigOperators

open Idealize.ShloMosaic.ValueIdx

/-! ## The pair quantities over scalars -/

/-- The squared distance: the three squared differences, summed left to right. -/
def d2 (xi yi zi xj yj zj : EReal) : EReal := ((xi - xj) * (xi - xj) + (yi - yj) * (yi - yj)) + (zi - zj) * (zi - zj)
/-- The distance: the root of the squared distance floored at 1e-16. -/
def dij (xi yi zi xj yj zj : EReal) : EReal := Ideal.sqrt (max (d2 xi yi zi xj yj zj) (Ideal.ofBits .f32 0x24E69595#32))
/-- The reciprocal of the distance floored at 1e-8. -/
def invd (d : EReal) : EReal := Ideal.div (Ideal.ofBits .f32 0x3F800000#32) (max d (Ideal.ofBits .f32 0x322BCC77#32))
/-- A component of the unit vector from source to target. -/
def ucomp (a b d : EReal) : EReal := (a - b) * invd d
/-- 1 where the distance exceeds 1e-8, else 0. -/
def notSelf (d : EReal) : EReal := ((((Ideal.cmp .ogt d (Ideal.ofBits .f32 0x322BCC77#32)).setWidth 32).toInt : ℝ) : EReal)
/-- 1 where the distance is at most the cutoff 5, else 0. -/
def inCut (d : EReal) : EReal := ((((Ideal.cmp .ole d (Ideal.ofBits .f32 0x40A00000#32)).setWidth 32).toInt : ℝ) : EReal)
/-- The pair mask: both masks, not the same point, inside the cutoff. -/
def pairMask (mi mj d : EReal) : EReal := ((mi * mj) * notSelf d) * inCut d
/-- The softened reciprocal distance 1 / sqrt(d² + 0.0225). -/
def invr (d : EReal) : EReal := Ideal.div (Ideal.ofBits .f32 0x3F800000#32) (Ideal.sqrt (d * d + Ideal.ofBits .f32 0x3CB851EC#32))
/-- The cosine taper 0.5 (cos(π d / 5) + 1) inside the cutoff. -/
def cosTerm (d : EReal) : EReal :=
  ((Ideal.ofBits .f32 0x3F000000#32) * (Ideal.cos ((Ideal.ofBits .f32 0x40490FDB#32) * Ideal.div d (Ideal.ofBits .f32 0x40A00000#32)) + Ideal.ofBits .f32 0x3F800000#32)) * inCut d
/-- The gaussian weight exp(-0.5 (d / 0.6)²). -/
def wG (d : EReal) : EReal :=
  Ideal.exp ((Ideal.ofBits .f32 0xBF000000#32) * (Ideal.div d (Ideal.ofBits .f32 0x3F19999A#32) * Ideal.div d (Ideal.ofBits .f32 0x3F19999A#32)))
/-- The pair weight: taper times mask, times the gaussian. -/
def wPair (mi mj d : EReal) : EReal := (cosTerm d * pairMask mi mj d) * wG d
/-- The weight times the first, second and third power of the softened reciprocal distance. -/
def wi (mi mj d : EReal) : EReal := wPair mi mj d * invr d
def wi2 (mi mj d : EReal) : EReal := wi mi mj d * invr d
def wi3 (mi mj d : EReal) : EReal := wi2 mi mj d * invr d
/-- A source dipole against the unit vector. -/
def dotU (mx my mz ux uy uz : EReal) : EReal := (mx * ux + my * uy) + mz * uz

/-! ## Layout: a lane vector spread over the table -/

/-- A lane vector as a column, spread over the table, reads at (p, q) the vector at p. -/
theorem col_apply (v : FVec Ideal S128 .f32) (p q : Fin 128) :
    broadcastTo S128x128 (shapeCast S128x1 v shapeCasts_S128_S128x1) broadcasts_S128x1_S128x128 (ix2 p q) = v (ix1 p) := by
  refine (broadcastTo_apply _ _ (ix2 p q) (ix2 p (0 : Fin 1)) fun ax => ?_).trans ?_
  · match ax with
    | ⟨0, _⟩ => rfl
    | ⟨1, _⟩ => rfl
  · refine shapeCast_apply v _ (ix2 p (0 : Fin 1)) (ix1 p) ?_
    rw [Shape.rowMajor_val_two, Shape.rowMajor_val_one]
    show p.val = p.val * 1 + 0
    omega

/-- A lane vector as a row, spread over the table, reads at (p, q) the vector at q. -/
theorem row_apply (v : FVec Ideal S128 .f32) (p q : Fin 128) :
    broadcastTo S128x128 (shapeCast S1x128 v shapeCasts_S128_S1x128) broadcasts_S1x128_S128x128 (ix2 p q) = v (ix1 q) :=
  (broadcastTo_1b_ab_apply _ _ p q).trans (shapeCast_a_1a_apply v _ (0 : Fin 1) q)

/-- The lane sum over the sources, read at target p. -/
theorem laneSum_apply (T : FVec Ideal S128x128 .f32) (p : Fin 128) :
    multiReduction (F := Ideal) .add [1] S128 T 0x00000000#32 reduces_S128x128_S128 (.inl rfl) rfl (ix1 p)
      = Ideal.ofBits .f32 0x00000000#32 + ∑ q : Fin 128, T (ix2 p q) := by
  rw [Ideal.ofBits_zero_f32, zero_add]
  refine (Ideal.multiReduction_add_single T _ reduces_S128x128_S128 _ _ (ix1 p)).trans ?_
  refine Finset.sum_congr rfl fun q _ => congrArg T ?_
  funext d
  match d with
  | ⟨0, _⟩ => rfl
  | ⟨1, _⟩ => rfl

/-! ## The loaded lane vectors at a lane -/

/-- The trip number is below the eight batches. -/
theorem trip_lt (k : Fin k0_t1_loop.trips) : k.val < 8 := Nat.lt_of_lt_of_le k.isLt k0_t1_abs.2.1

/-- Component c of row k of a positions block, loaded as a lane vector: at lane p it is the block's entry (k, p, c). -/
theorem lane3_apply (arg : Memref sig .tc .vmem S8x128x3 .f32) (X : BufTy.Contents (Elt Ideal) arg.view.ty)
    (off : Fin 3 → Nat) (inb : ∀ a, off a + S1x128x1.size a ≤ S8x128x3.size a) (kk : Fin 8) (c : Fin 3)
    (hoff : off = ![kk.val, 0, c.val]) (p : Fin 128) :
    shapeCast S128 (View.readAt (Elt Ideal) arg.view (Rect.unit (s := S8x128x3) off S1x128x1.size inb).toLoadRect X)
        shapeCasts_S1x128x1_S128 (ix1 p)
      = arg.view.read (Elt Ideal) X (ix3 kk p c) := by
  subst hoff
  refine (shapeCast_apply _ _ (ix1 p) (ix3 (0 : Fin 1) p (0 : Fin 1)) ?_).trans ?_
  · rw [Shape.rowMajor_val_three, Shape.rowMajor_val_one]
    show (0 * 128 + p.val) * 1 + 0 = p.val
    omega
  · refine congrArg (arg.view.read (Elt Ideal) X) (funext fun a => Fin.ext ?_)
    match a with
    | ⟨0, _⟩ => show kk.val + 1 * 0 = kk.val; omega
    | ⟨1, _⟩ => show 0 + 1 * p.val = p.val; omega
    | ⟨2, _⟩ => show c.val + 1 * 0 = c.val; omega

/-- Row k of a [8, 128] block, loaded as a lane vector: at lane p it is the block's entry (k, p). -/
theorem lane2_apply (arg : Memref sig .tc .vmem S8x128 .f32) (X : BufTy.Contents (Elt Ideal) arg.view.ty)
    (off : Fin 2 → Nat) (inb : ∀ a, off a + S1x128.size a ≤ S8x128.size a) (kk : Fin 8)
    (hoff : off = ![kk.val, 0]) (p : Fin 128) :
    shapeCast S128 (View.readAt (Elt Ideal) arg.view (Rect.unit (s := S8x128) off S1x128.size inb).toLoadRect X)
        shapeCasts_S1x128_S128 (ix1 p)
      = arg.view.read (Elt Ideal) X (ix2 kk p) := by
  subst hoff
  refine (shapeCast_1a_a_apply _ _ p).trans ?_
  refine congrArg (arg.view.read (Elt Ideal) X) (funext fun a => Fin.ext ?_)
  match a with
  | ⟨0, _⟩ => show kk.val + 1 * 0 = kk.val; omega
  | ⟨1, _⟩ => show 0 + 1 * p.val = p.val; omega

/-- Entry (k, p, c) of a [8, 128, 3] block's contents, k the trip's batch. -/
def ent3 (arg : Memref sig .tc .vmem S8x128x3 .f32) (X : BufTy.Contents (Elt Ideal) arg.view.ty)
    (k : Fin k0_t1_loop.trips) (p : Fin 128) (c : Fin 3) : EReal :=
  arg.view.read (Elt Ideal) X (ix3 (⟨k.val, trip_lt k⟩ : Fin 8) p c)
/-- Entry (k, p) of a [8, 128] block's contents, k the trip's batch. -/
def ent2 (arg : Memref sig .tc .vmem S8x128 .f32) (X : BufTy.Contents (Elt Ideal) arg.view.ty)
    (k : Fin k0_t1_loop.trips) (p : Fin 128) : EReal :=
  arg.view.read (Elt Ideal) X (ix2 (⟨k.val, trip_lt k⟩ : Fin 8) p)

/-- The x, y, z lane vectors trip k loads from a [8, 128, 3] block, and the lane vector it loads from a [8, 128] block. -/
def laneX (arg : Memref sig .tc .vmem S8x128x3 .f32) (X : BufTy.Contents (Elt Ideal) arg.view.ty) (k : Fin k0_t1_loop.trips) : FVec Ideal S128 .f32 :=
  shapeCast S128 (View.readAt (Elt Ideal) arg.view (Rect.unit (s := S8x128x3) (k0_off1 k) S1x128x1.size (k0_off1_inb k)).toLoadRect X) shapeCasts_S1x128x1_S128
def laneY (arg : Memref sig .tc .vmem S8x128x3 .f32) (X : BufTy.Contents (Elt Ideal) arg.view.ty) (k : Fin k0_t1_loop.trips) : FVec Ideal S128 .f32 :=
  shapeCast S128 (View.readAt (Elt Ideal) arg.view (Rect.unit (s := S8x128x3) (k0_off2 k) S1x128x1.size (k0_off2_inb k)).toLoadRect X) shapeCasts_S1x128x1_S128
def laneZ (arg : Memref sig .tc .vmem S8x128x3 .f32) (X : BufTy.Contents (Elt Ideal) arg.view.ty) (k : Fin k0_t1_loop.trips) : FVec Ideal S128 .f32 :=
  shapeCast S128 (View.readAt (Elt Ideal) arg.view (Rect.unit (s := S8x128x3) (k0_off3 k) S1x128x1.size (k0_off3_inb k)).toLoadRect X) shapeCasts_S1x128x1_S128
def laneR (arg : Memref sig .tc .vmem S8x128 .f32) (X : BufTy.Contents (Elt Ideal) arg.view.ty) (k : Fin k0_t1_loop.trips) : FVec Ideal S128 .f32 :=
  shapeCast S128 (View.readAt (Elt Ideal) arg.view (Rect.unit (s := S8x128) (k0_off4 k) S1x128.size (k0_off4_inb k)).toLoadRect X) shapeCasts_S1x128_S128

/-- The loaded lane vectors at lane p are the blocks' entries. -/
theorem laneX_apply (arg : Memref sig .tc .vmem S8x128x3 .f32) (X : BufTy.Contents (Elt Ideal) arg.view.ty)
    (k : Fin k0_t1_loop.trips) (p : Fin 128) : laneX arg X k (ix1 p) = ent3 arg X k p 0 :=
  lane3_apply arg X _ _ ⟨k.val, trip_lt k⟩ 0 (k0_off1_eq k) p
theorem laneY_apply (arg : Memref sig .tc .vmem S8x128x3 .f32) (X : BufTy.Contents (Elt Ideal) arg.view.ty)
    (k : Fin k0_t1_loop.trips) (p : Fin 128) : laneY arg X k (ix1 p) = ent3 arg X k p 1 :=
  lane3_apply arg X _ _ ⟨k.val, trip_lt k⟩ 1 (k0_off2_eq k) p
theorem laneZ_apply (arg : Memref sig .tc .vmem S8x128x3 .f32) (X : BufTy.Contents (Elt Ideal) arg.view.ty)
    (k : Fin k0_t1_loop.trips) (p : Fin 128) : laneZ arg X k (ix1 p) = ent3 arg X k p 2 :=
  lane3_apply arg X _ _ ⟨k.val, trip_lt k⟩ 2 (k0_off3_eq k) p
theorem laneR_apply (arg : Memref sig .tc .vmem S8x128 .f32) (X : BufTy.Contents (Elt Ideal) arg.view.ty)
    (k : Fin k0_t1_loop.trips) (p : Fin 128) : laneR arg X k (ix1 p) = ent2 arg X k p :=
  lane2_apply arg X _ _ ⟨k.val, trip_lt k⟩ (k0_off4_eq k) p

/-! ## The pair table of lane vectors, at a pair

Below tx ty tz are the targets' coordinate lane vectors, sx sy sz the sources', tm sm the two masks; D V N are the
tables of distances, of mask products and of not-the-same-point flags. -/

/-- The distance of target p and source q, of lane vectors. -/
def ldist (tx ty tz sx sy sz : FVec Ideal S128 .f32) (p q : Fin 128) : EReal :=
  dij (tx (ix1 p)) (ty (ix1 p)) (tz (ix1 p)) (sx (ix1 q)) (sy (ix1 q)) (sz (ix1 q))

/-- The table of coordinate differences at (p, q). -/
theorem diff_apply (a b : FVec Ideal S128 .f32) (p q : Fin 128) : k0_pay32 a b (ix2 p q) = a (ix1 p) - b (ix1 q) := by
  unfold k0_pay32
  exact congrArg₂ (fun x y : EReal => x - y) (col_apply a p q) (row_apply b p q)
theorem diff_apply' (a b : FVec Ideal S128 .f32) (p q : Fin 128) : k0_pay33 a b (ix2 p q) = a (ix1 p) - b (ix1 q) := by
  unfold k0_pay33
  exact congrArg₂ (fun x y : EReal => x - y) (col_apply a p q) (row_apply b p q)
theorem diff_apply'' (a b : FVec Ideal S128 .f32) (p q : Fin 128) : k0_pay34 a b (ix2 p q) = a (ix1 p) - b (ix1 q) := by
  unfold k0_pay34
  exact congrArg₂ (fun x y : EReal => x - y) (col_apply a p q) (row_apply b p q)

/-- The table of distances at (p, q). -/
theorem dist_apply (tx ty tz sx sy sz : FVec Ideal S128 .f32) (p q : Fin 128) :
    k0_pay35 tx ty tz sx sy sz (ix2 p q) = ldist tx ty tz sx sy sz p q := by
  unfold k0_pay35 ldist dij d2
  show Ideal.sqrt (max ((k0_pay32 tx sx (ix2 p q) * k0_pay32 tx sx (ix2 p q) + k0_pay33 ty sy (ix2 p q) * k0_pay33 ty sy (ix2 p q))
      + k0_pay34 tz sz (ix2 p q) * k0_pay34 tz sz (ix2 p q)) (Ideal.ofBits .f32 0x24E69595#32)) = _
  rw [diff_apply, diff_apply', diff_apply'']

/-- The table of reciprocal distances at (p, q). -/
theorem invd_apply (tx ty tz sx sy sz : FVec Ideal S128 .f32) (p q : Fin 128) :
    k0_pay36 tx ty tz sx sy sz (ix2 p q) = invd (ldist tx ty tz sx sy sz p q) := by
  unfold k0_pay36 invd
  show Ideal.div (Ideal.ofBits .f32 0x3F800000#32) (max (k0_pay35 tx ty tz sx sy sz (ix2 p q)) (Ideal.ofBits .f32 0x322BCC77#32)) = _
  rw [dist_apply]

/-- The three tables of unit-vector components at (p, q). -/
theorem ux_apply (tx ty tz sx sy sz : FVec Ideal S128 .f32) (p q : Fin 128) :
    k0_pay37 tx ty tz sx sy sz (ix2 p q) = ucomp (tx (ix1 p)) (sx (ix1 q)) (ldist tx ty tz sx sy sz p q) := by
  unfold k0_pay37 ucomp
  show k0_pay32 tx sx (ix2 p q) * k0_pay36 tx ty tz sx sy sz (ix2 p q) = _
  rw [diff_apply, invd_apply]
theorem uy_apply (tx ty tz sx sy sz : FVec Ideal S128 .f32) (p q : Fin 128) :
    k0_pay38 tx ty tz sx sy sz (ix2 p q) = ucomp (ty (ix1 p)) (sy (ix1 q)) (ldist tx ty tz sx sy sz p q) := by
  unfold k0_pay38 ucomp
  show k0_pay33 ty sy (ix2 p q) * k0_pay36 tx ty tz sx sy sz (ix2 p q) = _
  rw [diff_apply', invd_apply]
theorem uz_apply (tx ty tz sx sy sz : FVec Ideal S128 .f32) (p q : Fin 128) :
    k0_pay39 tx ty tz sx sy sz (ix2 p q) = ucomp (tz (ix1 p)) (sz (ix1 q)) (ldist tx ty tz sx sy sz p q) := by
  unfold k0_pay39 ucomp
  show k0_pay34 tz sz (ix2 p q) * k0_pay36 tx ty tz sx sy sz (ix2 p q) = _
  rw [diff_apply'', invd_apply]

/-- The table of mask products at (p, q). -/
theorem valid_apply (tm sm : FVec Ideal S128 .f32) (p q : Fin 128) : k0_pay40 tm sm (ix2 p q) = tm (ix1 p) * sm (ix1 q) := by
  unfold k0_pay40
  exact congrArg₂ (fun x y : EReal => x * y) (col_apply tm p q) (row_apply sm p q)

/-- The table of not-the-same-point flags at (p, q). -/
theorem notSelf_apply (tx ty tz sx sy sz : FVec Ideal S128 .f32) (p q : Fin 128) :
    k0_pay41 tx ty tz sx sy sz (ix2 p q) = notSelf (ldist tx ty tz sx sy sz p q) := by
  unfold k0_pay41
  show notSelf (k0_pay35 tx ty tz sx sy sz (ix2 p q)) = _
  rw [dist_apply]

/-- The softened reciprocal distance of a table of distances, at (p, q). -/
theorem invr_apply (D : FVec Ideal S128x128 .f32) (p q : Fin 128) : k0_pay42 D (ix2 p q) = invr (D (ix2 p q)) := rfl

/-- The weight tables at (p, q): where the three tables read d, mi mj and the flag of d. -/
theorem wi_apply (D V N : FVec Ideal S128x128 .f32) (p q : Fin 128) (mi mj d : EReal)
    (hD : D (ix2 p q) = d) (hV : V (ix2 p q) = mi * mj) (hN : N (ix2 p q) = notSelf d) :
    k0_pay43 D V N (ix2 p q) = wi mi mj d := by
  unfold k0_pay43 wi wPair pairMask
  show ((cosTerm (D (ix2 p q)) * ((V (ix2 p q) * N (ix2 p q)) * inCut (D (ix2 p q)))) * wG (D (ix2 p q))) * invr (D (ix2 p q)) = _
  rw [hD, hV, hN]
theorem wi2_apply (D V N : FVec Ideal S128x128 .f32) (p q : Fin 128) (mi mj d : EReal)
    (hD : D (ix2 p q) = d) (hV : V (ix2 p q) = mi * mj) (hN : N (ix2 p q) = notSelf d) :
    k0_pay44 D V N (ix2 p q) = wi2 mi mj d := by
  unfold k0_pay44 wi2
  show k0_pay43 D V N (ix2 p q) * invr (D (ix2 p q)) = _
  rw [wi_apply D V N p q mi mj d hD hV hN, hD]
theorem wi3_apply (D V N : FVec Ideal S128x128 .f32) (p q : Fin 128) (mi mj d : EReal)
    (hD : D (ix2 p q) = d) (hV : V (ix2 p q) = mi * mj) (hN : N (ix2 p q) = notSelf d) :
    k0_pay45 D V N (ix2 p q) = wi3 mi mj d := by
  unfold k0_pay45 wi3
  show k0_pay44 D V N (ix2 p q) * invr (D (ix2 p q)) = _
  rw [wi2_apply D V N p q mi mj d hD hV hN, hD]

/-! ## The pair quantities of lane vectors -/

/-- The weight of the pair (p, q) times the first, second, third power of the softened reciprocal distance. -/
def lwi (tx ty tz sx sy sz : FVec Ideal S128 .f32) (tm sm : FVec Ideal S128 .f32) (p q : Fin 128) : EReal := wi (tm (ix1 p)) (sm (ix1 q)) (ldist tx ty tz sx sy sz p q)
def lwi2 (tx ty tz sx sy sz : FVec Ideal S128 .f32) (tm sm : FVec Ideal S128 .f32) (p q : Fin 128) : EReal := wi2 (tm (ix1 p)) (sm (ix1 q)) (ldist tx ty tz sx sy sz p q)
def lwi3 (tx ty tz sx sy sz : FVec Ideal S128 .f32) (tm sm : FVec Ideal S128 .f32) (p q : Fin 128) : EReal := wi3 (tm (ix1 p)) (sm (ix1 q)) (ldist tx ty tz sx sy sz p q)
/-- The unit vector of the pair (p, q). -/
def lux (tx ty tz sx sy sz : FVec Ideal S128 .f32) (p q : Fin 128) : EReal := ucomp (tx (ix1 p)) (sx (ix1 q)) (ldist tx ty tz sx sy sz p q)
def luy (tx ty tz sx sy sz : FVec Ideal S128 .f32) (p q : Fin 128) : EReal := ucomp (ty (ix1 p)) (sy (ix1 q)) (ldist tx ty tz sx sy sz p q)
def luz (tx ty tz sx sy sz : FVec Ideal S128 .f32) (p q : Fin 128) : EReal := ucomp (tz (ix1 p)) (sz (ix1 q)) (ldist tx ty tz sx sy sz p q)
/-- Source q's dipole against the unit vector of the pair (p, q). -/
def ldot (dx dy dz : FVec Ideal S128 .f32) (tx ty tz sx sy sz : FVec Ideal S128 .f32) (p q : Fin 128) : EReal :=
  dotU (dx (ix1 q)) (dy (ix1 q)) (dz (ix1 q)) (lux tx ty tz sx sy sz p q) (luy tx ty tz sx sy sz p q) (luz tx ty tz sx sy sz p q)

theorem lwi_apply (tx ty tz sx sy sz : FVec Ideal S128 .f32) (tm sm : FVec Ideal S128 .f32) (p q : Fin 128) :
    k0_pay43 (k0_pay35 tx ty tz sx sy sz) (k0_pay40 tm sm) (k0_pay41 tx ty tz sx sy sz) (ix2 p q) = lwi tx ty tz sx sy sz tm sm p q :=
  wi_apply _ _ _ p q _ _ _ (dist_apply tx ty tz sx sy sz p q) (valid_apply tm sm p q) (notSelf_apply tx ty tz sx sy sz p q)
theorem lwi2_apply (tx ty tz sx sy sz : FVec Ideal S128 .f32) (tm sm : FVec Ideal S128 .f32) (p q : Fin 128) :
    k0_pay44 (k0_pay35 tx ty tz sx sy sz) (k0_pay40 tm sm) (k0_pay41 tx ty tz sx sy sz) (ix2 p q) = lwi2 tx ty tz sx sy sz tm sm p q :=
  wi2_apply _ _ _ p q _ _ _ (dist_apply tx ty tz sx sy sz p q) (valid_apply tm sm p q) (notSelf_apply tx ty tz sx sy sz p q)
theorem lwi3_apply (tx ty tz sx sy sz : FVec Ideal S128 .f32) (tm sm : FVec Ideal S128 .f32) (p q : Fin 128) :
    k0_pay45 (k0_pay35 tx ty tz sx sy sz) (k0_pay40 tm sm) (k0_pay41 tx ty tz sx sy sz) (ix2 p q) = lwi3 tx ty tz sx sy sz tm sm p q :=
  wi3_apply _ _ _ p q _ _ _ (dist_apply tx ty tz sx sy sz p q) (valid_apply tm sm p q) (notSelf_apply tx ty tz sx sy sz p q)

/-- The second-power weight times a source charge, at (p, q). -/
theorem wq_apply (cq : FVec Ideal S128 .f32) (tx ty tz sx sy sz : FVec Ideal S128 .f32) (tm sm : FVec Ideal S128 .f32) (p q : Fin 128) :
    k0_pay50 cq (k0_pay35 tx ty tz sx sy sz) (k0_pay40 tm sm) (k0_pay41 tx ty tz sx sy sz) (ix2 p q) = lwi2 tx ty tz sx sy sz tm sm p q * cq (ix1 q) := by
  unfold k0_pay50
  show k0_pay44 (k0_pay35 tx ty tz sx sy sz) (k0_pay40 tm sm) (k0_pay41 tx ty tz sx sy sz) (ix2 p q) * broadcastTo S128x128 (k0_pay46 cq) broadcasts_S1x128_S128x128 (ix2 p q) = _
  rw [lwi2_apply]
  exact congrArg (fun x : EReal => lwi2 tx ty tz sx sy sz tm sm p q * x) (row_apply cq p q)
theorem wm_apply (cq : FVec Ideal S128 .f32) (tx ty tz sx sy sz : FVec Ideal S128 .f32) (tm sm : FVec Ideal S128 .f32) (p q : Fin 128) :
    k0_pay51 cq (k0_pay35 tx ty tz sx sy sz) (k0_pay40 tm sm) (k0_pay41 tx ty tz sx sy sz) (ix2 p q) = lwi2 tx ty tz sx sy sz tm sm p q * cq (ix1 q) := by
  unfold k0_pay51
  show k0_pay44 (k0_pay35 tx ty tz sx sy sz) (k0_pay40 tm sm) (k0_pay41 tx ty tz sx sy sz) (ix2 p q) * broadcastTo S128x128 (k0_pay47 cq) broadcasts_S1x128_S128x128 (ix2 p q) = _
  rw [lwi2_apply]
  exact congrArg (fun x : EReal => lwi2 tx ty tz sx sy sz tm sm p q * x) (row_apply cq p q)

/-- The dipole table at (p, q). -/
theorem dotq_apply (dx dy dz : FVec Ideal S128 .f32) (tx ty tz sx sy sz : FVec Ideal S128 .f32) (p q : Fin 128) :
    k0_pay59 dx dy dz (k0_pay37 tx ty tz sx sy sz) (k0_pay38 tx ty tz sx sy sz) (k0_pay39 tx ty tz sx sy sz) (ix2 p q) = ldot dx dy dz tx ty tz sx sy sz p q := by
  unfold k0_pay59 ldot dotU lux luy luz
  show (broadcastTo S128x128 (shapeCast S1x128 dx shapeCasts_S128_S1x128) broadcasts_S1x128_S128x128 (ix2 p q) * k0_pay37 tx ty tz sx sy sz (ix2 p q)
      + broadcastTo S128x128 (shapeCast S1x128 dy shapeCasts_S128_S1x128) broadcasts_S1x128_S128x128 (ix2 p q) * k0_pay38 tx ty tz sx sy sz (ix2 p q))
      + broadcastTo S128x128 (shapeCast S1x128 dz shapeCasts_S128_S1x128) broadcasts_S1x128_S128x128 (ix2 p q) * k0_pay39 tx ty tz sx sy sz (ix2 p q) = _
  rw [row_apply, row_apply, row_apply, ux_apply, uy_apply, uz_apply]
theorem dotm_apply (dx dy dz : FVec Ideal S128 .f32) (tx ty tz sx sy sz : FVec Ideal S128 .f32) (p q : Fin 128) :
    k0_pay60 dx dy dz (k0_pay37 tx ty tz sx sy sz) (k0_pay38 tx ty tz sx sy sz) (k0_pay39 tx ty tz sx sy sz) (ix2 p q) = ldot dx dy dz tx ty tz sx sy sz p q := by
  unfold k0_pay60 ldot dotU lux luy luz
  show (broadcastTo S128x128 (shapeCast S1x128 dx shapeCasts_S128_S1x128) broadcasts_S1x128_S128x128 (ix2 p q) * k0_pay37 tx ty tz sx sy sz (ix2 p q)
      + broadcastTo S128x128 (shapeCast S1x128 dy shapeCasts_S128_S1x128) broadcasts_S1x128_S128x128 (ix2 p q) * k0_pay38 tx ty tz sx sy sz (ix2 p q))
      + broadcastTo S128x128 (shapeCast S1x128 dz shapeCasts_S128_S1x128) broadcasts_S1x128_S128x128 (ix2 p q) * k0_pay39 tx ty tz sx sy sz (ix2 p q) = _
  rw [row_apply, row_apply, row_apply, ux_apply, uy_apply, uz_apply]

/-- The third-power weight times the dipole table, at (p, q). -/
theorem w3q_apply (dx dy dz : FVec Ideal S128 .f32) (tx ty tz sx sy sz : FVec Ideal S128 .f32) (tm sm : FVec Ideal S128 .f32) (p q : Fin 128) :
    k0_pay63 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix2 p q) = lwi3 tx ty tz sx sy sz tm sm p q * ldot dx dy dz tx ty tz sx sy sz p q := by
  unfold k0_pay63
  show k0_pay45 (k0_pay35 tx ty tz sx sy sz) (k0_pay40 tm sm) (k0_pay41 tx ty tz sx sy sz) (ix2 p q) * k0_pay59 dx dy dz (k0_pay37 tx ty tz sx sy sz) (k0_pay38 tx ty tz sx sy sz) (k0_pay39 tx ty tz sx sy sz) (ix2 p q) = _
  rw [lwi3_apply, dotq_apply]
theorem w3m_apply (dx dy dz : FVec Ideal S128 .f32) (tx ty tz sx sy sz : FVec Ideal S128 .f32) (tm sm : FVec Ideal S128 .f32) (p q : Fin 128) :
    k0_pay64 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix2 p q) = lwi3 tx ty tz sx sy sz tm sm p q * ldot dx dy dz tx ty tz sx sy sz p q := by
  unfold k0_pay64
  show k0_pay45 (k0_pay35 tx ty tz sx sy sz) (k0_pay40 tm sm) (k0_pay41 tx ty tz sx sy sz) (ix2 p q) * k0_pay60 dx dy dz (k0_pay37 tx ty tz sx sy sz) (k0_pay38 tx ty tz sx sy sz) (k0_pay39 tx ty tz sx sy sz) (ix2 p q) = _
  rw [lwi3_apply, dotm_apply]

/-- A lane sum whose table is known at every pair of the row. -/
theorem laneSum_congr (T : FVec Ideal S128x128 .f32) (p : Fin 128) (f : Fin 128 → EReal) (h : ∀ q, T (ix2 p q) = f q) :
    multiReduction (F := Ideal) .add [1] S128 T 0x00000000#32 reduces_S128x128_S128 (.inl rfl) rfl (ix1 p)
      = Ideal.ofBits .f32 0x00000000#32 + ∑ q : Fin 128, f q :=
  (laneSum_apply T p).trans (congrArg (fun x : EReal => Ideal.ofBits .f32 0x00000000#32 + x) (Finset.sum_congr rfl fun q _ => h q))

/-! ## The sixteen lane sums, of lane vectors -/

/-- The monopole potential's lane sum (first charge block). -/
theorem vqMono_lane (cq : FVec Ideal S128 .f32) (tx ty tz sx sy sz : FVec Ideal S128 .f32) (tm sm : FVec Ideal S128 .f32) (p : Fin 128) :
    k0_pay48 cq (k0_pay35 tx ty tz sx sy sz) (k0_pay40 tm sm) (k0_pay41 tx ty tz sx sy sz) (ix1 p)
      = Ideal.ofBits .f32 0x00000000#32 + ∑ q : Fin 128, lwi tx ty tz sx sy sz tm sm p q * cq (ix1 q) := by
  unfold k0_pay48
  refine laneSum_congr _ p _ fun q => ?_
  show k0_pay43 (k0_pay35 tx ty tz sx sy sz) (k0_pay40 tm sm) (k0_pay41 tx ty tz sx sy sz) (ix2 p q) * broadcastTo S128x128 (k0_pay46 cq) broadcasts_S1x128_S128x128 (ix2 p q) = _
  rw [lwi_apply]
  exact congrArg (fun x : EReal => lwi tx ty tz sx sy sz tm sm p q * x) (row_apply cq p q)

/-- The monopole potential's lane sum (second charge block). -/
theorem vmMono_lane (cq : FVec Ideal S128 .f32) (tx ty tz sx sy sz : FVec Ideal S128 .f32) (tm sm : FVec Ideal S128 .f32) (p : Fin 128) :
    k0_pay49 cq (k0_pay35 tx ty tz sx sy sz) (k0_pay40 tm sm) (k0_pay41 tx ty tz sx sy sz) (ix1 p)
      = Ideal.ofBits .f32 0x00000000#32 + ∑ q : Fin 128, lwi tx ty tz sx sy sz tm sm p q * cq (ix1 q) := by
  unfold k0_pay49
  refine laneSum_congr _ p _ fun q => ?_
  show k0_pay43 (k0_pay35 tx ty tz sx sy sz) (k0_pay40 tm sm) (k0_pay41 tx ty tz sx sy sz) (ix2 p q) * broadcastTo S128x128 (k0_pay47 cq) broadcasts_S1x128_S128x128 (ix2 p q) = _
  rw [lwi_apply]
  exact congrArg (fun x : EReal => lwi tx ty tz sx sy sz tm sm p q * x) (row_apply cq p q)

/-- The monopole field's lane sums, first charge block: x, y, z. -/
theorem eqxMono_lane (cq : FVec Ideal S128 .f32) (tx ty tz sx sy sz : FVec Ideal S128 .f32) (tm sm : FVec Ideal S128 .f32) (p : Fin 128) :
    k0_pay52 cq (k0_pay35 tx ty tz sx sy sz) (k0_pay37 tx ty tz sx sy sz) (k0_pay40 tm sm) (k0_pay41 tx ty tz sx sy sz) (ix1 p)
      = Ideal.ofBits .f32 0x00000000#32 + ∑ q : Fin 128, (lwi2 tx ty tz sx sy sz tm sm p q * cq (ix1 q)) * lux tx ty tz sx sy sz p q := by
  unfold k0_pay52
  refine laneSum_congr _ p _ fun q => ?_
  show k0_pay50 cq (k0_pay35 tx ty tz sx sy sz) (k0_pay40 tm sm) (k0_pay41 tx ty tz sx sy sz) (ix2 p q) * k0_pay37 tx ty tz sx sy sz (ix2 p q) = _
  rw [wq_apply, ux_apply]
  rfl

theorem eqyMono_lane (cq : FVec Ideal S128 .f32) (tx ty tz sx sy sz : FVec Ideal S128 .f32) (tm sm : FVec Ideal S128 .f32) (p : Fin 128) :
    k0_pay54 (k0_pay53 cq (k0_pay35 tx ty tz sx sy sz) (k0_pay38 tx ty tz sx sy sz) (k0_pay40 tm sm) (k0_pay41 tx ty tz sx sy sz)) (ix1 p)
      = Ideal.ofBits .f32 0x00000000#32 + ∑ q : Fin 128, (lwi2 tx ty tz sx sy sz tm sm p q * cq (ix1 q)) * luy tx ty tz sx sy sz p q := by
  unfold k0_pay54 k0_pay53
  refine laneSum_congr _ p _ fun q => ?_
  show k0_pay50 cq (k0_pay35 tx ty tz sx sy sz) (k0_pay40 tm sm) (k0_pay41 tx ty tz sx sy sz) (ix2 p q) * k0_pay38 tx ty tz sx sy sz (ix2 p q) = _
  rw [wq_apply, uy_apply]
  rfl

theorem eqzMono_lane (cq : FVec Ideal S128 .f32) (tx ty tz sx sy sz : FVec Ideal S128 .f32) (tm sm : FVec Ideal S128 .f32) (p : Fin 128) :
    k0_pay55 (k0_pay39 tx ty tz sx sy sz) (k0_pay50 cq (k0_pay35 tx ty tz sx sy sz) (k0_pay40 tm sm) (k0_pay41 tx ty tz sx sy sz)) (ix1 p)
      = Ideal.ofBits .f32 0x00000000#32 + ∑ q : Fin 128, (lwi2 tx ty tz sx sy sz tm sm p q * cq (ix1 q)) * luz tx ty tz sx sy sz p q := by
  unfold k0_pay55
  refine laneSum_congr _ p _ fun q => ?_
  show k0_pay50 cq (k0_pay35 tx ty tz sx sy sz) (k0_pay40 tm sm) (k0_pay41 tx ty tz sx sy sz) (ix2 p q) * k0_pay39 tx ty tz sx sy sz (ix2 p q) = _
  rw [wq_apply, uz_apply]
  rfl

/-- The monopole field's lane sums, second charge block: x, y, z. -/
theorem emxMono_lane (cq : FVec Ideal S128 .f32) (tx ty tz sx sy sz : FVec Ideal S128 .f32) (tm sm : FVec Ideal S128 .f32) (p : Fin 128) :
    k0_pay56 (k0_pay37 tx ty tz sx sy sz) (k0_pay51 cq (k0_pay35 tx ty tz sx sy sz) (k0_pay40 tm sm) (k0_pay41 tx ty tz sx sy sz)) (ix1 p)
      = Ideal.ofBits .f32 0x00000000#32 + ∑ q : Fin 128, (lwi2 tx ty tz sx sy sz tm sm p q * cq (ix1 q)) * lux tx ty tz sx sy sz p q := by
  unfold k0_pay56
  refine laneSum_congr _ p _ fun q => ?_
  show k0_pay51 cq (k0_pay35 tx ty tz sx sy sz) (k0_pay40 tm sm) (k0_pay41 tx ty tz sx sy sz) (ix2 p q) * k0_pay37 tx ty tz sx sy sz (ix2 p q) = _
  rw [wm_apply, ux_apply]
  rfl

theorem emyMono_lane (cq : FVec Ideal S128 .f32) (tx ty tz sx sy sz : FVec Ideal S128 .f32) (tm sm : FVec Ideal S128 .f32) (p : Fin 128) :
    k0_pay57 (k0_pay38 tx ty tz sx sy sz) (k0_pay51 cq (k0_pay35 tx ty tz sx sy sz) (k0_pay40 tm sm) (k0_pay41 tx ty tz sx sy sz)) (ix1 p)
      = Ideal.ofBits .f32 0x00000000#32 + ∑ q : Fin 128, (lwi2 tx ty tz sx sy sz tm sm p q * cq (ix1 q)) * luy tx ty tz sx sy sz p q := by
  unfold k0_pay57
  refine laneSum_congr _ p _ fun q => ?_
  show k0_pay51 cq (k0_pay35 tx ty tz sx sy sz) (k0_pay40 tm sm) (k0_pay41 tx ty tz sx sy sz) (ix2 p q) * k0_pay38 tx ty tz sx sy sz (ix2 p q) = _
  rw [wm_apply, uy_apply]
  rfl

theorem emzMono_lane (cq : FVec Ideal S128 .f32) (tx ty tz sx sy sz : FVec Ideal S128 .f32) (tm sm : FVec Ideal S128 .f32) (p : Fin 128) :
    k0_pay58 (k0_pay39 tx ty tz sx sy sz) (k0_pay51 cq (k0_pay35 tx ty tz sx sy sz) (k0_pay40 tm sm) (k0_pay41 tx ty tz sx sy sz)) (ix1 p)
      = Ideal.ofBits .f32 0x00000000#32 + ∑ q : Fin 128, (lwi2 tx ty tz sx sy sz tm sm p q * cq (ix1 q)) * luz tx ty tz sx sy sz p q := by
  unfold k0_pay58
  refine laneSum_congr _ p _ fun q => ?_
  show k0_pay51 cq (k0_pay35 tx ty tz sx sy sz) (k0_pay40 tm sm) (k0_pay41 tx ty tz sx sy sz) (ix2 p q) * k0_pay39 tx ty tz sx sy sz (ix2 p q) = _
  rw [wm_apply, uz_apply]
  rfl

/-- The dipole potential's lane sums: first and second dipole block. -/
theorem vqDip_lane (dx dy dz : FVec Ideal S128 .f32) (tx ty tz sx sy sz : FVec Ideal S128 .f32) (tm sm : FVec Ideal S128 .f32) (p : Fin 128) :
    k0_pay61 dx dy dz (k0_pay37 tx ty tz sx sy sz) (k0_pay38 tx ty tz sx sy sz) (k0_pay39 tx ty tz sx sy sz) (k0_pay44 (k0_pay35 tx ty tz sx sy sz) (k0_pay40 tm sm) (k0_pay41 tx ty tz sx sy sz)) (ix1 p)
      = Ideal.ofBits .f32 0x00000000#32 + ∑ q : Fin 128, lwi2 tx ty tz sx sy sz tm sm p q * ldot dx dy dz tx ty tz sx sy sz p q := by
  unfold k0_pay61
  refine laneSum_congr _ p _ fun q => ?_
  show k0_pay44 (k0_pay35 tx ty tz sx sy sz) (k0_pay40 tm sm) (k0_pay41 tx ty tz sx sy sz) (ix2 p q) * k0_pay59 dx dy dz (k0_pay37 tx ty tz sx sy sz) (k0_pay38 tx ty tz sx sy sz) (k0_pay39 tx ty tz sx sy sz) (ix2 p q) = _
  rw [lwi2_apply, dotq_apply]

theorem vmDip_lane (dx dy dz : FVec Ideal S128 .f32) (tx ty tz sx sy sz : FVec Ideal S128 .f32) (tm sm : FVec Ideal S128 .f32) (p : Fin 128) :
    k0_pay62 dx dy dz (k0_pay37 tx ty tz sx sy sz) (k0_pay38 tx ty tz sx sy sz) (k0_pay39 tx ty tz sx sy sz) (k0_pay44 (k0_pay35 tx ty tz sx sy sz) (k0_pay40 tm sm) (k0_pay41 tx ty tz sx sy sz)) (ix1 p)
      = Ideal.ofBits .f32 0x00000000#32 + ∑ q : Fin 128, lwi2 tx ty tz sx sy sz tm sm p q * ldot dx dy dz tx ty tz sx sy sz p q := by
  unfold k0_pay62
  refine laneSum_congr _ p _ fun q => ?_
  show k0_pay44 (k0_pay35 tx ty tz sx sy sz) (k0_pay40 tm sm) (k0_pay41 tx ty tz sx sy sz) (ix2 p q) * k0_pay60 dx dy dz (k0_pay37 tx ty tz sx sy sz) (k0_pay38 tx ty tz sx sy sz) (k0_pay39 tx ty tz sx sy sz) (ix2 p q) = _
  rw [lwi2_apply, dotm_apply]

/-- The dipole field's lane sums, first dipole block: x, y, z. -/
theorem eqxDip_lane (dx dy dz : FVec Ideal S128 .f32) (tx ty tz sx sy sz : FVec Ideal S128 .f32) (tm sm : FVec Ideal S128 .f32) (p : Fin 128) :
    k0_pay65 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix1 p)
      = Ideal.ofBits .f32 0x00000000#32 + ∑ q : Fin 128, (lwi3 tx ty tz sx sy sz tm sm p q * ldot dx dy dz tx ty tz sx sy sz p q) * lux tx ty tz sx sy sz p q := by
  unfold k0_pay65
  refine laneSum_congr _ p _ fun q => ?_
  show k0_pay63 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix2 p q) * k0_pay37 tx ty tz sx sy sz (ix2 p q) = _
  rw [w3q_apply, ux_apply]
  rfl

theorem eqyDip_lane (dx dy dz : FVec Ideal S128 .f32) (tx ty tz sx sy sz : FVec Ideal S128 .f32) (tm sm : FVec Ideal S128 .f32) (p : Fin 128) :
    k0_pay66 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix1 p)
      = Ideal.ofBits .f32 0x00000000#32 + ∑ q : Fin 128, (lwi3 tx ty tz sx sy sz tm sm p q * ldot dx dy dz tx ty tz sx sy sz p q) * luy tx ty tz sx sy sz p q := by
  unfold k0_pay66
  refine laneSum_congr _ p _ fun q => ?_
  show k0_pay63 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix2 p q) * k0_pay38 tx ty tz sx sy sz (ix2 p q) = _
  rw [w3q_apply, uy_apply]
  rfl

theorem eqzDip_lane (dx dy dz : FVec Ideal S128 .f32) (tx ty tz sx sy sz : FVec Ideal S128 .f32) (tm sm : FVec Ideal S128 .f32) (p : Fin 128) :
    k0_pay67 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix1 p)
      = Ideal.ofBits .f32 0x00000000#32 + ∑ q : Fin 128, (lwi3 tx ty tz sx sy sz tm sm p q * ldot dx dy dz tx ty tz sx sy sz p q) * luz tx ty tz sx sy sz p q := by
  unfold k0_pay67
  refine laneSum_congr _ p _ fun q => ?_
  show k0_pay63 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix2 p q) * k0_pay39 tx ty tz sx sy sz (ix2 p q) = _
  rw [w3q_apply, uz_apply]
  rfl

/-- The dipole field's lane sums, second dipole block: x, y, z. -/
theorem emxDip_lane (dx dy dz : FVec Ideal S128 .f32) (tx ty tz sx sy sz : FVec Ideal S128 .f32) (tm sm : FVec Ideal S128 .f32) (p : Fin 128) :
    k0_pay68 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix1 p)
      = Ideal.ofBits .f32 0x00000000#32 + ∑ q : Fin 128, (lwi3 tx ty tz sx sy sz tm sm p q * ldot dx dy dz tx ty tz sx sy sz p q) * lux tx ty tz sx sy sz p q := by
  unfold k0_pay68
  refine laneSum_congr _ p _ fun q => ?_
  show k0_pay64 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix2 p q) * k0_pay37 tx ty tz sx sy sz (ix2 p q) = _
  rw [w3m_apply, ux_apply]
  rfl

theorem emyDip_lane (dx dy dz : FVec Ideal S128 .f32) (tx ty tz sx sy sz : FVec Ideal S128 .f32) (tm sm : FVec Ideal S128 .f32) (p : Fin 128) :
    k0_pay69 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix1 p)
      = Ideal.ofBits .f32 0x00000000#32 + ∑ q : Fin 128, (lwi3 tx ty tz sx sy sz tm sm p q * ldot dx dy dz tx ty tz sx sy sz p q) * luy tx ty tz sx sy sz p q := by
  unfold k0_pay69
  refine laneSum_congr _ p _ fun q => ?_
  show k0_pay64 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix2 p q) * k0_pay38 tx ty tz sx sy sz (ix2 p q) = _
  rw [w3m_apply, uy_apply]
  rfl

theorem emzDip_lane (dx dy dz : FVec Ideal S128 .f32) (tx ty tz sx sy sz : FVec Ideal S128 .f32) (tm sm : FVec Ideal S128 .f32) (p : Fin 128) :
    k0_pay71 (k0_pay70 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz))) (ix1 p)
      = Ideal.ofBits .f32 0x00000000#32 + ∑ q : Fin 128, (lwi3 tx ty tz sx sy sz tm sm p q * ldot dx dy dz tx ty tz sx sy sz p q) * luz tx ty tz sx sy sz p q := by
  unfold k0_pay71 k0_pay70
  refine laneSum_congr _ p _ fun q => ?_
  show k0_pay64 dx dy dz (k0_pay37 tx ty tz sx sy sz) (k0_pay38 tx ty tz sx sy sz) (k0_pay39 tx ty tz sx sy sz) (k0_pay45 (k0_pay35 tx ty tz sx sy sz) (k0_pay40 tm sm) (k0_pay41 tx ty tz sx sy sz)) (ix2 p q) * k0_pay39 tx ty tz sx sy sz (ix2 p q) = _
  rw [w3m_apply, uz_apply]
  rfl

/-! ## The pair quantities of the blocks' entries

For trip k: target p's coordinates and mask are the entries (k, p, ·) of the first positions block and (k, p) of
the first mask block; source q's are those of the second positions and mask blocks, and its charges and dipoles
the entries (k, q) and (k, q, ·) of the charge and dipole blocks. -/

/-- The distance of target p and source q in batch k. -/
def pdist (arg2 arg4 : Memref sig .tc .vmem S8x128x3 .f32) (X_arg2 : BufTy.Contents (Elt Ideal) arg2.view.ty) (X_arg4 : BufTy.Contents (Elt Ideal) arg4.view.ty) (k : Fin k0_t1_loop.trips) (p q : Fin 128) : EReal :=
  dij (ent3 arg2 X_arg2 k p 0) (ent3 arg2 X_arg2 k p 1) (ent3 arg2 X_arg2 k p 2)
    (ent3 arg4 X_arg4 k q 0) (ent3 arg4 X_arg4 k q 1) (ent3 arg4 X_arg4 k q 2)
/-- The unit vector from source q to target p. -/
def pux (arg2 arg4 : Memref sig .tc .vmem S8x128x3 .f32) (X_arg2 : BufTy.Contents (Elt Ideal) arg2.view.ty) (X_arg4 : BufTy.Contents (Elt Ideal) arg4.view.ty) (k : Fin k0_t1_loop.trips) (p q : Fin 128) : EReal := ucomp (ent3 arg2 X_arg2 k p 0) (ent3 arg4 X_arg4 k q 0) (pdist arg2 arg4 X_arg2 X_arg4 k p q)
def puy (arg2 arg4 : Memref sig .tc .vmem S8x128x3 .f32) (X_arg2 : BufTy.Contents (Elt Ideal) arg2.view.ty) (X_arg4 : BufTy.Contents (Elt Ideal) arg4.view.ty) (k : Fin k0_t1_loop.trips) (p q : Fin 128) : EReal := ucomp (ent3 arg2 X_arg2 k p 1) (ent3 arg4 X_arg4 k q 1) (pdist arg2 arg4 X_arg2 X_arg4 k p q)
def puz (arg2 arg4 : Memref sig .tc .vmem S8x128x3 .f32) (X_arg2 : BufTy.Contents (Elt Ideal) arg2.view.ty) (X_arg4 : BufTy.Contents (Elt Ideal) arg4.view.ty) (k : Fin k0_t1_loop.trips) (p q : Fin 128) : EReal := ucomp (ent3 arg2 X_arg2 k p 2) (ent3 arg4 X_arg4 k q 2) (pdist arg2 arg4 X_arg2 X_arg4 k p q)
/-- The pair weight times the first, second, third power of the softened reciprocal distance. -/
def pwi (arg2 : Memref sig .tc .vmem S8x128x3 .f32) (arg3 : Memref sig .tc .vmem S8x128 .f32) (arg4 : Memref sig .tc .vmem S8x128x3 .f32) (arg5 : Memref sig .tc .vmem S8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (p q : Fin 128) : EReal := wi (ent2 arg3 X_arg3 k p) (ent2 arg5 X_arg5 k q) (pdist arg2 arg4 X_arg2 X_arg4 k p q)
def pwi2 (arg2 : Memref sig .tc .vmem S8x128x3 .f32) (arg3 : Memref sig .tc .vmem S8x128 .f32) (arg4 : Memref sig .tc .vmem S8x128x3 .f32) (arg5 : Memref sig .tc .vmem S8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (p q : Fin 128) : EReal := wi2 (ent2 arg3 X_arg3 k p) (ent2 arg5 X_arg5 k q) (pdist arg2 arg4 X_arg2 X_arg4 k p q)
def pwi3 (arg2 : Memref sig .tc .vmem S8x128x3 .f32) (arg3 : Memref sig .tc .vmem S8x128 .f32) (arg4 : Memref sig .tc .vmem S8x128x3 .f32) (arg5 : Memref sig .tc .vmem S8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (p q : Fin 128) : EReal := wi3 (ent2 arg3 X_arg3 k p) (ent2 arg5 X_arg5 k q) (pdist arg2 arg4 X_arg2 X_arg4 k p q)
/-- Source q's dipole (of a dipole block) against the unit vector. -/
def pdot (arg2 arg4 argD : Memref sig .tc .vmem S8x128x3 .f32) (X_arg2 : BufTy.Contents (Elt Ideal) arg2.view.ty)
    (X_arg4 : BufTy.Contents (Elt Ideal) arg4.view.ty) (X_argD : BufTy.Contents (Elt Ideal) argD.view.ty)
    (k : Fin k0_t1_loop.trips) (p q : Fin 128) : EReal :=
  dotU (ent3 argD X_argD k q 0) (ent3 argD X_argD k q 1) (ent3 argD X_argD k q 2) (pux arg2 arg4 X_arg2 X_arg4 k p q) (puy arg2 arg4 X_arg2 X_arg4 k p q) (puz arg2 arg4 X_arg2 X_arg4 k p q)

/-- The pair quantities of the loaded lane vectors are those of the entries. -/
theorem ldist_loaded (arg2 arg4 : Memref sig .tc .vmem S8x128x3 .f32) (X_arg2 : BufTy.Contents (Elt Ideal) arg2.view.ty) (X_arg4 : BufTy.Contents (Elt Ideal) arg4.view.ty) (k : Fin k0_t1_loop.trips) (p q : Fin 128) : ldist (laneX arg2 X_arg2 k) (laneY arg2 X_arg2 k) (laneZ arg2 X_arg2 k) (laneX arg4 X_arg4 k) (laneY arg4 X_arg4 k) (laneZ arg4 X_arg4 k) p q = pdist arg2 arg4 X_arg2 X_arg4 k p q := by
  unfold ldist pdist
  rw [laneX_apply, laneY_apply, laneZ_apply, laneX_apply, laneY_apply, laneZ_apply]
theorem lux_loaded (arg2 arg4 : Memref sig .tc .vmem S8x128x3 .f32) (X_arg2 : BufTy.Contents (Elt Ideal) arg2.view.ty) (X_arg4 : BufTy.Contents (Elt Ideal) arg4.view.ty) (k : Fin k0_t1_loop.trips) (p q : Fin 128) : lux (laneX arg2 X_arg2 k) (laneY arg2 X_arg2 k) (laneZ arg2 X_arg2 k) (laneX arg4 X_arg4 k) (laneY arg4 X_arg4 k) (laneZ arg4 X_arg4 k) p q = pux arg2 arg4 X_arg2 X_arg4 k p q := by
  unfold lux pux
  rw [ldist_loaded, laneX_apply, laneX_apply]
theorem luy_loaded (arg2 arg4 : Memref sig .tc .vmem S8x128x3 .f32) (X_arg2 : BufTy.Contents (Elt Ideal) arg2.view.ty) (X_arg4 : BufTy.Contents (Elt Ideal) arg4.view.ty) (k : Fin k0_t1_loop.trips) (p q : Fin 128) : luy (laneX arg2 X_arg2 k) (laneY arg2 X_arg2 k) (laneZ arg2 X_arg2 k) (laneX arg4 X_arg4 k) (laneY arg4 X_arg4 k) (laneZ arg4 X_arg4 k) p q = puy arg2 arg4 X_arg2 X_arg4 k p q := by
  unfold luy puy
  rw [ldist_loaded, laneY_apply, laneY_apply]
theorem luz_loaded (arg2 arg4 : Memref sig .tc .vmem S8x128x3 .f32) (X_arg2 : BufTy.Contents (Elt Ideal) arg2.view.ty) (X_arg4 : BufTy.Contents (Elt Ideal) arg4.view.ty) (k : Fin k0_t1_loop.trips) (p q : Fin 128) : luz (laneX arg2 X_arg2 k) (laneY arg2 X_arg2 k) (laneZ arg2 X_arg2 k) (laneX arg4 X_arg4 k) (laneY arg4 X_arg4 k) (laneZ arg4 X_arg4 k) p q = puz arg2 arg4 X_arg2 X_arg4 k p q := by
  unfold luz puz
  rw [ldist_loaded, laneZ_apply, laneZ_apply]
theorem lwi_loaded (arg2 : Memref sig .tc .vmem S8x128x3 .f32) (arg3 : Memref sig .tc .vmem S8x128 .f32) (arg4 : Memref sig .tc .vmem S8x128x3 .f32) (arg5 : Memref sig .tc .vmem S8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (p q : Fin 128) : lwi (laneX arg2 X_arg2 k) (laneY arg2 X_arg2 k) (laneZ arg2 X_arg2 k) (laneX arg4 X_arg4 k) (laneY arg4 X_arg4 k) (laneZ arg4 X_arg4 k) (laneR arg3 X_arg3 k) (laneR arg5 X_arg5 k) p q = pwi arg2 arg3 arg4 arg5 X_arg2 X_arg3 X_arg4 X_arg5 k p q := by
  unfold lwi pwi
  rw [ldist_loaded, laneR_apply, laneR_apply]
theorem lwi2_loaded (arg2 : Memref sig .tc .vmem S8x128x3 .f32) (arg3 : Memref sig .tc .vmem S8x128 .f32) (arg4 : Memref sig .tc .vmem S8x128x3 .f32) (arg5 : Memref sig .tc .vmem S8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (p q : Fin 128) : lwi2 (laneX arg2 X_arg2 k) (laneY arg2 X_arg2 k) (laneZ arg2 X_arg2 k) (laneX arg4 X_arg4 k) (laneY arg4 X_arg4 k) (laneZ arg4 X_arg4 k) (laneR arg3 X_arg3 k) (laneR arg5 X_arg5 k) p q = pwi2 arg2 arg3 arg4 arg5 X_arg2 X_arg3 X_arg4 X_arg5 k p q := by
  unfold lwi2 pwi2
  rw [ldist_loaded, laneR_apply, laneR_apply]
theorem lwi3_loaded (arg2 : Memref sig .tc .vmem S8x128x3 .f32) (arg3 : Memref sig .tc .vmem S8x128 .f32) (arg4 : Memref sig .tc .vmem S8x128x3 .f32) (arg5 : Memref sig .tc .vmem S8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (p q : Fin 128) : lwi3 (laneX arg2 X_arg2 k) (laneY arg2 X_arg2 k) (laneZ arg2 X_arg2 k) (laneX arg4 X_arg4 k) (laneY arg4 X_arg4 k) (laneZ arg4 X_arg4 k) (laneR arg3 X_arg3 k) (laneR arg5 X_arg5 k) p q = pwi3 arg2 arg3 arg4 arg5 X_arg2 X_arg3 X_arg4 X_arg5 k p q := by
  unfold lwi3 pwi3
  rw [ldist_loaded, laneR_apply, laneR_apply]
theorem ldot_loaded (arg2 arg4 argD : Memref sig .tc .vmem S8x128x3 .f32) (X_arg2 : BufTy.Contents (Elt Ideal) arg2.view.ty)
    (X_arg4 : BufTy.Contents (Elt Ideal) arg4.view.ty) (X_argD : BufTy.Contents (Elt Ideal) argD.view.ty)
    (k : Fin k0_t1_loop.trips) (p q : Fin 128) : ldot (laneX argD X_argD k) (laneY argD X_argD k) (laneZ argD X_argD k) (laneX arg2 X_arg2 k) (laneY arg2 X_arg2 k) (laneZ arg2 X_arg2 k) (laneX arg4 X_arg4 k) (laneY arg4 X_arg4 k) (laneZ arg4 X_arg4 k) p q = pdot arg2 arg4 argD X_arg2 X_arg4 X_argD k p q := by
  unfold ldot pdot
  rw [lux_loaded, luy_loaded, luz_loaded, laneX_apply, laneY_apply, laneZ_apply]

/-! ## The sixteen lane sums of trip k, at target p

Each is the sum over the 128 sources q of its summand at the entries of target p and source q of batch k. -/

/-- vq, monopole part: the weight over the softened distance times the source charge. -/
theorem vqMono_apply (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (p : Fin 128) :
    trip.sl.r_12 (F := Ideal) arg2 arg3 arg4 arg5 arg6 X_arg2 X_arg3 X_arg4 X_arg5 X_arg6 k (ix1 p)
      = Ideal.ofBits .f32 0x00000000#32 + ∑ q : Fin 128, pwi arg2 arg3 arg4 arg5 X_arg2 X_arg3 X_arg4 X_arg5 k p q * ent2 arg6 X_arg6 k q := by
  show k0_pay48 (laneR arg6 X_arg6 k) (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k)) (ix1 p) = _
  refine (vqMono_lane _ _ _ _ _ _ _ _ _ p).trans ?_
  refine congrArg (fun x : EReal => Ideal.ofBits .f32 0x00000000#32 + x) (Finset.sum_congr rfl fun q _ => ?_)
  rw [lwi_loaded, laneR_apply]

/-- vm, monopole part. -/
theorem vmMono_apply (arg2 : Memref sig .tc .vmem S8x128x3 .f32) (arg3 : Memref sig .tc .vmem S8x128 .f32) (arg4 : Memref sig .tc .vmem S8x128x3 .f32) (arg5 : Memref sig .tc .vmem S8x128 .f32) (arg7 : Memref sig .tc .vmem S8x128 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg7 : BufTy.Contents (Elt Ideal) arg7.view.ty) (k : Fin k0_t1_loop.trips) (p : Fin 128) :
    trip.sl.r_13 (F := Ideal) arg2 arg3 arg4 arg5 arg7 X_arg2 X_arg3 X_arg4 X_arg5 X_arg7 k (ix1 p)
      = Ideal.ofBits .f32 0x00000000#32 + ∑ q : Fin 128, pwi arg2 arg3 arg4 arg5 X_arg2 X_arg3 X_arg4 X_arg5 k p q * ent2 arg7 X_arg7 k q := by
  show k0_pay49 (laneR arg7 X_arg7 k) (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k)) (ix1 p) = _
  refine (vmMono_lane _ _ _ _ _ _ _ _ _ p).trans ?_
  refine congrArg (fun x : EReal => Ideal.ofBits .f32 0x00000000#32 + x) (Finset.sum_congr rfl fun q _ => ?_)
  rw [lwi_loaded, laneR_apply]

/-- eq_x, eq_y, eq_z, monopole parts: the second-power weight times the charge, along the unit vector. -/
theorem eqxMono_apply (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (p : Fin 128) :
    trip.sl.r_16 (F := Ideal) arg2 arg3 arg4 arg5 arg6 X_arg2 X_arg3 X_arg4 X_arg5 X_arg6 k (ix1 p)
      = Ideal.ofBits .f32 0x00000000#32 + ∑ q : Fin 128, (pwi2 arg2 arg3 arg4 arg5 X_arg2 X_arg3 X_arg4 X_arg5 k p q * ent2 arg6 X_arg6 k q) * pux arg2 arg4 X_arg2 X_arg4 k p q := by
  show k0_pay52 (laneR arg6 X_arg6 k) (k0_pay35 (laneX arg2 X_arg2 k) (laneY arg2 X_arg2 k) (laneZ arg2 X_arg2 k) (laneX arg4 X_arg4 k) (laneY arg4 X_arg4 k) (laneZ arg4 X_arg4 k)) (k0_pay37 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k)) (ix1 p) = _
  refine (eqxMono_lane _ _ _ _ _ _ _ _ _ p).trans ?_
  refine congrArg (fun x : EReal => Ideal.ofBits .f32 0x00000000#32 + x) (Finset.sum_congr rfl fun q _ => ?_)
  rw [lwi2_loaded, laneR_apply, lux_loaded]

theorem eqyMono_apply (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (p : Fin 128) :
    trip.sl.r_18 (F := Ideal) arg2 arg3 arg4 arg5 arg6 X_arg2 X_arg3 X_arg4 X_arg5 X_arg6 k (ix1 p)
      = Ideal.ofBits .f32 0x00000000#32 + ∑ q : Fin 128, (pwi2 arg2 arg3 arg4 arg5 X_arg2 X_arg3 X_arg4 X_arg5 k p q * ent2 arg6 X_arg6 k q) * puy arg2 arg4 X_arg2 X_arg4 k p q := by
  show k0_pay54 (k0_pay53 (laneR arg6 X_arg6 k) (k0_pay35 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (eqyMono_lane _ _ _ _ _ _ _ _ _ p).trans ?_
  refine congrArg (fun x : EReal => Ideal.ofBits .f32 0x00000000#32 + x) (Finset.sum_congr rfl fun q _ => ?_)
  rw [lwi2_loaded, laneR_apply, luy_loaded]

theorem eqzMono_apply (arg2 : Memref sig .tc .vmem S8x128x3 .f32) (arg3 : Memref sig .tc .vmem S8x128 .f32) (arg4 : Memref sig .tc .vmem S8x128x3 .f32) (arg5 : Memref sig .tc .vmem S8x128 .f32) (arg6 : Memref sig .tc .vmem S8x128 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (p : Fin 128) :
    trip.sl.r_19 (F := Ideal) arg2 arg3 arg4 arg5 arg6 X_arg2 X_arg3 X_arg4 X_arg5 X_arg6 k (ix1 p)
      = Ideal.ofBits .f32 0x00000000#32 + ∑ q : Fin 128, (pwi2 arg2 arg3 arg4 arg5 X_arg2 X_arg3 X_arg4 X_arg5 k p q * ent2 arg6 X_arg6 k q) * puz arg2 arg4 X_arg2 X_arg4 k p q := by
  show k0_pay55 (k0_pay39 (laneX arg2 X_arg2 k) (laneY arg2 X_arg2 k) (laneZ arg2 X_arg2 k) (laneX arg4 X_arg4 k) (laneY arg4 X_arg4 k) (laneZ arg4 X_arg4 k)) (k0_pay50 (laneR arg6 X_arg6 k) (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (eqzMono_lane _ _ _ _ _ _ _ _ _ p).trans ?_
  refine congrArg (fun x : EReal => Ideal.ofBits .f32 0x00000000#32 + x) (Finset.sum_congr rfl fun q _ => ?_)
  rw [lwi2_loaded, laneR_apply, luz_loaded]

/-- em_x, em_y, em_z, monopole parts. -/
theorem emxMono_apply (arg2 : Memref sig .tc .vmem S8x128x3 .f32) (arg3 : Memref sig .tc .vmem S8x128 .f32) (arg4 : Memref sig .tc .vmem S8x128x3 .f32) (arg5 : Memref sig .tc .vmem S8x128 .f32) (arg7 : Memref sig .tc .vmem S8x128 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg7 : BufTy.Contents (Elt Ideal) arg7.view.ty) (k : Fin k0_t1_loop.trips) (p : Fin 128) :
    trip.sl.r_20 (F := Ideal) arg2 arg3 arg4 arg5 arg7 X_arg2 X_arg3 X_arg4 X_arg5 X_arg7 k (ix1 p)
      = Ideal.ofBits .f32 0x00000000#32 + ∑ q : Fin 128, (pwi2 arg2 arg3 arg4 arg5 X_arg2 X_arg3 X_arg4 X_arg5 k p q * ent2 arg7 X_arg7 k q) * pux arg2 arg4 X_arg2 X_arg4 k p q := by
  show k0_pay56 (k0_pay37 (laneX arg2 X_arg2 k) (laneY arg2 X_arg2 k) (laneZ arg2 X_arg2 k) (laneX arg4 X_arg4 k) (laneY arg4 X_arg4 k) (laneZ arg4 X_arg4 k)) (k0_pay51 (laneR arg7 X_arg7 k) (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (emxMono_lane _ _ _ _ _ _ _ _ _ p).trans ?_
  refine congrArg (fun x : EReal => Ideal.ofBits .f32 0x00000000#32 + x) (Finset.sum_congr rfl fun q _ => ?_)
  rw [lwi2_loaded, laneR_apply, lux_loaded]

theorem emyMono_apply (arg2 : Memref sig .tc .vmem S8x128x3 .f32) (arg3 : Memref sig .tc .vmem S8x128 .f32) (arg4 : Memref sig .tc .vmem S8x128x3 .f32) (arg5 : Memref sig .tc .vmem S8x128 .f32) (arg7 : Memref sig .tc .vmem S8x128 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg7 : BufTy.Contents (Elt Ideal) arg7.view.ty) (k : Fin k0_t1_loop.trips) (p : Fin 128) :
    trip.sl.r_21 (F := Ideal) arg2 arg3 arg4 arg5 arg7 X_arg2 X_arg3 X_arg4 X_arg5 X_arg7 k (ix1 p)
      = Ideal.ofBits .f32 0x00000000#32 + ∑ q : Fin 128, (pwi2 arg2 arg3 arg4 arg5 X_arg2 X_arg3 X_arg4 X_arg5 k p q * ent2 arg7 X_arg7 k q) * puy arg2 arg4 X_arg2 X_arg4 k p q := by
  show k0_pay57 (k0_pay38 (laneX arg2 X_arg2 k) (laneY arg2 X_arg2 k) (laneZ arg2 X_arg2 k) (laneX arg4 X_arg4 k) (laneY arg4 X_arg4 k) (laneZ arg4 X_arg4 k)) (k0_pay51 (laneR arg7 X_arg7 k) (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (emyMono_lane _ _ _ _ _ _ _ _ _ p).trans ?_
  refine congrArg (fun x : EReal => Ideal.ofBits .f32 0x00000000#32 + x) (Finset.sum_congr rfl fun q _ => ?_)
  rw [lwi2_loaded, laneR_apply, luy_loaded]

theorem emzMono_apply (arg2 : Memref sig .tc .vmem S8x128x3 .f32) (arg3 : Memref sig .tc .vmem S8x128 .f32) (arg4 : Memref sig .tc .vmem S8x128x3 .f32) (arg5 : Memref sig .tc .vmem S8x128 .f32) (arg7 : Memref sig .tc .vmem S8x128 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg7 : BufTy.Contents (Elt Ideal) arg7.view.ty) (k : Fin k0_t1_loop.trips) (p : Fin 128) :
    trip.sl.r_22 (F := Ideal) arg2 arg3 arg4 arg5 arg7 X_arg2 X_arg3 X_arg4 X_arg5 X_arg7 k (ix1 p)
      = Ideal.ofBits .f32 0x00000000#32 + ∑ q : Fin 128, (pwi2 arg2 arg3 arg4 arg5 X_arg2 X_arg3 X_arg4 X_arg5 k p q * ent2 arg7 X_arg7 k q) * puz arg2 arg4 X_arg2 X_arg4 k p q := by
  show k0_pay58 (k0_pay39 (laneX arg2 X_arg2 k) (laneY arg2 X_arg2 k) (laneZ arg2 X_arg2 k) (laneX arg4 X_arg4 k) (laneY arg4 X_arg4 k) (laneZ arg4 X_arg4 k)) (k0_pay51 (laneR arg7 X_arg7 k) (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (emzMono_lane _ _ _ _ _ _ _ _ _ p).trans ?_
  refine congrArg (fun x : EReal => Ideal.ofBits .f32 0x00000000#32 + x) (Finset.sum_congr rfl fun q _ => ?_)
  rw [lwi2_loaded, laneR_apply, luz_loaded]

/-- vq, dipole part: the second-power weight times the dipole against the unit vector. -/
theorem vqDip_apply (arg2 : Memref sig .tc .vmem S8x128x3 .f32) (arg3 : Memref sig .tc .vmem S8x128 .f32) (arg4 : Memref sig .tc .vmem S8x128x3 .f32) (arg5 : Memref sig .tc .vmem S8x128 .f32) (arg8 : Memref sig .tc .vmem S8x128x3 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg8 : BufTy.Contents (Elt Ideal) arg8.view.ty) (k : Fin k0_t1_loop.trips) (p : Fin 128) :
    trip.sl.r_23 (F := Ideal) arg2 arg3 arg4 arg5 arg8 X_arg2 X_arg3 X_arg4 X_arg5 X_arg8 k (ix1 p)
      = Ideal.ofBits .f32 0x00000000#32 + ∑ q : Fin 128, pwi2 arg2 arg3 arg4 arg5 X_arg2 X_arg3 X_arg4 X_arg5 k p q * pdot arg2 arg4 arg8 X_arg2 X_arg4 X_arg8 k p q := by
  show k0_pay61 (laneX arg8 X_arg8 k) (laneY arg8 X_arg8 k) (laneZ arg8 X_arg8 k) (k0_pay37 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay39 (laneX arg2 X_arg2 k) (laneY arg2 X_arg2 k) (laneZ arg2 X_arg2 k) (laneX arg4 X_arg4 k) (laneY arg4 X_arg4 k) (laneZ arg4 X_arg4 k)) (k0_pay44 (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (vqDip_lane _ _ _ _ _ _ _ _ _ _ _ p).trans ?_
  refine congrArg (fun x : EReal => Ideal.ofBits .f32 0x00000000#32 + x) (Finset.sum_congr rfl fun q _ => ?_)
  rw [lwi2_loaded, ldot_loaded]

/-- vm, dipole part. -/
theorem vmDip_apply (arg2 : Memref sig .tc .vmem S8x128x3 .f32) (arg3 : Memref sig .tc .vmem S8x128 .f32) (arg4 : Memref sig .tc .vmem S8x128x3 .f32) (arg5 : Memref sig .tc .vmem S8x128 .f32) (arg9 : Memref sig .tc .vmem S8x128x3 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg9 : BufTy.Contents (Elt Ideal) arg9.view.ty) (k : Fin k0_t1_loop.trips) (p : Fin 128) :
    trip.sl.r_24 (F := Ideal) arg2 arg3 arg4 arg5 arg9 X_arg2 X_arg3 X_arg4 X_arg5 X_arg9 k (ix1 p)
      = Ideal.ofBits .f32 0x00000000#32 + ∑ q : Fin 128, pwi2 arg2 arg3 arg4 arg5 X_arg2 X_arg3 X_arg4 X_arg5 k p q * pdot arg2 arg4 arg9 X_arg2 X_arg4 X_arg9 k p q := by
  show k0_pay62 (laneX arg9 X_arg9 k) (laneY arg9 X_arg9 k) (laneZ arg9 X_arg9 k) (k0_pay37 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay39 (laneX arg2 X_arg2 k) (laneY arg2 X_arg2 k) (laneZ arg2 X_arg2 k) (laneX arg4 X_arg4 k) (laneY arg4 X_arg4 k) (laneZ arg4 X_arg4 k)) (k0_pay44 (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (vmDip_lane _ _ _ _ _ _ _ _ _ _ _ p).trans ?_
  refine congrArg (fun x : EReal => Ideal.ofBits .f32 0x00000000#32 + x) (Finset.sum_congr rfl fun q _ => ?_)
  rw [lwi2_loaded, ldot_loaded]

/-- eq_x, eq_y, eq_z, dipole parts: the third-power weight times the dipole against the unit vector, along the unit vector. -/
theorem eqxDip_apply (arg2 : Memref sig .tc .vmem S8x128x3 .f32) (arg3 : Memref sig .tc .vmem S8x128 .f32) (arg4 : Memref sig .tc .vmem S8x128x3 .f32) (arg5 : Memref sig .tc .vmem S8x128 .f32) (arg8 : Memref sig .tc .vmem S8x128x3 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg8 : BufTy.Contents (Elt Ideal) arg8.view.ty) (k : Fin k0_t1_loop.trips) (p : Fin 128) :
    trip.sl.r_25 (F := Ideal) arg2 arg3 arg4 arg5 arg8 X_arg2 X_arg3 X_arg4 X_arg5 X_arg8 k (ix1 p)
      = Ideal.ofBits .f32 0x00000000#32 + ∑ q : Fin 128, (pwi3 arg2 arg3 arg4 arg5 X_arg2 X_arg3 X_arg4 X_arg5 k p q * pdot arg2 arg4 arg8 X_arg2 X_arg4 X_arg8 k p q) * pux arg2 arg4 X_arg2 X_arg4 k p q := by
  show k0_pay65 (laneX arg8 X_arg8 k) (laneY arg8 X_arg8 k) (laneZ arg8 X_arg8 k) (k0_pay37 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay39 (laneX arg2 X_arg2 k) (laneY arg2 X_arg2 k) (laneZ arg2 X_arg2 k) (laneX arg4 X_arg4 k) (laneY arg4 X_arg4 k) (laneZ arg4 X_arg4 k)) (k0_pay45 (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (eqxDip_lane _ _ _ _ _ _ _ _ _ _ _ p).trans ?_
  refine congrArg (fun x : EReal => Ideal.ofBits .f32 0x00000000#32 + x) (Finset.sum_congr rfl fun q _ => ?_)
  rw [lwi3_loaded, ldot_loaded, lux_loaded]

theorem eqyDip_apply (arg2 : Memref sig .tc .vmem S8x128x3 .f32) (arg3 : Memref sig .tc .vmem S8x128 .f32) (arg4 : Memref sig .tc .vmem S8x128x3 .f32) (arg5 : Memref sig .tc .vmem S8x128 .f32) (arg8 : Memref sig .tc .vmem S8x128x3 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg8 : BufTy.Contents (Elt Ideal) arg8.view.ty) (k : Fin k0_t1_loop.trips) (p : Fin 128) :
    trip.sl.r_26 (F := Ideal) arg2 arg3 arg4 arg5 arg8 X_arg2 X_arg3 X_arg4 X_arg5 X_arg8 k (ix1 p)
      = Ideal.ofBits .f32 0x00000000#32 + ∑ q : Fin 128, (pwi3 arg2 arg3 arg4 arg5 X_arg2 X_arg3 X_arg4 X_arg5 k p q * pdot arg2 arg4 arg8 X_arg2 X_arg4 X_arg8 k p q) * puy arg2 arg4 X_arg2 X_arg4 k p q := by
  show k0_pay66 (laneX arg8 X_arg8 k) (laneY arg8 X_arg8 k) (laneZ arg8 X_arg8 k) (k0_pay37 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay39 (laneX arg2 X_arg2 k) (laneY arg2 X_arg2 k) (laneZ arg2 X_arg2 k) (laneX arg4 X_arg4 k) (laneY arg4 X_arg4 k) (laneZ arg4 X_arg4 k)) (k0_pay45 (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (eqyDip_lane _ _ _ _ _ _ _ _ _ _ _ p).trans ?_
  refine congrArg (fun x : EReal => Ideal.ofBits .f32 0x00000000#32 + x) (Finset.sum_congr rfl fun q _ => ?_)
  rw [lwi3_loaded, ldot_loaded, luy_loaded]

theorem eqzDip_apply (arg2 : Memref sig .tc .vmem S8x128x3 .f32) (arg3 : Memref sig .tc .vmem S8x128 .f32) (arg4 : Memref sig .tc .vmem S8x128x3 .f32) (arg5 : Memref sig .tc .vmem S8x128 .f32) (arg8 : Memref sig .tc .vmem S8x128x3 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg8 : BufTy.Contents (Elt Ideal) arg8.view.ty) (k : Fin k0_t1_loop.trips) (p : Fin 128) :
    trip.sl.r_27 (F := Ideal) arg2 arg3 arg4 arg5 arg8 X_arg2 X_arg3 X_arg4 X_arg5 X_arg8 k (ix1 p)
      = Ideal.ofBits .f32 0x00000000#32 + ∑ q : Fin 128, (pwi3 arg2 arg3 arg4 arg5 X_arg2 X_arg3 X_arg4 X_arg5 k p q * pdot arg2 arg4 arg8 X_arg2 X_arg4 X_arg8 k p q) * puz arg2 arg4 X_arg2 X_arg4 k p q := by
  show k0_pay67 (laneX arg8 X_arg8 k) (laneY arg8 X_arg8 k) (laneZ arg8 X_arg8 k) (k0_pay37 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay39 (laneX arg2 X_arg2 k) (laneY arg2 X_arg2 k) (laneZ arg2 X_arg2 k) (laneX arg4 X_arg4 k) (laneY arg4 X_arg4 k) (laneZ arg4 X_arg4 k)) (k0_pay45 (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (eqzDip_lane _ _ _ _ _ _ _ _ _ _ _ p).trans ?_
  refine congrArg (fun x : EReal => Ideal.ofBits .f32 0x00000000#32 + x) (Finset.sum_congr rfl fun q _ => ?_)
  rw [lwi3_loaded, ldot_loaded, luz_loaded]

/-- em_x, em_y, em_z, dipole parts. -/
theorem emxDip_apply (arg2 : Memref sig .tc .vmem S8x128x3 .f32) (arg3 : Memref sig .tc .vmem S8x128 .f32) (arg4 : Memref sig .tc .vmem S8x128x3 .f32) (arg5 : Memref sig .tc .vmem S8x128 .f32) (arg9 : Memref sig .tc .vmem S8x128x3 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg9 : BufTy.Contents (Elt Ideal) arg9.view.ty) (k : Fin k0_t1_loop.trips) (p : Fin 128) :
    trip.sl.r_28 (F := Ideal) arg2 arg3 arg4 arg5 arg9 X_arg2 X_arg3 X_arg4 X_arg5 X_arg9 k (ix1 p)
      = Ideal.ofBits .f32 0x00000000#32 + ∑ q : Fin 128, (pwi3 arg2 arg3 arg4 arg5 X_arg2 X_arg3 X_arg4 X_arg5 k p q * pdot arg2 arg4 arg9 X_arg2 X_arg4 X_arg9 k p q) * pux arg2 arg4 X_arg2 X_arg4 k p q := by
  show k0_pay68 (laneX arg9 X_arg9 k) (laneY arg9 X_arg9 k) (laneZ arg9 X_arg9 k) (k0_pay37 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay39 (laneX arg2 X_arg2 k) (laneY arg2 X_arg2 k) (laneZ arg2 X_arg2 k) (laneX arg4 X_arg4 k) (laneY arg4 X_arg4 k) (laneZ arg4 X_arg4 k)) (k0_pay45 (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (emxDip_lane _ _ _ _ _ _ _ _ _ _ _ p).trans ?_
  refine congrArg (fun x : EReal => Ideal.ofBits .f32 0x00000000#32 + x) (Finset.sum_congr rfl fun q _ => ?_)
  rw [lwi3_loaded, ldot_loaded, lux_loaded]

theorem emyDip_apply (arg2 : Memref sig .tc .vmem S8x128x3 .f32) (arg3 : Memref sig .tc .vmem S8x128 .f32) (arg4 : Memref sig .tc .vmem S8x128x3 .f32) (arg5 : Memref sig .tc .vmem S8x128 .f32) (arg9 : Memref sig .tc .vmem S8x128x3 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg9 : BufTy.Contents (Elt Ideal) arg9.view.ty) (k : Fin k0_t1_loop.trips) (p : Fin 128) :
    trip.sl.r_29 (F := Ideal) arg2 arg3 arg4 arg5 arg9 X_arg2 X_arg3 X_arg4 X_arg5 X_arg9 k (ix1 p)
      = Ideal.ofBits .f32 0x00000000#32 + ∑ q : Fin 128, (pwi3 arg2 arg3 arg4 arg5 X_arg2 X_arg3 X_arg4 X_arg5 k p q * pdot arg2 arg4 arg9 X_arg2 X_arg4 X_arg9 k p q) * puy arg2 arg4 X_arg2 X_arg4 k p q := by
  show k0_pay69 (laneX arg9 X_arg9 k) (laneY arg9 X_arg9 k) (laneZ arg9 X_arg9 k) (k0_pay37 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay39 (laneX arg2 X_arg2 k) (laneY arg2 X_arg2 k) (laneZ arg2 X_arg2 k) (laneX arg4 X_arg4 k) (laneY arg4 X_arg4 k) (laneZ arg4 X_arg4 k)) (k0_pay45 (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k))) (ix1 p) = _
  refine (emyDip_lane _ _ _ _ _ _ _ _ _ _ _ p).trans ?_
  refine congrArg (fun x : EReal => Ideal.ofBits .f32 0x00000000#32 + x) (Finset.sum_congr rfl fun q _ => ?_)
  rw [lwi3_loaded, ldot_loaded, luy_loaded]

theorem emzDip_apply (arg2 : Memref sig .tc .vmem S8x128x3 .f32) (arg3 : Memref sig .tc .vmem S8x128 .f32) (arg4 : Memref sig .tc .vmem S8x128x3 .f32) (arg5 : Memref sig .tc .vmem S8x128 .f32) (arg9 : Memref sig .tc .vmem S8x128x3 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg9 : BufTy.Contents (Elt Ideal) arg9.view.ty) (k : Fin k0_t1_loop.trips) (p : Fin 128) :
    trip.sl.r_31 (F := Ideal) arg2 arg3 arg4 arg5 arg9 X_arg2 X_arg3 X_arg4 X_arg5 X_arg9 k (ix1 p)
      = Ideal.ofBits .f32 0x00000000#32 + ∑ q : Fin 128, (pwi3 arg2 arg3 arg4 arg5 X_arg2 X_arg3 X_arg4 X_arg5 k p q * pdot arg2 arg4 arg9 X_arg2 X_arg4 X_arg9 k p q) * puz arg2 arg4 X_arg2 X_arg4 k p q := by
  show k0_pay71 (k0_pay70 (laneX arg9 X_arg9 k) (laneY arg9 X_arg9 k) (laneZ arg9 X_arg9 k) (k0_pay37 (laneX arg2 X_arg2 k) (laneY arg2 X_arg2 k) (laneZ arg2 X_arg2 k) (laneX arg4 X_arg4 k) (laneY arg4 X_arg4 k) (laneZ arg4 X_arg4 k)) (k0_pay38 (laneX arg2 X_arg2 k) (laneY arg2 X_arg2 k) (laneZ arg2 X_arg2 k) (laneX arg4 X_arg4 k) (laneY arg4 X_arg4 k) (laneZ arg4 X_arg4 k)) (k0_pay39 (laneX arg2 X_arg2 k) (laneY arg2 X_arg2 k) (laneZ arg2 X_arg2 k) (laneX arg4 X_arg4 k) (laneY arg4 X_arg4 k) (laneZ arg4 X_arg4 k)) (k0_pay45 (k0_pay35 (laneX arg2 X_arg2 k) (laneY arg2 X_arg2 k) (laneZ arg2 X_arg2 k) (laneX arg4 X_arg4 k) (laneY arg4 X_arg4 k) (laneZ arg4 X_arg4 k)) (k0_pay40 (laneR arg3 X_arg3 k) (laneR arg5 X_arg5 k)) (k0_pay41 (laneX arg2 X_arg2 k) (laneY arg2 X_arg2 k) (laneZ arg2 X_arg2 k) (laneX arg4 X_arg4 k) (laneY arg4 X_arg4 k) (laneZ arg4 X_arg4 k)))) (ix1 p) = _
  refine (emzDip_lane _ _ _ _ _ _ _ _ _ _ _ p).trans ?_
  refine congrArg (fun x : EReal => Ideal.ofBits .f32 0x00000000#32 + x) (Finset.sum_congr rfl fun q _ => ?_)
  rw [lwi3_loaded, ldot_loaded, luz_loaded]

end Cert.KernelIdeal.Tile

end
-- ==== Proof.PairAlgIdeal.lean ====
/-
  Algebra on the extended reals for a pairwise field sum taken in tiles.

  Floats are read as extended reals and every operation is exact.  This file collects the facts about the constants
  (one, zero, a small positive threshold), the reciprocal written as a division of one, the product of four 0/1 masks
  as the conjunction of four bits, a three-term sum as a sum over three components started from zero, and the
  regrouping of a sum over 1024 positions into eight tiles of 128 accumulated one tile per step.
-/
import Idealize.ShloMosaic.PureOps.Ideal
import Idealize.ShloMosaic.PureOps.Ideal.Laws
import Mathlib.Algebra.BigOperators.Fin
import Mathlib.Logic.Equiv.Fin.Basic

noncomputable section

namespace Cert.PairAlg

open Idealize.ShloMosaic
open scoped BigOperators

/-! ### Constants -/

/-- The pattern of `1.0` denotes the extended real one. -/
theorem one_f32 : Ideal.ofBits .f32 0x3F800000#32 = (1 : EReal) := by
  simp [Ideal.ofBits, Ideal.ieee, -EReal.coe_mul]; norm_num

/-- The pattern of `+0.0` denotes the extended real zero. -/
theorem zero_f32 : Ideal.ofBits .f32 0x00000000#32 = (0 : EReal) := Ideal.ofBits_zero_f32

/-- The pattern of the threshold `1e-8` denotes a positive extended real. -/
theorem eps8_pos : (0 : EReal) < Ideal.ofBits .f32 0x322BCC77#32 := by
  simp [Ideal.ofBits, Ideal.ieee, -EReal.coe_mul]

/-! ### Reciprocal and threshold -/

/-- Off zero, multiplying by the quotient of one by `y` is dividing by `y`: both are `x * y⁻¹`. -/
theorem mul_recip (x y : EReal) (hy : y ≠ 0) :
    x * Ideal.div (Ideal.ofBits .f32 0x3F800000#32) y = Ideal.div x y := by
  rw [one_f32]
  unfold Ideal.div
  rw [if_neg hy, if_neg hy, one_mul]

/-- A maximum with the positive threshold is never zero. -/
theorem max_eps8_ne_zero (z : EReal) : max z (Ideal.ofBits .f32 0x322BCC77#32) ≠ 0 :=
  (lt_of_lt_of_le eps8_pos (le_max_right z _)).ne'

/-! ### Masks -/

/-- The product of four 0/1 masks, two read unsigned from a bit and two read signed from the bit widened to 32 bits
    with zeros, is the conjunction of the four bits read unsigned. -/
theorem mask_raw (a b c d : BitVec 1) :
    ((a.toNat : ℝ) : EReal) * ((b.toNat : ℝ) : EReal) * ((((BitVec.setWidth 32 c).toInt : ℝ)) : EReal)
        * ((((BitVec.setWidth 32 d).toInt : ℝ)) : EReal)
      = (((a &&& b &&& c &&& d).toNat : ℝ) : EReal) := by
  rcases BitVec.eq_zero_or_eq_one a with h | h <;> subst h <;>
  rcases BitVec.eq_zero_or_eq_one b with h | h <;> subst h <;>
  rcases BitVec.eq_zero_or_eq_one c with h | h <;> subst h <;>
  rcases BitVec.eq_zero_or_eq_one d with h | h <;> subst h <;> simp

/-- The same law over the conversions and the bitwise conjunction as the programs spell them. -/
theorem mask_law (a b c d : BitVec 1) :
    FloatOps.uitofp (F := Ideal) .f32 a * FloatOps.uitofp (F := Ideal) .f32 b
        * FloatOps.sitofp (F := Ideal) .f32 (BitVec.setWidth 32 c)
        * FloatOps.sitofp (F := Ideal) .f32 (BitVec.setWidth 32 d)
      = FloatOps.uitofp (F := Ideal) .f32 (IntOp.andi (IntOp.andi (IntOp.andi a b) c) d) :=
  mask_raw a b c d

/-! ### Three components -/

/-- A left-nested sum of three terms is zero plus the sum over the three components. -/
theorem sum3 (t : Fin 3 → EReal) :
    (t 0 + t 1) + t 2 = Ideal.ofBits .f32 0x00000000#32 + ∑ c : Fin 3, t c := by
  rw [zero_f32, zero_add, Fin.sum_univ_three]

/-! ### Tiles

  A sum over K·T consecutive positions taken tile by tile, and a running total over the tiles, on any commutative
  monoid: position k·T + q is position q of tile k, and this is a bijection between pairs (k, q) and positions. -/

section Tiles

variable {M : Type*} [AddCommMonoid M]

/-- Position `q` of tile `k` lies below `K·T`. -/
theorem pos_lt {K T : ℕ} (k : Fin K) (q : Fin T) : k.val * T + q.val < K * T := by
  have hk := k.isLt
  have hq := q.isLt
  calc k.val * T + q.val < k.val * T + T := by omega
    _ = (k.val + 1) * T := by rw [Nat.add_mul, Nat.one_mul]
    _ ≤ K * T := Nat.mul_le_mul_right T (by omega)

/-- The sum over `K·T` positions is the sum over the tiles of each tile's sum. -/
theorem sum_tiles {K T : ℕ} (g : Fin (K * T) → M) :
    ∑ j, g j = ∑ k : Fin K, ∑ q : Fin T, g ⟨k.val * T + q.val, pos_lt k q⟩ := by
  rw [← Equiv.sum_comp finProdFinEquiv g, Fintype.sum_prod_type]
  refine Finset.sum_congr rfl fun k _ => Finset.sum_congr rfl fun q _ => congrArg g (Fin.ext ?_)
  show q.val + T * k.val = k.val * T + q.val
  rw [Nat.mul_comm, Nat.add_comm]

/-- The same for an extent `N` known to be `K·T`. -/
theorem sum_tiles_of_eq {N K T : ℕ} (h : N = K * T) (g : Fin N → M) :
    ∑ j, g j = ∑ k : Fin K, ∑ q : Fin T, g ⟨k.val * T + q.val, h ▸ pos_lt k q⟩ := by
  subst h
  exact sum_tiles g

/-- A running total that starts at `z` and at step `k` adds `t k`: after step `k` it is `z` plus the first
    `k + 1` terms. -/
theorem running_total {K : ℕ} (z : M) (t : Fin K → M) (a : (k : ℕ) → k < K → M)
    (h0 : ∀ h : 0 < K, a 0 h = z + t ⟨0, h⟩)
    (hs : ∀ (k : ℕ) (h : k + 1 < K), a (k + 1) h = a k (Nat.lt_of_succ_lt h) + t ⟨k + 1, h⟩) :
    ∀ (k : ℕ) (h : k < K), a k h = z + ∑ i : Fin (k + 1), t ⟨i.val, by have := i.isLt; omega⟩ := by
  intro k
  induction k with
  | zero =>
    intro h
    rw [h0 h]
    exact congrArg (z + ·) (Fin.sum_univ_one fun i : Fin 1 => t ⟨i.val, by have := i.isLt; omega⟩).symm
  | succ k ih =>
    intro h
    rw [hs k h, ih (Nat.lt_of_succ_lt h), add_assoc]
    exact congrArg (z + ·)
      (Fin.sum_univ_castSucc fun i : Fin (k + 1 + 1) => t ⟨i.val, by have := i.isLt; omega⟩).symm

/-- After the last step the running total is `z` plus every term. -/
theorem running_total_last {K : ℕ} (z : M) (t : Fin K → M) (a : (k : ℕ) → k < K → M)
    (h0 : ∀ h : 0 < K, a 0 h = z + t ⟨0, h⟩)
    (hs : ∀ (k : ℕ) (h : k + 1 < K), a (k + 1) h = a k (Nat.lt_of_succ_lt h) + t ⟨k + 1, h⟩)
    (k : ℕ) (hk : k + 1 = K) : a k (by omega) = z + ∑ i : Fin K, t i := by
  subst hk
  exact running_total z t a h0 hs k (by omega)

end Tiles

/-! ### Eight tiles of 128 over 1024 positions -/

/-- Position `q` of tile `j` among eight tiles of 128 lies below 1024. -/
theorem tile_pos_lt {j : ℕ} (hj : j < 8) (q : Fin 128) : 128 * j + q.val < 1024 := by
  have := q.isLt
  omega

/-- What tile `j` adds to the accumulator: the tile's sum of `a` and the tile's sum of `d`, each started from
    zero. -/
def tileTerm (a d : Fin 1024 → EReal) (j : ℕ) (hj : j < 8) : EReal :=
  (Ideal.ofBits .f32 0x00000000#32 + ∑ q : Fin 128, a ⟨128 * j + q.val, tile_pos_lt hj q⟩)
    + (Ideal.ofBits .f32 0x00000000#32 + ∑ q : Fin 128, d ⟨128 * j + q.val, tile_pos_lt hj q⟩)

/-- The accumulator after `n` steps: zero before the first step, and step `j < 8` adds tile `j`'s term. -/
def runAcc (a d : Fin 1024 → EReal) : ℕ → EReal
  | 0 => Ideal.ofBits .f32 0x00000000#32
  | n + 1 => if h : n < 8 then runAcc a d n + tileTerm a d n h else runAcc a d n

/-- Before the first step the accumulator is zero. -/
theorem runAcc_zero (a d : Fin 1024 → EReal) : runAcc a d 0 = Ideal.ofBits .f32 0x00000000#32 := rfl

/-- Step `j` adds tile `j`'s term. -/
theorem runAcc_succ (a d : Fin 1024 → EReal) (j : ℕ) (hj : j < 8) :
    runAcc a d (j + 1) = runAcc a d j + tileTerm a d j hj := by
  show (if h : j < 8 then runAcc a d j + tileTerm a d j h else runAcc a d j) = _
  rw [dif_pos hj]

/-- The sum over the eight tiles of each tile's sum is the sum over all 1024 positions. -/
theorem sum_eight_tiles (g : Fin 1024 → EReal) :
    ∑ k : Fin 8, ∑ q : Fin 128, g ⟨128 * k.val + q.val, tile_pos_lt k.isLt q⟩ = ∑ s : Fin 1024, g s := by
  rw [sum_tiles_of_eq (N := 1024) (K := 8) (T := 128) (by norm_num) g]
  refine Finset.sum_congr rfl fun k _ => Finset.sum_congr rfl fun q _ => congrArg g (Fin.ext ?_)
  show 128 * k.val + q.val = k.val * 128 + q.val
  rw [Nat.mul_comm]

/-- Any accumulator that starts at zero and at step `j` adds tile `j`'s term holds, after the eighth step, the full
    sum of `a` plus the full sum of `d`, each started from zero. -/
theorem regroup_of_steps (a d : Fin 1024 → EReal) (acc : ℕ → EReal)
    (h0 : acc 0 = Ideal.ofBits .f32 0x00000000#32)
    (hs : ∀ (j : ℕ) (hj : j < 8), acc (j + 1) = acc j + tileTerm a d j hj) :
    acc 8 = (Ideal.ofBits .f32 0x00000000#32 + ∑ s : Fin 1024, a s)
      + (Ideal.ofBits .f32 0x00000000#32 + ∑ s : Fin 1024, d s) := by
  have hlast := running_total_last (K := 8) (Ideal.ofBits .f32 0x00000000#32)
    (fun k : Fin 8 => tileTerm a d k.val k.isLt) (fun k _ => acc (k + 1))
    (fun h => by rw [hs 0 h, h0]) (fun k h => hs (k + 1) h) 7 rfl
  refine hlast.trans ?_
  simp only [tileTerm, zero_f32, zero_add]
  rw [Finset.sum_add_distrib, sum_eight_tiles a, sum_eight_tiles d]

/-- The recursive accumulator after eight steps. -/
theorem runAcc_eight (a d : Fin 1024 → EReal) :
    runAcc a d 8 = (Ideal.ofBits .f32 0x00000000#32 + ∑ s : Fin 1024, a s)
      + (Ideal.ofBits .f32 0x00000000#32 + ∑ s : Fin 1024, d s) :=
  regroup_of_steps a d (runAcc a d) (runAcc_zero a d) (runAcc_succ a d)

end Cert.PairAlg

end
-- ==== Proof.EntryIdeal.lean ====
/-
  The blocks' entries are the arrays' entries.  At point j of grid row i the target windows hold rows
  128 i .. 128 i + 127 of their arrays and the source windows rows 128 j .. 128 j + 127, for every batch; the mask
  windows hold the mask bits read as 0 or 1 (the one host operation before the kernel converts them).
-/
import proofs.«146129_j80805514707451_2_alg».proof.Proof.RowAccIdeal
import proofs.«146129_j80805514707451_2_alg».proof.Proof.FrameIdeal
import proofs.«146129_j80805514707451_2_alg».proof.Proof.TileAtIdeal
import proofs.«146129_j80805514707451_2_alg».proof.Proof.PairAlgIdeal
import Idealize.ShloMosaic.Lib.StableHlo.Run

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

theorem idxI_0 : ∀ t : Fin cfg0.N, win0_0.index t (0 : Fin 3) = 0 ∧ win0_0.index t (1 : Fin 3) = t.val / 8 ∧ win0_0.index t (2 : Fin 3) = 0 :=
  (by decide +kernel : ∀ t : Fin grid0.N, win0_0.index t (0 : Fin 3) = 0 ∧ win0_0.index t (1 : Fin 3) = t.val / 8 ∧ win0_0.index t (2 : Fin 3) = 0)
theorem idxI_2 : ∀ t : Fin cfg0.N, win0_2.index t (0 : Fin 3) = 0 ∧ win0_2.index t (1 : Fin 3) = t.val % 8 ∧ win0_2.index t (2 : Fin 3) = 0 :=
  (by decide +kernel : ∀ t : Fin grid0.N, win0_2.index t (0 : Fin 3) = 0 ∧ win0_2.index t (1 : Fin 3) = t.val % 8 ∧ win0_2.index t (2 : Fin 3) = 0)
theorem idxI_6 : ∀ t : Fin cfg0.N, win0_6.index t (0 : Fin 3) = 0 ∧ win0_6.index t (1 : Fin 3) = t.val % 8 ∧ win0_6.index t (2 : Fin 3) = 0 :=
  (by decide +kernel : ∀ t : Fin grid0.N, win0_6.index t (0 : Fin 3) = 0 ∧ win0_6.index t (1 : Fin 3) = t.val % 8 ∧ win0_6.index t (2 : Fin 3) = 0)
theorem idxI_7 : ∀ t : Fin cfg0.N, win0_7.index t (0 : Fin 3) = 0 ∧ win0_7.index t (1 : Fin 3) = t.val % 8 ∧ win0_7.index t (2 : Fin 3) = 0 :=
  (by decide +kernel : ∀ t : Fin grid0.N, win0_7.index t (0 : Fin 3) = 0 ∧ win0_7.index t (1 : Fin 3) = t.val % 8 ∧ win0_7.index t (2 : Fin 3) = 0)
theorem idxI_1 : ∀ t : Fin cfg0.N, win0_1.index t (0 : Fin 2) = 0 ∧ win0_1.index t (1 : Fin 2) = t.val / 8 :=
  (by decide +kernel : ∀ t : Fin grid0.N, win0_1.index t (0 : Fin 2) = 0 ∧ win0_1.index t (1 : Fin 2) = t.val / 8)
theorem idxI_3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idxI_4 : ∀ t : Fin cfg0.N, win0_4.index t (0 : Fin 2) = 0 ∧ win0_4.index t (1 : Fin 2) = t.val % 8 :=
  (by decide +kernel : ∀ t : Fin grid0.N, win0_4.index t (0 : Fin 2) = 0 ∧ win0_4.index t (1 : Fin 2) = t.val % 8)
theorem idxI_5 : ∀ t : Fin cfg0.N, win0_5.index t (0 : Fin 2) = 0 ∧ win0_5.index t (1 : Fin 2) = t.val % 8 :=
  (by decide +kernel : ∀ t : Fin grid0.N, win0_5.index t (0 : Fin 2) = 0 ∧ win0_5.index t (1 : Fin 2) = t.val % 8)

/-- The converted mask: the mask bits read as numbers. -/
theorem V_maskf (c : Dev nD) (y : S8x1024.Idx) :
    V m c main_call0_v0 y = FloatOps.uitofp (F := Ideal) .f32 (m ((c.tc : Thread nD τ).loc main_arg1) y) := by
  show StableHlo.after (hostOps0 (F := Ideal)) (fun b => m (c, b)) (Proc.devRef .tc main_call0_v0) y = _
  dsimp only [hostOps0]; after_results
  rfl

theorem iblk_0_at (c : Dev nD) (i8 : Fin 8) (j : ℕ) (hj : j < 8) (b : Fin 8) (p : Fin 128) (cc : Fin 3) :
    iblk m c 0 (ptOf i8 j hj) (ix3 b p cc) = m ((c.tc : Thread nD τ).loc main_arg0) (ix3 b (⟨128 * i8.val + p.val, by have := i8.isLt; have := p.isLt; omega⟩ : Fin 1024) cc) := by
  show V m c main_arg0 (((cfg0.win 0).blk (ptOf i8 j hj)).view.emb (ix3 b p cc)) = _
  rw [V_arg0 m c]
  obtain ⟨e0, e1, e2⟩ := idxI_0 (ptOf i8 j hj)
  have hi := i8.isLt
  refine congrArg _ (funext fun a => Fin.ext ?_)
  match a with
  | ⟨0, _⟩ => show win0_0.index (ptOf i8 j hj) (0 : Fin 3) * 8 + 1 * b.val = b.val; rw [e0]; omega
  | ⟨1, _⟩ => show win0_0.index (ptOf i8 j hj) (1 : Fin 3) * 128 + 1 * p.val = 128 * i8.val + p.val; rw [e1]; show (8 * i8.val + j) / 8 * 128 + 1 * p.val = 128 * i8.val + p.val; omega
  | ⟨2, _⟩ => show win0_0.index (ptOf i8 j hj) (2 : Fin 3) * 3 + 1 * cc.val = cc.val; rw [e2]; omega

theorem iblk_2_at (c : Dev nD) (i8 : Fin 8) (j : ℕ) (hj : j < 8) (b : Fin 8) (q : Fin 128) (cc : Fin 3) :
    iblk m c 2 (ptOf i8 j hj) (ix3 b q cc) = m ((c.tc : Thread nD τ).loc main_arg0) (ix3 b (⟨128 * j + q.val, PairAlg.tile_pos_lt hj q⟩ : Fin 1024) cc) := by
  show V m c main_arg0 (((cfg0.win 2).blk (ptOf i8 j hj)).view.emb (ix3 b q cc)) = _
  rw [V_arg0 m c]
  obtain ⟨e0, e1, e2⟩ := idxI_2 (ptOf i8 j hj)
  have hi := i8.isLt
  refine congrArg _ (funext fun a => Fin.ext ?_)
  match a with
  | ⟨0, _⟩ => show win0_2.index (ptOf i8 j hj) (0 : Fin 3) * 8 + 1 * b.val = b.val; rw [e0]; omega
  | ⟨1, _⟩ => show win0_2.index (ptOf i8 j hj) (1 : Fin 3) * 128 + 1 * q.val = 128 * j + q.val; rw [e1]; show (8 * i8.val + j) % 8 * 128 + 1 * q.val = 128 * j + q.val; omega
  | ⟨2, _⟩ => show win0_2.index (ptOf i8 j hj) (2 : Fin 3) * 3 + 1 * cc.val = cc.val; rw [e2]; omega

theorem iblk_6_at (c : Dev nD) (i8 : Fin 8) (j : ℕ) (hj : j < 8) (b : Fin 8) (q : Fin 128) (cc : Fin 3) :
    iblk m c 6 (ptOf i8 j hj) (ix3 b q cc) = m ((c.tc : Thread nD τ).loc main_arg4) (ix3 b (⟨128 * j + q.val, PairAlg.tile_pos_lt hj q⟩ : Fin 1024) cc) := by
  show V m c main_arg4 (((cfg0.win 6).blk (ptOf i8 j hj)).view.emb (ix3 b q cc)) = _
  rw [V_arg4 m c]
  obtain ⟨e0, e1, e2⟩ := idxI_6 (ptOf i8 j hj)
  have hi := i8.isLt
  refine congrArg _ (funext fun a => Fin.ext ?_)
  match a with
  | ⟨0, _⟩ => show win0_6.index (ptOf i8 j hj) (0 : Fin 3) * 8 + 1 * b.val = b.val; rw [e0]; omega
  | ⟨1, _⟩ => show win0_6.index (ptOf i8 j hj) (1 : Fin 3) * 128 + 1 * q.val = 128 * j + q.val; rw [e1]; show (8 * i8.val + j) % 8 * 128 + 1 * q.val = 128 * j + q.val; omega
  | ⟨2, _⟩ => show win0_6.index (ptOf i8 j hj) (2 : Fin 3) * 3 + 1 * cc.val = cc.val; rw [e2]; omega

theorem iblk_7_at (c : Dev nD) (i8 : Fin 8) (j : ℕ) (hj : j < 8) (b : Fin 8) (q : Fin 128) (cc : Fin 3) :
    iblk m c 7 (ptOf i8 j hj) (ix3 b q cc) = m ((c.tc : Thread nD τ).loc main_arg5) (ix3 b (⟨128 * j + q.val, PairAlg.tile_pos_lt hj q⟩ : Fin 1024) cc) := by
  show V m c main_arg5 (((cfg0.win 7).blk (ptOf i8 j hj)).view.emb (ix3 b q cc)) = _
  rw [V_arg5 m c]
  obtain ⟨e0, e1, e2⟩ := idxI_7 (ptOf i8 j hj)
  have hi := i8.isLt
  refine congrArg _ (funext fun a => Fin.ext ?_)
  match a with
  | ⟨0, _⟩ => show win0_7.index (ptOf i8 j hj) (0 : Fin 3) * 8 + 1 * b.val = b.val; rw [e0]; omega
  | ⟨1, _⟩ => show win0_7.index (ptOf i8 j hj) (1 : Fin 3) * 128 + 1 * q.val = 128 * j + q.val; rw [e1]; show (8 * i8.val + j) % 8 * 128 + 1 * q.val = 128 * j + q.val; omega
  | ⟨2, _⟩ => show win0_7.index (ptOf i8 j hj) (2 : Fin 3) * 3 + 1 * cc.val = cc.val; rw [e2]; omega

theorem iblk_1_at (c : Dev nD) (i8 : Fin 8) (j : ℕ) (hj : j < 8) (b : Fin 8) (p : Fin 128) :
    iblk m c 1 (ptOf i8 j hj) (ix2 b p) = FloatOps.uitofp (F := Ideal) .f32 (m ((c.tc : Thread nD τ).loc main_arg1) (ix2 b (⟨128 * i8.val + p.val, by have := i8.isLt; have := p.isLt; omega⟩ : Fin 1024))) := by
  show V m c main_call0_v0 (((cfg0.win 1).blk (ptOf i8 j hj)).view.emb (ix2 b p)) = _
  rw [V_maskf m c]
  obtain ⟨e0, e1⟩ := idxI_1 (ptOf i8 j hj)
  have hi := i8.isLt
  show FloatOps.uitofp (F := Ideal) .f32 (m ((c.tc : Thread nD τ).loc main_arg1) (((cfg0.win 1).blk (ptOf i8 j hj)).view.emb (ix2 b p))) = _
  refine congrArg (fun y => FloatOps.uitofp (F := Ideal) .f32 (m ((c.tc : Thread nD τ).loc main_arg1) y)) (funext fun a => Fin.ext ?_)
  match a with
  | ⟨0, _⟩ => show win0_1.index (ptOf i8 j hj) (0 : Fin 2) * 8 + 1 * b.val = b.val; rw [e0]; omega
  | ⟨1, _⟩ => show win0_1.index (ptOf i8 j hj) (1 : Fin 2) * 128 + 1 * p.val = 128 * i8.val + p.val; rw [e1]; show (8 * i8.val + j) / 8 * 128 + 1 * p.val = 128 * i8.val + p.val; omega

theorem iblk_3_at (c : Dev nD) (i8 : Fin 8) (j : ℕ) (hj : j < 8) (b : Fin 8) (q : Fin 128) :
    iblk m c 3 (ptOf i8 j hj) (ix2 b q) = FloatOps.uitofp (F := Ideal) .f32 (m ((c.tc : Thread nD τ).loc main_arg1) (ix2 b (⟨128 * j + q.val, PairAlg.tile_pos_lt hj q⟩ : Fin 1024))) := by
  show V m c main_call0_v0 (((cfg0.win 3).blk (ptOf i8 j hj)).view.emb (ix2 b q)) = _
  rw [V_maskf m c]
  obtain ⟨e0, e1⟩ := idxI_3 (ptOf i8 j hj)
  have hi := i8.isLt
  show FloatOps.uitofp (F := Ideal) .f32 (m ((c.tc : Thread nD τ).loc main_arg1) (((cfg0.win 3).blk (ptOf i8 j hj)).view.emb (ix2 b q))) = _
  refine congrArg (fun y => FloatOps.uitofp (F := Ideal) .f32 (m ((c.tc : Thread nD τ).loc main_arg1) y)) (funext fun a => Fin.ext ?_)
  match a with
  | ⟨0, _⟩ => show win0_3.index (ptOf i8 j hj) (0 : Fin 2) * 8 + 1 * b.val = b.val; rw [e0]; omega
  | ⟨1, _⟩ => show win0_3.index (ptOf i8 j hj) (1 : Fin 2) * 128 + 1 * q.val = 128 * j + q.val; rw [e1]; show (8 * i8.val + j) % 8 * 128 + 1 * q.val = 128 * j + q.val; omega

theorem iblk_4_at (c : Dev nD) (i8 : Fin 8) (j : ℕ) (hj : j < 8) (b : Fin 8) (q : Fin 128) :
    iblk m c 4 (ptOf i8 j hj) (ix2 b q) = m ((c.tc : Thread nD τ).loc main_arg2) (ix2 b (⟨128 * j + q.val, PairAlg.tile_pos_lt hj q⟩ : Fin 1024)) := by
  show V m c main_arg2 (((cfg0.win 4).blk (ptOf i8 j hj)).view.emb (ix2 b q)) = _
  rw [V_arg2 m c]
  obtain ⟨e0, e1⟩ := idxI_4 (ptOf i8 j hj)
  have hi := i8.isLt
  refine congrArg _ (funext fun a => Fin.ext ?_)
  match a with
  | ⟨0, _⟩ => show win0_4.index (ptOf i8 j hj) (0 : Fin 2) * 8 + 1 * b.val = b.val; rw [e0]; omega
  | ⟨1, _⟩ => show win0_4.index (ptOf i8 j hj) (1 : Fin 2) * 128 + 1 * q.val = 128 * j + q.val; rw [e1]; show (8 * i8.val + j) % 8 * 128 + 1 * q.val = 128 * j + q.val; omega

theorem iblk_5_at (c : Dev nD) (i8 : Fin 8) (j : ℕ) (hj : j < 8) (b : Fin 8) (q : Fin 128) :
    iblk m c 5 (ptOf i8 j hj) (ix2 b q) = m ((c.tc : Thread nD τ).loc main_arg3) (ix2 b (⟨128 * j + q.val, PairAlg.tile_pos_lt hj q⟩ : Fin 1024)) := by
  show V m c main_arg3 (((cfg0.win 5).blk (ptOf i8 j hj)).view.emb (ix2 b q)) = _
  rw [V_arg3 m c]
  obtain ⟨e0, e1⟩ := idxI_5 (ptOf i8 j hj)
  have hi := i8.isLt
  refine congrArg _ (funext fun a => Fin.ext ?_)
  match a with
  | ⟨0, _⟩ => show win0_5.index (ptOf i8 j hj) (0 : Fin 2) * 8 + 1 * b.val = b.val; rw [e0]; omega
  | ⟨1, _⟩ => show win0_5.index (ptOf i8 j hj) (1 : Fin 2) * 128 + 1 * q.val = 128 * j + q.val; rw [e1]; show (8 * i8.val + j) % 8 * 128 + 1 * q.val = 128 * j + q.val; omega

end Cert.KernelIdeal.Hand

end
-- ==== Proof.RefAtIdeal.lean ====
import proofs.«146129_j80805514707451_2_alg».proof.Proof.Gen.ReferenceIdeal.Read
import Idealize.ShloMosaic.Lib.ValueIdx

/-! The dense reference read at natural coordinates, over the extended reals.

Each named table of the reference program is read at a batch b : Fin 8, a row particle r, a
column particle s (both Fin 1024) and a space axis c : Fin 3, in terms of the earlier tables
at the same kind of coordinates. Layout operations (broadcasts) disappear: they only re-index.
A float sum over an axis is its initial value plus the finite sum over that axis. -/

noncomputable section

namespace Cert.ReferenceIdeal.At

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- Arrays of shape 8 x 1024 x 3 of extended reals (positions and the two dipole fields). -/
abbrev T3 : Type := (⟨S8x1024x3, .f32⟩ : BufTy).Contents (Elt Ideal)
/-- Arrays of shape 8 x 1024 of extended reals (the two charge fields). -/
abbrev T2 : Type := (⟨S8x1024, .f32⟩ : BufTy).Contents (Elt Ideal)
/-- The particle mask, shape 8 x 1024 of bits. -/
abbrev M2 : Type := (⟨S8x1024, .i1⟩ : BufTy).Contents (Elt Ideal)

/-! ## Index maps at coordinates

Each is the composition of the program's index maps evaluated at explicit coordinates. -/

theorem idx_v61_at (b : Fin 8) (r s : Fin 1024) : Read.idx_main_v61 (ix2 b r) s = ix3 b r s :=
  funext fun a => Fin.ext (by match a with | ⟨0, _⟩ => rfl | ⟨1, _⟩ => rfl | ⟨2, _⟩ => rfl)

theorem idx_v64_at (b : Fin 8) (r s : Fin 1024) : Read.idx_main_v64 (ix2 b r) s = ix3 b r s :=
  funext fun a => Fin.ext (by match a with | ⟨0, _⟩ => rfl | ⟨1, _⟩ => rfl | ⟨2, _⟩ => rfl)

theorem idx_v86_at (b : Fin 8) (r s : Fin 1024) : Read.idx_main_v86 (ix2 b r) s = ix3 b r s :=
  funext fun a => Fin.ext (by match a with | ⟨0, _⟩ => rfl | ⟨1, _⟩ => rfl | ⟨2, _⟩ => rfl)

theorem idx_v88_at (b : Fin 8) (r s : Fin 1024) : Read.idx_main_v88 (ix2 b r) s = ix3 b r s :=
  funext fun a => Fin.ext (by match a with | ⟨0, _⟩ => rfl | ⟨1, _⟩ => rfl | ⟨2, _⟩ => rfl)

theorem idx_v70_at (b : Fin 8) (r : Fin 1024) (c : Fin 3) (s : Fin 1024) : Read.idx_main_v70 (ix3 b r c) s = ix4 b r s c :=
  funext fun a => Fin.ext (by match a with | ⟨0, _⟩ => rfl | ⟨1, _⟩ => rfl | ⟨2, _⟩ => rfl | ⟨3, _⟩ => rfl)

theorem idx_v76_at (b : Fin 8) (r : Fin 1024) (c : Fin 3) (s : Fin 1024) : Read.idx_main_v76 (ix3 b r c) s = ix4 b r s c :=
  funext fun a => Fin.ext (by match a with | ⟨0, _⟩ => rfl | ⟨1, _⟩ => rfl | ⟨2, _⟩ => rfl | ⟨3, _⟩ => rfl)

theorem idx_v93_at (b : Fin 8) (r : Fin 1024) (c : Fin 3) (s : Fin 1024) : Read.idx_main_v93 (ix3 b r c) s = ix4 b r s c :=
  funext fun a => Fin.ext (by match a with | ⟨0, _⟩ => rfl | ⟨1, _⟩ => rfl | ⟨2, _⟩ => rfl | ⟨3, _⟩ => rfl)

theorem idx_v98_at (b : Fin 8) (r : Fin 1024) (c : Fin 3) (s : Fin 1024) : Read.idx_main_v98 (ix3 b r c) s = ix4 b r s c :=
  funext fun a => Fin.ext (by match a with | ⟨0, _⟩ => rfl | ⟨1, _⟩ => rfl | ⟨2, _⟩ => rfl | ⟨3, _⟩ => rfl)

theorem idx_v6_at (b : Fin 8) (r s : Fin 1024) (c : Fin 3) : Read.idx_main_v6 (ix3 b r s) c = ix4 b r s c :=
  funext fun a => Fin.ext (by match a with | ⟨0, _⟩ => rfl | ⟨1, _⟩ => rfl | ⟨2, _⟩ => rfl | ⟨3, _⟩ => rfl)

theorem idx_v80_at (b : Fin 8) (r s : Fin 1024) (c : Fin 3) : Read.idx_main_v80 (ix3 b r s) c = ix4 b r s c :=
  funext fun a => Fin.ext (by match a with | ⟨0, _⟩ => rfl | ⟨1, _⟩ => rfl | ⟨2, _⟩ => rfl | ⟨3, _⟩ => rfl)

theorem idx_v84_at (b : Fin 8) (r s : Fin 1024) (c : Fin 3) : Read.idx_main_v84 (ix3 b r s) c = ix4 b r s c :=
  funext fun a => Fin.ext (by match a with | ⟨0, _⟩ => rfl | ⟨1, _⟩ => rfl | ⟨2, _⟩ => rfl | ⟨3, _⟩ => rfl)

theorem idx_v59_v54_at (b : Fin 8) (r s : Fin 1024) : Read.idx_main_v54 (Read.idx_main_v59 (ix3 b r s)) = ix2 b s :=
  funext fun a => Fin.ext (by match a with | ⟨0, _⟩ => rfl | ⟨1, _⟩ => rfl)

theorem idx_v62_v55_at (b : Fin 8) (r s : Fin 1024) : Read.idx_main_v55 (Read.idx_main_v62 (ix3 b r s)) = ix2 b s :=
  funext fun a => Fin.ext (by match a with | ⟨0, _⟩ => rfl | ⟨1, _⟩ => rfl)

theorem idx_v65_v54_at (b : Fin 8) (r s : Fin 1024) : Read.idx_main_v54 (Read.idx_main_v65 (ix3 b r s)) = ix2 b s :=
  funext fun a => Fin.ext (by match a with | ⟨0, _⟩ => rfl | ⟨1, _⟩ => rfl)

theorem idx_v71_v55_at (b : Fin 8) (r s : Fin 1024) : Read.idx_main_v55 (Read.idx_main_v71 (ix3 b r s)) = ix2 b s :=
  funext fun a => Fin.ext (by match a with | ⟨0, _⟩ => rfl | ⟨1, _⟩ => rfl)

theorem idx_v68_v67_at (b : Fin 8) (r s : Fin 1024) (c : Fin 3) : Read.idx_main_v67 (Read.idx_main_v68 (ix4 b r s c)) = ix3 b r s :=
  funext fun a => Fin.ext (by match a with | ⟨0, _⟩ => rfl | ⟨1, _⟩ => rfl | ⟨2, _⟩ => rfl)

theorem idx_v74_v73_at (b : Fin 8) (r s : Fin 1024) (c : Fin 3) : Read.idx_main_v73 (Read.idx_main_v74 (ix4 b r s c)) = ix3 b r s :=
  funext fun a => Fin.ext (by match a with | ⟨0, _⟩ => rfl | ⟨1, _⟩ => rfl | ⟨2, _⟩ => rfl)

theorem idx_v91_v90_at (b : Fin 8) (r s : Fin 1024) (c : Fin 3) : Read.idx_main_v90 (Read.idx_main_v91 (ix4 b r s c)) = ix3 b r s :=
  funext fun a => Fin.ext (by match a with | ⟨0, _⟩ => rfl | ⟨1, _⟩ => rfl | ⟨2, _⟩ => rfl)

theorem idx_v96_v95_at (b : Fin 8) (r s : Fin 1024) (c : Fin 3) : Read.idx_main_v95 (Read.idx_main_v96 (ix4 b r s c)) = ix3 b r s :=
  funext fun a => Fin.ext (by match a with | ⟨0, _⟩ => rfl | ⟨1, _⟩ => rfl | ⟨2, _⟩ => rfl)

theorem idx_v13_v12_at (b : Fin 8) (r s : Fin 1024) (c : Fin 3) : Read.idx_main_v12 (Read.idx_main_v13 (ix4 b r s c)) = ix3 b r s :=
  funext fun a => Fin.ext (by match a with | ⟨0, _⟩ => rfl | ⟨1, _⟩ => rfl | ⟨2, _⟩ => rfl)

theorem idx_v78_v77_at (b : Fin 8) (r s : Fin 1024) (c : Fin 3) : Read.idx_main_v77 (Read.idx_main_v78 (ix4 b r s c)) = ix3 b s c :=
  funext fun a => Fin.ext (by match a with | ⟨0, _⟩ => rfl | ⟨1, _⟩ => rfl | ⟨2, _⟩ => rfl)

theorem idx_v82_v81_at (b : Fin 8) (r s : Fin 1024) (c : Fin 3) : Read.idx_main_v81 (Read.idx_main_v82 (ix4 b r s c)) = ix3 b s c :=
  funext fun a => Fin.ext (by match a with | ⟨0, _⟩ => rfl | ⟨1, _⟩ => rfl | ⟨2, _⟩ => rfl)

theorem idx_v3_v1_at (b : Fin 8) (r s : Fin 1024) (c : Fin 3) : Read.idx_main_v1 (Read.idx_main_v3 (ix4 b r s c)) = ix3 b s c :=
  funext fun a => Fin.ext (by match a with | ⟨0, _⟩ => rfl | ⟨1, _⟩ => rfl | ⟨2, _⟩ => rfl)

theorem idx_v2_v0_at (b : Fin 8) (r s : Fin 1024) (c : Fin 3) : Read.idx_main_v0 (Read.idx_main_v2 (ix4 b r s c)) = ix3 b r c :=
  funext fun a => Fin.ext (by match a with | ⟨0, _⟩ => rfl | ⟨1, _⟩ => rfl | ⟨2, _⟩ => rfl)

theorem idx_v17_v15_at (b : Fin 8) (r s : Fin 1024) : Read.idx_main_v15 (Read.idx_main_v17 (ix3 b r s)) = ix2 b r :=
  funext fun a => Fin.ext (by match a with | ⟨0, _⟩ => rfl | ⟨1, _⟩ => rfl)

theorem idx_v18_v16_at (b : Fin 8) (r s : Fin 1024) : Read.idx_main_v16 (Read.idx_main_v18 (ix3 b r s)) = ix2 b s :=
  funext fun a => Fin.ext (by match a with | ⟨0, _⟩ => rfl | ⟨1, _⟩ => rfl)

/-! ## The geometry -/

/-- rij: the displacement from particle s to particle r. -/
theorem v4_at (x0 : T3) (b : Fin 8) (r s : Fin 1024) (c : Fin 3) :
    Read.val_main_v4 (F := Ideal) x0 (ix4 b r s c) = x0 (ix3 b r c) - x0 (ix3 b s c) := by
  rw [Read.val_main_v4_apply, Read.val_main_v2_apply, Read.val_main_v0_apply, Read.val_main_v3_apply,
    Read.val_main_v1_apply, idx_v2_v0_at, idx_v3_v1_at]
  rfl

/-- dij: the safe norm of the displacement. -/
theorem v9_at (x0 : T3) (b : Fin 8) (r s : Fin 1024) :
    Read.val_main_v9 (F := Ideal) x0 (ix3 b r s)
      = Ideal.sqrt (max (Ideal.ofBits .f32 0x00000000#32 + ∑ c : Fin 3, Read.val_main_v4 (F := Ideal) x0 (ix4 b r s c) * Read.val_main_v4 (F := Ideal) x0 (ix4 b r s c))
          (Ideal.ofBits .f32 0x24E69595#32)) := by
  rw [Read.val_main_v9_apply, Read.val_main_v8_apply, Read.val_main_v6_apply, Read.val_main_v7_apply]
  simp only [idx_v6_at]
  rfl

/-- uij: the displacement over the clamped distance. -/
theorem v14_at (x0 : T3) (b : Fin 8) (r s : Fin 1024) (c : Fin 3) :
    Read.val_main_v14 (F := Ideal) x0 (ix4 b r s c)
      = Ideal.div (Read.val_main_v4 (F := Ideal) x0 (ix4 b r s c)) (max (Read.val_main_v9 (F := Ideal) x0 (ix3 b r s)) (Ideal.ofBits .f32 0x322BCC77#32)) := by
  rw [Read.val_main_v14_apply, Read.val_main_v13_apply, Read.val_main_v12_apply, idx_v13_v12_at,
    Read.val_main_v11_apply, Read.val_main_v10_apply]
  rfl

/-! ## The pair mask and the radial weights -/

/-- The pair mask: both particles present, not the same particle, within the cutoff. -/
theorem v25_at (x0 : T3) (x1 : M2) (b : Fin 8) (r s : Fin 1024) :
    Read.val_main_v25 (F := Ideal) x0 x1 (ix3 b r s)
      = IntOp.andi (IntOp.andi (IntOp.andi (x1 (ix2 b r)) (x1 (ix2 b s)))
            (Ideal.cmp .ogt (Read.val_main_v9 (F := Ideal) x0 (ix3 b r s)) (Ideal.ofBits .f32 0x322BCC77#32)))
          (Ideal.cmp .ole (Read.val_main_v9 (F := Ideal) x0 (ix3 b r s)) (Ideal.ofBits .f32 0x40A00000#32)) := by
  rw [Read.val_main_v25_apply, Read.val_main_v22_apply, Read.val_main_v19_apply, Read.val_main_v17_apply,
    Read.val_main_v15_apply, Read.val_main_v18_apply, Read.val_main_v16_apply, idx_v17_v15_at, idx_v18_v16_at,
    Read.val_main_v21_apply, Read.val_main_v24_apply, Read.val_main_v20_apply, Read.val_main_v23_apply]
  rfl

/-- A one-bit word as an extended real: its value as a natural number. -/
theorem uitofp_bit (w : BitVec 1) : FloatOps.uitofp (F := Ideal) .f32 w = ((w.toNat : ℝ) : EReal) := rfl

/-- invr: one over the softened distance. -/
theorem v31_at (x0 : T3) (b : Fin 8) (r s : Fin 1024) :
    Read.val_main_v31 (F := Ideal) x0 (ix3 b r s)
      = Ideal.div (Ideal.ofBits .f32 0x3F800000#32)
          (Ideal.sqrt (Read.val_main_v9 (F := Ideal) x0 (ix3 b r s) * Read.val_main_v9 (F := Ideal) x0 (ix3 b r s) + Ideal.ofBits .f32 0x3CB851EC#32)) := by
  rw [Read.val_main_v31_apply, Read.val_main_v30_apply, Read.val_main_v29_apply, Read.val_main_v28_apply,
    Read.val_main_v27_apply]
  rfl

/-- The cosine cutoff times its own within-the-cutoff indicator. -/
theorem v44_at (x0 : T3) (b : Fin 8) (r s : Fin 1024) :
    Read.val_main_v44 (F := Ideal) x0 (ix3 b r s)
      = (Ideal.ofBits .f32 0x3F000000#32
          * (Ideal.cos (Ideal.ofBits .f32 0x40490FDB#32
              * Ideal.div (Read.val_main_v9 (F := Ideal) x0 (ix3 b r s)) (Ideal.ofBits .f32 0x40A00000#32))
            + Ideal.ofBits .f32 0x3F800000#32))
        * FloatOps.uitofp (F := Ideal) .f32
            (Ideal.cmp .ole (Read.val_main_v9 (F := Ideal) x0 (ix3 b r s)) (Ideal.ofBits .f32 0x40A00000#32)) := by
  rw [Read.val_main_v44_apply, Read.val_main_v40_apply, Read.val_main_v39_apply, Read.val_main_v38_apply,
    Read.val_main_v37_apply, Read.val_main_v36_apply, Read.val_main_v35_apply, Read.val_main_v34_apply,
    Read.val_main_v33_apply, Read.val_main_v32_apply, Read.val_main_v43_apply, Read.val_main_v42_apply,
    Read.val_main_v41_apply]
  rfl

/-- w_cut: the cutoff weight times the pair mask as a number. -/
theorem v46_at (x0 : T3) (x1 : M2) (b : Fin 8) (r s : Fin 1024) :
    Read.val_main_v46 (F := Ideal) x0 x1 (ix3 b r s)
      = Read.val_main_v44 (F := Ideal) x0 (ix3 b r s) * FloatOps.uitofp (F := Ideal) .f32 (Read.val_main_v25 (F := Ideal) x0 x1 (ix3 b r s)) := rfl

/-- w_g: the Gaussian weight. -/
theorem v52_at (x0 : T3) (b : Fin 8) (r s : Fin 1024) :
    Read.val_main_v52 (F := Ideal) x0 (ix3 b r s)
      = Ideal.exp (Ideal.ofBits .f32 0xBF000000#32
          * (Ideal.div (Read.val_main_v9 (F := Ideal) x0 (ix3 b r s)) (Ideal.ofBits .f32 0x3F19999A#32)
            * Ideal.div (Read.val_main_v9 (F := Ideal) x0 (ix3 b r s)) (Ideal.ofBits .f32 0x3F19999A#32))) := by
  rw [Read.val_main_v52_apply, Read.val_main_v51_apply, Read.val_main_v50_apply, Read.val_main_v49_apply,
    Read.val_main_v48_apply, Read.val_main_v47_apply]
  rfl

/-- w = w_cut * w_g. -/
theorem v53_at (x0 : T3) (x1 : M2) (b : Fin 8) (r s : Fin 1024) :
    Read.val_main_v53 (F := Ideal) x0 x1 (ix3 b r s) = Read.val_main_v46 (F := Ideal) x0 x1 (ix3 b r s) * Read.val_main_v52 (F := Ideal) x0 (ix3 b r s) := rfl

/-- wi = w * invr. -/
theorem v56_at (x0 : T3) (x1 : M2) (b : Fin 8) (r s : Fin 1024) :
    Read.val_main_v56 (F := Ideal) x0 x1 (ix3 b r s) = Read.val_main_v53 (F := Ideal) x0 x1 (ix3 b r s) * Read.val_main_v31 (F := Ideal) x0 (ix3 b r s) := rfl

/-- wi2 = wi * invr. -/
theorem v57_at (x0 : T3) (x1 : M2) (b : Fin 8) (r s : Fin 1024) :
    Read.val_main_v57 (F := Ideal) x0 x1 (ix3 b r s) = Read.val_main_v56 (F := Ideal) x0 x1 (ix3 b r s) * Read.val_main_v31 (F := Ideal) x0 (ix3 b r s) := rfl

/-- wi3 = wi2 * invr. -/
theorem v58_at (x0 : T3) (x1 : M2) (b : Fin 8) (r s : Fin 1024) :
    Read.val_main_v58 (F := Ideal) x0 x1 (ix3 b r s) = Read.val_main_v57 (F := Ideal) x0 x1 (ix3 b r s) * Read.val_main_v31 (F := Ideal) x0 (ix3 b r s) := rfl

/-! ## The dipole projections -/

/-- The first dipole field of particle s projected on the unit displacement. -/
theorem v80_at (x0 x4 : T3) (b : Fin 8) (r s : Fin 1024) :
    Read.val_main_v80 (F := Ideal) x0 x4 (ix3 b r s)
      = Ideal.ofBits .f32 0x00000000#32 + ∑ c : Fin 3, x4 (ix3 b s c) * Read.val_main_v14 (F := Ideal) x0 (ix4 b r s c) := by
  rw [Read.val_main_v80_apply]
  refine congrArg₂ (· + ·) rfl (Finset.sum_congr rfl fun c _ => ?_)
  rw [idx_v80_at, Read.val_main_v79_apply, Read.val_main_v78_apply, Read.val_main_v77_apply, idx_v78_v77_at]
  rfl

/-- The second dipole field of particle s projected on the unit displacement. -/
theorem v84_at (x0 x5 : T3) (b : Fin 8) (r s : Fin 1024) :
    Read.val_main_v84 (F := Ideal) x0 x5 (ix3 b r s)
      = Ideal.ofBits .f32 0x00000000#32 + ∑ c : Fin 3, x5 (ix3 b s c) * Read.val_main_v14 (F := Ideal) x0 (ix4 b r s c) := by
  rw [Read.val_main_v84_apply]
  refine congrArg₂ (· + ·) rfl (Finset.sum_congr rfl fun c _ => ?_)
  rw [idx_v84_at, Read.val_main_v83_apply, Read.val_main_v82_apply, Read.val_main_v81_apply, idx_v82_v81_at]
  rfl

/-! ## The four results -/

/-- The potential of the first charge field: monopole part plus dipole part. -/
theorem v99_at (x0 : T3) (x1 : M2) (x2 : T2) (x4 : T3) (b : Fin 8) (r : Fin 1024) :
    Read.val_main_v99 (F := Ideal) x0 x1 x2 x4 (ix2 b r)
      = (Ideal.ofBits .f32 0x00000000#32 + ∑ s : Fin 1024, Read.val_main_v56 (F := Ideal) x0 x1 (ix3 b r s) * x2 (ix2 b s))
        + (Ideal.ofBits .f32 0x00000000#32 + ∑ s : Fin 1024, Read.val_main_v57 (F := Ideal) x0 x1 (ix3 b r s) * Read.val_main_v80 (F := Ideal) x0 x4 (ix3 b r s)) := by
  rw [Read.val_main_v99_apply, Read.val_main_v61_apply, Read.val_main_v86_apply]
  refine congrArg₂ (· + ·) (congrArg₂ (· + ·) rfl (Finset.sum_congr rfl fun s _ => ?_))
    (congrArg₂ (· + ·) rfl (Finset.sum_congr rfl fun s _ => ?_))
  · rw [idx_v61_at, Read.val_main_v60_apply, Read.val_main_v59_apply, Read.val_main_v54_apply, idx_v59_v54_at]
    rfl
  · rw [idx_v86_at]
    rfl

/-- The potential of the second charge field: monopole part plus dipole part. -/
theorem v100_at (x0 : T3) (x1 : M2) (x3 : T2) (x5 : T3) (b : Fin 8) (r : Fin 1024) :
    Read.val_main_v100 (F := Ideal) x0 x1 x3 x5 (ix2 b r)
      = (Ideal.ofBits .f32 0x00000000#32 + ∑ s : Fin 1024, Read.val_main_v56 (F := Ideal) x0 x1 (ix3 b r s) * x3 (ix2 b s))
        + (Ideal.ofBits .f32 0x00000000#32 + ∑ s : Fin 1024, Read.val_main_v57 (F := Ideal) x0 x1 (ix3 b r s) * Read.val_main_v84 (F := Ideal) x0 x5 (ix3 b r s)) := by
  rw [Read.val_main_v100_apply, Read.val_main_v64_apply, Read.val_main_v88_apply]
  refine congrArg₂ (· + ·) (congrArg₂ (· + ·) rfl (Finset.sum_congr rfl fun s _ => ?_))
    (congrArg₂ (· + ·) rfl (Finset.sum_congr rfl fun s _ => ?_))
  · rw [idx_v64_at, Read.val_main_v63_apply, Read.val_main_v62_apply, Read.val_main_v55_apply, idx_v62_v55_at]
    rfl
  · rw [idx_v88_at]
    rfl

/-- The field of the first charge field: monopole part plus dipole part, along axis c. -/
theorem v101_at (x0 : T3) (x1 : M2) (x2 : T2) (x4 : T3) (b : Fin 8) (r : Fin 1024) (c : Fin 3) :
    Read.val_main_v101 (F := Ideal) x0 x1 x2 x4 (ix3 b r c)
      = (Ideal.ofBits .f32 0x00000000#32 + ∑ s : Fin 1024, (Read.val_main_v57 (F := Ideal) x0 x1 (ix3 b r s) * x2 (ix2 b s)) * Read.val_main_v14 (F := Ideal) x0 (ix4 b r s c))
        + (Ideal.ofBits .f32 0x00000000#32 + ∑ s : Fin 1024, (Read.val_main_v58 (F := Ideal) x0 x1 (ix3 b r s) * Read.val_main_v80 (F := Ideal) x0 x4 (ix3 b r s)) * Read.val_main_v14 (F := Ideal) x0 (ix4 b r s c)) := by
  rw [Read.val_main_v101_apply, Read.val_main_v70_apply, Read.val_main_v93_apply]
  refine congrArg₂ (· + ·) (congrArg₂ (· + ·) rfl (Finset.sum_congr rfl fun s _ => ?_))
    (congrArg₂ (· + ·) rfl (Finset.sum_congr rfl fun s _ => ?_))
  · rw [idx_v70_at, Read.val_main_v69_apply, Read.val_main_v68_apply, Read.val_main_v67_apply, idx_v68_v67_at,
      Read.val_main_v66_apply, Read.val_main_v65_apply, Read.val_main_v54_apply, idx_v65_v54_at]
    rfl
  · rw [idx_v93_at, Read.val_main_v92_apply, Read.val_main_v91_apply, Read.val_main_v90_apply, idx_v91_v90_at]
    rfl

/-- The field of the second charge field: monopole part plus dipole part, along axis c. -/
theorem v102_at (x0 : T3) (x1 : M2) (x3 : T2) (x5 : T3) (b : Fin 8) (r : Fin 1024) (c : Fin 3) :
    Read.val_main_v102 (F := Ideal) x0 x1 x3 x5 (ix3 b r c)
      = (Ideal.ofBits .f32 0x00000000#32 + ∑ s : Fin 1024, (Read.val_main_v57 (F := Ideal) x0 x1 (ix3 b r s) * x3 (ix2 b s)) * Read.val_main_v14 (F := Ideal) x0 (ix4 b r s c))
        + (Ideal.ofBits .f32 0x00000000#32 + ∑ s : Fin 1024, (Read.val_main_v58 (F := Ideal) x0 x1 (ix3 b r s) * Read.val_main_v84 (F := Ideal) x0 x5 (ix3 b r s)) * Read.val_main_v14 (F := Ideal) x0 (ix4 b r s c)) := by
  rw [Read.val_main_v102_apply, Read.val_main_v76_apply, Read.val_main_v98_apply]
  refine congrArg₂ (· + ·) (congrArg₂ (· + ·) rfl (Finset.sum_congr rfl fun s _ => ?_))
    (congrArg₂ (· + ·) rfl (Finset.sum_congr rfl fun s _ => ?_))
  · rw [idx_v76_at, Read.val_main_v75_apply, Read.val_main_v74_apply, Read.val_main_v73_apply, idx_v74_v73_at,
      Read.val_main_v72_apply, Read.val_main_v71_apply, Read.val_main_v55_apply, idx_v71_v55_at]
    rfl
  · rw [idx_v98_at, Read.val_main_v97_apply, Read.val_main_v96_apply, Read.val_main_v95_apply, idx_v96_v95_at]
    rfl

end Cert.ReferenceIdeal.At

end
-- ==== Proof.PairBridgeIdeal.lean ====
/-
  One pair, both ways.  For argument arrays and a batch b, a target r and a source s, every quantity the kernel
  forms for the pair equals the reference's table entry at (b, r, s): the distance (three squared differences,
  summed in either grouping), the unit vector (the difference times the reciprocal of the floored distance, or the
  difference divided by it), the pair mask (a product of four numbers 0 or 1, or the conjunction of four
  conditions read as 0 or 1), the taper, the gaussian, the weights, and the two dipole products.
-/
import proofs.«146129_j80805514707451_2_alg».proof.Proof.TileAtIdeal
import proofs.«146129_j80805514707451_2_alg».proof.Proof.RefAtIdeal
import proofs.«146129_j80805514707451_2_alg».proof.Proof.PairAlgIdeal

set_option maxRecDepth 65536

noncomputable section

namespace Cert.Bridge

open Cert.ReferenceIdeal Cert.ReferenceIdeal.At Cert.KernelIdeal
open Idealize.ShloMosaic Idealize.ShloMosaic.ValueIdx
open scoped BigOperators

variable (x0 : At.T3) (x1 : At.M2) (x2 x3 : At.T2) (x4 x5 : At.T3) (b : Fin 8) (r s : Fin 1024)

theorem dist_eq :
    Tile.dij (x0 (ix3 b r 0)) (x0 (ix3 b r 1)) (x0 (ix3 b r 2)) (x0 (ix3 b s 0)) (x0 (ix3 b s 1)) (x0 (ix3 b s 2)) = Read.val_main_v9 (F := Ideal) x0 (ix3 b r s) := by
  rw [At.v9_at]
  unfold Tile.dij Tile.d2
  rw [← PairAlg.sum3 (fun cc => Read.val_main_v4 (F := Ideal) x0 (ix4 b r s cc) * Read.val_main_v4 (F := Ideal) x0 (ix4 b r s cc))]
  simp only [At.v4_at]

theorem u_eq (cc : Fin 3) :
    Tile.ucomp (x0 (ix3 b r cc)) (x0 (ix3 b s cc)) (Read.val_main_v9 (F := Ideal) x0 (ix3 b r s)) = Read.val_main_v14 (F := Ideal) x0 (ix4 b r s cc) := by
  rw [At.v14_at, At.v4_at]
  unfold Tile.ucomp Tile.invd
  exact PairAlg.mul_recip _ _ (PairAlg.max_eps8_ne_zero _)

theorem mask_eq :
    Tile.pairMask (FloatOps.uitofp (F := Ideal) .f32 (x1 (ix2 b r))) (FloatOps.uitofp (F := Ideal) .f32 (x1 (ix2 b s))) (Read.val_main_v9 (F := Ideal) x0 (ix3 b r s)) = FloatOps.uitofp (F := Ideal) .f32 (Read.val_main_v25 (F := Ideal) x0 x1 (ix3 b r s)) := by
  rw [At.v25_at]
  unfold Tile.pairMask Tile.notSelf Tile.inCut
  exact PairAlg.mask_law _ _ _ _

/-- A bit widened with zeros and read signed is the bit read unsigned. -/
theorem inCut_eq (d : EReal) :
    Tile.inCut d = FloatOps.uitofp (F := Ideal) .f32 (Ideal.cmp .ole d (Ideal.ofBits .f32 0x40A00000#32)) := by
  unfold Tile.inCut
  generalize Ideal.cmp .ole d (Ideal.ofBits .f32 0x40A00000#32) = w
  show ((((w.setWidth 32).toInt : ℝ)) : EReal) = ((w.toNat : ℝ) : EReal)
  rcases BitVec.eq_zero_or_eq_one w with h | h <;> subst h <;> simp

theorem cos_eq : Tile.cosTerm (Read.val_main_v9 (F := Ideal) x0 (ix3 b r s)) = Read.val_main_v44 (F := Ideal) x0 (ix3 b r s) := by
  rw [At.v44_at]
  unfold Tile.cosTerm
  rw [inCut_eq]

theorem wg_eq : Tile.wG (Read.val_main_v9 (F := Ideal) x0 (ix3 b r s)) = Read.val_main_v52 (F := Ideal) x0 (ix3 b r s) := by
  rw [At.v52_at]; rfl

theorem invr_eq : Tile.invr (Read.val_main_v9 (F := Ideal) x0 (ix3 b r s)) = Read.val_main_v31 (F := Ideal) x0 (ix3 b r s) := by
  rw [At.v31_at]; rfl

theorem w_eq : Tile.wPair (FloatOps.uitofp (F := Ideal) .f32 (x1 (ix2 b r))) (FloatOps.uitofp (F := Ideal) .f32 (x1 (ix2 b s))) (Read.val_main_v9 (F := Ideal) x0 (ix3 b r s)) = Read.val_main_v53 (F := Ideal) x0 x1 (ix3 b r s) := by
  rw [At.v53_at, At.v46_at]
  unfold Tile.wPair
  rw [cos_eq, mask_eq, wg_eq]

theorem wi_eq : Tile.wi (FloatOps.uitofp (F := Ideal) .f32 (x1 (ix2 b r))) (FloatOps.uitofp (F := Ideal) .f32 (x1 (ix2 b s))) (Read.val_main_v9 (F := Ideal) x0 (ix3 b r s)) = Read.val_main_v56 (F := Ideal) x0 x1 (ix3 b r s) := by
  rw [At.v56_at]; unfold Tile.wi; rw [w_eq, invr_eq]

theorem wi2_eq : Tile.wi2 (FloatOps.uitofp (F := Ideal) .f32 (x1 (ix2 b r))) (FloatOps.uitofp (F := Ideal) .f32 (x1 (ix2 b s))) (Read.val_main_v9 (F := Ideal) x0 (ix3 b r s)) = Read.val_main_v57 (F := Ideal) x0 x1 (ix3 b r s) := by
  rw [At.v57_at]; unfold Tile.wi2; rw [wi_eq, invr_eq]

theorem wi3_eq : Tile.wi3 (FloatOps.uitofp (F := Ideal) .f32 (x1 (ix2 b r))) (FloatOps.uitofp (F := Ideal) .f32 (x1 (ix2 b s))) (Read.val_main_v9 (F := Ideal) x0 (ix3 b r s)) = Read.val_main_v58 (F := Ideal) x0 x1 (ix3 b r s) := by
  rw [At.v58_at]; unfold Tile.wi3; rw [wi2_eq, invr_eq]

theorem dotq_eq :
    Tile.dotU (x4 (ix3 b s 0)) (x4 (ix3 b s 1)) (x4 (ix3 b s 2)) (Read.val_main_v14 (F := Ideal) x0 (ix4 b r s (0 : Fin 3))) (Read.val_main_v14 (F := Ideal) x0 (ix4 b r s (1 : Fin 3))) (Read.val_main_v14 (F := Ideal) x0 (ix4 b r s (2 : Fin 3))) = Read.val_main_v80 (F := Ideal) x0 x4 (ix3 b r s) := by
  rw [At.v80_at, ← PairAlg.sum3 (fun cc => x4 (ix3 b s cc) * Read.val_main_v14 (F := Ideal) x0 (ix4 b r s cc))]
  rfl

theorem dotm_eq :
    Tile.dotU (x5 (ix3 b s 0)) (x5 (ix3 b s 1)) (x5 (ix3 b s 2)) (Read.val_main_v14 (F := Ideal) x0 (ix4 b r s (0 : Fin 3))) (Read.val_main_v14 (F := Ideal) x0 (ix4 b r s (1 : Fin 3))) (Read.val_main_v14 (F := Ideal) x0 (ix4 b r s (2 : Fin 3))) = Read.val_main_v84 (F := Ideal) x0 x5 (ix3 b r s) := by
  rw [At.v84_at, ← PairAlg.sum3 (fun cc => x5 (ix3 b s cc) * Read.val_main_v14 (F := Ideal) x0 (ix4 b r s cc))]
  rfl

end Cert.Bridge

end
-- ==== Proof.ValueIdeal.lean ====
/-
  The kernel's results are the reference's.  For a batch b and a target r = 128 i + p, each accumulator after the
  eighth column of grid row i is the sum over the eight source tiles of the tile's monopole sum plus its dipole
  sum; each summand is the reference's pair-table entry for (b, r, s); regrouping the eight tiles of 128 into the
  1024 sources gives the reference's result at (b, r).
-/
import proofs.«146129_j80805514707451_2_alg».proof.Proof.EntryIdeal
import proofs.«146129_j80805514707451_2_alg».proof.Proof.PairBridgeIdeal

set_option maxRecDepth 65536
set_option maxHeartbeats 4000000

noncomputable section

namespace Cert.KernelIdeal.Hand

open Cert.KernelIdeal Cert.KernelIdeal.Gen Cert.ReferenceIdeal
open Idealize.ShloMosaic Idealize.ShloMosaic.TcCoe Idealize.ShloMosaic.ValueIdx
open Idealize.SL Idealize.SL.Sem
open scoped BigOperators

variable (m : (ℓ : Loc nD τ sig) → Buf (Elt Ideal) ℓ)

theorem ent_0 (c : Dev nD) (i8 : Fin 8) (j : ℕ) (hj : j < 8) (b : Fin 8) (hb : b.val < k0_t1_loop.trips) (p : Fin 128) (cc : Fin 3) :
    Tile.ent3 (ms_0 (ptOf i8 j hj)) ((hs_0 (ptOf i8 j hj)).unread (iblk m c 0 (ptOf i8 j hj))) ⟨b.val, hb⟩ p cc = m ((c.tc : Thread nD τ).loc main_arg0) (ix3 b (⟨128 * i8.val + p.val, by have := i8.isLt; have := p.isLt; omega⟩ : Fin 1024) cc) := by
  unfold Tile.ent3
  rw [(hs_0 (ptOf i8 j hj)).read_unread]
  exact iblk_0_at m c i8 j hj b p cc

theorem ent_1 (c : Dev nD) (i8 : Fin 8) (j : ℕ) (hj : j < 8) (b : Fin 8) (hb : b.val < k0_t1_loop.trips) (p : Fin 128) :
    Tile.ent2 (ms_1 (ptOf i8 j hj)) ((hs_1 (ptOf i8 j hj)).unread (iblk m c 1 (ptOf i8 j hj))) ⟨b.val, hb⟩ p = FloatOps.uitofp (F := Ideal) .f32 (m ((c.tc : Thread nD τ).loc main_arg1) (ix2 b (⟨128 * i8.val + p.val, by have := i8.isLt; have := p.isLt; omega⟩ : Fin 1024))) := by
  unfold Tile.ent2
  rw [(hs_1 (ptOf i8 j hj)).read_unread]
  exact iblk_1_at m c i8 j hj b p

theorem ent_2 (c : Dev nD) (i8 : Fin 8) (j : ℕ) (hj : j < 8) (b : Fin 8) (hb : b.val < k0_t1_loop.trips) (q : Fin 128) (cc : Fin 3) :
    Tile.ent3 (ms_2 (ptOf i8 j hj)) ((hs_2 (ptOf i8 j hj)).unread (iblk m c 2 (ptOf i8 j hj))) ⟨b.val, hb⟩ q cc = m ((c.tc : Thread nD τ).loc main_arg0) (ix3 b (⟨128 * j + q.val, PairAlg.tile_pos_lt hj q⟩ : Fin 1024) cc) := by
  unfold Tile.ent3
  rw [(hs_2 (ptOf i8 j hj)).read_unread]
  exact iblk_2_at m c i8 j hj b q cc

theorem ent_3 (c : Dev nD) (i8 : Fin 8) (j : ℕ) (hj : j < 8) (b : Fin 8) (hb : b.val < k0_t1_loop.trips) (q : Fin 128) :
    Tile.ent2 (ms_3 (ptOf i8 j hj)) ((hs_3 (ptOf i8 j hj)).unread (iblk m c 3 (ptOf i8 j hj))) ⟨b.val, hb⟩ q = FloatOps.uitofp (F := Ideal) .f32 (m ((c.tc : Thread nD τ).loc main_arg1) (ix2 b (⟨128 * j + q.val, PairAlg.tile_pos_lt hj q⟩ : Fin 1024))) := by
  unfold Tile.ent2
  rw [(hs_3 (ptOf i8 j hj)).read_unread]
  exact iblk_3_at m c i8 j hj b q

theorem ent_4 (c : Dev nD) (i8 : Fin 8) (j : ℕ) (hj : j < 8) (b : Fin 8) (hb : b.val < k0_t1_loop.trips) (q : Fin 128) :
    Tile.ent2 (ms_4 (ptOf i8 j hj)) ((hs_4 (ptOf i8 j hj)).unread (iblk m c 4 (ptOf i8 j hj))) ⟨b.val, hb⟩ q = m ((c.tc : Thread nD τ).loc main_arg2) (ix2 b (⟨128 * j + q.val, PairAlg.tile_pos_lt hj q⟩ : Fin 1024)) := by
  unfold Tile.ent2
  rw [(hs_4 (ptOf i8 j hj)).read_unread]
  exact iblk_4_at m c i8 j hj b q

theorem ent_5 (c : Dev nD) (i8 : Fin 8) (j : ℕ) (hj : j < 8) (b : Fin 8) (hb : b.val < k0_t1_loop.trips) (q : Fin 128) :
    Tile.ent2 (ms_5 (ptOf i8 j hj)) ((hs_5 (ptOf i8 j hj)).unread (iblk m c 5 (ptOf i8 j hj))) ⟨b.val, hb⟩ q = m ((c.tc : Thread nD τ).loc main_arg3) (ix2 b (⟨128 * j + q.val, PairAlg.tile_pos_lt hj q⟩ : Fin 1024)) := by
  unfold Tile.ent2
  rw [(hs_5 (ptOf i8 j hj)).read_unread]
  exact iblk_5_at m c i8 j hj b q

theorem ent_6 (c : Dev nD) (i8 : Fin 8) (j : ℕ) (hj : j < 8) (b : Fin 8) (hb : b.val < k0_t1_loop.trips) (q : Fin 128) (cc : Fin 3) :
    Tile.ent3 (ms_6 (ptOf i8 j hj)) ((hs_6 (ptOf i8 j hj)).unread (iblk m c 6 (ptOf i8 j hj))) ⟨b.val, hb⟩ q cc = m ((c.tc : Thread nD τ).loc main_arg4) (ix3 b (⟨128 * j + q.val, PairAlg.tile_pos_lt hj q⟩ : Fin 1024) cc) := by
  unfold Tile.ent3
  rw [(hs_6 (ptOf i8 j hj)).read_unread]
  exact iblk_6_at m c i8 j hj b q cc

theorem ent_7 (c : Dev nD) (i8 : Fin 8) (j : ℕ) (hj : j < 8) (b : Fin 8) (hb : b.val < k0_t1_loop.trips) (q : Fin 128) (cc : Fin 3) :
    Tile.ent3 (ms_7 (ptOf i8 j hj)) ((hs_7 (ptOf i8 j hj)).unread (iblk m c 7 (ptOf i8 j hj))) ⟨b.val, hb⟩ q cc = m ((c.tc : Thread nD τ).loc main_arg5) (ix3 b (⟨128 * j + q.val, PairAlg.tile_pos_lt hj q⟩ : Fin 1024) cc) := by
  unfold Tile.ent3
  rw [(hs_7 (ptOf i8 j hj)).read_unread]
  exact iblk_7_at m c i8 j hj b q cc

/-- The reference's monopole and dipole pair terms of accumulator 1, for batch b and target row 128 i + p. -/
def aTerm_14 (c : Dev nD) (i8 b : Fin 8) (p : Fin 128) : Fin 1024 → EReal := fun s => Read.val_main_v56 (F := Ideal) (m ((c.tc : Thread nD τ).loc main_arg0)) (m ((c.tc : Thread nD τ).loc main_arg1)) (ix3 b (⟨128 * i8.val + p.val, by have := i8.isLt; have := p.isLt; omega⟩ : Fin 1024) s) * (m ((c.tc : Thread nD τ).loc main_arg2)) (ix2 b s)
def dTerm_14 (c : Dev nD) (i8 b : Fin 8) (p : Fin 128) : Fin 1024 → EReal := fun s => Read.val_main_v57 (F := Ideal) (m ((c.tc : Thread nD τ).loc main_arg0)) (m ((c.tc : Thread nD τ).loc main_arg1)) (ix3 b (⟨128 * i8.val + p.val, by have := i8.isLt; have := p.isLt; omega⟩ : Fin 1024) s) * Read.val_main_v80 (F := Ideal) (m ((c.tc : Thread nD τ).loc main_arg0)) (m ((c.tc : Thread nD τ).loc main_arg4)) (ix3 b (⟨128 * i8.val + p.val, by have := i8.isLt; have := p.isLt; omega⟩ : Fin 1024) s)

theorem tile_14 (c : Dev nD) (i8 b : Fin 8) (p : Fin 128) (j : ℕ) (hj : j < 8) :
    Tt_14 m c (ptOf i8 j hj) b (ix1 p) = PairAlg.tileTerm (aTerm_14 m c i8 b p) (dTerm_14 m c i8 b p) j hj := by
  show FloatOps.addf (_ : Ideal .f32) _ = _
  rw [Tile.vqMono_apply, Tile.vqDip_apply]
  unfold PairAlg.tileTerm aTerm_14 dTerm_14
  refine congrArg₂ (fun x y : EReal => x + y) (congrArg (fun x : EReal => Ideal.ofBits .f32 0x00000000#32 + x) (Finset.sum_congr rfl fun q _ => ?_))
    (congrArg (fun x : EReal => Ideal.ofBits .f32 0x00000000#32 + x) (Finset.sum_congr rfl fun q _ => ?_))
  all_goals
    simp only [Tile.pwi, Tile.pwi2, Tile.pwi3, Tile.pdot, Tile.pux, Tile.puy, Tile.puz, Tile.pdist, ent_0 m c i8 j hj b, ent_1 m c i8 j hj b, ent_2 m c i8 j hj b, ent_3 m c i8 j hj b, ent_4 m c i8 j hj b, ent_5 m c i8 j hj b, ent_6 m c i8 j hj b, ent_7 m c i8 j hj b]
    rw [Bridge.dist_eq]
    simp only [Bridge.u_eq, Bridge.wi_eq, Bridge.wi2_eq, Bridge.wi3_eq, Bridge.dotq_eq]

theorem acc_14 (c : Dev nD) (i8 b : Fin 8) (p : Fin 128) :
    accRow_14 m c i8 b p 8 = (Ideal.ofBits .f32 0x00000000#32 + ∑ s : Fin 1024, aTerm_14 m c i8 b p s)
      + (Ideal.ofBits .f32 0x00000000#32 + ∑ s : Fin 1024, dTerm_14 m c i8 b p s) :=
  PairAlg.regroup_of_steps (aTerm_14 m c i8 b p) (dTerm_14 m c i8 b p) (accRow_14 m c i8 b p) rfl
    (fun j hj => (accRow_14_step m c i8 b p j hj).trans (congrArg (fun z : EReal => accRow_14 m c i8 b p j + z) (tile_14 m c i8 b p j hj)))

/-- The reference's monopole and dipole pair terms of accumulator 2, for batch b and target row 128 i + p. -/
def aTerm_15 (c : Dev nD) (i8 b : Fin 8) (p : Fin 128) : Fin 1024 → EReal := fun s => Read.val_main_v56 (F := Ideal) (m ((c.tc : Thread nD τ).loc main_arg0)) (m ((c.tc : Thread nD τ).loc main_arg1)) (ix3 b (⟨128 * i8.val + p.val, by have := i8.isLt; have := p.isLt; omega⟩ : Fin 1024) s) * (m ((c.tc : Thread nD τ).loc main_arg3)) (ix2 b s)
def dTerm_15 (c : Dev nD) (i8 b : Fin 8) (p : Fin 128) : Fin 1024 → EReal := fun s => Read.val_main_v57 (F := Ideal) (m ((c.tc : Thread nD τ).loc main_arg0)) (m ((c.tc : Thread nD τ).loc main_arg1)) (ix3 b (⟨128 * i8.val + p.val, by have := i8.isLt; have := p.isLt; omega⟩ : Fin 1024) s) * Read.val_main_v84 (F := Ideal) (m ((c.tc : Thread nD τ).loc main_arg0)) (m ((c.tc : Thread nD τ).loc main_arg5)) (ix3 b (⟨128 * i8.val + p.val, by have := i8.isLt; have := p.isLt; omega⟩ : Fin 1024) s)

theorem tile_15 (c : Dev nD) (i8 b : Fin 8) (p : Fin 128) (j : ℕ) (hj : j < 8) :
    Tt_15 m c (ptOf i8 j hj) b (ix1 p) = PairAlg.tileTerm (aTerm_15 m c i8 b p) (dTerm_15 m c i8 b p) j hj := by
  show FloatOps.addf (_ : Ideal .f32) _ = _
  rw [Tile.vmMono_apply, Tile.vmDip_apply]
  unfold PairAlg.tileTerm aTerm_15 dTerm_15
  refine congrArg₂ (fun x y : EReal => x + y) (congrArg (fun x : EReal => Ideal.ofBits .f32 0x00000000#32 + x) (Finset.sum_congr rfl fun q _ => ?_))
    (congrArg (fun x : EReal => Ideal.ofBits .f32 0x00000000#32 + x) (Finset.sum_congr rfl fun q _ => ?_))
  all_goals
    simp only [Tile.pwi, Tile.pwi2, Tile.pwi3, Tile.pdot, Tile.pux, Tile.puy, Tile.puz, Tile.pdist, ent_0 m c i8 j hj b, ent_1 m c i8 j hj b, ent_2 m c i8 j hj b, ent_3 m c i8 j hj b, ent_4 m c i8 j hj b, ent_5 m c i8 j hj b, ent_6 m c i8 j hj b, ent_7 m c i8 j hj b]
    rw [Bridge.dist_eq]
    simp only [Bridge.u_eq, Bridge.wi_eq, Bridge.wi2_eq, Bridge.wi3_eq, Bridge.dotm_eq]

theorem acc_15 (c : Dev nD) (i8 b : Fin 8) (p : Fin 128) :
    accRow_15 m c i8 b p 8 = (Ideal.ofBits .f32 0x00000000#32 + ∑ s : Fin 1024, aTerm_15 m c i8 b p s)
      + (Ideal.ofBits .f32 0x00000000#32 + ∑ s : Fin 1024, dTerm_15 m c i8 b p s) :=
  PairAlg.regroup_of_steps (aTerm_15 m c i8 b p) (dTerm_15 m c i8 b p) (accRow_15 m c i8 b p) rfl
    (fun j hj => (accRow_15_step m c i8 b p j hj).trans (congrArg (fun z : EReal => accRow_15 m c i8 b p j + z) (tile_15 m c i8 b p j hj)))

/-- The reference's monopole and dipole pair terms of accumulator 3, for batch b and target row 128 i + p. -/
def aTerm_16 (c : Dev nD) (i8 b : Fin 8) (p : Fin 128) : Fin 1024 → EReal := fun s => (Read.val_main_v57 (F := Ideal) (m ((c.tc : Thread nD τ).loc main_arg0)) (m ((c.tc : Thread nD τ).loc main_arg1)) (ix3 b (⟨128 * i8.val + p.val, by have := i8.isLt; have := p.isLt; omega⟩ : Fin 1024) s) * (m ((c.tc : Thread nD τ).loc main_arg2)) (ix2 b s)) * Read.val_main_v14 (F := Ideal) (m ((c.tc : Thread nD τ).loc main_arg0)) (ix4 b (⟨128 * i8.val + p.val, by have := i8.isLt; have := p.isLt; omega⟩ : Fin 1024) s (0 : Fin 3))
def dTerm_16 (c : Dev nD) (i8 b : Fin 8) (p : Fin 128) : Fin 1024 → EReal := fun s => (Read.val_main_v58 (F := Ideal) (m ((c.tc : Thread nD τ).loc main_arg0)) (m ((c.tc : Thread nD τ).loc main_arg1)) (ix3 b (⟨128 * i8.val + p.val, by have := i8.isLt; have := p.isLt; omega⟩ : Fin 1024) s) * Read.val_main_v80 (F := Ideal) (m ((c.tc : Thread nD τ).loc main_arg0)) (m ((c.tc : Thread nD τ).loc main_arg4)) (ix3 b (⟨128 * i8.val + p.val, by have := i8.isLt; have := p.isLt; omega⟩ : Fin 1024) s)) * Read.val_main_v14 (F := Ideal) (m ((c.tc : Thread nD τ).loc main_arg0)) (ix4 b (⟨128 * i8.val + p.val, by have := i8.isLt; have := p.isLt; omega⟩ : Fin 1024) s (0 : Fin 3))

theorem tile_16 (c : Dev nD) (i8 b : Fin 8) (p : Fin 128) (j : ℕ) (hj : j < 8) :
    Tt_16 m c (ptOf i8 j hj) b (ix1 p) = PairAlg.tileTerm (aTerm_16 m c i8 b p) (dTerm_16 m c i8 b p) j hj := by
  show FloatOps.addf (_ : Ideal .f32) _ = _
  rw [Tile.eqxMono_apply, Tile.eqxDip_apply]
  unfold PairAlg.tileTerm aTerm_16 dTerm_16
  refine congrArg₂ (fun x y : EReal => x + y) (congrArg (fun x : EReal => Ideal.ofBits .f32 0x00000000#32 + x) (Finset.sum_congr rfl fun q _ => ?_))
    (congrArg (fun x : EReal => Ideal.ofBits .f32 0x00000000#32 + x) (Finset.sum_congr rfl fun q _ => ?_))
  all_goals
    simp only [Tile.pwi, Tile.pwi2, Tile.pwi3, Tile.pdot, Tile.pux, Tile.puy, Tile.puz, Tile.pdist, ent_0 m c i8 j hj b, ent_1 m c i8 j hj b, ent_2 m c i8 j hj b, ent_3 m c i8 j hj b, ent_4 m c i8 j hj b, ent_5 m c i8 j hj b, ent_6 m c i8 j hj b, ent_7 m c i8 j hj b]
    rw [Bridge.dist_eq]
    simp only [Bridge.u_eq, Bridge.wi_eq, Bridge.wi2_eq, Bridge.wi3_eq, Bridge.dotq_eq]

theorem acc_16 (c : Dev nD) (i8 b : Fin 8) (p : Fin 128) :
    accRow_16 m c i8 b p 8 = (Ideal.ofBits .f32 0x00000000#32 + ∑ s : Fin 1024, aTerm_16 m c i8 b p s)
      + (Ideal.ofBits .f32 0x00000000#32 + ∑ s : Fin 1024, dTerm_16 m c i8 b p s) :=
  PairAlg.regroup_of_steps (aTerm_16 m c i8 b p) (dTerm_16 m c i8 b p) (accRow_16 m c i8 b p) rfl
    (fun j hj => (accRow_16_step m c i8 b p j hj).trans (congrArg (fun z : EReal => accRow_16 m c i8 b p j + z) (tile_16 m c i8 b p j hj)))

/-- The reference's monopole and dipole pair terms of accumulator 4, for batch b and target row 128 i + p. -/
def aTerm_17 (c : Dev nD) (i8 b : Fin 8) (p : Fin 128) : Fin 1024 → EReal := fun s => (Read.val_main_v57 (F := Ideal) (m ((c.tc : Thread nD τ).loc main_arg0)) (m ((c.tc : Thread nD τ).loc main_arg1)) (ix3 b (⟨128 * i8.val + p.val, by have := i8.isLt; have := p.isLt; omega⟩ : Fin 1024) s) * (m ((c.tc : Thread nD τ).loc main_arg2)) (ix2 b s)) * Read.val_main_v14 (F := Ideal) (m ((c.tc : Thread nD τ).loc main_arg0)) (ix4 b (⟨128 * i8.val + p.val, by have := i8.isLt; have := p.isLt; omega⟩ : Fin 1024) s (1 : Fin 3))
def dTerm_17 (c : Dev nD) (i8 b : Fin 8) (p : Fin 128) : Fin 1024 → EReal := fun s => (Read.val_main_v58 (F := Ideal) (m ((c.tc : Thread nD τ).loc main_arg0)) (m ((c.tc : Thread nD τ).loc main_arg1)) (ix3 b (⟨128 * i8.val + p.val, by have := i8.isLt; have := p.isLt; omega⟩ : Fin 1024) s) * Read.val_main_v80 (F := Ideal) (m ((c.tc : Thread nD τ).loc main_arg0)) (m ((c.tc : Thread nD τ).loc main_arg4)) (ix3 b (⟨128 * i8.val + p.val, by have := i8.isLt; have := p.isLt; omega⟩ : Fin 1024) s)) * Read.val_main_v14 (F := Ideal) (m ((c.tc : Thread nD τ).loc main_arg0)) (ix4 b (⟨128 * i8.val + p.val, by have := i8.isLt; have := p.isLt; omega⟩ : Fin 1024) s (1 : Fin 3))

theorem tile_17 (c : Dev nD) (i8 b : Fin 8) (p : Fin 128) (j : ℕ) (hj : j < 8) :
    Tt_17 m c (ptOf i8 j hj) b (ix1 p) = PairAlg.tileTerm (aTerm_17 m c i8 b p) (dTerm_17 m c i8 b p) j hj := by
  show FloatOps.addf (_ : Ideal .f32) _ = _
  rw [Tile.eqyMono_apply, Tile.eqyDip_apply]
  unfold PairAlg.tileTerm aTerm_17 dTerm_17
  refine congrArg₂ (fun x y : EReal => x + y) (congrArg (fun x : EReal => Ideal.ofBits .f32 0x00000000#32 + x) (Finset.sum_congr rfl fun q _ => ?_))
    (congrArg (fun x : EReal => Ideal.ofBits .f32 0x00000000#32 + x) (Finset.sum_congr rfl fun q _ => ?_))
  all_goals
    simp only [Tile.pwi, Tile.pwi2, Tile.pwi3, Tile.pdot, Tile.pux, Tile.puy, Tile.puz, Tile.pdist, ent_0 m c i8 j hj b, ent_1 m c i8 j hj b, ent_2 m c i8 j hj b, ent_3 m c i8 j hj b, ent_4 m c i8 j hj b, ent_5 m c i8 j hj b, ent_6 m c i8 j hj b, ent_7 m c i8 j hj b]
    rw [Bridge.dist_eq]
    simp only [Bridge.u_eq, Bridge.wi_eq, Bridge.wi2_eq, Bridge.wi3_eq, Bridge.dotq_eq]

theorem acc_17 (c : Dev nD) (i8 b : Fin 8) (p : Fin 128) :
    accRow_17 m c i8 b p 8 = (Ideal.ofBits .f32 0x00000000#32 + ∑ s : Fin 1024, aTerm_17 m c i8 b p s)
      + (Ideal.ofBits .f32 0x00000000#32 + ∑ s : Fin 1024, dTerm_17 m c i8 b p s) :=
  PairAlg.regroup_of_steps (aTerm_17 m c i8 b p) (dTerm_17 m c i8 b p) (accRow_17 m c i8 b p) rfl
    (fun j hj => (accRow_17_step m c i8 b p j hj).trans (congrArg (fun z : EReal => accRow_17 m c i8 b p j + z) (tile_17 m c i8 b p j hj)))

/-- The reference's monopole and dipole pair terms of accumulator 5, for batch b and target row 128 i + p. -/
def aTerm_18 (c : Dev nD) (i8 b : Fin 8) (p : Fin 128) : Fin 1024 → EReal := fun s => (Read.val_main_v57 (F := Ideal) (m ((c.tc : Thread nD τ).loc main_arg0)) (m ((c.tc : Thread nD τ).loc main_arg1)) (ix3 b (⟨128 * i8.val + p.val, by have := i8.isLt; have := p.isLt; omega⟩ : Fin 1024) s) * (m ((c.tc : Thread nD τ).loc main_arg2)) (ix2 b s)) * Read.val_main_v14 (F := Ideal) (m ((c.tc : Thread nD τ).loc main_arg0)) (ix4 b (⟨128 * i8.val + p.val, by have := i8.isLt; have := p.isLt; omega⟩ : Fin 1024) s (2 : Fin 3))
def dTerm_18 (c : Dev nD) (i8 b : Fin 8) (p : Fin 128) : Fin 1024 → EReal := fun s => (Read.val_main_v58 (F := Ideal) (m ((c.tc : Thread nD τ).loc main_arg0)) (m ((c.tc : Thread nD τ).loc main_arg1)) (ix3 b (⟨128 * i8.val + p.val, by have := i8.isLt; have := p.isLt; omega⟩ : Fin 1024) s) * Read.val_main_v80 (F := Ideal) (m ((c.tc : Thread nD τ).loc main_arg0)) (m ((c.tc : Thread nD τ).loc main_arg4)) (ix3 b (⟨128 * i8.val + p.val, by have := i8.isLt; have := p.isLt; omega⟩ : Fin 1024) s)) * Read.val_main_v14 (F := Ideal) (m ((c.tc : Thread nD τ).loc main_arg0)) (ix4 b (⟨128 * i8.val + p.val, by have := i8.isLt; have := p.isLt; omega⟩ : Fin 1024) s (2 : Fin 3))

theorem tile_18 (c : Dev nD) (i8 b : Fin 8) (p : Fin 128) (j : ℕ) (hj : j < 8) :
    Tt_18 m c (ptOf i8 j hj) b (ix1 p) = PairAlg.tileTerm (aTerm_18 m c i8 b p) (dTerm_18 m c i8 b p) j hj := by
  show FloatOps.addf (_ : Ideal .f32) _ = _
  rw [Tile.eqzMono_apply, Tile.eqzDip_apply]
  unfold PairAlg.tileTerm aTerm_18 dTerm_18
  refine congrArg₂ (fun x y : EReal => x + y) (congrArg (fun x : EReal => Ideal.ofBits .f32 0x00000000#32 + x) (Finset.sum_congr rfl fun q _ => ?_))
    (congrArg (fun x : EReal => Ideal.ofBits .f32 0x00000000#32 + x) (Finset.sum_congr rfl fun q _ => ?_))
  all_goals
    simp only [Tile.pwi, Tile.pwi2, Tile.pwi3, Tile.pdot, Tile.pux, Tile.puy, Tile.puz, Tile.pdist, ent_0 m c i8 j hj b, ent_1 m c i8 j hj b, ent_2 m c i8 j hj b, ent_3 m c i8 j hj b, ent_4 m c i8 j hj b, ent_5 m c i8 j hj b, ent_6 m c i8 j hj b, ent_7 m c i8 j hj b]
    rw [Bridge.dist_eq]
    simp only [Bridge.u_eq, Bridge.wi_eq, Bridge.wi2_eq, Bridge.wi3_eq, Bridge.dotq_eq]

theorem acc_18 (c : Dev nD) (i8 b : Fin 8) (p : Fin 128) :
    accRow_18 m c i8 b p 8 = (Ideal.ofBits .f32 0x00000000#32 + ∑ s : Fin 1024, aTerm_18 m c i8 b p s)
      + (Ideal.ofBits .f32 0x00000000#32 + ∑ s : Fin 1024, dTerm_18 m c i8 b p s) :=
  PairAlg.regroup_of_steps (aTerm_18 m c i8 b p) (dTerm_18 m c i8 b p) (accRow_18 m c i8 b p) rfl
    (fun j hj => (accRow_18_step m c i8 b p j hj).trans (congrArg (fun z : EReal => accRow_18 m c i8 b p j + z) (tile_18 m c i8 b p j hj)))

/-- The reference's monopole and dipole pair terms of accumulator 6, for batch b and target row 128 i + p. -/
def aTerm_19 (c : Dev nD) (i8 b : Fin 8) (p : Fin 128) : Fin 1024 → EReal := fun s => (Read.val_main_v57 (F := Ideal) (m ((c.tc : Thread nD τ).loc main_arg0)) (m ((c.tc : Thread nD τ).loc main_arg1)) (ix3 b (⟨128 * i8.val + p.val, by have := i8.isLt; have := p.isLt; omega⟩ : Fin 1024) s) * (m ((c.tc : Thread nD τ).loc main_arg3)) (ix2 b s)) * Read.val_main_v14 (F := Ideal) (m ((c.tc : Thread nD τ).loc main_arg0)) (ix4 b (⟨128 * i8.val + p.val, by have := i8.isLt; have := p.isLt; omega⟩ : Fin 1024) s (0 : Fin 3))
def dTerm_19 (c : Dev nD) (i8 b : Fin 8) (p : Fin 128) : Fin 1024 → EReal := fun s => (Read.val_main_v58 (F := Ideal) (m ((c.tc : Thread nD τ).loc main_arg0)) (m ((c.tc : Thread nD τ).loc main_arg1)) (ix3 b (⟨128 * i8.val + p.val, by have := i8.isLt; have := p.isLt; omega⟩ : Fin 1024) s) * Read.val_main_v84 (F := Ideal) (m ((c.tc : Thread nD τ).loc main_arg0)) (m ((c.tc : Thread nD τ).loc main_arg5)) (ix3 b (⟨128 * i8.val + p.val, by have := i8.isLt; have := p.isLt; omega⟩ : Fin 1024) s)) * Read.val_main_v14 (F := Ideal) (m ((c.tc : Thread nD τ).loc main_arg0)) (ix4 b (⟨128 * i8.val + p.val, by have := i8.isLt; have := p.isLt; omega⟩ : Fin 1024) s (0 : Fin 3))

theorem tile_19 (c : Dev nD) (i8 b : Fin 8) (p : Fin 128) (j : ℕ) (hj : j < 8) :
    Tt_19 m c (ptOf i8 j hj) b (ix1 p) = PairAlg.tileTerm (aTerm_19 m c i8 b p) (dTerm_19 m c i8 b p) j hj := by
  show FloatOps.addf (_ : Ideal .f32) _ = _
  rw [Tile.emxMono_apply, Tile.emxDip_apply]
  unfold PairAlg.tileTerm aTerm_19 dTerm_19
  refine congrArg₂ (fun x y : EReal => x + y) (congrArg (fun x : EReal => Ideal.ofBits .f32 0x00000000#32 + x) (Finset.sum_congr rfl fun q _ => ?_))
    (congrArg (fun x : EReal => Ideal.ofBits .f32 0x00000000#32 + x) (Finset.sum_congr rfl fun q _ => ?_))
  all_goals
    simp only [Tile.pwi, Tile.pwi2, Tile.pwi3, Tile.pdot, Tile.pux, Tile.puy, Tile.puz, Tile.pdist, ent_0 m c i8 j hj b, ent_1 m c i8 j hj b, ent_2 m c i8 j hj b, ent_3 m c i8 j hj b, ent_4 m c i8 j hj b, ent_5 m c i8 j hj b, ent_6 m c i8 j hj b, ent_7 m c i8 j hj b]
    rw [Bridge.dist_eq]
    simp only [Bridge.u_eq, Bridge.wi_eq, Bridge.wi2_eq, Bridge.wi3_eq, Bridge.dotm_eq]

theorem acc_19 (c : Dev nD) (i8 b : Fin 8) (p : Fin 128) :
    accRow_19 m c i8 b p 8 = (Ideal.ofBits .f32 0x00000000#32 + ∑ s : Fin 1024, aTerm_19 m c i8 b p s)
      + (Ideal.ofBits .f32 0x00000000#32 + ∑ s : Fin 1024, dTerm_19 m c i8 b p s) :=
  PairAlg.regroup_of_steps (aTerm_19 m c i8 b p) (dTerm_19 m c i8 b p) (accRow_19 m c i8 b p) rfl
    (fun j hj => (accRow_19_step m c i8 b p j hj).trans (congrArg (fun z : EReal => accRow_19 m c i8 b p j + z) (tile_19 m c i8 b p j hj)))

/-- The reference's monopole and dipole pair terms of accumulator 7, for batch b and target row 128 i + p. -/
def aTerm_20 (c : Dev nD) (i8 b : Fin 8) (p : Fin 128) : Fin 1024 → EReal := fun s => (Read.val_main_v57 (F := Ideal) (m ((c.tc : Thread nD τ).loc main_arg0)) (m ((c.tc : Thread nD τ).loc main_arg1)) (ix3 b (⟨128 * i8.val + p.val, by have := i8.isLt; have := p.isLt; omega⟩ : Fin 1024) s) * (m ((c.tc : Thread nD τ).loc main_arg3)) (ix2 b s)) * Read.val_main_v14 (F := Ideal) (m ((c.tc : Thread nD τ).loc main_arg0)) (ix4 b (⟨128 * i8.val + p.val, by have := i8.isLt; have := p.isLt; omega⟩ : Fin 1024) s (1 : Fin 3))
def dTerm_20 (c : Dev nD) (i8 b : Fin 8) (p : Fin 128) : Fin 1024 → EReal := fun s => (Read.val_main_v58 (F := Ideal) (m ((c.tc : Thread nD τ).loc main_arg0)) (m ((c.tc : Thread nD τ).loc main_arg1)) (ix3 b (⟨128 * i8.val + p.val, by have := i8.isLt; have := p.isLt; omega⟩ : Fin 1024) s) * Read.val_main_v84 (F := Ideal) (m ((c.tc : Thread nD τ).loc main_arg0)) (m ((c.tc : Thread nD τ).loc main_arg5)) (ix3 b (⟨128 * i8.val + p.val, by have := i8.isLt; have := p.isLt; omega⟩ : Fin 1024) s)) * Read.val_main_v14 (F := Ideal) (m ((c.tc : Thread nD τ).loc main_arg0)) (ix4 b (⟨128 * i8.val + p.val, by have := i8.isLt; have := p.isLt; omega⟩ : Fin 1024) s (1 : Fin 3))

theorem tile_20 (c : Dev nD) (i8 b : Fin 8) (p : Fin 128) (j : ℕ) (hj : j < 8) :
    Tt_20 m c (ptOf i8 j hj) b (ix1 p) = PairAlg.tileTerm (aTerm_20 m c i8 b p) (dTerm_20 m c i8 b p) j hj := by
  show FloatOps.addf (_ : Ideal .f32) _ = _
  rw [Tile.emyMono_apply, Tile.emyDip_apply]
  unfold PairAlg.tileTerm aTerm_20 dTerm_20
  refine congrArg₂ (fun x y : EReal => x + y) (congrArg (fun x : EReal => Ideal.ofBits .f32 0x00000000#32 + x) (Finset.sum_congr rfl fun q _ => ?_))
    (congrArg (fun x : EReal => Ideal.ofBits .f32 0x00000000#32 + x) (Finset.sum_congr rfl fun q _ => ?_))
  all_goals
    simp only [Tile.pwi, Tile.pwi2, Tile.pwi3, Tile.pdot, Tile.pux, Tile.puy, Tile.puz, Tile.pdist, ent_0 m c i8 j hj b, ent_1 m c i8 j hj b, ent_2 m c i8 j hj b, ent_3 m c i8 j hj b, ent_4 m c i8 j hj b, ent_5 m c i8 j hj b, ent_6 m c i8 j hj b, ent_7 m c i8 j hj b]
    rw [Bridge.dist_eq]
    simp only [Bridge.u_eq, Bridge.wi_eq, Bridge.wi2_eq, Bridge.wi3_eq, Bridge.dotm_eq]

theorem acc_20 (c : Dev nD) (i8 b : Fin 8) (p : Fin 128) :
    accRow_20 m c i8 b p 8 = (Ideal.ofBits .f32 0x00000000#32 + ∑ s : Fin 1024, aTerm_20 m c i8 b p s)
      + (Ideal.ofBits .f32 0x00000000#32 + ∑ s : Fin 1024, dTerm_20 m c i8 b p s) :=
  PairAlg.regroup_of_steps (aTerm_20 m c i8 b p) (dTerm_20 m c i8 b p) (accRow_20 m c i8 b p) rfl
    (fun j hj => (accRow_20_step m c i8 b p j hj).trans (congrArg (fun z : EReal => accRow_20 m c i8 b p j + z) (tile_20 m c i8 b p j hj)))

/-- The reference's monopole and dipole pair terms of accumulator 8, for batch b and target row 128 i + p. -/
def aTerm_21 (c : Dev nD) (i8 b : Fin 8) (p : Fin 128) : Fin 1024 → EReal := fun s => (Read.val_main_v57 (F := Ideal) (m ((c.tc : Thread nD τ).loc main_arg0)) (m ((c.tc : Thread nD τ).loc main_arg1)) (ix3 b (⟨128 * i8.val + p.val, by have := i8.isLt; have := p.isLt; omega⟩ : Fin 1024) s) * (m ((c.tc : Thread nD τ).loc main_arg3)) (ix2 b s)) * Read.val_main_v14 (F := Ideal) (m ((c.tc : Thread nD τ).loc main_arg0)) (ix4 b (⟨128 * i8.val + p.val, by have := i8.isLt; have := p.isLt; omega⟩ : Fin 1024) s (2 : Fin 3))
def dTerm_21 (c : Dev nD) (i8 b : Fin 8) (p : Fin 128) : Fin 1024 → EReal := fun s => (Read.val_main_v58 (F := Ideal) (m ((c.tc : Thread nD τ).loc main_arg0)) (m ((c.tc : Thread nD τ).loc main_arg1)) (ix3 b (⟨128 * i8.val + p.val, by have := i8.isLt; have := p.isLt; omega⟩ : Fin 1024) s) * Read.val_main_v84 (F := Ideal) (m ((c.tc : Thread nD τ).loc main_arg0)) (m ((c.tc : Thread nD τ).loc main_arg5)) (ix3 b (⟨128 * i8.val + p.val, by have := i8.isLt; have := p.isLt; omega⟩ : Fin 1024) s)) * Read.val_main_v14 (F := Ideal) (m ((c.tc : Thread nD τ).loc main_arg0)) (ix4 b (⟨128 * i8.val + p.val, by have := i8.isLt; have := p.isLt; omega⟩ : Fin 1024) s (2 : Fin 3))

theorem tile_21 (c : Dev nD) (i8 b : Fin 8) (p : Fin 128) (j : ℕ) (hj : j < 8) :
    Tt_21 m c (ptOf i8 j hj) b (ix1 p) = PairAlg.tileTerm (aTerm_21 m c i8 b p) (dTerm_21 m c i8 b p) j hj := by
  show FloatOps.addf (_ : Ideal .f32) _ = _
  rw [Tile.emzMono_apply, Tile.emzDip_apply]
  unfold PairAlg.tileTerm aTerm_21 dTerm_21
  refine congrArg₂ (fun x y : EReal => x + y) (congrArg (fun x : EReal => Ideal.ofBits .f32 0x00000000#32 + x) (Finset.sum_congr rfl fun q _ => ?_))
    (congrArg (fun x : EReal => Ideal.ofBits .f32 0x00000000#32 + x) (Finset.sum_congr rfl fun q _ => ?_))
  all_goals
    simp only [Tile.pwi, Tile.pwi2, Tile.pwi3, Tile.pdot, Tile.pux, Tile.puy, Tile.puz, Tile.pdist, ent_0 m c i8 j hj b, ent_1 m c i8 j hj b, ent_2 m c i8 j hj b, ent_3 m c i8 j hj b, ent_4 m c i8 j hj b, ent_5 m c i8 j hj b, ent_6 m c i8 j hj b, ent_7 m c i8 j hj b]
    rw [Bridge.dist_eq]
    simp only [Bridge.u_eq, Bridge.wi_eq, Bridge.wi2_eq, Bridge.wi3_eq, Bridge.dotm_eq]

theorem acc_21 (c : Dev nD) (i8 b : Fin 8) (p : Fin 128) :
    accRow_21 m c i8 b p 8 = (Ideal.ofBits .f32 0x00000000#32 + ∑ s : Fin 1024, aTerm_21 m c i8 b p s)
      + (Ideal.ofBits .f32 0x00000000#32 + ∑ s : Fin 1024, dTerm_21 m c i8 b p s) :=
  PairAlg.regroup_of_steps (aTerm_21 m c i8 b p) (dTerm_21 m c i8 b p) (accRow_21 m c i8 b p) rfl
    (fun j hj => (accRow_21_step m c i8 b p j hj).trans (congrArg (fun z : EReal => accRow_21 m c i8 b p j + z) (tile_21 m c i8 b p j hj)))

/-- Output 1 of the kernel is the reference's, entry by entry. -/
theorem kernel_pt_8 (c : Dev nD) (b : Fin 8) (r : Fin 1024) :
    (dats m 0 c).arrAt 8 cfg0.N (ix2 b r) = Read.val_main_v99 (F := Ideal) (m ((c.tc : Thread nD τ).loc main_arg0)) (m ((c.tc : Thread nD τ).loc main_arg1)) (m ((c.tc : Thread nD τ).loc main_arg2)) (m ((c.tc : Thread nD τ).loc main_arg4)) (ix2 b r) := by
  obtain ⟨i8, p, rfl⟩ : ∃ (i8 : Fin 8) (p : Fin 128), r = (⟨128 * i8.val + p.val, by have := i8.isLt; have := p.isLt; omega⟩ : Fin 1024) :=
    ⟨⟨r.val / 128, by have := r.isLt; omega⟩, ⟨r.val % 128, Nat.mod_lt _ (by decide)⟩, Fin.ext (by show r.val = 128 * (r.val / 128) + r.val % 128; omega)⟩
  exact (kernel_final_8 m c b i8 p).trans ((acc_14 m c i8 b p).trans (At.v99_at (m ((c.tc : Thread nD τ).loc main_arg0)) (m ((c.tc : Thread nD τ).loc main_arg1)) (m ((c.tc : Thread nD τ).loc main_arg2)) (m ((c.tc : Thread nD τ).loc main_arg4)) b _).symm)

/-- Output 2 of the kernel is the reference's, entry by entry. -/
theorem kernel_pt_9 (c : Dev nD) (b : Fin 8) (r : Fin 1024) :
    (dats m 0 c).arrAt 9 cfg0.N (ix2 b r) = Read.val_main_v100 (F := Ideal) (m ((c.tc : Thread nD τ).loc main_arg0)) (m ((c.tc : Thread nD τ).loc main_arg1)) (m ((c.tc : Thread nD τ).loc main_arg3)) (m ((c.tc : Thread nD τ).loc main_arg5)) (ix2 b r) := by
  obtain ⟨i8, p, rfl⟩ : ∃ (i8 : Fin 8) (p : Fin 128), r = (⟨128 * i8.val + p.val, by have := i8.isLt; have := p.isLt; omega⟩ : Fin 1024) :=
    ⟨⟨r.val / 128, by have := r.isLt; omega⟩, ⟨r.val % 128, Nat.mod_lt _ (by decide)⟩, Fin.ext (by show r.val = 128 * (r.val / 128) + r.val % 128; omega)⟩
  exact (kernel_final_9 m c b i8 p).trans ((acc_15 m c i8 b p).trans (At.v100_at (m ((c.tc : Thread nD τ).loc main_arg0)) (m ((c.tc : Thread nD τ).loc main_arg1)) (m ((c.tc : Thread nD τ).loc main_arg3)) (m ((c.tc : Thread nD τ).loc main_arg5)) b _).symm)

/-- Output 3 of the kernel is the reference's, entry by entry. -/
theorem kernel_pt_10 (c : Dev nD) (b : Fin 8) (r : Fin 1024) (cc : Fin 3) :
    (dats m 0 c).arrAt 10 cfg0.N (ix3 b r cc) = Read.val_main_v101 (F := Ideal) (m ((c.tc : Thread nD τ).loc main_arg0)) (m ((c.tc : Thread nD τ).loc main_arg1)) (m ((c.tc : Thread nD τ).loc main_arg2)) (m ((c.tc : Thread nD τ).loc main_arg4)) (ix3 b r cc) := by
  obtain ⟨i8, p, rfl⟩ : ∃ (i8 : Fin 8) (p : Fin 128), r = (⟨128 * i8.val + p.val, by have := i8.isLt; have := p.isLt; omega⟩ : Fin 1024) :=
    ⟨⟨r.val / 128, by have := r.isLt; omega⟩, ⟨r.val % 128, Nat.mod_lt _ (by decide)⟩, Fin.ext (by show r.val = 128 * (r.val / 128) + r.val % 128; omega)⟩
  match cc with
  | ⟨0, _⟩ => exact (kernel_final_10_0 m c b i8 p).trans ((acc_16 m c i8 b p).trans (At.v101_at (m ((c.tc : Thread nD τ).loc main_arg0)) (m ((c.tc : Thread nD τ).loc main_arg1)) (m ((c.tc : Thread nD τ).loc main_arg2)) (m ((c.tc : Thread nD τ).loc main_arg4)) b _ (0 : Fin 3)).symm)
  | ⟨1, _⟩ => exact (kernel_final_10_1 m c b i8 p).trans ((acc_17 m c i8 b p).trans (At.v101_at (m ((c.tc : Thread nD τ).loc main_arg0)) (m ((c.tc : Thread nD τ).loc main_arg1)) (m ((c.tc : Thread nD τ).loc main_arg2)) (m ((c.tc : Thread nD τ).loc main_arg4)) b _ (1 : Fin 3)).symm)
  | ⟨2, _⟩ => exact (kernel_final_10_2 m c b i8 p).trans ((acc_18 m c i8 b p).trans (At.v101_at (m ((c.tc : Thread nD τ).loc main_arg0)) (m ((c.tc : Thread nD τ).loc main_arg1)) (m ((c.tc : Thread nD τ).loc main_arg2)) (m ((c.tc : Thread nD τ).loc main_arg4)) b _ (2 : Fin 3)).symm)

/-- Output 4 of the kernel is the reference's, entry by entry. -/
theorem kernel_pt_11 (c : Dev nD) (b : Fin 8) (r : Fin 1024) (cc : Fin 3) :
    (dats m 0 c).arrAt 11 cfg0.N (ix3 b r cc) = Read.val_main_v102 (F := Ideal) (m ((c.tc : Thread nD τ).loc main_arg0)) (m ((c.tc : Thread nD τ).loc main_arg1)) (m ((c.tc : Thread nD τ).loc main_arg3)) (m ((c.tc : Thread nD τ).loc main_arg5)) (ix3 b r cc) := by
  obtain ⟨i8, p, rfl⟩ : ∃ (i8 : Fin 8) (p : Fin 128), r = (⟨128 * i8.val + p.val, by have := i8.isLt; have := p.isLt; omega⟩ : Fin 1024) :=
    ⟨⟨r.val / 128, by have := r.isLt; omega⟩, ⟨r.val % 128, Nat.mod_lt _ (by decide)⟩, Fin.ext (by show r.val = 128 * (r.val / 128) + r.val % 128; omega)⟩
  match cc with
  | ⟨0, _⟩ => exact (kernel_final_11_0 m c b i8 p).trans ((acc_19 m c i8 b p).trans (At.v102_at (m ((c.tc : Thread nD τ).loc main_arg0)) (m ((c.tc : Thread nD τ).loc main_arg1)) (m ((c.tc : Thread nD τ).loc main_arg3)) (m ((c.tc : Thread nD τ).loc main_arg5)) b _ (0 : Fin 3)).symm)
  | ⟨1, _⟩ => exact (kernel_final_11_1 m c b i8 p).trans ((acc_20 m c i8 b p).trans (At.v102_at (m ((c.tc : Thread nD τ).loc main_arg0)) (m ((c.tc : Thread nD τ).loc main_arg1)) (m ((c.tc : Thread nD τ).loc main_arg3)) (m ((c.tc : Thread nD τ).loc main_arg5)) b _ (1 : Fin 3)).symm)
  | ⟨2, _⟩ => exact (kernel_final_11_2 m c b i8 p).trans ((acc_21 m c i8 b p).trans (At.v102_at (m ((c.tc : Thread nD τ).loc main_arg0)) (m ((c.tc : Thread nD τ).loc main_arg1)) (m ((c.tc : Thread nD τ).loc main_arg3)) (m ((c.tc : Thread nD τ).loc main_arg5)) b _ (2 : Fin 3)).symm)

end Cert.KernelIdeal.Hand

end
-- ==== Proof.AlgebraicIdeal.lean ====
/-
  The two idealized programs end with equal results.  The kernel's run leaves each result array at what its
  write-backs made of it, which entry by entry is the reference's value function of the kernel's arguments; the
  reference's run leaves each result at the same function of its own arguments, which agree with the kernel's.
-/
import proofs.«146129_j80805514707451_2_alg».proof.Defs
import proofs.«146129_j80805514707451_2_alg».proof.Proof.ValueIdeal
import proofs.«146129_j80805514707451_2_alg».proof.Proof.MainIdeal
import proofs.«146129_j80805514707451_2_alg».proof.Proof.FrameIdeal
import proofs.«146129_j80805514707451_2_alg».proof.Proof.Gen.KernelIdeal
import proofs.«146129_j80805514707451_2_alg».proof.Proof.Gen.ReferenceIdeal
import proofs.«146129_j80805514707451_2_alg».proof.Proof.Gen.Pre_finite_inputs
import proofs.«146129_j80805514707451_2_alg».proof.Proof.Gen.ReferenceIdeal.Run
import proofs.«146129_j80805514707451_2_alg».proof.Proof.Gen.ReferenceIdeal.Read

set_option maxRecDepth 65536
set_option maxHeartbeats 4000000

noncomputable section

namespace Cert.Proof

open Idealize.ShloMosaic Idealize.ShloMosaic.TcCoe Idealize.ShloMosaic.ValueIdx Idealize.SL.Sem
open Idealize.ShloMosaic.Pipeline (Dat)

theorem algebraic : Cert.algebraic_KernelIdeal_ReferenceIdeal := by
  intro m g m' g' _ hagree
  refine ⟨fun c => Cert.ReferenceIdeal.Read.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)), fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)), fun c => Cert.ReferenceIdeal.Read.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)), fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)), ?_, ?_⟩
  · exact (θ_run Cert.KernelIdeal.defs _ _).mono (fun r h c =>
      ⟨((h c).1 8).trans (funext fun (y : Cert.KernelIdeal.S8x1024.Idx) => (congrArg _ (eq_ix2 y)).trans ((Cert.KernelIdeal.Hand.kernel_pt_8 m c (y 0) (y 1)).trans (congrArg _ (eq_ix2 y).symm))),
       ((h c).1 9).trans (funext fun (y : Cert.KernelIdeal.S8x1024.Idx) => (congrArg _ (eq_ix2 y)).trans ((Cert.KernelIdeal.Hand.kernel_pt_9 m c (y 0) (y 1)).trans (congrArg _ (eq_ix2 y).symm))),
       ((h c).1 10).trans (funext fun (y : Cert.KernelIdeal.S8x1024x3.Idx) => (congrArg _ (eq_ix3 y)).trans ((Cert.KernelIdeal.Hand.kernel_pt_10 m c (y 0) (y 1) (y 2)).trans (congrArg _ (eq_ix3 y).symm))),
       ((h c).1 11).trans (funext fun (y : Cert.KernelIdeal.S8x1024x3.Idx) => (congrArg _ (eq_ix3 y)).trans ((Cert.KernelIdeal.Hand.kernel_pt_11 m c (y 0) (y 1) (y 2)).trans (congrArg _ (eq_ix3 y).symm))),
       ((h c).1 0).trans (((Cert.KernelIdeal.Hand.dats m 0 c).arrAt_in 0 rfl _).trans ((Cert.KernelIdeal.Hand.A_eq m c 0).trans (Cert.KernelIdeal.Hand.V_arg0 m c))),
       ((h c).2 Cert.KernelIdeal.main_arg1 (by decide)).trans (Cert.KernelIdeal.Hand.V_arg1 m c),
       ((h c).1 4).trans (((Cert.KernelIdeal.Hand.dats m 0 c).arrAt_in 4 rfl _).trans ((Cert.KernelIdeal.Hand.A_eq m c 4).trans (Cert.KernelIdeal.Hand.V_arg2 m c))),
       ((h c).1 5).trans (((Cert.KernelIdeal.Hand.dats m 0 c).arrAt_in 5 rfl _).trans ((Cert.KernelIdeal.Hand.A_eq m c 5).trans (Cert.KernelIdeal.Hand.V_arg3 m c))),
       ((h c).1 6).trans (((Cert.KernelIdeal.Hand.dats m 0 c).arrAt_in 6 rfl _).trans ((Cert.KernelIdeal.Hand.A_eq m c 6).trans (Cert.KernelIdeal.Hand.V_arg4 m c))),
       ((h c).1 7).trans (((Cert.KernelIdeal.Hand.dats m 0 c).arrAt_in 7 rfl _).trans ((Cert.KernelIdeal.Hand.A_eq m c 7).trans (Cert.KernelIdeal.Hand.V_arg5 m c)))⟩)
      (Cert.KernelIdeal.Hand.run_main m g)
  · refine (θ_run Cert.ReferenceIdeal.defs _ _).mono (fun _ h c => ⟨(h c).1.trans ?_, (h c).2.1.trans ?_, (h c).2.2.1.trans ?_, (h c).2.2.2.1.trans ?_, (h c).2.2.2.2⟩)
      (Cert.ReferenceIdeal.Value.run (F := Ideal) m' g')
    · rw [Cert.ReferenceIdeal.Read.val_main_v99_eq, (hagree c).1, (hagree c).2.1, (hagree c).2.2.1, (hagree c).2.2.2.2.1]
    · rw [Cert.ReferenceIdeal.Read.val_main_v100_eq, (hagree c).1, (hagree c).2.1, (hagree c).2.2.2.1, (hagree c).2.2.2.2.2]
    · rw [Cert.ReferenceIdeal.Read.val_main_v101_eq, (hagree c).1, (hagree c).2.1, (hagree c).2.2.1, (hagree c).2.2.2.2.1]
    · rw [Cert.ReferenceIdeal.Read.val_main_v102_eq, (hagree c).1, (hagree c).2.1, (hagree c).2.2.2.1, (hagree c).2.2.2.2.2]

end Cert.Proof

end
-- ==== Proof.lean ====
/-
  Equivalence of a pairwise multipole field kernel with its dense reference, on the extended reals.

  Both programs take positions (8 batches of 1024 points in space), a mask, two scalar fields q and m and two
  vector fields mu_q and mu_m, and return for every point r of every batch four fields summed over all points s:
  the potentials  sum_s w(r,s) q_s / rho  +  sum_s w(r,s) (mu_q,s . u) / rho^2  (and the same for m, mu_m)  and the
  vector fields  sum_s w(r,s) q_s u / rho^2  +  sum_s w(r,s) (mu_q,s . u) u / rho^3,  where d is the distance from r to
  s floored at 1e-8, u the unit vector (r - s)/d, rho = sqrt(d^2 + 0.0225), and the weight w is the product of a cosine
  cutoff at distance 5, the masks of r and s, the indicators d > 1e-8 and d <= 5, and a gaussian exp(-(d/0.6)^2 / 2).

  The kernel tiles the (r, s) table into 8 x 8 tiles of 128 x 128 and keeps eight accumulators per row tile, cleared
  in the first column of the grid, added to by a loop over the 8 batches at every grid point, and copied to the
  outputs in the last column.  The reference forms the whole 8 x 1024 x 1024 (x 3) tables and reduces them.

  The frames.  Each program runs to the end, faults nowhere and leaves its arguments unchanged: for the two kernel
  programs through the loop invariant (before trip k each accumulator holds its contents at loop entry overwritten
  by the rows the earlier trips stored), the three control cases of the body, the proof data carried from grid
  point to grid point (the accumulators at what the point before left) and the launch with the position array and
  the converted mask array each shared between two windows; for the reference through its run.  The idealization
  changes nothing (no rewrite was applied).

  The values.  Fix a batch b and a target r = 128 i + p.  Trip b of the loop at grid point (i, j) adds to row b,
  lane p of an accumulator the sum over the tile's 128 sources q of a monopole pair term plus the sum of a dipole
  pair term; column 0 starts from zero; so after the eighth column the accumulator holds
      sum over j < 8 of ( sum_{q<128} a(b, r, 128 j + q)  +  sum_{q<128} d(b, r, 128 j + q) ),
  and the last column copies it to the result's entry (b, r); the eight write-backs of a result tile its array.  The
  reference's entry is  sum_{s<1024} a'(b, r, s) + sum_{s<1024} d'(b, r, s).  Addition on the extended reals is
  commutative and associative, so the regrouping needs no finiteness.  The pair terms agree one by one: the kernel's
  difference times (1 / floored distance) is the reference's difference divided by it (the floor is positive, so the
  divisor is not zero); a product of four numbers each 0 or 1 is the 0/1 value of the conjunction of the four
  conditions; (t0 + t1) + t2 = 0 + (t0 + t1 + t2) for the squared distance and the dipole products; everything else
  is the same operation on equal operands.
-/
import proofs.«146129_j80805514707451_2_alg».proof.Defs
import proofs.«146129_j80805514707451_2_alg».proof.Proof.Gen.Kernel
import proofs.«146129_j80805514707451_2_alg».proof.Proof.Gen.KernelIdeal
import proofs.«146129_j80805514707451_2_alg».proof.Proof.Gen.ReferenceIdeal
import proofs.«146129_j80805514707451_2_alg».proof.Proof.Gen.Pre_finite_inputs
import proofs.«146129_j80805514707451_2_alg».proof.Proof.Gen.ReferenceIdeal.Run
import proofs.«146129_j80805514707451_2_alg».proof.Proof.Gen.ReferenceIdeal.Read
import proofs.«146129_j80805514707451_2_alg».proof.Proof.FrameIdeal
import proofs.«146129_j80805514707451_2_alg».proof.Proof.FrameBits
import proofs.«146129_j80805514707451_2_alg».proof.Proof.AlgebraicIdeal
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
